-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S2048x128 : Shape := ⟨2, ![2048, 128]⟩
abbrev S128 : Shape := ⟨1, ![128]⟩
abbrev S128x128 : Shape := ⟨2, ![128, 128]⟩
abbrev S512x128 : Shape := ⟨2, ![512, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_

variable [Facts]

def fn_part6 {F : FTy → Type} [FloatOps F] (main_arg21 : FVec F S128 .f32) (main_arg22 : FVec F S128x128 .f32) (main_arg23 : FVec F S128x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg22
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128x128 .f32 := Host.absf main_arg23
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  main_v118

def fn_part5 {F : FTy → Type} [FloatOps F] (main_arg18 : FVec F S512x128 .f32) (main_arg19 : FVec F S128 .f32) (main_arg20 : FVec F S128x128 .f32) (main_arg21 : FVec F S128 .f32) (main_arg22 : FVec F S128x128 .f32) (main_arg23 : FVec F S128x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S512x128 .f32 := Host.absf main_arg18
  let main_cst_34 : FVec F S_ .f32 := constant S_ .f32 0x7F800000#32
  let main_v90 : FVec F S512x128 .f32 := broadcastInDim S512x128 ![] bcast_S_S512x128 main_cst_34
  let main_v91 : IVec S512x128 1 := cmpf .olt main_v89 main_v90
  let main_c_35 : IVec S_ 1 := constantI S_ 1 1#1
  let main_v92 : IVec S_ 1 := (fun x v => Host.reduce IntOp.andi x v reducesTo_S512x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S2048x128 .f32) (main_arg15 : FVec F S128 .f32) (main_arg16 : FVec F S128x128 .f32) (main_arg17 : FVec F S128 .f32) (main_arg18 : FVec F S512x128 .f32) (main_arg19 : FVec F S128 .f32) (main_arg20 : FVec F S128x128 .f32) (main_arg21 : FVec F S128 .f32) (main_arg22 : FVec F S128x128 .f32) (main_arg23 : FVec F S128x128 .f32) (main_v63 : IVec S_ 1) (main_v67 : IVec S_ 1) : IVec S_ 1 :=
  let main_v68 : IVec S_ 1 := andi main_v63 main_v67
  let main_v69 : FVec F S2048x128 .f32 := Host.absf main_arg14
  let main_cst_26 : FVec F S_ .f32 := constant S_ .f32 0x7F800000#32
  let main_v70 : FVec F S2048x128 .f32 := broadcastInDim S2048x128 ![] bcast_S_S2048x128 main_cst_26
  let main_v71 : IVec S2048x128 1 := cmpf .olt main_v69 main_v70
  let main_c_27 : IVec S_ 1 := constantI S_ 1 1#1
  let main_v72 : IVec S_ 1 := (fun x v => Host.reduce IntOp.andi x v reducesTo_S2048x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S128 .f32) (main_arg12 : FVec F S128x128 .f32) (main_arg13 : FVec F S128 .f32) (main_arg14 : FVec F S2048x128 .f32) (main_arg15 : FVec F S128 .f32) (main_arg16 : FVec F S128x128 .f32) (main_arg17 : FVec F S128 .f32) (main_arg18 : FVec F S512x128 .f32) (main_arg19 : FVec F S128 .f32) (main_arg20 : FVec F S128x128 .f32) (main_arg21 : FVec F S128 .f32) (main_arg22 : FVec F S128x128 .f32) (main_arg23 : FVec F S128x128 .f32) (main_v48 : IVec S_ 1) (main_v49 : FVec F S2048x128 .f32) (main_v50 : FVec F S2048x128 .f32) : IVec S_ 1 :=
  let main_v51 : IVec S2048x128 1 := cmpf .olt main_v49 main_v50
  let main_c_19 : IVec S_ 1 := constantI S_ 1 1#1
  let main_v52 : IVec S_ 1 := (fun x v => Host.reduce IntOp.andi x v reducesTo_S2048x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S128 .f32) (main_arg8 : FVec F S128x128 .f32) (main_arg9 : FVec F S128 .f32) (main_arg10 : FVec F S2048x128 .f32) (main_arg11 : FVec F S128 .f32) (main_arg12 : FVec F S128x128 .f32) (main_arg13 : FVec F S128 .f32) (main_arg14 : FVec F S2048x128 .f32) (main_arg15 : FVec F S128 .f32) (main_arg16 : FVec F S128x128 .f32) (main_arg17 : FVec F S128 .f32) (main_arg18 : FVec F S512x128 .f32) (main_arg19 : FVec F S128 .f32) (main_arg20 : FVec F S128x128 .f32) (main_arg21 : FVec F S128 .f32) (main_arg22 : FVec F S128x128 .f32) (main_arg23 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2048x128 .f32 := Host.absf main_arg10
  let main_cst_18 : FVec F S_ .f32 := constant S_ .f32 0x7F800000#32
  let main_v50 : FVec F S2048x128 .f32 := broadcastInDim S2048x128 ![] bcast_S_S2048x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S128x128 .f32) (main_arg5 : FVec F S128 .f32) (main_arg6 : FVec F S2048x128 .f32) (main_arg7 : FVec F S128 .f32) (main_arg8 : FVec F S128x128 .f32) (main_arg9 : FVec F S128 .f32) (main_arg10 : FVec F S2048x128 .f32) (main_arg11 : FVec F S128 .f32) (main_arg12 : FVec F S128x128 .f32) (main_arg13 : FVec F S128 .f32) (main_arg14 : FVec F S2048x128 .f32) (main_arg15 : FVec F S128 .f32) (main_arg16 : FVec F S128x128 .f32) (main_arg17 : FVec F S128 .f32) (main_arg18 : FVec F S512x128 .f32) (main_arg19 : FVec F S128 .f32) (main_arg20 : FVec F S128x128 .f32) (main_arg21 : FVec F S128 .f32) (main_arg22 : FVec F S128x128 .f32) (main_arg23 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2048x128 .f32 := Host.absf main_arg6
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S64x32x128 .f32) (main_arg1 : FVec F S64x32x128 .f32) (main_arg2 : FVec F S2048x128 .f32) (main_arg3 : FVec F S128 .f32) (main_arg4 : FVec F S128x128 .f32) (main_arg5 : FVec F S128 .f32) (main_arg6 : FVec F S2048x128 .f32) (main_arg7 : FVec F S128 .f32) (main_arg8 : FVec F S128x128 .f32) (main_arg9 : FVec F S128 .f32) (main_arg10 : FVec F S2048x128 .f32) (main_arg11 : FVec F S128 .f32) (main_arg12 : FVec F S128x128 .f32) (main_arg13 : FVec F S128 .f32) (main_arg14 : FVec F S2048x128 .f32) (main_arg15 : FVec F S128 .f32) (main_arg16 : FVec F S128x128 .f32) (main_arg17 : FVec F S128 .f32) (main_arg18 : FVec F S512x128 .f32) (main_arg19 : FVec F S128 .f32) (main_arg20 : FVec F S128x128 .f32) (main_arg21 : FVec F S128 .f32) (main_arg22 : FVec F S128x128 .f32) (main_arg23 : FVec F S128x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x32x128 .f32 := Host.absf main_arg1
  let main_cst_0 : FVec F S_ .f32 := constant S_ .f32 0x7F800000#32
  let main_v5 : FVec F S64x32x128 .f32 := broadcastInDim S64x32x128 ![] bcast_S_S64x32x128 main_cst_0
  let main_v6 : IVec S64x32x128 1 := cmpf .olt main_v4 main_v5
  let main_c_1 : IVec S_ 1 := constantI S_ 1 1#1
  let main_v7 : IVec S_ 1 := (fun x v => Host.reduce IntOp.andi x v reducesTo_S64x32x128_S_d0_1_2 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S64x32x128 : Shape := ⟨3, ![64, 32, 128]⟩
abbrev S2048x128 : Shape := ⟨2, ![2048, 128]⟩
abbrev S128 : Shape := ⟨1, ![128]⟩
abbrev S128x128 : Shape := ⟨2, ![128, 128]⟩
abbrev S512x128 : Shape := ⟨2, ![512, 128]⟩
abbrev S1x128 : Shape := ⟨2, ![1, 128]⟩
abbrev S128x2048 : Shape := ⟨2, ![128, 2048]⟩
abbrev S2048x512 : Shape := ⟨2, ![2048, 512]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S128x1 : Shape := ⟨2, ![128, 1]⟩
abbrev S1 : Shape := ⟨1, ![1]⟩
abbrev S1x1 : Shape := ⟨2, ![1, 1]⟩

abbrev nBuf : Space → Nat
  | .hbm => 42
  | .vmem => 36
  | .smem => 0
  | _ => 0

abbrev bufTy : (tb : Table) → Fin (tcTables nBuf tb) → BufTy
  | .hbm, ⟨0, _⟩ => ⟨S64x32x128, .f32⟩
  | .hbm, ⟨1, _⟩ => ⟨S64x32x128, .f32⟩
  | .hbm, ⟨2, _⟩ => ⟨S2048x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2048x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2048x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S2048x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S512x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128x128, .f32⟩
  | .hbm, ⟨24, _⟩ => ⟨S2048x128, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S2048x128, .f32⟩
  | .hbm, ⟨37, _⟩ => ⟨S1x128, .f32⟩
  | .hbm, ⟨38, _⟩ => ⟨S2048x128, .f32⟩
  | .hbm, ⟨39, _⟩ => ⟨S2048x128, .f32⟩
  | .hbm, ⟨40, _⟩ => ⟨S64x32x128, .f32⟩
  | .hbm, ⟨41, _⟩ => ⟨S64x32x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2048x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2048x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S512x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2048x128, .f32⟩
  | .local _ .vmem, ⟨23, _⟩ => ⟨S64x128, .f32⟩
  | .local _ .vmem, ⟨24, _⟩ => ⟨S64x128, .f32⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S2048x128, .f32⟩
  | .local _ .vmem, ⟨29, _⟩ => ⟨S1x128, .f32⟩
  | .local _ .vmem, ⟨30, _⟩ => ⟨S2048x128, .f32⟩
  | .local _ .vmem, ⟨31, _⟩ => ⟨S2048x128, .f32⟩
  | .local _ .vmem, ⟨32, _⟩ => ⟨S128x128, .f32⟩
  | .local _ .vmem, ⟨33, _⟩ => ⟨S128x128, .f32⟩
  | .local _ .vmem, ⟨34, _⟩ => ⟨S2048x128, .f32⟩
  | .local _ .vmem, ⟨35, _⟩ => ⟨S2048x128, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v15 : Ref sig .tc := ⟨.hbm, 40, rfl⟩
abbrev main_v16 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc1_sem0_0 : DmaSem sig := 23
abbrev cc1_sem0_1 : DmaSem sig := 24
abbrev cc1_sem1_0 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_12 : BitVec 32 := 0#32
  let v32 : BitVec 1 := Scalar.cmpi .ne v31 c0_i32_12
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S64x32x128_S2048x128 : S64x32x128.ShapeCasts S2048x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  broadcasts_S1x128_S128x128 : S1x128.Broadcasts S128x128
  concatenates_S2048x128_S2048x128_S2048x128_S2048x128_S2048x512_d1 : Shape.Concatenates [S2048x128, S2048x128, S2048x128, S2048x128] S2048x512 1
  inb_S512x128_S512x128_0_0 : ∀ a, (![0, 0] : Fin 2 → Nat) a + S512x128.size a ≤ S512x128.size a
  h_S512x128 : 0 < S512x128.numel
  broadcasts_S1x128_S2048x128 : S1x128.Broadcasts S2048x128
  reduces_S2048x128_S128 : S2048x128.Reduces [0] S128
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x128_S128 : S64x128.Reduces [0] S128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S128x128 : S64x128x128.Reduces [0] S128x128
  transposes_S1x128_p1_0_S128x1 : S1x128.Transposes [1, 0] S128x1
  broadcasts_S128x1_S128x128 : S128x1.Broadcasts S128x128
  transposes_S128x128_p1_0_S128x128 : S128x128.Transposes [1, 0] S128x128
  reduces_S128x128_S128 : S128x128.Reduces [0] S128
  reduces_S1x128_S1 : S1x128.Reduces [1] S1
  shapeCasts_S1_S1x1 : S1.ShapeCasts S1x1
  broadcasts_S1x1_S1x128 : S1x1.Broadcasts S1x128
  shapeCasts_S2048x128_S64x32x128 : S2048x128.ShapeCasts S64x32x128
  dot_S128x2048_S2048x128_S128x128_1_0_0_1_n_n_wf : DotDims.WF S128x2048 S2048x128 S128x128 [1] [0] [0] [1] [] []
  dot_S128x128_S128x128_S128x128_1_0_0_1_n_n_wf : DotDims.WF S128x128 S128x128 S128x128 [1] [0] [0] [1] [] []
  dot_S2048x128_S128x128_S2048x128_1_0_0_1_n_n_wf : DotDims.WF S2048x128 S128x128 S2048x128 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x128.size a
  hwx0_6 : ∀ i : grid0.Coords, EltTy.bits .f32 = 32 ∨ (Rect.block (s := S2048x128) S2048x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S2048x128.size a
  hwx0_10 : ∀ i : grid0.Coords, EltTy.bits .f32 = 32 ∨ (Rect.block (s := S2048x128) S2048x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S2048x128.size a
  hwx0_14 : ∀ i : grid0.Coords, EltTy.bits .f32 = 32 ∨ (Rect.block (s := S2048x128) S2048x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S512x128.size a
  hwx0_18 : ∀ i : grid0.Coords, EltTy.bits .f32 = 32 ∨ (Rect.block (s := S512x128) S512x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S2048x128.size a ≤ S2048x128.size a
  hwx0_22 : ∀ i : grid0.Coords, EltTy.bits .f32 = 32 ∨ (Rect.block (s := S2048x128) S2048x128.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S2048x128.size a
  hwx1_0 : ∀ i : grid1.Coords, EltTy.bits .f32 = 32 ∨ (Rect.block (s := S2048x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S2048x128.size a
  hwx2_2 : ∀ i : grid2.Coords, EltTy.bits .f32 = 32 ∨ (Rect.block (s := S2048x128) S2048x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S2048x128.size a
  hwx2_3 : ∀ i : grid2.Coords, EltTy.bits .f32 = 32 ∨ (Rect.block (s := S2048x128) S2048x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S2048x128.size a
  hwx2_6 : ∀ i : grid2.Coords, EltTy.bits .f32 = 32 ∨ (Rect.block (s := S2048x128) S2048x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S2048x128.size a
  hwx2_7 : ∀ i : grid2.Coords, EltTy.bits .f32 = 32 ∨ (Rect.block (s := S2048x128) S2048x128.size (cc2_transform_7 i) (hinb2_7 i)).WholeWords (EltTy.packing .f32)

variable [Facts₀]

def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2048x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v11) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v12) S2048x128.size cc0_transform_22 reads0_22 true true 1 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_v12) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v12) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S2048x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2048x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14_0) S2048x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14_1) S2048x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S64x32x128 : Shape := ⟨3, ![64, 32, 128]⟩
abbrev S2048x128 : Shape := ⟨2, ![2048, 128]⟩
abbrev S128 : Shape := ⟨1, ![128]⟩
abbrev S128x128 : Shape := ⟨2, ![128, 128]⟩
abbrev S512x128 : Shape := ⟨2, ![512, 128]⟩
abbrev S128x2048 : Shape := ⟨2, ![128, 2048]⟩
abbrev S1x128 : Shape := ⟨2, ![1, 128]⟩
abbrev S_ : Shape := ⟨0, ![]⟩
abbrev S2048x512 : Shape := ⟨2, ![2048, 512]⟩
abbrev S2048x128x1 : Shape := ⟨3, ![2048, 128, 1]⟩
abbrev S2048x1x128 : Shape := ⟨3, ![2048, 1, 128]⟩
abbrev S2048x128x128 : Shape := ⟨3, ![2048, 128, 128]⟩
abbrev S1 : Shape := ⟨1, ![1]⟩

abbrev nBuf : Space → Nat
  | .hbm => 260
  | .vmem => 0
  | .smem => 0
  | _ => 0

abbrev hbmTy0_0 (i : Nat) : BufTy := match i % 128 with
  | 0 => ⟨S64x32x128, .f32⟩
  | 1 => ⟨S64x32x128, .f32⟩
  | 2 => ⟨S2048x128, .f32⟩
  | 3 => ⟨S128, .f32⟩
  | 4 => ⟨S128x128, .f32⟩
  | 5 => ⟨S128, .f32⟩
  | 6 => ⟨S2048x128, .f32⟩
  | 7 => ⟨S128, .f32⟩
  | 8 => ⟨S128x128, .f32⟩
  | 9 => ⟨S128, .f32⟩
  | 10 => ⟨S2048x128, .f32⟩
  | 11 => ⟨S128, .f32⟩
  | 12 => ⟨S128x128, .f32⟩
  | 13 => ⟨S128, .f32⟩
  | 14 => ⟨S2048x128, .f32⟩
  | 15 => ⟨S128, .f32⟩
  | 16 => ⟨S128x128, .f32⟩
  | 17 => ⟨S128, .f32⟩
  | 18 => ⟨S512x128, .f32⟩
  | 19 => ⟨S128, .f32⟩
  | 20 => ⟨S128x128, .f32⟩
  | 21 => ⟨S128, .f32⟩
  | 22 => ⟨S128x128, .f32⟩
  | 23 => ⟨S128x128, .f32⟩
  | 24 => ⟨S2048x128, .f32⟩
  | 25 => ⟨S2048x128, .f32⟩
  | 26 => ⟨S128x2048, .f32⟩
  | 27 => ⟨S128x128, .f32⟩
  | 28 => ⟨S1x128, .f32⟩
  | 29 => ⟨S128x128, .f32⟩
  | 30 => ⟨S128x128, .f32⟩
  | 31 => ⟨S_, .f32⟩
  | 32 => ⟨S128x128, .f32⟩
  | 33 => ⟨S128x128, .f32⟩
  | 34 => ⟨S128x128, .f32⟩
  | 35 => ⟨S1x128, .f32⟩
  | 36 => ⟨S128x128, .f32⟩
  | 37 => ⟨S128x128, .f32⟩
  | 38 => ⟨S2048x128, .f32⟩
  | 39 => ⟨S128x2048, .f32⟩
  | 40 => ⟨S128x128, .f32⟩
  | 41 => ⟨S1x128, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S128x128, .f32⟩
  | 48 => ⟨S1x128, .f32⟩
  | 49 => ⟨S128x128, .f32⟩
  | 50 => ⟨S128x128, .f32⟩
  | 51 => ⟨S2048x128, .f32⟩
  | 52 => ⟨S128x2048, .f32⟩
  | 53 => ⟨S128x128, .f32⟩
  | 54 => ⟨S1x128, .f32⟩
  | 55 => ⟨S128x128, .f32⟩
  | 56 => ⟨S128x128, .f32⟩
  | 57 => ⟨S_, .f32⟩
  | 58 => ⟨S128x128, .f32⟩
  | 59 => ⟨S128x128, .f32⟩
  | 60 => ⟨S128x128, .f32⟩
  | 61 => ⟨S1x128, .f32⟩
  | 62 => ⟨S128x128, .f32⟩
  | 63 => ⟨S128x128, .f32⟩
  | 64 => ⟨S2048x128, .f32⟩
  | 65 => ⟨S128x2048, .f32⟩
  | 66 => ⟨S128x128, .f32⟩
  | 67 => ⟨S1x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S128x128, .f32⟩
  | 74 => ⟨S1x128, .f32⟩
  | 75 => ⟨S128x128, .f32⟩
  | 76 => ⟨S128x128, .f32⟩
  | 77 => ⟨S2048x128, .f32⟩
  | 78 => ⟨S2048x512, .f32⟩
  | 79 => ⟨S2048x128, .f32⟩
  | 80 => ⟨S1x128, .f32⟩
  | 81 => ⟨S2048x128, .f32⟩
  | 82 => ⟨S2048x128, .f32⟩
  | 83 => ⟨S_, .f32⟩
  | 84 => ⟨S2048x128, .f32⟩
  | 85 => ⟨S2048x128, .f32⟩
  | 86 => ⟨S2048x128, .f32⟩
  | 87 => ⟨S1x128, .f32⟩
  | 88 => ⟨S2048x128, .f32⟩
  | 89 => ⟨S2048x128, .f32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S2048x128, .f32⟩
  | 97 => ⟨S2048x128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S2048x128, .f32⟩
  | 106 => ⟨S2048x128, .f32⟩
  | 107 => ⟨S2048x128, .f32⟩
  | 108 => ⟨S_, .f32⟩
  | 109 => ⟨S_, .f32⟩
  | 110 => ⟨S_, .f32⟩
  | 111 => ⟨S_, .f32⟩
  | 112 => ⟨S128, .f32⟩
  | 113 => ⟨S1x128, .f32⟩
  | 114 => ⟨S1x128, .f32⟩
  | 115 => ⟨S1x128, .f32⟩
  | 116 => ⟨S_, .f32⟩
  | 117 => ⟨S_, .i1⟩
  | 118 => ⟨S_, .f32⟩
  | 119 => ⟨S_, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S2048x128, .f32⟩
  | 127 => ⟨S2048x128, .f32⟩
  | _ => ⟨S64x32x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S2048x128, .f32⟩
  | 7 => ⟨S2048x128, .f32⟩
  | 8 => ⟨S2048x128, .f32⟩
  | 9 => ⟨S_, .f32⟩
  | 10 => ⟨S128, .f32⟩
  | 11 => ⟨S1x128, .f32⟩
  | 12 => ⟨S2048x128, .f32⟩
  | 13 => ⟨S2048x128, .f32⟩
  | 14 => ⟨S2048x128, .f32⟩
  | 15 => ⟨S2048x128x1, .f32⟩
  | 16 => ⟨S2048x1x128, .f32⟩
  | 17 => ⟨S2048x128x128, .f32⟩
  | 18 => ⟨S2048x128x128, .f32⟩
  | 19 => ⟨S2048x128x128, .f32⟩
  | 20 => ⟨S_, .f32⟩
  | 21 => ⟨S2048x128x128, .f32⟩
  | 22 => ⟨S2048x128x128, .f32⟩
  | 23 => ⟨S2048x128x1, .f32⟩
  | 24 => ⟨S2048x128x1, .f32⟩
  | 25 => ⟨S2048x128x128, .f32⟩
  | 26 => ⟨S2048x128x128, .f32⟩
  | 27 => ⟨S2048x128x128, .f32⟩
  | 28 => ⟨S2048x128x128, .f32⟩
  | 29 => ⟨S2048x128x128, .f32⟩
  | 30 => ⟨S_, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S_, .f32⟩
  | 38 => ⟨S128, .f32⟩
  | 39 => ⟨S_, .f32⟩
  | 40 => ⟨S128, .f32⟩
  | 41 => ⟨S128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S_, .i32⟩
  | 49 => ⟨S_, .f32⟩
  | 50 => ⟨S_, .f32⟩
  | 51 => ⟨S1, .f32⟩
  | 52 => ⟨S_, .f32⟩
  | 53 => ⟨S1, .f32⟩
  | 54 => ⟨S1, .f32⟩
  | 55 => ⟨S128, .f32⟩
  | 56 => ⟨S128, .f32⟩
  | 57 => ⟨S128, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S_, .f32⟩
  | 75 => ⟨S_, .f32⟩
  | 76 => ⟨S_, .f32⟩
  | 77 => ⟨S_, .f32⟩
  | 78 => ⟨S1, .f32⟩
  | 79 => ⟨S128, .f32⟩
  | 80 => ⟨S128, .f32⟩
  | 81 => ⟨S128, .f32⟩
  | 82 => ⟨S_, .f32⟩
  | 83 => ⟨S_, .f32⟩
  | 84 => ⟨S1, .f32⟩
  | 85 => ⟨S128, .f32⟩
  | 86 => ⟨S128, .f32⟩
  | 87 => ⟨S1x128, .f32⟩
  | 88 => ⟨S2048x128, .f32⟩
  | 89 => ⟨S2048x128, .f32⟩
  | 90 => ⟨S128x2048, .f32⟩
  | 91 => ⟨S2048x128, .f32⟩
  | 92 => ⟨S128x128, .f32⟩
  | 93 => ⟨S2048x128, .f32⟩
  | 94 => ⟨S_, .f32⟩
  | 95 => ⟨S2048x128, .f32⟩
  | 96 => ⟨S2048x128, .i1⟩
  | 97 => ⟨S_, .f32⟩
  | 98 => ⟨S2048x128, .f32⟩
  | 99 => ⟨S2048x128, .i1⟩
  | 100 => ⟨S_, .f32⟩
  | 101 => ⟨S_, .f32⟩
  | 102 => ⟨S2048x128, .f32⟩
  | 103 => ⟨S2048x128, .f32⟩
  | 104 => ⟨S2048x128, .f32⟩
  | 105 => ⟨S_, .f32⟩
  | 106 => ⟨S2048x128, .f32⟩
  | 107 => ⟨S2048x128, .f32⟩
  | 108 => ⟨S2048x128, .f32⟩
  | 109 => ⟨S2048x128, .f32⟩
  | 110 => ⟨S128x2048, .f32⟩
  | 111 => ⟨S2048x128, .f32⟩
  | 112 => ⟨S128x128, .f32⟩
  | 113 => ⟨S2048x128, .f32⟩
  | 114 => ⟨S_, .f32⟩
  | 115 => ⟨S2048x128, .f32⟩
  | 116 => ⟨S2048x128, .i1⟩
  | 117 => ⟨S_, .f32⟩
  | 118 => ⟨S2048x128, .f32⟩
  | 119 => ⟨S2048x128, .i1⟩
  | 120 => ⟨S_, .f32⟩
  | 121 => ⟨S_, .f32⟩
  | 122 => ⟨S2048x128, .f32⟩
  | 123 => ⟨S2048x128, .f32⟩
  | 124 => ⟨S2048x128, .f32⟩
  | 125 => ⟨S_, .f32⟩
  | 126 => ⟨S2048x128, .f32⟩
  | 127 => ⟨S2048x128, .f32⟩
  | _ => ⟨S64x32x128, .f32⟩

abbrev hbmTy0_2 (i : Nat) : BufTy := match i % 128 with
  | 0 => ⟨S2048x128, .f32⟩
  | 1 => ⟨S2048x128, .f32⟩
  | 2 => ⟨S64x32x128, .f32⟩
  | 3 => ⟨S64x32x128, .f32⟩
  | _ => ⟨S64x32x128, .f32⟩

abbrev hbmTy (i : Nat) : BufTy := match i / 128 with
  | 0 => hbmTy0_0 i
  | 1 => hbmTy0_1 i
  | 2 => hbmTy0_2 i
  | _ => ⟨S64x32x128, .f32⟩

abbrev bufTy : (tb : Table) → Fin (tcTables nBuf tb) → BufTy
  | .hbm, ⟨i, _⟩ => hbmTy i
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_2 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_3 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_4 : Ref sig .tc := ⟨.hbm, 90, rfl⟩
abbrev main_v61 : Ref sig .tc := ⟨.hbm, 91, rfl⟩
abbrev main_v62 : Ref sig .tc := ⟨.hbm, 92, rfl⟩
abbrev main_cst_5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c : Ref sig .tc := ⟨.hbm, 98, rfl⟩
abbrev main_call0_call0_cst : Ref sig .tc := ⟨.hbm, 99, rfl⟩
abbrev main_call0_call0_v0 : Ref sig .tc := ⟨.hbm, 100, rfl⟩
abbrev main_call0_call0_v1 : Ref sig .tc := ⟨.hbm, 101, rfl⟩
abbrev main_call0_call0_cst_0 : Ref sig .tc := ⟨.hbm, 102, rfl⟩
abbrev main_call0_call0_v2 : Ref sig .tc := ⟨.hbm, 103, rfl⟩
abbrev main_call0_call0_v3 : Ref sig .tc := ⟨.hbm, 104, rfl⟩
abbrev main_call0_call0_v4 : Ref sig .tc := ⟨.hbm, 105, rfl⟩
abbrev main_call0_call0_v5 : Ref sig .tc := ⟨.hbm, 106, rfl⟩
abbrev main_call0_call0_v6 : Ref sig .tc := ⟨.hbm, 107, rfl⟩
abbrev main_call0_call0_v7 : Ref sig .tc := ⟨.hbm, 108, rfl⟩
abbrev main_call0_call0_cst_1 : Ref sig .tc := ⟨.hbm, 109, rfl⟩
abbrev main_call0_call0_v8 : Ref sig .tc := ⟨.hbm, 110, rfl⟩
abbrev main_call0_call0_cst_2 : Ref sig .tc := ⟨.hbm, 111, rfl⟩
abbrev main_call0_call0_v9 : Ref sig .tc := ⟨.hbm, 112, rfl⟩
abbrev main_call0_call0_v10 : Ref sig .tc := ⟨.hbm, 113, rfl⟩
abbrev main_call0_call0_v11 : Ref sig .tc := ⟨.hbm, 114, rfl⟩
abbrev main_call0_call0_v12 : Ref sig .tc := ⟨.hbm, 115, rfl⟩
abbrev main_call0_call0_cst_3 : Ref sig .tc := ⟨.hbm, 116, rfl⟩
abbrev main_call0_call0_v13 : Ref sig .tc := ⟨.hbm, 117, rfl⟩
abbrev main_call0_call0_cst_4 : Ref sig .tc := ⟨.hbm, 118, rfl⟩
abbrev main_call0_call0_call0_v0 : Ref sig .tc := ⟨.hbm, 119, rfl⟩
abbrev main_call0_call0_call0_v1 : Ref sig .tc := ⟨.hbm, 120, rfl⟩
abbrev main_call0_v0 : Ref sig .tc := ⟨.hbm, 121, rfl⟩
abbrev main_v67 : Ref sig .tc := ⟨.hbm, 122, rfl⟩
abbrev main_cst_6 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_7 : Ref sig .tc := ⟨.hbm, 128, rfl⟩
abbrev main_v72 : Ref sig .tc := ⟨.hbm, 129, rfl⟩
abbrev main_cst_8 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_9 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_10 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_11 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_12 : Ref sig .tc := ⟨.hbm, 162, rfl⟩
abbrev main_v101 : Ref sig .tc := ⟨.hbm, 163, rfl⟩
abbrev main_v102 : Ref sig .tc := ⟨.hbm, 164, rfl⟩
abbrev main_cst_13 : Ref sig .tc := ⟨.hbm, 165, rfl⟩
abbrev main_v103 : Ref sig .tc := ⟨.hbm, 166, rfl⟩
abbrev main_cst_14 : Ref sig .tc := ⟨.hbm, 167, rfl⟩
abbrev main_v104 : Ref sig .tc := ⟨.hbm, 168, rfl⟩
abbrev main_v105 : Ref sig .tc := ⟨.hbm, 169, rfl⟩
abbrev main_cst_15 : Ref sig .tc := ⟨.hbm, 170, rfl⟩
abbrev main_v106 : Ref sig .tc := ⟨.hbm, 171, rfl⟩
abbrev main_cst_16 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_17 : Ref sig .tc := ⟨.hbm, 176, rfl⟩
abbrev main_call1_call0_cst : Ref sig .tc := ⟨.hbm, 177, rfl⟩
abbrev main_call1_call0_v0 : Ref sig .tc := ⟨.hbm, 178, rfl⟩
abbrev main_call1_call0_v1 : Ref sig .tc := ⟨.hbm, 179, rfl⟩
abbrev main_call1_call0_cst_0 : Ref sig .tc := ⟨.hbm, 180, rfl⟩
abbrev main_call1_call0_v2 : Ref sig .tc := ⟨.hbm, 181, rfl⟩
abbrev main_call1_call0_v3 : Ref sig .tc := ⟨.hbm, 182, rfl⟩
abbrev main_call1_call0_v4 : Ref sig .tc := ⟨.hbm, 183, rfl⟩
abbrev main_call1_call0_v5 : Ref sig .tc := ⟨.hbm, 184, rfl⟩
abbrev main_call1_call0_v6 : Ref sig .tc := ⟨.hbm, 185, rfl⟩
abbrev main_call1_call0_v7 : Ref sig .tc := ⟨.hbm, 186, rfl⟩
abbrev main_call1_call0_cst_1 : Ref sig .tc := ⟨.hbm, 187, rfl⟩
abbrev main_call1_call0_v8 : Ref sig .tc := ⟨.hbm, 188, rfl⟩
abbrev main_call1_call0_cst_2 : Ref sig .tc := ⟨.hbm, 189, rfl⟩
abbrev main_call1_call0_v9 : Ref sig .tc := ⟨.hbm, 190, rfl⟩
abbrev main_call1_call0_v10 : Ref sig .tc := ⟨.hbm, 191, rfl⟩
abbrev main_call1_call0_cst_3 : Ref sig .tc := ⟨.hbm, 192, rfl⟩
abbrev main_call1_call0_v11 : Ref sig .tc := ⟨.hbm, 193, rfl⟩
abbrev main_call1_call0_cst_4 : Ref sig .tc := ⟨.hbm, 194, rfl⟩
abbrev main_call1_call0_call0_v0 : Ref sig .tc := ⟨.hbm, 195, rfl⟩
abbrev main_call1_v0 : Ref sig .tc := ⟨.hbm, 196, rfl⟩
abbrev main_v110 : Ref sig .tc := ⟨.hbm, 197, rfl⟩
abbrev main_cst_18 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_cst_19 : Ref sig .tc := ⟨.hbm, 202, rfl⟩
abbrev main_v114 : Ref sig .tc := ⟨.hbm, 203, rfl⟩
abbrev main_cst_20 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_21 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_call2_cst : Ref sig .tc := ⟨.hbm, 222, rfl⟩
abbrev main_call2_v0 : Ref sig .tc := ⟨.hbm, 223, rfl⟩
abbrev main_call2_v1 : Ref sig .tc := ⟨.hbm, 224, rfl⟩
abbrev main_call2_cst_0 : Ref sig .tc := ⟨.hbm, 225, rfl⟩
abbrev main_call2_v2 : Ref sig .tc := ⟨.hbm, 226, rfl⟩
abbrev main_call2_v3 : Ref sig .tc := ⟨.hbm, 227, rfl⟩
abbrev main_call2_cst_1 : Ref sig .tc := ⟨.hbm, 228, rfl⟩
abbrev main_call2_call0_v0 : Ref sig .tc := ⟨.hbm, 229, rfl⟩
abbrev main_call2_call0_v1 : Ref sig .tc := ⟨.hbm, 230, rfl⟩
abbrev main_call2_v4 : Ref sig .tc := ⟨.hbm, 231, rfl⟩
abbrev main_call2_v5 : Ref sig .tc := ⟨.hbm, 232, rfl⟩
abbrev main_call2_cst_2 : Ref sig .tc := ⟨.hbm, 233, rfl⟩
abbrev main_call2_v6 : Ref sig .tc := ⟨.hbm, 234, rfl⟩
abbrev main_call2_v7 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_call3_cst : Ref sig .tc := ⟨.hbm, 242, rfl⟩
abbrev main_call3_v0 : Ref sig .tc := ⟨.hbm, 243, rfl⟩
abbrev main_call3_v1 : Ref sig .tc := ⟨.hbm, 244, rfl⟩
abbrev main_call3_cst_0 : Ref sig .tc := ⟨.hbm, 245, rfl⟩
abbrev main_call3_v2 : Ref sig .tc := ⟨.hbm, 246, rfl⟩
abbrev main_call3_v3 : Ref sig .tc := ⟨.hbm, 247, rfl⟩
abbrev main_call3_cst_1 : Ref sig .tc := ⟨.hbm, 248, rfl⟩
abbrev main_call3_call0_v0 : Ref sig .tc := ⟨.hbm, 249, rfl⟩
abbrev main_call3_call0_v1 : Ref sig .tc := ⟨.hbm, 250, rfl⟩
abbrev main_call3_v4 : Ref sig .tc := ⟨.hbm, 251, rfl⟩
abbrev main_call3_v5 : Ref sig .tc := ⟨.hbm, 252, rfl⟩
abbrev main_call3_cst_2 : Ref sig .tc := ⟨.hbm, 253, rfl⟩
abbrev main_call3_v6 : Ref sig .tc := ⟨.hbm, 254, rfl⟩
abbrev main_call3_v7 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩

abbrev nD : Nat := 1
abbrev τ : Topo := Topo.v7x

variable {F : FTy → Type} [FloatOps F]

class Facts₀ : Prop where
  shapeCasts_S64x32x128_S2048x128 : S64x32x128.ShapeCasts S2048x128
  transposes_S2048x128_S128x2048_1_0 : S2048x128.Transposes [1, 0] S128x2048
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  concatenates_S2048x128_S2048x128_S2048x128_S2048x128_S2048x512_d1 : Shape.Concatenates [S2048x128, S2048x128, S2048x128, S2048x128] S2048x512 1
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  reducesTo_S2048x128_S128_d0 : S2048x128.ReducesTo [0] S128
  h_S_ : 0 < S_.numel
  bcast_S_S1x128 : S_.BroadcastsInDim S1x128 (![] : Fin 0 → Fin S1x128.rank)
  bcast_S_S128 : S_.BroadcastsInDim S128 (![] : Fin 0 → Fin S128.rank)
  bcast_S2048x128_S2048x128x1_0_1 : S2048x128.BroadcastsInDim S2048x128x1 (![0, 1] : Fin 2 → Fin S2048x128x1.rank)
  bcast_S2048x128_S2048x1x128_0_2 : S2048x128.BroadcastsInDim S2048x1x128 (![0, 2] : Fin 2 → Fin S2048x1x128.rank)
  bcast_S2048x128x1_S2048x128x128_0_1_2 : S2048x128x1.BroadcastsInDim S2048x128x128 (![0, 1, 2] : Fin 3 → Fin S2048x128x128.rank)
  bcast_S2048x1x128_S2048x128x128_0_1_2 : S2048x1x128.BroadcastsInDim S2048x128x128 (![0, 1, 2] : Fin 3 → Fin S2048x128x128.rank)
  bcast_S_S2048x128x128 : S_.BroadcastsInDim S2048x128x128 (![] : Fin 0 → Fin S2048x128x128.rank)
  reducesTo_S2048x128x128_S128x128_d0 : S2048x128x128.ReducesTo [0] S128x128
  transposes_S128x128_S128x128_1_0 : S128x128.Transposes [1, 0] S128x128
  reducesTo_S128x128_S128_d0 : S128x128.ReducesTo [0] S128
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  shapeCasts_S2048x128_S64x32x128 : S2048x128.ShapeCasts S64x32x128
  dot_S128x2048_S2048x128_S128x128_1_0_0_1_n_n_wf : DotDims.WF S128x2048 S2048x128 S128x128 [1] [0] [0] [1] [] []
  dot_S128x128_S128x128_S128x128_1_0_0_1_n_n_wf : DotDims.WF S128x128 S128x128 S128x128 [1] [0] [0] [1] [] []
  dot_S2048x128_S128x128_S2048x128_1_0_0_1_n_n_wf : DotDims.WF S2048x128 S128x128 S2048x128 [1] [0] [0] [1] [] []
  dot_S2048x512_S512x128_S2048x128_1_0_0_1_n_n_wf : DotDims.WF S2048x512 S512x128 S2048x128 [1] [0] [0] [1] [] []

variable [Facts₀]

def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

class Facts : Prop extends Facts₀ where

variable [Facts]
-- ==== Proof.LibKLSplit.lean ====
/-
  A sum of products with a difference, split into a difference of sums, over the extended reals.

  Over the extended reals the law  ∑ a·(b − c) = ∑ a·b − ∑ a·c  is not a theorem: a product with an infinite factor
  and a difference of two infinities of one sign are settled by convention, and distributivity is lost there. It does
  hold when every entry is a real number: both sides are then the coercion of one real number, and the law is the real
  one (`sum_mul_sub_coe`, `sum_mul_sub`).

  The instance this is written for is a Kullback–Leibler term  ∑ₙ P n · (log (P n) − log (M n))  against its
  re-association  ∑ₙ P n · log (P n) − ∑ₙ P n · log (M n)  (`kl_split`): `P` and `M` take positive real values (a
  softmax output, and the mean of two of them), so the idealized logarithm of each is the real logarithm, a real number.
-/
import Idealize.ShloMosaic.PureOps.Ideal

open Idealize.ShloMosaic

namespace Cert.KLSplit

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real entries, a sum of products with a difference is the difference of the two sums of products: both sides
    are the coercion of the real number `∑ a·(b − c) = ∑ a·b − ∑ a·c`. -/
theorem sum_mul_sub_coe {ι : Type*} (s : Finset ι) (a b c : ι → ℝ) :
    ∑ i ∈ s, (a i : EReal) * ((b i : EReal) - (c i : EReal))
      = ∑ i ∈ s, (a i : EReal) * (b i : EReal) - ∑ i ∈ s, (a i : EReal) * (c i : EReal) := by
  have h1 : ∀ i, (a i : EReal) * ((b i : EReal) - (c i : EReal)) = ((a i * (b i - c i) : ℝ) : EReal) := fun i => by
    rw [EReal.coe_mul, EReal.coe_sub]
  have h2 : ∀ i, (a i : EReal) * (b i : EReal) = ((a i * b i : ℝ) : EReal) := fun i => (EReal.coe_mul _ _).symm
  have h3 : ∀ i, (a i : EReal) * (c i : EReal) = ((a i * c i : ℝ) : EReal) := fun i => (EReal.coe_mul _ _).symm
  simp only [h1, h2, h3]
  rw [← coe_sum, ← coe_sum, ← coe_sum, ← EReal.coe_sub, ← Finset.sum_sub_distrib]
  exact congrArg _ (Finset.sum_congr rfl fun i _ => by ring)

/-- The same for extended-real entries each of which is a real number (on the index set summed over). -/
theorem sum_mul_sub {ι : Type*} (s : Finset ι) (a b c : ι → EReal)
    (ha : ∀ i ∈ s, ∃ r : ℝ, a i = r) (hb : ∀ i ∈ s, ∃ r : ℝ, b i = r) (hc : ∀ i ∈ s, ∃ r : ℝ, c i = r) :
    ∑ i ∈ s, a i * (b i - c i) = ∑ i ∈ s, a i * b i - ∑ i ∈ s, a i * c i := by
  have ea : ∀ i ∈ s, ((a i).toReal : EReal) = a i := fun i hi => by
    obtain ⟨r, hr⟩ := ha i hi; rw [hr, EReal.toReal_coe]
  have eb : ∀ i ∈ s, ((b i).toReal : EReal) = b i := fun i hi => by
    obtain ⟨r, hr⟩ := hb i hi; rw [hr, EReal.toReal_coe]
  have ec : ∀ i ∈ s, ((c i).toReal : EReal) = c i := fun i hi => by
    obtain ⟨r, hr⟩ := hc i hi; rw [hr, EReal.toReal_coe]
  calc ∑ i ∈ s, a i * (b i - c i)
      = ∑ i ∈ s, ((a i).toReal : EReal) * (((b i).toReal : EReal) - ((c i).toReal : EReal)) :=
        Finset.sum_congr rfl fun i hi => by rw [ea i hi, eb i hi, ec i hi]
    _ = ∑ i ∈ s, ((a i).toReal : EReal) * ((b i).toReal : EReal)
          - ∑ i ∈ s, ((a i).toReal : EReal) * ((c i).toReal : EReal) := sum_mul_sub_coe s _ _ _
    _ = ∑ i ∈ s, a i * b i - ∑ i ∈ s, a i * c i :=
        congrArg₂ (· - ·) (Finset.sum_congr rfl fun i hi => by rw [ea i hi, eb i hi])
          (Finset.sum_congr rfl fun i hi => by rw [ea i hi, ec i hi])

/-- The Kullback–Leibler re-association at the idealized logarithm: for positive real `P n` and `M n`,
    `∑ₙ P n · (log (P n) − log (M n)) = ∑ₙ P n · log (P n) − ∑ₙ P n · log (M n)` on the extended reals. Positivity is
    what makes each logarithm a real number; at `P n = 0` the idealized logarithm is `−∞` and the law is not claimed. -/
theorem kl_split {ι : Type*} (s : Finset ι) (P M : ι → ℝ) (hP : ∀ i ∈ s, 0 < P i) (hM : ∀ i ∈ s, 0 < M i) :
    ∑ i ∈ s, (P i : EReal) * (Ideal.log (P i : EReal) - Ideal.log (M i : EReal))
      = ∑ i ∈ s, (P i : EReal) * Ideal.log (P i : EReal) - ∑ i ∈ s, (P i : EReal) * Ideal.log (M i : EReal) := by
  refine sum_mul_sub s _ _ _ (fun i _ => ⟨_, rfl⟩) (fun i hi => ⟨Real.log (P i), ?_⟩) (fun i hi => ⟨Real.log (M i), ?_⟩)
  · rw [Ideal.log_coe, if_neg (not_le.mpr (hP i hi))]
  · rw [Ideal.log_coe, if_neg (not_le.mpr (hM i hi))]

end Cert.KLSplit
-- ==== Proof.Region0.lean ====
/-
  The first kernel region (the incidence matrix) at the buffer contents `V` it is entered from: one grid point whose
  blocks are the whole arrays. The body reads xt, xn and the twenty weight blocks of five two-layer perceptrons, forms
  the four candidates  x · mlp(yᵀ),  concatenates them along the columns, applies the fifth perceptron, standardizes
  each column (divisor 2047 under the root, ε added to it) and takes the softmax down each column; that matrix H is its
  one store, of the whole output block. Stated for any float instance.
-/
import proofs.«127104_j29506425324178_1_alg».proof.Proof.Gen.KernelIdeal.Launch
import proofs.«127104_j29506425324178_1_alg».proof.Proof.Gen.KernelIdeal.Skeleton
import proofs.«127104_j29506425324178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data over `V`'s arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data over `V`'s arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data over `V`'s arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data over `V`'s arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data over `V`'s arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data over `V`'s arrays that leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data over `V`'s arrays that leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at the point, for any proof data over `V`'s arrays that leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at the point, for any proof data over `V`'s arrays that leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at the point, for any proof data over `V`'s arrays that leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at the point, for any proof data over `V`'s arrays that leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at the point, for any proof data over `V`'s arrays that leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at the point, for any proof data over `V`'s arrays that leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at the point, for any proof data over `V`'s arrays that leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's staging buffer holds its block at the point, for any proof data over `V`'s arrays that leaves the block in place. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- Input window 15's staging buffer holds its block at the point, for any proof data over `V`'s arrays that leaves the block in place. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- Input window 16's staging buffer holds its block at the point, for any proof data over `V`'s arrays that leaves the block in place. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-- Input window 17's staging buffer holds its block at the point, for any proof data over `V`'s arrays that leaves the block in place. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-- Input window 18's staging buffer holds its block at the point, for any proof data over `V`'s arrays that leaves the block in place. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-- Input window 19's staging buffer holds its block at the point, for any proof data over `V`'s arrays that leaves the block in place. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)

/-- Input window 20's staging buffer holds its block at the point, for any proof data over `V`'s arrays that leaves the block in place. -/
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

/-- Input window 21's staging buffer holds its block at the point, for any proof data over `V`'s arrays that leaves the block in place. -/
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_S2048x128 : Rect S2048x128 := Rect.unit (s := S2048x128) ![0, 0] S2048x128.size inb_S2048x128_S2048x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S512x128 : Rect S512x128 := Rect.unit (s := S512x128) ![0, 0] S512x128.size inb_S512x128_S512x128_0_0

/-- The output's buffer after the body: its one store, of the whole block, from the 22 input blocks (the values the body's three parts hand on are spelt as the body spells them). -/
def out0_22 (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) : Vec F S2048x128 .f32 :=
  View.canon [⟨r0_S2048x128, k0_pay1 (k0_pay10 (k0_pay3 (View.ld x1 r0_S2048x128)) (k0_pay4 (View.ld x0 r0_S2048x128) (View.ld x2 r0_S2048x128) (View.ld x3 r0_S1x128) (View.ld x4 r0_S128x128) (View.ld x5 r0_S1x128)) (k0_pay7 (k0_pay3 (View.ld x1 r0_S2048x128)) (View.ld x8 r0_S128x128) (k0_pay5 (View.ld x9 r0_S1x128)) (k0_pay6 (View.ld x1 r0_S2048x128) (View.ld x6 r0_S2048x128) (View.ld x7 r0_S1x128)) (constant S128x128 .f32 0x00000000#32)) (k0_pay8 (k0_pay2 (View.ld x0 r0_S2048x128)) (k0_pay3 (View.ld x1 r0_S2048x128)) (View.ld x10 r0_S2048x128) (View.ld x11 r0_S1x128) (View.ld x12 r0_S128x128) (View.ld x13 r0_S1x128)) (k0_pay9 (k0_pay2 (View.ld x0 r0_S2048x128)) (View.ld x14 r0_S2048x128) (View.ld x15 r0_S1x128) (View.ld x16 r0_S128x128) (View.ld x17 r0_S1x128)) (constant S2048x128 .f32 0x00000000#32) (View.ld x18 r0_S512x128) (View.ld x19 r0_S1x128) (View.ld x20 r0_S128x128) (View.ld x21 r0_S1x128)) (k0_pay11 (k0_pay3 (View.ld x1 r0_S2048x128)) (k0_pay4 (View.ld x0 r0_S2048x128) (View.ld x2 r0_S2048x128) (View.ld x3 r0_S1x128) (View.ld x4 r0_S128x128) (View.ld x5 r0_S1x128)) (k0_pay7 (k0_pay3 (View.ld x1 r0_S2048x128)) (View.ld x8 r0_S128x128) (k0_pay5 (View.ld x9 r0_S1x128)) (k0_pay6 (View.ld x1 r0_S2048x128) (View.ld x6 r0_S2048x128) (View.ld x7 r0_S1x128)) (constant S128x128 .f32 0x00000000#32)) (k0_pay8 (k0_pay2 (View.ld x0 r0_S2048x128)) (k0_pay3 (View.ld x1 r0_S2048x128)) (View.ld x10 r0_S2048x128) (View.ld x11 r0_S1x128) (View.ld x12 r0_S128x128) (View.ld x13 r0_S1x128)) (k0_pay9 (k0_pay2 (View.ld x0 r0_S2048x128)) (View.ld x14 r0_S2048x128) (View.ld x15 r0_S1x128) (View.ld x16 r0_S128x128) (View.ld x17 r0_S1x128)) (constant S2048x128 .f32 0x00000000#32) (View.ld x18 r0_S512x128) (View.ld x19 r0_S1x128) (View.ld x20 r0_S128x128) (View.ld x21 r0_S1x128))⟩]

/-- One whole-block store covers the buffer. -/
theorem cover0_S2048x128 (p0 : Vec F S2048x128 .f32) (y : S2048x128.Idx) :
    ∃ pc ∈ ([⟨r0_S2048x128, p0⟩] : List (View.Piece (Elt F) S2048x128 .f32)), y ∈ pc.1.set :=
  View.cover_of_tiled [⟨r0_S2048x128, p0⟩] S2048x128.size (by rfl) y

set_option maxHeartbeats 8000000 in
/-- The body on whole staging buffers, the inputs' at contents `x·` and the outputs' at anything, runs to the continuation
    with the inputs' as they were and each output's at its `out0_·` of the inputs'. -/
theorem sound_kernel0 (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S2048x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S512x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S2048x128 .f32) (harg23 : arg23.IsWhole)
    (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
        ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
            ∗ owns (c : Thread nD τ) arg23 fullShare (out0_22 x0 x1 x2 x3 x4 x5 x6 x7 x8 x9 x10 x11 x12 x13 x14 x15 x16 x17 x18 x19 x20 x21)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__kernelA_eq_skeleton]; unfold cc0__kernelA_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  exact View.read_writes_eq_canon _ _ _ (cover0_S2048x128 _)

/-! ## The proof data -/

/-- The region's proof data on core `c`: the arrays as the region finds them; after the body each input's buffer at its block and
    each output's at its `out0_·` of the input blocks; the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t)
    | ⟨_ + 23, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t))

set_option maxHeartbeats 2000000 in
/-- The body at the point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel0 c Set.univ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.Region1.lean ====
/-
  The second kernel region (the pairwise Jensen–Shannon term and the edge weights) at the buffer contents `V` it is entered
  from: 32 grid points, point t reading rows 64t … 64t+63 of H. Two accumulators live in scratch buffers across the
  points: a[i] = Σₙ H[n,i]·log H[n,i] (a row of 128) and S[i,j] = Σₙ H[n,i]·log((H[n,i] + H[n,j])/2) (128 × 128). The
  body has three control cases: the first point zeroes both and adds its rows in; a middle point adds its rows in;
  the last point adds its rows in and then stores the edge weights — jsd = ((a − S) + (a − S)ᵀ)/2, its column means
  standardized (divisor 127 under the root, ε added) and soft-maxed — into the one output block, which is written back
  at that point only. What each case leaves in the accumulators and the output is found by running the body; the
  contents after point n are then defined by recursion on n, and the region's invariant carries them. Any float instance.
-/
import proofs.«127104_j29506425324178_1_alg».proof.Proof.Gen.KernelIdeal.Launch
import proofs.«127104_j29506425324178_1_alg».proof.Proof.Gen.KernelIdeal.Skeleton
import proofs.«127104_j29506425324178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The first branch's condition, from the grid coordinate: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The second branch's condition: the point is the last. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The input window is never idle. -/
theorem liveAt1_0 : ∀ t : Fin cfg1.N, cfg1.idle 0 (grid1.coords t) = false := by decide +kernel
/-- Away from the last point the output window is idle and not written back. -/
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
/-- At the last point it is live. -/
theorem liveAt1_1_C : ∀ t : Fin cfg1.N, ¬cond1_0 (grid1.coords t) → cond1_1 (grid1.coords t) → cfg1.idle 1 (grid1.coords t) = false := by decide +kernel

/-! ## The buffers the body is called with -/

abbrev VO1_1 : View sig .tc .vmem S1x128 .f32 := (Memref.whole cc1_stg1_0 : Memref sig .tc .vmem S1x128 .f32).view
abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
/-- The two accumulators: whole scratch buffers of the kernel's own. -/
abbrev scM1_0 : Memref sig .tc .vmem S1x128 .f32 := Memref.whole cc1_scratch0
abbrev scM1_1 : Memref sig .tc .vmem S128x128 .f32 := Memref.whole cc1_scratch1
abbrev VS1_0 : View sig .tc .vmem S1x128 .f32 := scM1_0.view
abbrev VS1_1 : View sig .tc .vmem S128x128 .f32 := scM1_1.view

/-- The untouched rest of the region's invariant with the two accumulators split out, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body in each control case: what it leaves, found by running it -/
set_option maxHeartbeats 4000000 in
/-- The body at the first point: both accumulators are zeroed, then the point's 64 rows are added in; nothing is stored into the output. On whole buffers — the input block at `x0`, the idle output at contents handed back untouched, the accumulators at anything — it runs to
    the continuation with each buffer it stored into holding the pieces the run finds. -/
noncomputable def kernelRun1_A (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) :
    Σ' (L1 : List (View.Piece (Elt F) S1x128 .f32)) (LS0 : List (View.Piece (Elt F) S1x128 .f32)), { LS1 : List (View.Piece (Elt F) S128x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨[], ?_, ?_, fun xi1 E K => ?run⟩
  case run =>
    simp only [cc1__kernelB_eq_skeleton]; unfold cc1__kernelB_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

set_option maxHeartbeats 4000000 in
/-- The body at a middle point: the point's 64 rows are added into the accumulators the point before left; nothing is stored into the output. On whole buffers — the input block at `x0`, the idle output at contents handed back untouched, the accumulators at what the point before left — it runs to
    the continuation with each buffer it stored into holding the pieces the run finds. -/
noncomputable def kernelRun1_B (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) :
    Σ' (L1 : List (View.Piece (Elt F) S1x128 .f32)) (LS0 : List (View.Piece (Elt F) S1x128 .f32)), { LS1 : List (View.Piece (Elt F) S128x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨[], ?_, ?_, fun xi1 E K => ?run⟩
  case run =>
    simp only [cc1__kernelB_eq_skeleton]; unfold cc1__kernelB_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

set_option maxHeartbeats 4000000 in
/-- The body at the last point: the point's 64 rows are added in, and the edge weights are computed from the two finished accumulators and stored into the output. On whole buffers — the input block at `x0`, the output at anything, the accumulators at what the point before left — it runs to
    the continuation with each buffer it stored into holding the pieces the run finds. -/
noncomputable def kernelRun1_C (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) :
    Σ' (L1 : List (View.Piece (Elt F) S1x128 .f32)) (LS0 : List (View.Piece (Elt F) S1x128 .f32)), { LS1 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨?_, ?_, ?_, fun E K => ?run⟩
  case run =>
    simp only [cc1__kernelB_eq_skeleton]; unfold cc1__kernelB_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

/-- What case A leaves in the output's buffer: its pieces read back (none: a placeholder nothing consults, the window being idle there). -/
def out1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S1x128 .f32 :=
  VO1_1.read (Elt F) (VO1_1.writes (Elt F) VO1_1.junk (kernelRun1_A c i arg1 harg1 arg2 harg2 arg3 harg3 arg4 harg4 hc0 hc1 x0).1)

/-- Case A's stores into the first accumulator cover it. -/
theorem scover1_A_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) (y : S1x128.Idx) :
    ∃ pc ∈ (kernelRun1_A c i arg1 harg1 arg2 harg2 arg3 harg3 arg4 harg4 hc0 hc1 x0).2.1, y ∈ pc.1.set :=
  View.cover_of_tiledL (kernelRun1_A c i arg1 harg1 arg2 harg2 arg3 harg3 arg4 harg4 hc0 hc1 x0).2.1 S1x128.size (by sl_kernel_rfl) y

/-- What case A leaves in the first accumulator. -/
def sout1_A_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S1x128 .f32 :=
  VS1_0.read (Elt F) (VS1_0.writes (Elt F) VS1_0.junk (kernelRun1_A c i arg1 harg1 arg2 harg2 arg3 harg3 arg4 harg4 hc0 hc1 x0).2.1)

/-- Case A's stores into the second accumulator cover it. -/
theorem scover1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) (y : S128x128.Idx) :
    ∃ pc ∈ (kernelRun1_A c i arg1 harg1 arg2 harg2 arg3 harg3 arg4 harg4 hc0 hc1 x0).2.2.1, y ∈ pc.1.set :=
  View.cover_of_tiledL (kernelRun1_A c i arg1 harg1 arg2 harg2 arg3 harg3 arg4 harg4 hc0 hc1 x0).2.2.1 S128x128.size (by sl_kernel_rfl) y

/-- What case A leaves in the second accumulator. -/
def sout1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S128x128 .f32 :=
  VS1_1.read (Elt F) (VS1_1.writes (Elt F) VS1_1.junk (kernelRun1_A c i arg1 harg1 arg2 harg2 arg3 harg3 arg4 harg4 hc0 hc1 x0).2.2.1)

/-- What case B leaves in the output's buffer: its pieces read back (none: a placeholder nothing consults, the window being idle there). -/
def out1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S1x128 .f32 :=
  VO1_1.read (Elt F) (VO1_1.writes (Elt F) VO1_1.junk (kernelRun1_B c i arg1 harg1 arg2 harg2 arg3 harg3 arg4 harg4 hc0 hc1 x0 xs0 xs1).1)

/-- Case B's stores into the first accumulator cover it. -/
theorem scover1_B_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) (y : S1x128.Idx) :
    ∃ pc ∈ (kernelRun1_B c i arg1 harg1 arg2 harg2 arg3 harg3 arg4 harg4 hc0 hc1 x0 xs0 xs1).2.1, y ∈ pc.1.set :=
  View.cover_of_tiledL (kernelRun1_B c i arg1 harg1 arg2 harg2 arg3 harg3 arg4 harg4 hc0 hc1 x0 xs0 xs1).2.1 S1x128.size (by sl_kernel_rfl) y

/-- What case B leaves in the first accumulator. -/
def sout1_B_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S1x128 .f32 :=
  VS1_0.read (Elt F) (VS1_0.writes (Elt F) VS1_0.junk (kernelRun1_B c i arg1 harg1 arg2 harg2 arg3 harg3 arg4 harg4 hc0 hc1 x0 xs0 xs1).2.1)

/-- Case B's stores into the second accumulator cover it. -/
theorem scover1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) (y : S128x128.Idx) :
    ∃ pc ∈ (kernelRun1_B c i arg1 harg1 arg2 harg2 arg3 harg3 arg4 harg4 hc0 hc1 x0 xs0 xs1).2.2.1, y ∈ pc.1.set :=
  View.cover_of_tiledL (kernelRun1_B c i arg1 harg1 arg2 harg2 arg3 harg3 arg4 harg4 hc0 hc1 x0 xs0 xs1).2.2.1 S128x128.size (by sl_kernel_rfl) y

/-- What case B leaves in the second accumulator. -/
def sout1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S128x128 .f32 :=
  VS1_1.read (Elt F) (VS1_1.writes (Elt F) VS1_1.junk (kernelRun1_B c i arg1 harg1 arg2 harg2 arg3 harg3 arg4 harg4 hc0 hc1 x0 xs0 xs1).2.2.1)

/-- What case C leaves in the output's buffer: its pieces read back. -/
def out1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S1x128 .f32 :=
  VO1_1.read (Elt F) (VO1_1.writes (Elt F) VO1_1.junk (kernelRun1_C c i arg1 harg1 arg2 harg2 arg3 harg3 arg4 harg4 hc0 hc1 x0 xs0 xs1).1)

/-- Case C's one store covers the output block. -/
theorem cover1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S1x128.Idx) :
    ∃ pc ∈ (kernelRun1_C c i arg1 harg1 arg2 harg2 arg3 harg3 arg4 harg4 hc0 hc1 x0 xs0 xs1).1, y ∈ pc.1.set :=
  View.cover_of_tiledL (kernelRun1_C c i arg1 harg1 arg2 harg2 arg3 harg3 arg4 harg4 hc0 hc1 x0 xs0 xs1).1 S1x128.size (by sl_kernel_rfl) y

/-- Case C's stores into the first accumulator cover it. -/
theorem scover1_C_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S1x128.Idx) :
    ∃ pc ∈ (kernelRun1_C c i arg1 harg1 arg2 harg2 arg3 harg3 arg4 harg4 hc0 hc1 x0 xs0 xs1).2.1, y ∈ pc.1.set :=
  View.cover_of_tiledL (kernelRun1_C c i arg1 harg1 arg2 harg2 arg3 harg3 arg4 harg4 hc0 hc1 x0 xs0 xs1).2.1 S1x128.size (by sl_kernel_rfl) y

/-- What case C leaves in the first accumulator. -/
def sout1_C_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S1x128 .f32 :=
  VS1_0.read (Elt F) (VS1_0.writes (Elt F) VS1_0.junk (kernelRun1_C c i arg1 harg1 arg2 harg2 arg3 harg3 arg4 harg4 hc0 hc1 x0 xs0 xs1).2.1)

/-- Case C's stores into the second accumulator cover it. -/
theorem scover1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S128x128.Idx) :
    ∃ pc ∈ (kernelRun1_C c i arg1 harg1 arg2 harg2 arg3 harg3 arg4 harg4 hc0 hc1 x0 xs0 xs1).2.2.1, y ∈ pc.1.set :=
  View.cover_of_tiledL (kernelRun1_C c i arg1 harg1 arg2 harg2 arg3 harg3 arg4 harg4 hc0 hc1 x0 xs0 xs1).2.2.1 S128x128.size (by sl_kernel_rfl) y

/-- What case C leaves in the second accumulator. -/
def sout1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S128x128 .f32 :=
  VS1_1.read (Elt F) (VS1_1.writes (Elt F) VS1_1.junk (kernelRun1_C c i arg1 harg1 arg2 harg2 arg3 harg3 arg4 harg4 hc0 hc1 x0 xs0 xs1).2.2.1)

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's 64 rows of H at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the output and the two accumulators hold after each point -/

/-- The accumulation: after the body at position `n` the output's buffer and the two accumulators hold what the case the
    position is in leaves, run at the position's block of H over what position `n − 1` left in the accumulators. -/
def outsAt1 (c : Dev nD) : (n : ℕ) → n < cfg1.N → Vec F S1x128 .f32 × Vec F S1x128 .f32 × Vec F S128x128 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 32 = 0 then
      if h1 : (n + 1) % 32 = 31 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 32 = 31 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

theorem outsAt1_A (c : Dev nD) (t : Fin cfg1.N) (h0 : t.val % 32 = 0) (h1 : ¬t.val % 32 = 31) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest (both accumulators at anything);
    afterwards the two accumulators at what the position before left, beside the rest. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The region's proof data on core `c`: the arrays as the region finds them; after the body at a point the input's buffer at
    its block and the output's at the accumulation's first component; the invariant carries the accumulators; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 8000000 in
/-- The body at any point: the closed forms of the two conditions say which case the point is in; the invariant hands the
    body the accumulators at what the point before left (at anything before the first point) and takes them back at this
    point's contents; the output's buffer is handed back untouched where the window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨⟨⟨HS0, HS1⟩, Hrest⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _)
              unfold owns; iexists _; isplitr
              swap; · iexact HS1
              ipureintro; exact View.read_writes_of_cover _ _ _ _ _ (scover1_A_1 c _ _ _ _ _ _ _ _ _ _ _ _)
            iexact Hrest
          iexact Hg
        isplitl [Ho]; · iexact Ho
        isplitl [H0]; · iexact H0
        iexists _; iexact H1
      · exfalso; omega
  · by_cases h1 : t.val % 32 = 31
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0 sout1_C_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩⟩
      iapply ((kernelRun1_C c (grid1.coords t) _ _ _ _ _ _ _ _ (fun h => h0 ((hcond1_0 t).mp h)) ((hcond1_1 t).mpr h1) (iblk1 V c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩⟩
      iapply ((kernelRun1_B c (grid1.coords t) _ _ _ _ _ _ _ _ (fun h => h0 ((hcond1_0 t).mp h)) (fun h => h1 ((hcond1_1 t).mp h)) (iblk1 V c 0 t) _ _).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _)
          iexact Hrest
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Gen

end
-- ==== Proof.Region2.lean ====
/-
  The third kernel region (the residual hypergraph convolution) at the buffer contents `V` it is entered from: one grid
  point whose blocks are the whole arrays. The body reads the six input blocks — H, the edge weights w, xt, xn and the
  two θ — and stores one whole block into each of its two outputs:
    out 6 = xt + elu((H·w) · (Hᵀ · (xt · θt))),   out 7 = xn + elu((H·w) · (Hᵀ · (xn · θn))),
  with elu(v) = v where v > 0 and exp(v) − 1 elsewhere. Stated for any float instance.
-/
import proofs.«127104_j29506425324178_1_alg».proof.Proof.Gen.KernelIdeal.Launch
import proofs.«127104_j29506425324178_1_alg».proof.Proof.Gen.KernelIdeal.Skeleton
import proofs.«127104_j29506425324178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at the point, for any proof data over `V`'s arrays that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at the point, for any proof data over `V`'s arrays that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at the point, for any proof data over `V`'s arrays that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at the point, for any proof data over `V`'s arrays that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at the point, for any proof data over `V`'s arrays that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at the point, for any proof data over `V`'s arrays that leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole block -/

abbrev r2_S2048x128 : Rect S2048x128 := Rect.unit (s := S2048x128) ![0, 0] S2048x128.size inb_S2048x128_S2048x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0

/-- Output 6's buffer after the body: its one store, of the whole block, from the blocks of H, w, xt and θt. -/
def out2_6 (x0 : Vec F S2048x128 .f32) (x1 : Vec F S1x128 .f32) (x2 : Vec F S2048x128 .f32) (x4 : Vec F S128x128 .f32) : Vec F S2048x128 .f32 :=
  View.canon [⟨r2_S2048x128, k2_pay4 (View.ld x0 r2_S2048x128) (View.ld x1 r2_S1x128) (View.ld x2 r2_S2048x128) (View.ld x4 r2_S128x128)⟩]

/-- Output 7's buffer after the body, from the blocks of H, w, xn and θn. -/
def out2_7 (x0 : Vec F S2048x128 .f32) (x1 : Vec F S1x128 .f32) (x3 : Vec F S2048x128 .f32) (x5 : Vec F S128x128 .f32) : Vec F S2048x128 .f32 :=
  View.canon [⟨r2_S2048x128, k2_pay1 (k2_pay5 (View.ld x3 r2_S2048x128)) (k2_pay6 (View.ld x0 r2_S2048x128) (View.ld x1 r2_S1x128) (View.ld x3 r2_S2048x128) (View.ld x5 r2_S128x128))⟩]

/-- One whole-block store covers the buffer. -/
theorem cover2_S2048x128 (p0 : Vec F S2048x128 .f32) (y : S2048x128.Idx) :
    ∃ pc ∈ ([⟨r2_S2048x128, p0⟩] : List (View.Piece (Elt F) S2048x128 .f32)), y ∈ pc.1.set :=
  View.cover_of_tiled [⟨r2_S2048x128, p0⟩] S2048x128.size (by rfl) y

set_option maxHeartbeats 8000000 in
/-- The body on whole staging buffers, the inputs' at contents `x·` and the outputs' at anything, runs to the continuation
    with the inputs' as they were and each output's at its `out2_·` of the inputs'. -/
theorem sound_kernel2 (c : Dev nD) (E : Set ℕ) (i : grid2.Coords) (arg1 : Memref sig .tc .vmem S2048x128 .f32) (harg1 : arg1.IsWhole) (arg2 : Memref sig .tc .vmem S1x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S1x128 .f32) (x2 : Vec F S2048x128 .f32) (x3 : Vec F S2048x128 .f32) (x4 : Vec F S128x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x4) ∗ owns (c : Thread nD τ) arg8 fullShare (out2_7 x0 x1 x3 x5)) -∗ K ⟨⟩))
      ⊢ wp frame (wpE (defs₀ (F := F)) Variants.none c none) E (cc2__kernelC i arg1 harg1 arg2 harg2 arg3 harg3 arg4 harg4 arg5 harg5 arg6 harg6 arg7 harg7 arg8 harg8) K := by
  simp only [cc2__kernelC_eq_skeleton]; unfold cc2__kernelC_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_S2048x128 _)
  iexists _; isplitr
  swap; · iexact H7
  ipureintro
  exact View.read_writes_eq_canon _ _ _ (cover2_S2048x128 _)

/-! ## The proof data -/

/-- The region's proof data on core `c`: the arrays as the region finds them; after the body each input's buffer at its block and
    each output's at its `out2_·` of the input blocks; the invariant is the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 4 t)
    | ⟨7, _⟩ => out2_7 (iblk2 V c 0 t) (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 4 t) := by dsimp only [dat2]
theorem after2_7 (c : Dev nD) (t : Fin cfg2.N) : (dat2 V c).after 7 t = out2_7 (iblk2 V c 0 t) (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at the point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.Run.lean ====
/-
  The idealized kernel's run, boundary by boundary. @main is five items: the reshapes of the two inputs and the ten
  biases, the three kernel regions, and the two reshapes of the results. Between two items every unscoped buffer of a
  core holds named contents: the launch memory, then what the reshapes write, then after each region its arrays at what
  its write-backs leave (the inputs as they were, each output at the blocks its points flushed) and every other buffer
  as before. Every weakly fair execution terminates with all unscoped buffers at the last of these contents; read at the
  24 arguments this is the frame (no item writes an argument), and read at the two results it names what the kernel
  computed. Stated for any float instance.
-/
import proofs.«127104_j29506425324178_1_alg».proof.Proof.Region0
import proofs.«127104_j29506425324178_1_alg».proof.Proof.Region1
import proofs.«127104_j29506425324178_1_alg».proof.Proof.Region2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the reshapes): the first region's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the last host stretch (the results reshaped): what the launch reads at the end. -/
abbrev W5 : Dev nD → Valuation τ sig (Elt F) := fun c => StableHlo.after hostOps3 (W4 m ρ c)

/-! ## What the host stretches write -/

theorem ops0_fresh : (hostOps0 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
abbrev ops0_W : List (Ref sig .tc) := [main_v0, main_v1, main_v2, main_v3, main_v4, main_v5, main_v6, main_v7, main_v8, main_v9, main_v10, main_v11]
theorem ops0_writes : (hostOps0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev ops3_W : List (Ref sig .tc) := [main_v15, main_v16]
theorem ops3_writes : (hostOps3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ ops3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ ops0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ ops3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ ops0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ ops3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := StableHlo.after_of_writes_sub hostOps0 _ ops0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ ops3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ ops0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ ops3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_writes_sub hostOps0 _ ops0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ ops3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ ops0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ ops3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := (W2_arr m ρ c 6).trans (((dat0 (U1 m ρ) c).arrAt_in 6 rfl _).trans (A_eq0 (U1 m ρ) c 6))
    _ = W0 m ρ c (Proc.devRef .tc main_arg6) := StableHlo.after_of_writes_sub hostOps0 _ ops0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ ops3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ ops0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps3 _ ops3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := (W2_arr m ρ c 8).trans (((dat0 (U1 m ρ) c).arrAt_in 8 rfl _).trans (A_eq0 (U1 m ρ) c 8))
    _ = W0 m ρ c (Proc.devRef .tc main_arg8) := StableHlo.after_of_writes_sub hostOps0 _ ops0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps3 _ ops3_writes (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ ops0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps3 _ ops3_writes (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := (W2_arr m ρ c 10).trans (((dat0 (U1 m ρ) c).arrAt_in 10 rfl _).trans (A_eq0 (U1 m ρ) c 10))
    _ = W0 m ρ c (Proc.devRef .tc main_arg10) := StableHlo.after_of_writes_sub hostOps0 _ ops0_writes (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps3 _ ops3_writes (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ ops0_writes (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps3 _ ops3_writes (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := (W2_arr m ρ c 12).trans (((dat0 (U1 m ρ) c).arrAt_in 12 rfl _).trans (A_eq0 (U1 m ρ) c 12))
    _ = W0 m ρ c (Proc.devRef .tc main_arg12) := StableHlo.after_of_writes_sub hostOps0 _ ops0_writes (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps3 _ ops3_writes (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ ops0_writes (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps3 _ ops3_writes (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := (W2_arr m ρ c 14).trans (((dat0 (U1 m ρ) c).arrAt_in 14 rfl _).trans (A_eq0 (U1 m ρ) c 14))
    _ = W0 m ρ c (Proc.devRef .tc main_arg14) := StableHlo.after_of_writes_sub hostOps0 _ ops0_writes (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps3 _ ops3_writes (by decide)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_writes_sub hostOps0 _ ops0_writes (by decide)
    _ = m ((c : Thread nD τ).loc main_arg15) := rfl

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps3 _ ops3_writes (by decide)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := (W2_arr m ρ c 16).trans (((dat0 (U1 m ρ) c).arrAt_in 16 rfl _).trans (A_eq0 (U1 m ρ) c 16))
    _ = W0 m ρ c (Proc.devRef .tc main_arg16) := StableHlo.after_of_writes_sub hostOps0 _ ops0_writes (by decide)
    _ = m ((c : Thread nD τ).loc main_arg16) := rfl

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps3 _ ops3_writes (by decide)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ ops0_writes (by decide)
    _ = m ((c : Thread nD τ).loc main_arg17) := rfl

theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps3 _ ops3_writes (by decide)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := (W2_arr m ρ c 18).trans (((dat0 (U1 m ρ) c).arrAt_in 18 rfl _).trans (A_eq0 (U1 m ρ) c 18))
    _ = W0 m ρ c (Proc.devRef .tc main_arg18) := StableHlo.after_of_writes_sub hostOps0 _ ops0_writes (by decide)
    _ = m ((c : Thread nD τ).loc main_arg18) := rfl

theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps3 _ ops3_writes (by decide)
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_writes_sub hostOps0 _ ops0_writes (by decide)
    _ = m ((c : Thread nD τ).loc main_arg19) := rfl

theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps3 _ ops3_writes (by decide)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := (W2_arr m ρ c 20).trans (((dat0 (U1 m ρ) c).arrAt_in 20 rfl _).trans (A_eq0 (U1 m ρ) c 20))
    _ = W0 m ρ c (Proc.devRef .tc main_arg20) := StableHlo.after_of_writes_sub hostOps0 _ ops0_writes (by decide)
    _ = m ((c : Thread nD τ).loc main_arg20) := rfl

theorem W5_main_arg21 (c : Dev nD) : W5 m ρ c (Proc.devRef .tc main_arg21) = m ((c : Thread nD τ).loc main_arg21) :=
  calc W5 m ρ c (Proc.devRef .tc main_arg21)
    _ = W4 m ρ c (Proc.devRef .tc main_arg21) := StableHlo.after_of_writes_sub hostOps3 _ ops3_writes (by decide)
    _ = W3 m ρ c (Proc.devRef .tc main_arg21) := W4_of_ne m ρ c main_arg21 (by decide)
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := StableHlo.after_of_writes_sub hostOps0 _ ops0_writes (by decide)
    _ = m ((c : Thread nD τ).loc main_arg21) := rfl

theorem W5_main_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_writes_sub hostOps3 _ ops3_writes (by decide)
    _ = W3 m ρ c (Proc.devRef .tc main_arg22) := (W4_arr m ρ c 4).trans (((dat2 (U3 m ρ) c).arrAt_in 4 rfl _).trans (A_eq2 (U3 m ρ) c 4))
    _ = W2 m ρ c (Proc.devRef .tc main_arg22) := W3_of_ne m ρ c main_arg22 (by decide)
    _ = W1 m ρ c (Proc.devRef .tc main_arg22) := W2_of_ne m ρ c main_arg22 (by decide)
    _ = W0 m ρ c (Proc.devRef .tc main_arg22) := StableHlo.after_of_writes_sub hostOps0 _ ops0_writes (by decide)
    _ = m ((c : Thread nD τ).loc main_arg22) := rfl

theorem W5_main_arg23 (c : Dev nD) : W5 m ρ c (Proc.devRef .tc main_arg23) = m ((c : Thread nD τ).loc main_arg23) :=
  calc W5 m ρ c (Proc.devRef .tc main_arg23)
    _ = W4 m ρ c (Proc.devRef .tc main_arg23) := StableHlo.after_of_writes_sub hostOps3 _ ops3_writes (by decide)
    _ = W3 m ρ c (Proc.devRef .tc main_arg23) := (W4_arr m ρ c 5).trans (((dat2 (U3 m ρ) c).arrAt_in 5 rfl _).trans (A_eq2 (U3 m ρ) c 5))
    _ = W2 m ρ c (Proc.devRef .tc main_arg23) := W3_of_ne m ρ c main_arg23 (by decide)
    _ = W1 m ρ c (Proc.devRef .tc main_arg23) := W2_of_ne m ρ c main_arg23 (by decide)
    _ = W0 m ρ c (Proc.devRef .tc main_arg23) := StableHlo.after_of_writes_sub hostOps0 _ ops0_writes (by decide)
    _ = m ((c : Thread nD τ).loc main_arg23) := rfl

/-! ## The proof data family and the thread state -/

abbrev adm3 : (p : Fin 3) → (pcfgs (F := F) p).Adm := fun p => (cfgs p).toPCfg_adm
/-- Every region's proof data, each at its region's entry contents. -/
def pdats3 : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
abbrev hseg3 (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc3 (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`; its arrays are split out
    of the unscoped buffers and put back at the exit contents; the generator register goes into the invariant and out. -/
def reg0 : Pipeline.RegionSeg (pcfgs (F := F)) adm3 (pdats3 m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats3 m ρ) launch0.win launch0.arr_whole c
      ((pdats3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m ρ) ((pdats3 m ρ 0 c).share_full fun _ => rfl)
      (U1 m ρ c) (U2 m ρ c) ((pdats3 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays are split out
    of the unscoped buffers and put back at the exit contents; the generator register goes into the invariant and out. -/
def reg1 : Pipeline.RegionSeg (pcfgs (F := F)) adm3 (pdats3 m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lz lvz 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm3 (pdats3 m ρ) launch1.win launch1.arr_whole c
      ((pdats3 m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (U2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm3 (Ix := Unit) (Name := ℕ) (U := UR sig nD τ) (Lvl := ℕ)
      launch1.win launch1.arr_whole c (pdats3 m ρ) ((pdats3 m ρ 1 c).share_full fun _ => rfl)
      (U2 m ρ c) (U3 m ρ c) ((pdats3 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays are split out
    of the unscoped buffers and put back at the exit contents; the generator register goes into the invariant and out. -/
def reg2 : Pipeline.RegionSeg (pcfgs (F := F)) adm3 (pdats3 m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ Lz lvz 2 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm3 (pdats3 m ρ) launch2.win launch2.arr_whole c
      ((pdats3 m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats3 m ρ) ((pdats3 m ρ 2 c).share_full fun _ => rfl)
      (U3 m ρ c) (U4 m ρ c) ((pdats3 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs5 : List (Pipeline.Seg (pcfgs (F := F)) adm3 (pdats3 m ρ) () defs₀ 𝒱₀ Lz lvz) :=
  [ .host (hseg3 hostOps0 hostOps0_sub ops0_fresh (W0 m ρ)),
    .region (reg0 m ρ),
    .region (reg1 m ρ),
    .region (reg2 m ρ),
    .host (hseg3 hostOps3 hostOps3_sub ops3_fresh (W4 m ρ)) ]
theorem main_run5 (c : Dev nD) : main (F := F) c = Pipeline.Seg.run (segs5 m ρ) := (main_chain c).trans (by chain_rfl)

set_option backward.isDefEq.respectTransparency.types false in
/-- THE RUN. From any memory with zero counters every weakly fair execution of @main terminates, nothing faulting, and
    every final state holds each unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm3 (pdats3 m ρ) () cellOf_inj emb₁ defs₀ 𝒱₀ Lz lvz m ρ main (segs5 m ρ)
    (fun c Q => by rw [main_run5 m ρ c])
    (by simp only [segs5, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tfin m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Rr c) ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c _ (mem_uc3 main_arg0 (by decide))).trans (W5_main_arg0 m ρ c),
    (h c _ (mem_uc3 main_arg1 (by decide))).trans (W5_main_arg1 m ρ c),
    (h c _ (mem_uc3 main_arg2 (by decide))).trans (W5_main_arg2 m ρ c),
    (h c _ (mem_uc3 main_arg3 (by decide))).trans (W5_main_arg3 m ρ c),
    (h c _ (mem_uc3 main_arg4 (by decide))).trans (W5_main_arg4 m ρ c),
    (h c _ (mem_uc3 main_arg5 (by decide))).trans (W5_main_arg5 m ρ c),
    (h c _ (mem_uc3 main_arg6 (by decide))).trans (W5_main_arg6 m ρ c),
    (h c _ (mem_uc3 main_arg7 (by decide))).trans (W5_main_arg7 m ρ c),
    (h c _ (mem_uc3 main_arg8 (by decide))).trans (W5_main_arg8 m ρ c),
    (h c _ (mem_uc3 main_arg9 (by decide))).trans (W5_main_arg9 m ρ c),
    (h c _ (mem_uc3 main_arg10 (by decide))).trans (W5_main_arg10 m ρ c),
    (h c _ (mem_uc3 main_arg11 (by decide))).trans (W5_main_arg11 m ρ c),
    (h c _ (mem_uc3 main_arg12 (by decide))).trans (W5_main_arg12 m ρ c),
    (h c _ (mem_uc3 main_arg13 (by decide))).trans (W5_main_arg13 m ρ c),
    (h c _ (mem_uc3 main_arg14 (by decide))).trans (W5_main_arg14 m ρ c),
    (h c _ (mem_uc3 main_arg15 (by decide))).trans (W5_main_arg15 m ρ c),
    (h c _ (mem_uc3 main_arg16 (by decide))).trans (W5_main_arg16 m ρ c),
    (h c _ (mem_uc3 main_arg17 (by decide))).trans (W5_main_arg17 m ρ c),
    (h c _ (mem_uc3 main_arg18 (by decide))).trans (W5_main_arg18 m ρ c),
    (h c _ (mem_uc3 main_arg19 (by decide))).trans (W5_main_arg19 m ρ c),
    (h c _ (mem_uc3 main_arg20 (by decide))).trans (W5_main_arg20 m ρ c),
    (h c _ (mem_uc3 main_arg21 (by decide))).trans (W5_main_arg21 m ρ c),
    (h c _ (mem_uc3 main_arg22 (by decide))).trans (W5_main_arg22 m ρ c),
    (h c _ (mem_uc3 main_arg23 (by decide))).trans (W5_main_arg23 m ρ c)⟩) (run_all m ρ)

end Cert.KernelIdeal.Gen

end
-- ==== Proof.Bits.Region0.lean ====
/-
  (The kernel as printed, at any float instance; used at the word level. Same mathematics as for its idealization.)
  The first kernel region (the incidence matrix) at the buffer contents `V` it is entered from: one grid point whose
  blocks are the whole arrays. The body reads xt, xn and the twenty weight blocks of five two-layer perceptrons, forms
  the four candidates  x · mlp(yᵀ),  concatenates them along the columns, applies the fifth perceptron, standardizes
  each column (divisor 2047 under the root, ε added to it) and takes the softmax down each column; that matrix H is its
  one store, of the whole output block. Stated for any float instance.
-/
import proofs.«127104_j29506425324178_1_alg».proof.Proof.Gen.Kernel.Launch
import proofs.«127104_j29506425324178_1_alg».proof.Proof.Gen.Kernel.Skeleton
import proofs.«127104_j29506425324178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data over `V`'s arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data over `V`'s arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data over `V`'s arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data over `V`'s arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data over `V`'s arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data over `V`'s arrays that leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data over `V`'s arrays that leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at the point, for any proof data over `V`'s arrays that leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at the point, for any proof data over `V`'s arrays that leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at the point, for any proof data over `V`'s arrays that leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at the point, for any proof data over `V`'s arrays that leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at the point, for any proof data over `V`'s arrays that leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at the point, for any proof data over `V`'s arrays that leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at the point, for any proof data over `V`'s arrays that leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's staging buffer holds its block at the point, for any proof data over `V`'s arrays that leaves the block in place. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- Input window 15's staging buffer holds its block at the point, for any proof data over `V`'s arrays that leaves the block in place. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- Input window 16's staging buffer holds its block at the point, for any proof data over `V`'s arrays that leaves the block in place. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-- Input window 17's staging buffer holds its block at the point, for any proof data over `V`'s arrays that leaves the block in place. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-- Input window 18's staging buffer holds its block at the point, for any proof data over `V`'s arrays that leaves the block in place. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-- Input window 19's staging buffer holds its block at the point, for any proof data over `V`'s arrays that leaves the block in place. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)

/-- Input window 20's staging buffer holds its block at the point, for any proof data over `V`'s arrays that leaves the block in place. -/
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

/-- Input window 21's staging buffer holds its block at the point, for any proof data over `V`'s arrays that leaves the block in place. -/
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_S2048x128 : Rect S2048x128 := Rect.unit (s := S2048x128) ![0, 0] S2048x128.size inb_S2048x128_S2048x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S512x128 : Rect S512x128 := Rect.unit (s := S512x128) ![0, 0] S512x128.size inb_S512x128_S512x128_0_0

/-- The output's buffer after the body: its one store, of the whole block, from the 22 input blocks (the values the body's three parts hand on are spelt as the body spells them). -/
def out0_22 (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) : Vec F S2048x128 .f32 :=
  View.canon [⟨r0_S2048x128, k0_pay1 (k0_pay10 (k0_pay3 (View.ld x1 r0_S2048x128)) (k0_pay4 (View.ld x0 r0_S2048x128) (View.ld x2 r0_S2048x128) (View.ld x3 r0_S1x128) (View.ld x4 r0_S128x128) (View.ld x5 r0_S1x128)) (k0_pay7 (k0_pay3 (View.ld x1 r0_S2048x128)) (View.ld x8 r0_S128x128) (k0_pay5 (View.ld x9 r0_S1x128)) (k0_pay6 (View.ld x1 r0_S2048x128) (View.ld x6 r0_S2048x128) (View.ld x7 r0_S1x128)) (constant S128x128 .f32 0x00000000#32)) (k0_pay8 (k0_pay2 (View.ld x0 r0_S2048x128)) (k0_pay3 (View.ld x1 r0_S2048x128)) (View.ld x10 r0_S2048x128) (View.ld x11 r0_S1x128) (View.ld x12 r0_S128x128) (View.ld x13 r0_S1x128)) (k0_pay9 (k0_pay2 (View.ld x0 r0_S2048x128)) (View.ld x14 r0_S2048x128) (View.ld x15 r0_S1x128) (View.ld x16 r0_S128x128) (View.ld x17 r0_S1x128)) (constant S2048x128 .f32 0x00000000#32) (View.ld x18 r0_S512x128) (View.ld x19 r0_S1x128) (View.ld x20 r0_S128x128) (View.ld x21 r0_S1x128)) (k0_pay11 (k0_pay3 (View.ld x1 r0_S2048x128)) (k0_pay4 (View.ld x0 r0_S2048x128) (View.ld x2 r0_S2048x128) (View.ld x3 r0_S1x128) (View.ld x4 r0_S128x128) (View.ld x5 r0_S1x128)) (k0_pay7 (k0_pay3 (View.ld x1 r0_S2048x128)) (View.ld x8 r0_S128x128) (k0_pay5 (View.ld x9 r0_S1x128)) (k0_pay6 (View.ld x1 r0_S2048x128) (View.ld x6 r0_S2048x128) (View.ld x7 r0_S1x128)) (constant S128x128 .f32 0x00000000#32)) (k0_pay8 (k0_pay2 (View.ld x0 r0_S2048x128)) (k0_pay3 (View.ld x1 r0_S2048x128)) (View.ld x10 r0_S2048x128) (View.ld x11 r0_S1x128) (View.ld x12 r0_S128x128) (View.ld x13 r0_S1x128)) (k0_pay9 (k0_pay2 (View.ld x0 r0_S2048x128)) (View.ld x14 r0_S2048x128) (View.ld x15 r0_S1x128) (View.ld x16 r0_S128x128) (View.ld x17 r0_S1x128)) (constant S2048x128 .f32 0x00000000#32) (View.ld x18 r0_S512x128) (View.ld x19 r0_S1x128) (View.ld x20 r0_S128x128) (View.ld x21 r0_S1x128))⟩]

/-- One whole-block store covers the buffer. -/
theorem cover0_S2048x128 (p0 : Vec F S2048x128 .f32) (y : S2048x128.Idx) :
    ∃ pc ∈ ([⟨r0_S2048x128, p0⟩] : List (View.Piece (Elt F) S2048x128 .f32)), y ∈ pc.1.set :=
  View.cover_of_tiled [⟨r0_S2048x128, p0⟩] S2048x128.size (by rfl) y

set_option maxHeartbeats 8000000 in
/-- The body on whole staging buffers, the inputs' at contents `x·` and the outputs' at anything, runs to the continuation
    with the inputs' as they were and each output's at its `out0_·` of the inputs'. -/
theorem sound_kernel0 (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S2048x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S512x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S2048x128 .f32) (harg23 : arg23.IsWhole)
    (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
        ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
            ∗ owns (c : Thread nD τ) arg23 fullShare (out0_22 x0 x1 x2 x3 x4 x5 x6 x7 x8 x9 x10 x11 x12 x13 x14 x15 x16 x17 x18 x19 x20 x21)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__kernelA_eq_skeleton]; unfold cc0__kernelA_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  exact View.read_writes_eq_canon _ _ _ (cover0_S2048x128 _)

/-! ## The proof data -/

/-- The region's proof data on core `c`: the arrays as the region finds them; after the body each input's buffer at its block and
    each output's at its `out0_·` of the input blocks; the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t)
    | ⟨_ + 23, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t))

set_option maxHeartbeats 2000000 in
/-- The body at the point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel0 c Set.univ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.Bits.Region1.lean ====
/-
  (The kernel as printed, at any float instance; used at the word level. Same mathematics as for its idealization.)
  The second kernel region (the pairwise Jensen–Shannon term and the edge weights) at the buffer contents `V` it is entered
  from: 32 grid points, point t reading rows 64t … 64t+63 of H. Two accumulators live in scratch buffers across the
  points: a[i] = Σₙ H[n,i]·log H[n,i] (a row of 128) and S[i,j] = Σₙ H[n,i]·log((H[n,i] + H[n,j])/2) (128 × 128). The
  body has three control cases: the first point zeroes both and adds its rows in; a middle point adds its rows in;
  the last point adds its rows in and then stores the edge weights — jsd = ((a − S) + (a − S)ᵀ)/2, its column means
  standardized (divisor 127 under the root, ε added) and soft-maxed — into the one output block, which is written back
  at that point only. What each case leaves in the accumulators and the output is found by running the body; the
  contents after point n are then defined by recursion on n, and the region's invariant carries them. Any float instance.
-/
import proofs.«127104_j29506425324178_1_alg».proof.Proof.Gen.Kernel.Launch
import proofs.«127104_j29506425324178_1_alg».proof.Proof.Gen.Kernel.Skeleton
import proofs.«127104_j29506425324178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The first branch's condition, from the grid coordinate: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The second branch's condition: the point is the last. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The input window is never idle. -/
theorem liveAt1_0 : ∀ t : Fin cfg1.N, cfg1.idle 0 (grid1.coords t) = false := by decide +kernel
/-- Away from the last point the output window is idle and not written back. -/
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
/-- At the last point it is live. -/
theorem liveAt1_1_C : ∀ t : Fin cfg1.N, ¬cond1_0 (grid1.coords t) → cond1_1 (grid1.coords t) → cfg1.idle 1 (grid1.coords t) = false := by decide +kernel

/-! ## The buffers the body is called with -/

abbrev VO1_1 : View sig .tc .vmem S1x128 .f32 := (Memref.whole cc1_stg1_0 : Memref sig .tc .vmem S1x128 .f32).view
abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
/-- The two accumulators: whole scratch buffers of the kernel's own. -/
abbrev scM1_0 : Memref sig .tc .vmem S1x128 .f32 := Memref.whole cc1_scratch0
abbrev scM1_1 : Memref sig .tc .vmem S128x128 .f32 := Memref.whole cc1_scratch1
abbrev VS1_0 : View sig .tc .vmem S1x128 .f32 := scM1_0.view
abbrev VS1_1 : View sig .tc .vmem S128x128 .f32 := scM1_1.view

/-- The untouched rest of the region's invariant with the two accumulators split out, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body in each control case: what it leaves, found by running it -/
set_option maxHeartbeats 4000000 in
/-- The body at the first point: both accumulators are zeroed, then the point's 64 rows are added in; nothing is stored into the output. On whole buffers — the input block at `x0`, the idle output at contents handed back untouched, the accumulators at anything — it runs to
    the continuation with each buffer it stored into holding the pieces the run finds. -/
noncomputable def kernelRun1_A (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) :
    Σ' (L1 : List (View.Piece (Elt F) S1x128 .f32)) (LS0 : List (View.Piece (Elt F) S1x128 .f32)), { LS1 : List (View.Piece (Elt F) S128x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨[], ?_, ?_, fun xi1 E K => ?run⟩
  case run =>
    simp only [cc1__kernelB_eq_skeleton]; unfold cc1__kernelB_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

set_option maxHeartbeats 4000000 in
/-- The body at a middle point: the point's 64 rows are added into the accumulators the point before left; nothing is stored into the output. On whole buffers — the input block at `x0`, the idle output at contents handed back untouched, the accumulators at what the point before left — it runs to
    the continuation with each buffer it stored into holding the pieces the run finds. -/
noncomputable def kernelRun1_B (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) :
    Σ' (L1 : List (View.Piece (Elt F) S1x128 .f32)) (LS0 : List (View.Piece (Elt F) S1x128 .f32)), { LS1 : List (View.Piece (Elt F) S128x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨[], ?_, ?_, fun xi1 E K => ?run⟩
  case run =>
    simp only [cc1__kernelB_eq_skeleton]; unfold cc1__kernelB_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

set_option maxHeartbeats 4000000 in
/-- The body at the last point: the point's 64 rows are added in, and the edge weights are computed from the two finished accumulators and stored into the output. On whole buffers — the input block at `x0`, the output at anything, the accumulators at what the point before left — it runs to
    the continuation with each buffer it stored into holding the pieces the run finds. -/
noncomputable def kernelRun1_C (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) :
    Σ' (L1 : List (View.Piece (Elt F) S1x128 .f32)) (LS0 : List (View.Piece (Elt F) S1x128 .f32)), { LS1 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc1__kernelB i arg1 harg1 arg2 harg2 arg3 harg3 arg4 harg4) K } := by
  refine ⟨?_, ?_, ?_, fun E K => ?run⟩
  case run =>
    simp only [cc1__kernelB_eq_skeleton]; unfold cc1__kernelB_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

/-- What case A leaves in the output's buffer: its pieces read back (none: a placeholder nothing consults, the window being idle there). -/
def out1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S1x128 .f32 :=
  VO1_1.read (Elt F) (VO1_1.writes (Elt F) VO1_1.junk (kernelRun1_A c i arg1 harg1 arg2 harg2 arg3 harg3 arg4 harg4 hc0 hc1 x0).1)

/-- Case A's stores into the first accumulator cover it. -/
theorem scover1_A_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) (y : S1x128.Idx) :
    ∃ pc ∈ (kernelRun1_A c i arg1 harg1 arg2 harg2 arg3 harg3 arg4 harg4 hc0 hc1 x0).2.1, y ∈ pc.1.set :=
  View.cover_of_tiledL (kernelRun1_A c i arg1 harg1 arg2 harg2 arg3 harg3 arg4 harg4 hc0 hc1 x0).2.1 S1x128.size (by sl_kernel_rfl) y

/-- What case A leaves in the first accumulator. -/
def sout1_A_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S1x128 .f32 :=
  VS1_0.read (Elt F) (VS1_0.writes (Elt F) VS1_0.junk (kernelRun1_A c i arg1 harg1 arg2 harg2 arg3 harg3 arg4 harg4 hc0 hc1 x0).2.1)

/-- Case A's stores into the second accumulator cover it. -/
theorem scover1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) (y : S128x128.Idx) :
    ∃ pc ∈ (kernelRun1_A c i arg1 harg1 arg2 harg2 arg3 harg3 arg4 harg4 hc0 hc1 x0).2.2.1, y ∈ pc.1.set :=
  View.cover_of_tiledL (kernelRun1_A c i arg1 harg1 arg2 harg2 arg3 harg3 arg4 harg4 hc0 hc1 x0).2.2.1 S128x128.size (by sl_kernel_rfl) y

/-- What case A leaves in the second accumulator. -/
def sout1_A_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : Vec F S128x128 .f32 :=
  VS1_1.read (Elt F) (VS1_1.writes (Elt F) VS1_1.junk (kernelRun1_A c i arg1 harg1 arg2 harg2 arg3 harg3 arg4 harg4 hc0 hc1 x0).2.2.1)

/-- What case B leaves in the output's buffer: its pieces read back (none: a placeholder nothing consults, the window being idle there). -/
def out1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S1x128 .f32 :=
  VO1_1.read (Elt F) (VO1_1.writes (Elt F) VO1_1.junk (kernelRun1_B c i arg1 harg1 arg2 harg2 arg3 harg3 arg4 harg4 hc0 hc1 x0 xs0 xs1).1)

/-- Case B's stores into the first accumulator cover it. -/
theorem scover1_B_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) (y : S1x128.Idx) :
    ∃ pc ∈ (kernelRun1_B c i arg1 harg1 arg2 harg2 arg3 harg3 arg4 harg4 hc0 hc1 x0 xs0 xs1).2.1, y ∈ pc.1.set :=
  View.cover_of_tiledL (kernelRun1_B c i arg1 harg1 arg2 harg2 arg3 harg3 arg4 harg4 hc0 hc1 x0 xs0 xs1).2.1 S1x128.size (by sl_kernel_rfl) y

/-- What case B leaves in the first accumulator. -/
def sout1_B_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S1x128 .f32 :=
  VS1_0.read (Elt F) (VS1_0.writes (Elt F) VS1_0.junk (kernelRun1_B c i arg1 harg1 arg2 harg2 arg3 harg3 arg4 harg4 hc0 hc1 x0 xs0 xs1).2.1)

/-- Case B's stores into the second accumulator cover it. -/
theorem scover1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) (y : S128x128.Idx) :
    ∃ pc ∈ (kernelRun1_B c i arg1 harg1 arg2 harg2 arg3 harg3 arg4 harg4 hc0 hc1 x0 xs0 xs1).2.2.1, y ∈ pc.1.set :=
  View.cover_of_tiledL (kernelRun1_B c i arg1 harg1 arg2 harg2 arg3 harg3 arg4 harg4 hc0 hc1 x0 xs0 xs1).2.2.1 S128x128.size (by sl_kernel_rfl) y

/-- What case B leaves in the second accumulator. -/
def sout1_B_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : Vec F S128x128 .f32 :=
  VS1_1.read (Elt F) (VS1_1.writes (Elt F) VS1_1.junk (kernelRun1_B c i arg1 harg1 arg2 harg2 arg3 harg3 arg4 harg4 hc0 hc1 x0 xs0 xs1).2.2.1)

/-- What case C leaves in the output's buffer: its pieces read back. -/
def out1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S1x128 .f32 :=
  VO1_1.read (Elt F) (VO1_1.writes (Elt F) VO1_1.junk (kernelRun1_C c i arg1 harg1 arg2 harg2 arg3 harg3 arg4 harg4 hc0 hc1 x0 xs0 xs1).1)

/-- Case C's one store covers the output block. -/
theorem cover1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S1x128.Idx) :
    ∃ pc ∈ (kernelRun1_C c i arg1 harg1 arg2 harg2 arg3 harg3 arg4 harg4 hc0 hc1 x0 xs0 xs1).1, y ∈ pc.1.set :=
  View.cover_of_tiledL (kernelRun1_C c i arg1 harg1 arg2 harg2 arg3 harg3 arg4 harg4 hc0 hc1 x0 xs0 xs1).1 S1x128.size (by sl_kernel_rfl) y

/-- Case C's stores into the first accumulator cover it. -/
theorem scover1_C_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S1x128.Idx) :
    ∃ pc ∈ (kernelRun1_C c i arg1 harg1 arg2 harg2 arg3 harg3 arg4 harg4 hc0 hc1 x0 xs0 xs1).2.1, y ∈ pc.1.set :=
  View.cover_of_tiledL (kernelRun1_C c i arg1 harg1 arg2 harg2 arg3 harg3 arg4 harg4 hc0 hc1 x0 xs0 xs1).2.1 S1x128.size (by sl_kernel_rfl) y

/-- What case C leaves in the first accumulator. -/
def sout1_C_0 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S1x128 .f32 :=
  VS1_0.read (Elt F) (VS1_0.writes (Elt F) VS1_0.junk (kernelRun1_C c i arg1 harg1 arg2 harg2 arg3 harg3 arg4 harg4 hc0 hc1 x0 xs0 xs1).2.1)

/-- Case C's stores into the second accumulator cover it. -/
theorem scover1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) (y : S128x128.Idx) :
    ∃ pc ∈ (kernelRun1_C c i arg1 harg1 arg2 harg2 arg3 harg3 arg4 harg4 hc0 hc1 x0 xs0 xs1).2.2.1, y ∈ pc.1.set :=
  View.cover_of_tiledL (kernelRun1_C c i arg1 harg1 arg2 harg2 arg3 harg3 arg4 harg4 hc0 hc1 x0 xs0 xs1).2.2.1 S128x128.size (by sl_kernel_rfl) y

/-- What case C leaves in the second accumulator. -/
def sout1_C_1 (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : Vec F S128x128 .f32 :=
  VS1_1.read (Elt F) (VS1_1.writes (Elt F) VS1_1.junk (kernelRun1_C c i arg1 harg1 arg2 harg2 arg3 harg3 arg4 harg4 hc0 hc1 x0 xs0 xs1).2.2.1)

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's 64 rows of H at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the output and the two accumulators hold after each point -/

/-- The accumulation: after the body at position `n` the output's buffer and the two accumulators hold what the case the
    position is in leaves, run at the position's block of H over what position `n − 1` left in the accumulators. -/
def outsAt1 (c : Dev nD) : (n : ℕ) → n < cfg1.N → Vec F S1x128 .f32 × Vec F S1x128 .f32 × Vec F S128x128 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 32 = 0 then
      if h1 : (n + 1) % 32 = 31 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 32 = 31 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

theorem outsAt1_A (c : Dev nD) (t : Fin cfg1.N) (h0 : t.val % 32 = 0) (h1 : ¬t.val % 32 = 31) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the untouched rest (both accumulators at anything);
    afterwards the two accumulators at what the position before left, beside the rest. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The region's proof data on core `c`: the arrays as the region finds them; after the body at a point the input's buffer at
    its block and the output's at the accumulation's first component; the invariant carries the accumulators; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 8000000 in
/-- The body at any point: the closed forms of the two conditions say which case the point is in; the invariant hands the
    body the accumulators at what the point before left (at anything before the first point) and takes them back at this
    point's contents; the output's buffer is handed back untouched where the window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨⟨⟨HS0, HS1⟩, Hrest⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _)
              unfold owns; iexists _; isplitr
              swap; · iexact HS1
              ipureintro; exact View.read_writes_of_cover _ _ _ _ _ (scover1_A_1 c _ _ _ _ _ _ _ _ _ _ _ _)
            iexact Hrest
          iexact Hg
        isplitl [Ho]; · iexact Ho
        isplitl [H0]; · iexact H0
        iexists _; iexact H1
      · exfalso; omega
  · by_cases h1 : t.val % 32 = 31
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0 sout1_C_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩⟩
      iapply ((kernelRun1_C c (grid1.coords t) _ _ _ _ _ _ _ _ (fun h => h0 ((hcond1_0 t).mp h)) ((hcond1_1 t).mpr h1) (iblk1 V c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩⟩
      iapply ((kernelRun1_B c (grid1.coords t) _ _ _ _ _ _ _ _ (fun h => h0 ((hcond1_0 t).mp h)) (fun h => h1 ((hcond1_1 t).mp h)) (iblk1 V c 0 t) _ _).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _)
          iexact Hrest
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Gen

end
-- ==== Proof.Bits.Region2.lean ====
/-
  (The kernel as printed, at any float instance; used at the word level. Same mathematics as for its idealization.)
  The third kernel region (the residual hypergraph convolution) at the buffer contents `V` it is entered from: one grid
  point whose blocks are the whole arrays. The body reads the six input blocks — H, the edge weights w, xt, xn and the
  two θ — and stores one whole block into each of its two outputs:
    out 6 = xt + elu((H·w) · (Hᵀ · (xt · θt))),   out 7 = xn + elu((H·w) · (Hᵀ · (xn · θn))),
  with elu(v) = v where v > 0 and exp(v) − 1 elsewhere. Stated for any float instance.
-/
import proofs.«127104_j29506425324178_1_alg».proof.Proof.Gen.Kernel.Launch
import proofs.«127104_j29506425324178_1_alg».proof.Proof.Gen.Kernel.Skeleton
import proofs.«127104_j29506425324178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at the point, for any proof data over `V`'s arrays that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at the point, for any proof data over `V`'s arrays that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at the point, for any proof data over `V`'s arrays that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at the point, for any proof data over `V`'s arrays that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at the point, for any proof data over `V`'s arrays that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at the point, for any proof data over `V`'s arrays that leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole block -/

abbrev r2_S2048x128 : Rect S2048x128 := Rect.unit (s := S2048x128) ![0, 0] S2048x128.size inb_S2048x128_S2048x128_0_0
abbrev r2_S1x128 : Rect S1x128 := Rect.unit (s := S1x128) ![0, 0] S1x128.size inb_S1x128_S1x128_0_0
abbrev r2_S128x128 : Rect S128x128 := Rect.unit (s := S128x128) ![0, 0] S128x128.size inb_S128x128_S128x128_0_0

/-- Output 6's buffer after the body: its one store, of the whole block, from the blocks of H, w, xt and θt. -/
def out2_6 (x0 : Vec F S2048x128 .f32) (x1 : Vec F S1x128 .f32) (x2 : Vec F S2048x128 .f32) (x4 : Vec F S128x128 .f32) : Vec F S2048x128 .f32 :=
  View.canon [⟨r2_S2048x128, k2_pay4 (View.ld x0 r2_S2048x128) (View.ld x1 r2_S1x128) (View.ld x2 r2_S2048x128) (View.ld x4 r2_S128x128)⟩]

/-- Output 7's buffer after the body, from the blocks of H, w, xn and θn. -/
def out2_7 (x0 : Vec F S2048x128 .f32) (x1 : Vec F S1x128 .f32) (x3 : Vec F S2048x128 .f32) (x5 : Vec F S128x128 .f32) : Vec F S2048x128 .f32 :=
  View.canon [⟨r2_S2048x128, k2_pay1 (k2_pay5 (View.ld x3 r2_S2048x128)) (k2_pay6 (View.ld x0 r2_S2048x128) (View.ld x1 r2_S1x128) (View.ld x3 r2_S2048x128) (View.ld x5 r2_S128x128))⟩]

/-- One whole-block store covers the buffer. -/
theorem cover2_S2048x128 (p0 : Vec F S2048x128 .f32) (y : S2048x128.Idx) :
    ∃ pc ∈ ([⟨r2_S2048x128, p0⟩] : List (View.Piece (Elt F) S2048x128 .f32)), y ∈ pc.1.set :=
  View.cover_of_tiled [⟨r2_S2048x128, p0⟩] S2048x128.size (by rfl) y

set_option maxHeartbeats 8000000 in
/-- The body on whole staging buffers, the inputs' at contents `x·` and the outputs' at anything, runs to the continuation
    with the inputs' as they were and each output's at its `out2_·` of the inputs'. -/
theorem sound_kernel2 (c : Dev nD) (E : Set ℕ) (i : grid2.Coords) (arg1 : Memref sig .tc .vmem S2048x128 .f32) (harg1 : arg1.IsWhole) (arg2 : Memref sig .tc .vmem S1x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S1x128 .f32) (x2 : Vec F S2048x128 .f32) (x3 : Vec F S2048x128 .f32) (x4 : Vec F S128x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x4) ∗ owns (c : Thread nD τ) arg8 fullShare (out2_7 x0 x1 x3 x5)) -∗ K ⟨⟩))
      ⊢ wp frame (wpE (defs₀ (F := F)) Variants.none c none) E (cc2__kernelC i arg1 harg1 arg2 harg2 arg3 harg3 arg4 harg4 arg5 harg5 arg6 harg6 arg7 harg7 arg8 harg8) K := by
  simp only [cc2__kernelC_eq_skeleton]; unfold cc2__kernelC_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_S2048x128 _)
  iexists _; isplitr
  swap; · iexact H7
  ipureintro
  exact View.read_writes_eq_canon _ _ _ (cover2_S2048x128 _)

/-! ## The proof data -/

/-- The region's proof data on core `c`: the arrays as the region finds them; after the body each input's buffer at its block and
    each output's at its `out2_·` of the input blocks; the invariant is the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 4 t)
    | ⟨7, _⟩ => out2_7 (iblk2 V c 0 t) (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 4 t) := by dsimp only [dat2]
theorem after2_7 (c : Dev nD) (t : Fin cfg2.N) : (dat2 V c).after 7 t = out2_7 (iblk2 V c 0 t) (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at the point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.Bits.Run.lean ====
/-
  (The kernel as printed, at any float instance; used at the word level. Same mathematics as for its idealization.)
  The idealized kernel's run, boundary by boundary. @main is five items: the reshapes of the two inputs and the ten
  biases, the three kernel regions, and the two reshapes of the results. Between two items every unscoped buffer of a
  core holds named contents: the launch memory, then what the reshapes write, then after each region its arrays at what
  its write-backs leave (the inputs as they were, each output at the blocks its points flushed) and every other buffer
  as before. Every weakly fair execution terminates with all unscoped buffers at the last of these contents; read at the
  24 arguments this is the frame (no item writes an argument), and read at the two results it names what the kernel
  computed. Stated for any float instance.
-/
import proofs.«127104_j29506425324178_1_alg».proof.Proof.Bits.Region0
import proofs.«127104_j29506425324178_1_alg».proof.Proof.Bits.Region1
import proofs.«127104_j29506425324178_1_alg».proof.Proof.Bits.Region2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the reshapes): the first region's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After the last host stretch (the results reshaped): what the launch reads at the end. -/
abbrev W5 : Dev nD → Valuation τ sig (Elt F) := fun c => StableHlo.after hostOps3 (W4 m ρ c)

/-! ## What the host stretches write -/

theorem ops0_fresh : (hostOps0 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
abbrev ops0_W : List (Ref sig .tc) := [main_v0, main_v1, main_v2, main_v3, main_v4, main_v5, main_v6, main_v7, main_v8, main_v9, main_v10, main_v11]
theorem ops0_writes : (hostOps0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev ops3_W : List (Ref sig .tc) := [main_v15, main_v16]
theorem ops3_writes : (hostOps3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ ops3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ ops0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ ops3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ ops0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ ops3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := StableHlo.after_of_writes_sub hostOps0 _ ops0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ ops3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ ops0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ ops3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_writes_sub hostOps0 _ ops0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ ops3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ ops0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ ops3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := (W2_arr m ρ c 6).trans (((dat0 (U1 m ρ) c).arrAt_in 6 rfl _).trans (A_eq0 (U1 m ρ) c 6))
    _ = W0 m ρ c (Proc.devRef .tc main_arg6) := StableHlo.after_of_writes_sub hostOps0 _ ops0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ ops3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ ops0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps3 _ ops3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := (W2_arr m ρ c 8).trans (((dat0 (U1 m ρ) c).arrAt_in 8 rfl _).trans (A_eq0 (U1 m ρ) c 8))
    _ = W0 m ρ c (Proc.devRef .tc main_arg8) := StableHlo.after_of_writes_sub hostOps0 _ ops0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps3 _ ops3_writes (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ ops0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps3 _ ops3_writes (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := (W2_arr m ρ c 10).trans (((dat0 (U1 m ρ) c).arrAt_in 10 rfl _).trans (A_eq0 (U1 m ρ) c 10))
    _ = W0 m ρ c (Proc.devRef .tc main_arg10) := StableHlo.after_of_writes_sub hostOps0 _ ops0_writes (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps3 _ ops3_writes (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ ops0_writes (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps3 _ ops3_writes (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := (W2_arr m ρ c 12).trans (((dat0 (U1 m ρ) c).arrAt_in 12 rfl _).trans (A_eq0 (U1 m ρ) c 12))
    _ = W0 m ρ c (Proc.devRef .tc main_arg12) := StableHlo.after_of_writes_sub hostOps0 _ ops0_writes (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps3 _ ops3_writes (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ ops0_writes (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps3 _ ops3_writes (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := (W2_arr m ρ c 14).trans (((dat0 (U1 m ρ) c).arrAt_in 14 rfl _).trans (A_eq0 (U1 m ρ) c 14))
    _ = W0 m ρ c (Proc.devRef .tc main_arg14) := StableHlo.after_of_writes_sub hostOps0 _ ops0_writes (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps3 _ ops3_writes (by decide)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_writes_sub hostOps0 _ ops0_writes (by decide)
    _ = m ((c : Thread nD τ).loc main_arg15) := rfl

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps3 _ ops3_writes (by decide)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := (W2_arr m ρ c 16).trans (((dat0 (U1 m ρ) c).arrAt_in 16 rfl _).trans (A_eq0 (U1 m ρ) c 16))
    _ = W0 m ρ c (Proc.devRef .tc main_arg16) := StableHlo.after_of_writes_sub hostOps0 _ ops0_writes (by decide)
    _ = m ((c : Thread nD τ).loc main_arg16) := rfl

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps3 _ ops3_writes (by decide)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ ops0_writes (by decide)
    _ = m ((c : Thread nD τ).loc main_arg17) := rfl

theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps3 _ ops3_writes (by decide)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := (W2_arr m ρ c 18).trans (((dat0 (U1 m ρ) c).arrAt_in 18 rfl _).trans (A_eq0 (U1 m ρ) c 18))
    _ = W0 m ρ c (Proc.devRef .tc main_arg18) := StableHlo.after_of_writes_sub hostOps0 _ ops0_writes (by decide)
    _ = m ((c : Thread nD τ).loc main_arg18) := rfl

theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps3 _ ops3_writes (by decide)
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_writes_sub hostOps0 _ ops0_writes (by decide)
    _ = m ((c : Thread nD τ).loc main_arg19) := rfl

theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps3 _ ops3_writes (by decide)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := (W2_arr m ρ c 20).trans (((dat0 (U1 m ρ) c).arrAt_in 20 rfl _).trans (A_eq0 (U1 m ρ) c 20))
    _ = W0 m ρ c (Proc.devRef .tc main_arg20) := StableHlo.after_of_writes_sub hostOps0 _ ops0_writes (by decide)
    _ = m ((c : Thread nD τ).loc main_arg20) := rfl

theorem W5_main_arg21 (c : Dev nD) : W5 m ρ c (Proc.devRef .tc main_arg21) = m ((c : Thread nD τ).loc main_arg21) :=
  calc W5 m ρ c (Proc.devRef .tc main_arg21)
    _ = W4 m ρ c (Proc.devRef .tc main_arg21) := StableHlo.after_of_writes_sub hostOps3 _ ops3_writes (by decide)
    _ = W3 m ρ c (Proc.devRef .tc main_arg21) := W4_of_ne m ρ c main_arg21 (by decide)
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := StableHlo.after_of_writes_sub hostOps0 _ ops0_writes (by decide)
    _ = m ((c : Thread nD τ).loc main_arg21) := rfl

theorem W5_main_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_writes_sub hostOps3 _ ops3_writes (by decide)
    _ = W3 m ρ c (Proc.devRef .tc main_arg22) := (W4_arr m ρ c 4).trans (((dat2 (U3 m ρ) c).arrAt_in 4 rfl _).trans (A_eq2 (U3 m ρ) c 4))
    _ = W2 m ρ c (Proc.devRef .tc main_arg22) := W3_of_ne m ρ c main_arg22 (by decide)
    _ = W1 m ρ c (Proc.devRef .tc main_arg22) := W2_of_ne m ρ c main_arg22 (by decide)
    _ = W0 m ρ c (Proc.devRef .tc main_arg22) := StableHlo.after_of_writes_sub hostOps0 _ ops0_writes (by decide)
    _ = m ((c : Thread nD τ).loc main_arg22) := rfl

theorem W5_main_arg23 (c : Dev nD) : W5 m ρ c (Proc.devRef .tc main_arg23) = m ((c : Thread nD τ).loc main_arg23) :=
  calc W5 m ρ c (Proc.devRef .tc main_arg23)
    _ = W4 m ρ c (Proc.devRef .tc main_arg23) := StableHlo.after_of_writes_sub hostOps3 _ ops3_writes (by decide)
    _ = W3 m ρ c (Proc.devRef .tc main_arg23) := (W4_arr m ρ c 5).trans (((dat2 (U3 m ρ) c).arrAt_in 5 rfl _).trans (A_eq2 (U3 m ρ) c 5))
    _ = W2 m ρ c (Proc.devRef .tc main_arg23) := W3_of_ne m ρ c main_arg23 (by decide)
    _ = W1 m ρ c (Proc.devRef .tc main_arg23) := W2_of_ne m ρ c main_arg23 (by decide)
    _ = W0 m ρ c (Proc.devRef .tc main_arg23) := StableHlo.after_of_writes_sub hostOps0 _ ops0_writes (by decide)
    _ = m ((c : Thread nD τ).loc main_arg23) := rfl

/-! ## The proof data family and the thread state -/

abbrev adm3 : (p : Fin 3) → (pcfgs (F := F) p).Adm := fun p => (cfgs p).toPCfg_adm
/-- Every region's proof data, each at its region's entry contents. -/
def pdats3 : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
abbrev hseg3 (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc3 (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`; its arrays are split out
    of the unscoped buffers and put back at the exit contents; the generator register goes into the invariant and out. -/
def reg0 : Pipeline.RegionSeg (pcfgs (F := F)) adm3 (pdats3 m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats3 m ρ) launch0.win launch0.arr_whole c
      ((pdats3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m ρ) ((pdats3 m ρ 0 c).share_full fun _ => rfl)
      (U1 m ρ c) (U2 m ρ c) ((pdats3 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays are split out
    of the unscoped buffers and put back at the exit contents; the generator register goes into the invariant and out. -/
def reg1 : Pipeline.RegionSeg (pcfgs (F := F)) adm3 (pdats3 m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lz lvz 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm3 (pdats3 m ρ) launch1.win launch1.arr_whole c
      ((pdats3 m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (U2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm3 (Ix := Unit) (Name := ℕ) (U := UR sig nD τ) (Lvl := ℕ)
      launch1.win launch1.arr_whole c (pdats3 m ρ) ((pdats3 m ρ 1 c).share_full fun _ => rfl)
      (U2 m ρ c) (U3 m ρ c) ((pdats3 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays are split out
    of the unscoped buffers and put back at the exit contents; the generator register goes into the invariant and out. -/
def reg2 : Pipeline.RegionSeg (pcfgs (F := F)) adm3 (pdats3 m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ Lz lvz 2 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm3 (pdats3 m ρ) launch2.win launch2.arr_whole c
      ((pdats3 m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats3 m ρ) ((pdats3 m ρ 2 c).share_full fun _ => rfl)
      (U3 m ρ c) (U4 m ρ c) ((pdats3 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs5 : List (Pipeline.Seg (pcfgs (F := F)) adm3 (pdats3 m ρ) () defs₀ 𝒱₀ Lz lvz) :=
  [ .host (hseg3 hostOps0 hostOps0_sub ops0_fresh (W0 m ρ)),
    .region (reg0 m ρ),
    .region (reg1 m ρ),
    .region (reg2 m ρ),
    .host (hseg3 hostOps3 hostOps3_sub ops3_fresh (W4 m ρ)) ]
theorem main_run5 (c : Dev nD) : main (F := F) c = Pipeline.Seg.run (segs5 m ρ) := (main_chain c).trans (by chain_rfl)

set_option backward.isDefEq.respectTransparency.types false in
/-- THE RUN. From any memory with zero counters every weakly fair execution of @main terminates, nothing faulting, and
    every final state holds each unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm3 (pdats3 m ρ) () cellOf_inj emb₁ defs₀ 𝒱₀ Lz lvz m ρ main (segs5 m ρ)
    (fun c Q => by rw [main_run5 m ρ c])
    (by simp only [segs5, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tfin m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Rr c) ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c _ (mem_uc3 main_arg0 (by decide))).trans (W5_main_arg0 m ρ c),
    (h c _ (mem_uc3 main_arg1 (by decide))).trans (W5_main_arg1 m ρ c),
    (h c _ (mem_uc3 main_arg2 (by decide))).trans (W5_main_arg2 m ρ c),
    (h c _ (mem_uc3 main_arg3 (by decide))).trans (W5_main_arg3 m ρ c),
    (h c _ (mem_uc3 main_arg4 (by decide))).trans (W5_main_arg4 m ρ c),
    (h c _ (mem_uc3 main_arg5 (by decide))).trans (W5_main_arg5 m ρ c),
    (h c _ (mem_uc3 main_arg6 (by decide))).trans (W5_main_arg6 m ρ c),
    (h c _ (mem_uc3 main_arg7 (by decide))).trans (W5_main_arg7 m ρ c),
    (h c _ (mem_uc3 main_arg8 (by decide))).trans (W5_main_arg8 m ρ c),
    (h c _ (mem_uc3 main_arg9 (by decide))).trans (W5_main_arg9 m ρ c),
    (h c _ (mem_uc3 main_arg10 (by decide))).trans (W5_main_arg10 m ρ c),
    (h c _ (mem_uc3 main_arg11 (by decide))).trans (W5_main_arg11 m ρ c),
    (h c _ (mem_uc3 main_arg12 (by decide))).trans (W5_main_arg12 m ρ c),
    (h c _ (mem_uc3 main_arg13 (by decide))).trans (W5_main_arg13 m ρ c),
    (h c _ (mem_uc3 main_arg14 (by decide))).trans (W5_main_arg14 m ρ c),
    (h c _ (mem_uc3 main_arg15 (by decide))).trans (W5_main_arg15 m ρ c),
    (h c _ (mem_uc3 main_arg16 (by decide))).trans (W5_main_arg16 m ρ c),
    (h c _ (mem_uc3 main_arg17 (by decide))).trans (W5_main_arg17 m ρ c),
    (h c _ (mem_uc3 main_arg18 (by decide))).trans (W5_main_arg18 m ρ c),
    (h c _ (mem_uc3 main_arg19 (by decide))).trans (W5_main_arg19 m ρ c),
    (h c _ (mem_uc3 main_arg20 (by decide))).trans (W5_main_arg20 m ρ c),
    (h c _ (mem_uc3 main_arg21 (by decide))).trans (W5_main_arg21 m ρ c),
    (h c _ (mem_uc3 main_arg22 (by decide))).trans (W5_main_arg22 m ρ c),
    (h c _ (mem_uc3 main_arg23 (by decide))).trans (W5_main_arg23 m ρ c)⟩) (run_all m ρ)

end Cert.Kernel.Gen

end
-- ==== Proof.RefRun.lean ====
/-
  The reference program's run. @main is a straight line of 236 array operations once its four calls are unfolded
  (the standard deviation twice: the variance's operations, a guard that selects, a square root; the
  exponential-linear unit twice: two comparisons, two selects, an exponential minus one): `main c = seq ops`.
  Hence (`run_seq`) every weakly fair execution terminates and each buffer ends at the fold `after ops` of the
  operations' results over the launch contents; and since every operation writes one buffer of its own, none of them
  an argument, the 24 arguments end as launched.
-/
import proofs.«127104_j29506425324178_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The operations

The reference as one straight line: @main's own operations in order, and in the place of each call the callee's
operations over that call's buffers (a callee that itself calls is unfolded the same way). The line is stated in
three stretches, one per window of @main. -/

/-- Statements 1–60: the four candidate products, their concatenation, the first layer of the fifth perceptron. -/
abbrev ops0 : List (HloOp τ sig (Elt F)) :=
  [ StableHlo.reshape main_arg0 main_v0 rfl shapeCasts_S64x32x128_S2048x128,
    StableHlo.reshape main_arg1 main_v1 rfl shapeCasts_S64x32x128_S2048x128,
    StableHlo.unary main_v0 main_v2 ((transpose S128x2048 [1, 0] · transposes_S2048x128_S128x2048_1_0) : (⟨S2048x128, .f32⟩ : BufTy).Contents (Elt F) → (⟨S128x2048, .f32⟩ : BufTy).Contents (Elt F)),
    StableHlo.binary main_v2 main_arg2 main_v3 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.unary main_arg3 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S128x128 ![0, 1] bcast_S1x128_S128x128_0_1 : (⟨S1x128, .f32⟩ : BufTy).Contents (Elt F) → (⟨S128x128, .f32⟩ : BufTy).Contents (Elt F)),
    StableHlo.binary main_v3 main_v5 main_v6 (addf : (⟨S128x128, .f32⟩ : BufTy).Contents (Elt F) → (⟨S128x128, .f32⟩ : BufTy).Contents (Elt F) → (⟨S128x128, .f32⟩ : BufTy).Contents (Elt F)),
    StableHlo.nullary main_cst (constant S_ .f32 0x00000000#32),
    StableHlo.unary main_cst main_v7 (broadcastInDim S128x128 ![] bcast_S_S128x128 : (⟨S_, .f32⟩ : BufTy).Contents (Elt F) → (⟨S128x128, .f32⟩ : BufTy).Contents (Elt F)),
    StableHlo.binary main_v6 main_v7 main_v8 (maximumf : (⟨S128x128, .f32⟩ : BufTy).Contents (Elt F) → (⟨S128x128, .f32⟩ : BufTy).Contents (Elt F) → (⟨S128x128, .f32⟩ : BufTy).Contents (Elt F)),
    StableHlo.binary main_v8 main_arg4 main_v9 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg5 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S128x128 ![0, 1] bcast_S1x128_S128x128_0_1 : (⟨S1x128, .f32⟩ : BufTy).Contents (Elt F) → (⟨S128x128, .f32⟩ : BufTy).Contents (Elt F)),
    StableHlo.binary main_v9 main_v11 main_v12 (addf : (⟨S128x128, .f32⟩ : BufTy).Contents (Elt F) → (⟨S128x128, .f32⟩ : BufTy).Contents (Elt F) → (⟨S128x128, .f32⟩ : BufTy).Contents (Elt F)),
    StableHlo.binary main_v0 main_v12 main_v13 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_v1 main_v14 ((transpose S128x2048 [1, 0] · transposes_S2048x128_S128x2048_1_0) : (⟨S2048x128, .f32⟩ : BufTy).Contents (Elt F) → (⟨S128x2048, .f32⟩ : BufTy).Contents (Elt F)),
    StableHlo.binary main_v14 main_arg6 main_v15 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.unary main_arg7 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S128x128 ![0, 1] bcast_S1x128_S128x128_0_1 : (⟨S1x128, .f32⟩ : BufTy).Contents (Elt F) → (⟨S128x128, .f32⟩ : BufTy).Contents (Elt F)),
    StableHlo.binary main_v15 main_v17 main_v18 (addf : (⟨S128x128, .f32⟩ : BufTy).Contents (Elt F) → (⟨S128x128, .f32⟩ : BufTy).Contents (Elt F) → (⟨S128x128, .f32⟩ : BufTy).Contents (Elt F)),
    StableHlo.nullary main_cst_0 (constant S_ .f32 0x00000000#32),
    StableHlo.unary main_cst_0 main_v19 (broadcastInDim S128x128 ![] bcast_S_S128x128 : (⟨S_, .f32⟩ : BufTy).Contents (Elt F) → (⟨S128x128, .f32⟩ : BufTy).Contents (Elt F)),
    StableHlo.binary main_v18 main_v19 main_v20 (maximumf : (⟨S128x128, .f32⟩ : BufTy).Contents (Elt F) → (⟨S128x128, .f32⟩ : BufTy).Contents (Elt F) → (⟨S128x128, .f32⟩ : BufTy).Contents (Elt F)),
    StableHlo.binary main_v20 main_arg8 main_v21 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg9 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S128x128 ![0, 1] bcast_S1x128_S128x128_0_1 : (⟨S1x128, .f32⟩ : BufTy).Contents (Elt F) → (⟨S128x128, .f32⟩ : BufTy).Contents (Elt F)),
    StableHlo.binary main_v21 main_v23 main_v24 (addf : (⟨S128x128, .f32⟩ : BufTy).Contents (Elt F) → (⟨S128x128, .f32⟩ : BufTy).Contents (Elt F) → (⟨S128x128, .f32⟩ : BufTy).Contents (Elt F)),
    StableHlo.binary main_v1 main_v24 main_v25 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_v1 main_v26 ((transpose S128x2048 [1, 0] · transposes_S2048x128_S128x2048_1_0) : (⟨S2048x128, .f32⟩ : BufTy).Contents (Elt F) → (⟨S128x2048, .f32⟩ : BufTy).Contents (Elt F)),
    StableHlo.binary main_v26 main_arg10 main_v27 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.unary main_arg11 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S128x128 ![0, 1] bcast_S1x128_S128x128_0_1 : (⟨S1x128, .f32⟩ : BufTy).Contents (Elt F) → (⟨S128x128, .f32⟩ : BufTy).Contents (Elt F)),
    StableHlo.binary main_v27 main_v29 main_v30 (addf : (⟨S128x128, .f32⟩ : BufTy).Contents (Elt F) → (⟨S128x128, .f32⟩ : BufTy).Contents (Elt F) → (⟨S128x128, .f32⟩ : BufTy).Contents (Elt F)),
    StableHlo.nullary main_cst_1 (constant S_ .f32 0x00000000#32),
    StableHlo.unary main_cst_1 main_v31 (broadcastInDim S128x128 ![] bcast_S_S128x128 : (⟨S_, .f32⟩ : BufTy).Contents (Elt F) → (⟨S128x128, .f32⟩ : BufTy).Contents (Elt F)),
    StableHlo.binary main_v30 main_v31 main_v32 (maximumf : (⟨S128x128, .f32⟩ : BufTy).Contents (Elt F) → (⟨S128x128, .f32⟩ : BufTy).Contents (Elt F) → (⟨S128x128, .f32⟩ : BufTy).Contents (Elt F)),
    StableHlo.binary main_v32 main_arg12 main_v33 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg13 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S128x128 ![0, 1] bcast_S1x128_S128x128_0_1 : (⟨S1x128, .f32⟩ : BufTy).Contents (Elt F) → (⟨S128x128, .f32⟩ : BufTy).Contents (Elt F)),
    StableHlo.binary main_v33 main_v35 main_v36 (addf : (⟨S128x128, .f32⟩ : BufTy).Contents (Elt F) → (⟨S128x128, .f32⟩ : BufTy).Contents (Elt F) → (⟨S128x128, .f32⟩ : BufTy).Contents (Elt F)),
    StableHlo.binary main_v0 main_v36 main_v37 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_v0 main_v38 ((transpose S128x2048 [1, 0] · transposes_S2048x128_S128x2048_1_0) : (⟨S2048x128, .f32⟩ : BufTy).Contents (Elt F) → (⟨S128x2048, .f32⟩ : BufTy).Contents (Elt F)),
    StableHlo.binary main_v38 main_arg14 main_v39 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.unary main_arg15 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S128x128 ![0, 1] bcast_S1x128_S128x128_0_1 : (⟨S1x128, .f32⟩ : BufTy).Contents (Elt F) → (⟨S128x128, .f32⟩ : BufTy).Contents (Elt F)),
    StableHlo.binary main_v39 main_v41 main_v42 (addf : (⟨S128x128, .f32⟩ : BufTy).Contents (Elt F) → (⟨S128x128, .f32⟩ : BufTy).Contents (Elt F) → (⟨S128x128, .f32⟩ : BufTy).Contents (Elt F)),
    StableHlo.nullary main_cst_2 (constant S_ .f32 0x00000000#32),
    StableHlo.unary main_cst_2 main_v43 (broadcastInDim S128x128 ![] bcast_S_S128x128 : (⟨S_, .f32⟩ : BufTy).Contents (Elt F) → (⟨S128x128, .f32⟩ : BufTy).Contents (Elt F)),
    StableHlo.binary main_v42 main_v43 main_v44 (maximumf : (⟨S128x128, .f32⟩ : BufTy).Contents (Elt F) → (⟨S128x128, .f32⟩ : BufTy).Contents (Elt F) → (⟨S128x128, .f32⟩ : BufTy).Contents (Elt F)),
    StableHlo.binary main_v44 main_arg16 main_v45 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg17 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S128x128 ![0, 1] bcast_S1x128_S128x128_0_1 : (⟨S1x128, .f32⟩ : BufTy).Contents (Elt F) → (⟨S128x128, .f32⟩ : BufTy).Contents (Elt F)),
    StableHlo.binary main_v45 main_v47 main_v48 (addf : (⟨S128x128, .f32⟩ : BufTy).Contents (Elt F) → (⟨S128x128, .f32⟩ : BufTy).Contents (Elt F) → (⟨S128x128, .f32⟩ : BufTy).Contents (Elt F)),
    StableHlo.binary main_v1 main_v48 main_v49 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.nary ![main_v13, main_v25, main_v37, main_v49] main_v50 (fun u => concatenate S2048x512 1 [⟨S2048x128, u 0⟩, ⟨S2048x128, u 1⟩, ⟨S2048x128, u 2⟩, ⟨S2048x128, u 3⟩] concatenates_S2048x128_S2048x128_S2048x128_S2048x128_S2048x512_d1),
    StableHlo.binary main_v50 main_arg18 main_v51 ((fun l r => Host.dotGeneral dot_S2048x512_S512x128_S2048x128_1_0_0_1_n_n none l r) : (⟨S2048x512, .f32⟩ : BufTy).Contents (Elt F) → (⟨S512x128, .f32⟩ : BufTy).Contents (Elt F) → (⟨S2048x128, .f32⟩ : BufTy).Contents (Elt F)),
    StableHlo.unary main_arg19 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S2048x128 ![0, 1] bcast_S1x128_S2048x128_0_1 : (⟨S1x128, .f32⟩ : BufTy).Contents (Elt F) → (⟨S2048x128, .f32⟩ : BufTy).Contents (Elt F)),
    StableHlo.binary main_v51 main_v53 main_v54 (addf : (⟨S2048x128, .f32⟩ : BufTy).Contents (Elt F) → (⟨S2048x128, .f32⟩ : BufTy).Contents (Elt F) → (⟨S2048x128, .f32⟩ : BufTy).Contents (Elt F)),
    StableHlo.nullary main_cst_3 (constant S_ .f32 0x00000000#32) ]

/-- Statements 61–120: the second layer, the column standardization (the unbiased deviation: the variance function's
    operations, its guard's three, the square root), the column softmax, the pairwise divergence and its symmetrization. -/
abbrev ops1 : List (HloOp τ sig (Elt F)) :=
  [ StableHlo.unary main_cst_3 main_v55 (broadcastInDim S2048x128 ![] bcast_S_S2048x128 : (⟨S_, .f32⟩ : BufTy).Contents (Elt F) → (⟨S2048x128, .f32⟩ : BufTy).Contents (Elt F)),
    StableHlo.binary main_v54 main_v55 main_v56 (maximumf : (⟨S2048x128, .f32⟩ : BufTy).Contents (Elt F) → (⟨S2048x128, .f32⟩ : BufTy).Contents (Elt F) → (⟨S2048x128, .f32⟩ : BufTy).Contents (Elt F)),
    StableHlo.binary main_v56 main_arg20 main_v57 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg21 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S2048x128 ![0, 1] bcast_S1x128_S2048x128_0_1 : (⟨S1x128, .f32⟩ : BufTy).Contents (Elt F) → (⟨S2048x128, .f32⟩ : BufTy).Contents (Elt F)),
    StableHlo.binary main_v57 main_v59 main_v60 (addf : (⟨S2048x128, .f32⟩ : BufTy).Contents (Elt F) → (⟨S2048x128, .f32⟩ : BufTy).Contents (Elt F) → (⟨S2048x128, .f32⟩ : BufTy).Contents (Elt F)),
    StableHlo.nullary main_cst_4 (constant S_ .f32 0x00000000#32),
    StableHlo.binary main_v60 main_cst_4 main_v61 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.nullary main_cst_5 (constant S_ .f32 0x45000000#32),
    StableHlo.unary main_cst_5 main_v63 (broadcastInDim S1x128 ![] bcast_S_S1x128 : (⟨S_, .f32⟩ : BufTy).Contents (Elt F) → (⟨S1x128, .f32⟩ : BufTy).Contents (Elt F)),
    StableHlo.binary main_v62 main_v63 main_v64 (Host.divf : (⟨S1x128, .f32⟩ : BufTy).Contents (Elt F) → (⟨S1x128, .f32⟩ : BufTy).Contents (Elt F) → (⟨S1x128, .f32⟩ : BufTy).Contents (Elt F)),
    StableHlo.unary main_v64 main_v65 (broadcastInDim S2048x128 ![0, 1] bcast_S1x128_S2048x128_0_1 : (⟨S1x128, .f32⟩ : BufTy).Contents (Elt F) → (⟨S2048x128, .f32⟩ : BufTy).Contents (Elt F)),
    StableHlo.binary main_v60 main_v65 main_v66 (subf : (⟨S2048x128, .f32⟩ : BufTy).Contents (Elt F) → (⟨S2048x128, .f32⟩ : BufTy).Contents (Elt F) → (⟨S2048x128, .f32⟩ : BufTy).Contents (Elt F)),
    StableHlo.nullary main_c (constantI S_ 32 1#32),
    StableHlo.TRef.nullary main_call0.call0.cst (constant S_ .f32 0x00000000#32),
    StableHlo.TRef.binary (.of main_v60 : StableHlo.TRef sig ⟨S2048x128, .f32⟩) main_call0.call0.cst main_call0.call0.v0 (fun x v => Host.reduceAdd x v reducesTo_S2048x128_S128_d0 h_S_),
    StableHlo.TRef.unary main_call0.call0.v0 main_call0.call0.v1 (broadcastInDim S1x128 ![1] bcast_S128_S1x128_1),
    StableHlo.TRef.nullary main_call0.call0.cst_0 (constant S_ .f32 0x45000000#32),
    StableHlo.TRef.unary main_call0.call0.cst_0 main_call0.call0.v2 (broadcastInDim S1x128 ![] bcast_S_S1x128),
    StableHlo.TRef.binary main_call0.call0.v1 main_call0.call0.v2 main_call0.call0.v3 Host.divf,
    StableHlo.TRef.unary main_call0.call0.v3 main_call0.call0.v4 (broadcastInDim S2048x128 ![0, 1] bcast_S1x128_S2048x128_0_1),
    StableHlo.TRef.binary (.of main_v60 : StableHlo.TRef sig ⟨S2048x128, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x45000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S2048x128_S128_d0 h_S_),
    StableHlo.TRef.unary main_call0.call0.v9 main_call0.call0.v10 (broadcastInDim S1x128 ![1] bcast_S128_S1x128_1),
    StableHlo.TRef.unary main_call0.call0.v8 main_call0.call0.v11 (broadcastInDim S1x128 ![] bcast_S_S1x128),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S1x128 ![] bcast_S_S1x128),
    StableHlo.TRef.ternary main_call0.call0.v13 main_call0.call0.v12 main_call0.call0.call0.v1 main_call0.call0.call0.v2 (fun p a b => select (broadcastInDim S1x128 ![] bcast_S_S1x128 p) a b),
    StableHlo.TRef.unary main_call0.call0.call0.v2 main_call0.v1 Host.sqrt,
    StableHlo.nullary main_cst_6 (constant S_ .f32 0x358637BD#32),
    StableHlo.unary main_cst_6 main_v68 (broadcastInDim S1x128 ![] bcast_S_S1x128 : (⟨S_, .f32⟩ : BufTy).Contents (Elt F) → (⟨S1x128, .f32⟩ : BufTy).Contents (Elt F)),
    StableHlo.binary main_v67 main_v68 main_v69 (addf : (⟨S1x128, .f32⟩ : BufTy).Contents (Elt F) → (⟨S1x128, .f32⟩ : BufTy).Contents (Elt F) → (⟨S1x128, .f32⟩ : BufTy).Contents (Elt F)),
    StableHlo.unary main_v69 main_v70 (broadcastInDim S2048x128 ![0, 1] bcast_S1x128_S2048x128_0_1 : (⟨S1x128, .f32⟩ : BufTy).Contents (Elt F) → (⟨S2048x128, .f32⟩ : BufTy).Contents (Elt F)),
    StableHlo.binary main_v66 main_v70 main_v71 (Host.divf : (⟨S2048x128, .f32⟩ : BufTy).Contents (Elt F) → (⟨S2048x128, .f32⟩ : BufTy).Contents (Elt F) → (⟨S2048x128, .f32⟩ : BufTy).Contents (Elt F)),
    StableHlo.nullary main_cst_7 (constant S_ .f32 0xFF800000#32),
    StableHlo.binary main_v71 main_cst_7 main_v72 ((fun x v => Host.reduce FloatOps.maximumf x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_8 (constant S_ .f32 0xFF800000#32),
    StableHlo.unary main_cst_8 main_v73 (broadcastInDim S128 ![] bcast_S_S128 : (⟨S_, .f32⟩ : BufTy).Contents (Elt F) → (⟨S128, .f32⟩ : BufTy).Contents (Elt F)),
    StableHlo.binary main_v73 main_v72 main_v74 (maximumf : (⟨S128, .f32⟩ : BufTy).Contents (Elt F) → (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S2048x128 ![0, 1] bcast_S1x128_S2048x128_0_1 : (⟨S1x128, .f32⟩ : BufTy).Contents (Elt F) → (⟨S2048x128, .f32⟩ : BufTy).Contents (Elt F)),
    StableHlo.binary main_v71 main_v76 main_v77 (subf : (⟨S2048x128, .f32⟩ : BufTy).Contents (Elt F) → (⟨S2048x128, .f32⟩ : BufTy).Contents (Elt F) → (⟨S2048x128, .f32⟩ : BufTy).Contents (Elt F)),
    StableHlo.unary main_v77 main_v78 (Host.exp : (⟨S2048x128, .f32⟩ : BufTy).Contents (Elt F) → (⟨S2048x128, .f32⟩ : BufTy).Contents (Elt F)),
    StableHlo.nullary main_cst_9 (constant S_ .f32 0x00000000#32),
    StableHlo.binary main_v78 main_cst_9 main_v79 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S2048x128 ![0, 1] bcast_S1x128_S2048x128_0_1 : (⟨S1x128, .f32⟩ : BufTy).Contents (Elt F) → (⟨S2048x128, .f32⟩ : BufTy).Contents (Elt F)),
    StableHlo.binary main_v78 main_v81 main_v82 (Host.divf : (⟨S2048x128, .f32⟩ : BufTy).Contents (Elt F) → (⟨S2048x128, .f32⟩ : BufTy).Contents (Elt F) → (⟨S2048x128, .f32⟩ : BufTy).Contents (Elt F)),
    StableHlo.unary main_v82 main_v83 (Host.log : (⟨S2048x128, .f32⟩ : BufTy).Contents (Elt F) → (⟨S2048x128, .f32⟩ : BufTy).Contents (Elt F)),
    StableHlo.unary main_v82 main_v84 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v82 main_v85 (broadcastInDim S2048x1x128 ![0, 2] bcast_S2048x128_S2048x1x128_0_2 : (⟨S2048x128, .f32⟩ : BufTy).Contents (Elt F) → (⟨S2048x1x128, .f32⟩ : BufTy).Contents (Elt F)),
    StableHlo.unary main_v84 main_v86 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.unary main_v85 main_v87 (broadcastInDim S2048x128x128 ![0, 1, 2] bcast_S2048x1x128_S2048x128x128_0_1_2 : (⟨S2048x1x128, .f32⟩ : BufTy).Contents (Elt F) → (⟨S2048x128x128, .f32⟩ : BufTy).Contents (Elt F)),
    StableHlo.binary main_v86 main_v87 main_v88 (addf : (⟨S2048x128x128, .f32⟩ : BufTy).Contents (Elt F) → (⟨S2048x128x128, .f32⟩ : BufTy).Contents (Elt F) → (⟨S2048x128x128, .f32⟩ : BufTy).Contents (Elt F)),
    StableHlo.nullary main_cst_10 (constant S_ .f32 0x3F000000#32),
    StableHlo.unary main_cst_10 main_v89 (broadcastInDim S2048x128x128 ![] bcast_S_S2048x128x128 : (⟨S_, .f32⟩ : BufTy).Contents (Elt F) → (⟨S2048x128x128, .f32⟩ : BufTy).Contents (Elt F)),
    StableHlo.binary main_v88 main_v89 main_v90 (mulf : (⟨S2048x128x128, .f32⟩ : BufTy).Contents (Elt F) → (⟨S2048x128x128, .f32⟩ : BufTy).Contents (Elt F) → (⟨S2048x128x128, .f32⟩ : BufTy).Contents (Elt F)),
    StableHlo.unary main_v82 main_v91 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v83 main_v92 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v90 main_v93 (Host.log : (⟨S2048x128x128, .f32⟩ : BufTy).Contents (Elt F) → (⟨S2048x128x128, .f32⟩ : BufTy).Contents (Elt F)),
    StableHlo.unary main_v92 main_v94 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.binary main_v94 main_v93 main_v95 (subf : (⟨S2048x128x128, .f32⟩ : BufTy).Contents (Elt F) → (⟨S2048x128x128, .f32⟩ : BufTy).Contents (Elt F) → (⟨S2048x128x128, .f32⟩ : BufTy).Contents (Elt F)),
    StableHlo.unary main_v91 main_v96 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.binary main_v96 main_v95 main_v97 (mulf : (⟨S2048x128x128, .f32⟩ : BufTy).Contents (Elt F) → (⟨S2048x128x128, .f32⟩ : BufTy).Contents (Elt F) → (⟨S2048x128x128, .f32⟩ : BufTy).Contents (Elt F)),
    StableHlo.nullary main_cst_11 (constant S_ .f32 0x00000000#32),
    StableHlo.binary main_v97 main_cst_11 main_v98 ((fun x v => Host.reduceAdd x v reducesTo_S2048x128x128_S128x128_d0 h_S_) : (⟨S2048x128x128, .f32⟩ : BufTy).Contents (Elt F) → (⟨S_, .f32⟩ : BufTy).Contents (Elt F) → (⟨S128x128, .f32⟩ : BufTy).Contents (Elt F)),
    StableHlo.unary main_v98 main_v99 ((transpose S128x128 [1, 0] · transposes_S128x128_S128x128_1_0) : (⟨S128x128, .f32⟩ : BufTy).Contents (Elt F) → (⟨S128x128, .f32⟩ : BufTy).Contents (Elt F)),
    StableHlo.binary main_v98 main_v99 main_v100 (addf : (⟨S128x128, .f32⟩ : BufTy).Contents (Elt F) → (⟨S128x128, .f32⟩ : BufTy).Contents (Elt F) → (⟨S128x128, .f32⟩ : BufTy).Contents (Elt F)),
    StableHlo.nullary main_cst_12 (constant S_ .f32 0x3F000000#32),
    StableHlo.unary main_cst_12 main_v101 (broadcastInDim S128x128 ![] bcast_S_S128x128 : (⟨S_, .f32⟩ : BufTy).Contents (Elt F) → (⟨S128x128, .f32⟩ : BufTy).Contents (Elt F)),
    StableHlo.binary main_v100 main_v101 main_v102 (mulf : (⟨S128x128, .f32⟩ : BufTy).Contents (Elt F) → (⟨S128x128, .f32⟩ : BufTy).Contents (Elt F) → (⟨S128x128, .f32⟩ : BufTy).Contents (Elt F)),
    StableHlo.nullary main_cst_13 (constant S_ .f32 0x00000000#32),
    StableHlo.binary main_v102 main_cst_13 main_v103 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)) ]

/-- Statements 121–166: the column means standardized and soft-maxed into the weights, and for each input the two
    products, the exponential-linear unit's operations (its two selects unfolded), the residual sum and the reshape. -/
abbrev ops2 : List (HloOp τ sig (Elt F)) :=
  [ StableHlo.nullary main_cst_14 (constant S_ .f32 0x43000000#32),
    StableHlo.unary main_cst_14 main_v104 (broadcastInDim S128 ![] bcast_S_S128 : (⟨S_, .f32⟩ : BufTy).Contents (Elt F) → (⟨S128, .f32⟩ : BufTy).Contents (Elt F)),
    StableHlo.binary main_v103 main_v104 main_v105 (Host.divf : (⟨S128, .f32⟩ : BufTy).Contents (Elt F) → (⟨S128, .f32⟩ : BufTy).Contents (Elt F) → (⟨S128, .f32⟩ : BufTy).Contents (Elt F)),
    StableHlo.nullary main_cst_15 (constant S_ .f32 0x00000000#32),
    StableHlo.binary main_v105 main_cst_15 main_v106 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_16 (constant S_ .f32 0x43000000#32),
    StableHlo.binary main_v106 main_cst_16 main_v107 (Host.divf : (⟨S_, .f32⟩ : BufTy).Contents (Elt F) → (⟨S_, .f32⟩ : BufTy).Contents (Elt F) → (⟨S_, .f32⟩ : BufTy).Contents (Elt F)),
    StableHlo.unary main_v107 main_v108 (broadcastInDim S128 ![] bcast_S_S128 : (⟨S_, .f32⟩ : BufTy).Contents (Elt F) → (⟨S128, .f32⟩ : BufTy).Contents (Elt F)),
    StableHlo.binary main_v105 main_v108 main_v109 (subf : (⟨S128, .f32⟩ : BufTy).Contents (Elt F) → (⟨S128, .f32⟩ : BufTy).Contents (Elt F) → (⟨S128, .f32⟩ : BufTy).Contents (Elt F)),
    StableHlo.nullary main_c_17 (constantI S_ 32 1#32),
    StableHlo.TRef.nullary main_call1.call0.cst (constant S_ .f32 0x00000000#32),
    StableHlo.TRef.binary (.of main_v105 : StableHlo.TRef sig ⟨S128, .f32⟩) main_call1.call0.cst main_call1.call0.v0 (fun x v => Host.reduceAdd x v reducesTo_S128_S_d0 h_S_),
    StableHlo.TRef.unary main_call1.call0.v0 main_call1.call0.v1 (broadcastInDim S1 ![] bcast_S_S1),
    StableHlo.TRef.nullary main_call1.call0.cst_0 (constant S_ .f32 0x43000000#32),
    StableHlo.TRef.unary main_call1.call0.cst_0 main_call1.call0.v2 (broadcastInDim S1 ![] bcast_S_S1),
    StableHlo.TRef.binary main_call1.call0.v1 main_call1.call0.v2 main_call1.call0.v3 Host.divf,
    StableHlo.TRef.unary main_call1.call0.v3 main_call1.call0.v4 (broadcastInDim S128 ![0] bcast_S1_S128_0),
    StableHlo.TRef.binary (.of main_v105 : StableHlo.TRef sig ⟨S128, .f32⟩) main_call1.call0.v4 main_call1.call0.v5 subf,
    StableHlo.TRef.binary main_call1.call0.v5 main_call1.call0.v5 main_call1.call0.v6 mulf,
    StableHlo.TRef.unary (.of main_c_17 : StableHlo.TRef sig ⟨S_, .i32⟩) main_call1.call0.v7 (sitofp .f32),
    StableHlo.TRef.nullary main_call1.call0.cst_1 (constant S_ .f32 0x43000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S128_S_d0 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt,
    StableHlo.nullary main_cst_18 (constant S_ .f32 0x358637BD#32),
    StableHlo.binary main_v110 main_cst_18 main_v111 (addf : (⟨S_, .f32⟩ : BufTy).Contents (Elt F) → (⟨S_, .f32⟩ : BufTy).Contents (Elt F) → (⟨S_, .f32⟩ : BufTy).Contents (Elt F)),
    StableHlo.unary main_v111 main_v112 (broadcastInDim S128 ![] bcast_S_S128 : (⟨S_, .f32⟩ : BufTy).Contents (Elt F) → (⟨S128, .f32⟩ : BufTy).Contents (Elt F)),
    StableHlo.binary main_v109 main_v112 main_v113 (Host.divf : (⟨S128, .f32⟩ : BufTy).Contents (Elt F) → (⟨S128, .f32⟩ : BufTy).Contents (Elt F) → (⟨S128, .f32⟩ : BufTy).Contents (Elt F)),
    StableHlo.nullary main_cst_19 (constant S_ .f32 0xFF800000#32),
    StableHlo.binary main_v113 main_cst_19 main_v114 ((fun x v => Host.reduce FloatOps.maximumf x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_20 (constant S_ .f32 0xFF800000#32),
    StableHlo.binary main_cst_20 main_v114 main_v115 (maximumf : (⟨S_, .f32⟩ : BufTy).Contents (Elt F) → (⟨S_, .f32⟩ : BufTy).Contents (Elt F) → (⟨S_, .f32⟩ : BufTy).Contents (Elt F)),
    StableHlo.unary main_v115 main_v116 (broadcastInDim S1 ![] bcast_S_S1 : (⟨S_, .f32⟩ : BufTy).Contents (Elt F) → (⟨S1, .f32⟩ : BufTy).Contents (Elt F)),
    StableHlo.unary main_v116 main_v117 (broadcastInDim S128 ![0] bcast_S1_S128_0 : (⟨S1, .f32⟩ : BufTy).Contents (Elt F) → (⟨S128, .f32⟩ : BufTy).Contents (Elt F)),
    StableHlo.binary main_v113 main_v117 main_v118 (subf : (⟨S128, .f32⟩ : BufTy).Contents (Elt F) → (⟨S128, .f32⟩ : BufTy).Contents (Elt F) → (⟨S128, .f32⟩ : BufTy).Contents (Elt F)),
    StableHlo.unary main_v118 main_v119 (Host.exp : (⟨S128, .f32⟩ : BufTy).Contents (Elt F) → (⟨S128, .f32⟩ : BufTy).Contents (Elt F)),
    StableHlo.nullary main_cst_21 (constant S_ .f32 0x00000000#32),
    StableHlo.binary main_v119 main_cst_21 main_v120 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.unary main_v120 main_v121 (broadcastInDim S1 ![] bcast_S_S1 : (⟨S_, .f32⟩ : BufTy).Contents (Elt F) → (⟨S1, .f32⟩ : BufTy).Contents (Elt F)),
    StableHlo.unary main_v121 main_v122 (broadcastInDim S128 ![0] bcast_S1_S128_0 : (⟨S1, .f32⟩ : BufTy).Contents (Elt F) → (⟨S128, .f32⟩ : BufTy).Contents (Elt F)),
    StableHlo.binary main_v119 main_v122 main_v123 (Host.divf : (⟨S128, .f32⟩ : BufTy).Contents (Elt F) → (⟨S128, .f32⟩ : BufTy).Contents (Elt F) → (⟨S128, .f32⟩ : BufTy).Contents (Elt F)),
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S2048x128 ![0, 1] bcast_S1x128_S2048x128_0_1 : (⟨S1x128, .f32⟩ : BufTy).Contents (Elt F) → (⟨S2048x128, .f32⟩ : BufTy).Contents (Elt F)),
    StableHlo.binary main_v82 main_v125 main_v126 (mulf : (⟨S2048x128, .f32⟩ : BufTy).Contents (Elt F) → (⟨S2048x128, .f32⟩ : BufTy).Contents (Elt F) → (⟨S2048x128, .f32⟩ : BufTy).Contents (Elt F)),
    StableHlo.unary main_v82 main_v127 ((transpose S128x2048 [1, 0] · transposes_S2048x128_S128x2048_1_0) : (⟨S2048x128, .f32⟩ : BufTy).Contents (Elt F) → (⟨S128x2048, .f32⟩ : BufTy).Contents (Elt F)),
    StableHlo.binary main_v0 main_arg22 main_v128 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v127 main_v128 main_v129 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v129 main_v130 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call2.cst (constant S_ .f32 0x00000000#32),
    StableHlo.TRef.unary main_call2.cst main_call2.v0 (broadcastInDim S2048x128 ![] bcast_S_S2048x128),
    StableHlo.TRef.binary (.of main_v130 : StableHlo.TRef sig ⟨S2048x128, .f32⟩) main_call2.v0 main_call2.v1 (cmpf .ogt),
    StableHlo.TRef.nullary main_call2.cst_0 (constant S_ .f32 0x00000000#32),
    StableHlo.TRef.unary main_call2.cst_0 main_call2.v2 (broadcastInDim S2048x128 ![] bcast_S_S2048x128),
    StableHlo.TRef.binary (.of main_v130 : StableHlo.TRef sig ⟨S2048x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S2048x128 ![] bcast_S_S2048x128),
    StableHlo.TRef.ternary main_call2.v3 main_call2.call0.v1 (.of main_v130 : StableHlo.TRef sig ⟨S2048x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S2048x128 ![] bcast_S_S2048x128),
    StableHlo.TRef.binary main_call2.v6 main_call2.v5 main_call2.v7 mulf,
    StableHlo.TRef.ternary main_call2.v1 (.of main_v130 : StableHlo.TRef sig ⟨S2048x128, .f32⟩) main_call2.v7 main_call2.call1.v0 select,
    StableHlo.binary main_v0 main_v131 main_v132 (addf : (⟨S2048x128, .f32⟩ : BufTy).Contents (Elt F) → (⟨S2048x128, .f32⟩ : BufTy).Contents (Elt F) → (⟨S2048x128, .f32⟩ : BufTy).Contents (Elt F)),
    StableHlo.unary main_v82 main_v133 ((transpose S128x2048 [1, 0] · transposes_S2048x128_S128x2048_1_0) : (⟨S2048x128, .f32⟩ : BufTy).Contents (Elt F) → (⟨S128x2048, .f32⟩ : BufTy).Contents (Elt F)),
    StableHlo.binary main_v1 main_arg23 main_v134 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v133 main_v134 main_v135 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v135 main_v136 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call3.cst (constant S_ .f32 0x00000000#32),
    StableHlo.TRef.unary main_call3.cst main_call3.v0 (broadcastInDim S2048x128 ![] bcast_S_S2048x128),
    StableHlo.TRef.binary (.of main_v136 : StableHlo.TRef sig ⟨S2048x128, .f32⟩) main_call3.v0 main_call3.v1 (cmpf .ogt),
    StableHlo.TRef.nullary main_call3.cst_0 (constant S_ .f32 0x00000000#32),
    StableHlo.TRef.unary main_call3.cst_0 main_call3.v2 (broadcastInDim S2048x128 ![] bcast_S_S2048x128),
    StableHlo.TRef.binary (.of main_v136 : StableHlo.TRef sig ⟨S2048x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S2048x128 ![] bcast_S_S2048x128),
    StableHlo.TRef.ternary main_call3.v3 main_call3.call0.v1 (.of main_v136 : StableHlo.TRef sig ⟨S2048x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S2048x128 ![] bcast_S_S2048x128),
    StableHlo.TRef.binary main_call3.v6 main_call3.v5 main_call3.v7 mulf,
    StableHlo.TRef.ternary main_call3.v1 (.of main_v136 : StableHlo.TRef sig ⟨S2048x128, .f32⟩) main_call3.v7 main_call3.call1.v0 select,
    StableHlo.binary main_v1 main_v137 main_v138 (addf : (⟨S2048x128, .f32⟩ : BufTy).Contents (Elt F) → (⟨S2048x128, .f32⟩ : BufTy).Contents (Elt F) → (⟨S2048x128, .f32⟩ : BufTy).Contents (Elt F)),
    StableHlo.reshape main_v132 main_v139 rfl shapeCasts_S2048x128_S64x32x128,
    StableHlo.reshape main_v138 main_v140 rfl shapeCasts_S2048x128_S64x32x128 ]

/-- The whole line. -/
abbrev ops : List (HloOp τ sig (Elt F)) := ops0 ++ (ops1 ++ ops2)

/-! ## @main is that line

Each window is its stretch by computation: a call unfolds to its body, sequencing re-associates by the monad's own
equations. The three are joined by `seq_append`. -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Side conditions: TensorCore buffers only, every result determined -/

set_option maxRecDepth 8192 in
theorem ops0_sub : (ops0 : List (HloOp τ sig (Elt F))).Forall fun op => op.bufs ⊆ tcRefs τ sig :=
  ⟨reshape_bufs_sub .., reshape_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nary_bufs_sub .., binary_bufs_sub .., unary_bufs_sub .., unary_bufs_sub .., binary_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., binary_bufs_sub .., nullary_bufs_sub .., binary_bufs_sub .., unary_bufs_sub .., binary_bufs_sub .., nullary_bufs_sub .., unary_bufs_sub .., binary_bufs_sub .., nullary_bufs_sub .., binary_bufs_sub ..⟩
set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., reshape_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h, List.forall_iff_forall_mem.mp ops2_fresh op h]

/-! ## The run -/

/-- On every device, for any float values, from any memory with zero counters: every weakly fair execution of @main
    terminates, and each TensorCore buffer ends at the fold of the line's operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## No operation writes an argument -/

/-- The fold of a concatenation is the fold of the second part over the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after ops2 (after ops1 (after ops0 V)) := by
  simp only [ops, after_app]

/-- The buffers stretch 0 writes: one per operation, its result. -/
abbrev W0 : List (Ref sig .tc) := [main_v0, main_v1, main_v2, main_v3, main_v4, main_v5, main_v6, main_cst, main_v7, main_v8, main_v9, main_v10, main_v11, main_v12, main_v13, main_v14, main_v15, main_v16, main_v17, main_v18, main_cst_0, main_v19, main_v20, main_v21, main_v22, main_v23, main_v24, main_v25, main_v26, main_v27, main_v28, main_v29, main_v30, main_cst_1, main_v31, main_v32, main_v33, main_v34, main_v35, main_v36, main_v37, main_v38, main_v39, main_v40, main_v41, main_v42, main_cst_2, main_v43, main_v44, main_v45, main_v46, main_v47, main_v48, main_v49, main_v50, main_v51, main_v52, main_v53, main_v54, main_cst_3]
set_option maxRecDepth 8192 in
theorem ops0_writes : (ops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
/-- The buffers stretch 1 writes: one per operation, its result. -/
abbrev W1 : List (Ref sig .tc) := [main_v55, main_v56, main_v57, main_v58, main_v59, main_v60, main_cst_4, main_v61, main_v62, main_cst_5, main_v63, main_v64, main_v65, main_v66, main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v0, main_v67, main_cst_6, main_v68, main_v69, main_v70, main_v71, main_cst_7, main_v72, main_cst_8, main_v73, main_v74, main_v75, main_v76, main_v77, main_v78, main_cst_9, main_v79, main_v80, main_v81, main_v82, main_v83, main_v84, main_v85, main_v86, main_v87, main_v88, main_cst_10, main_v89, main_v90, main_v91, main_v92, main_v93, main_v94, main_v95, main_v96, main_v97, main_cst_11, main_v98, main_v99, main_v100, main_cst_12, main_v101, main_v102, main_cst_13, main_v103]
set_option maxRecDepth 8192 in
theorem ops1_writes : (ops1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))
/-- The buffers stretch 2 writes: one per operation, its result. -/
abbrev W2 : List (Ref sig .tc) := [main_cst_14, main_v104, main_v105, main_cst_15, main_v106, main_cst_16, main_v107, main_v108, main_v109, main_c_17, main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v110, main_cst_18, main_v111, main_v112, main_v113, main_cst_19, main_v114, main_cst_20, main_v115, main_v116, main_v117, main_v118, main_v119, main_cst_21, main_v120, main_v121, main_v122, main_v123, main_v124, main_v125, main_v126, main_v127, main_v128, main_v129, main_v130, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v131, main_v132, main_v133, main_v134, main_v135, main_v136, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v137, main_v138, main_v139, main_v140]
set_option maxRecDepth 8192 in
theorem ops2_writes : (ops2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

/-- A buffer none of the three stretches writes holds its launch contents after the line. -/
theorem after_ops_of (V : Valuation τ sig (Elt F)) (r : Ref sig .tc) (h0 : r ∉ W0) (h1 : r ∉ W1) (h2 : r ∉ W2) :
    after ops V (Proc.devRef .tc r) = V (Proc.devRef .tc r) := by
  rw [after_ops, after_of_writes_sub ops2 _ ops2_writes h2, after_of_writes_sub ops1 _ ops1_writes h1,
    after_of_writes_sub ops0 _ ops0_writes h0]

set_option maxRecDepth 8192 in
/-- Every weakly fair execution of @main terminates with the 24 argument arrays as launched: the line's results are
    236 buffers, none of them an argument. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨(h c main_arg0).trans (after_ops_of _ main_arg0 (by decide) (by decide) (by decide)),
     (h c main_arg1).trans (after_ops_of _ main_arg1 (by decide) (by decide) (by decide)),
     (h c main_arg2).trans (after_ops_of _ main_arg2 (by decide) (by decide) (by decide)),
     (h c main_arg3).trans (after_ops_of _ main_arg3 (by decide) (by decide) (by decide)),
     (h c main_arg4).trans (after_ops_of _ main_arg4 (by decide) (by decide) (by decide)),
     (h c main_arg5).trans (after_ops_of _ main_arg5 (by decide) (by decide) (by decide)),
     (h c main_arg6).trans (after_ops_of _ main_arg6 (by decide) (by decide) (by decide)),
     (h c main_arg7).trans (after_ops_of _ main_arg7 (by decide) (by decide) (by decide)),
     (h c main_arg8).trans (after_ops_of _ main_arg8 (by decide) (by decide) (by decide)),
     (h c main_arg9).trans (after_ops_of _ main_arg9 (by decide) (by decide) (by decide)),
     (h c main_arg10).trans (after_ops_of _ main_arg10 (by decide) (by decide) (by decide)),
     (h c main_arg11).trans (after_ops_of _ main_arg11 (by decide) (by decide) (by decide)),
     (h c main_arg12).trans (after_ops_of _ main_arg12 (by decide) (by decide) (by decide)),
     (h c main_arg13).trans (after_ops_of _ main_arg13 (by decide) (by decide) (by decide)),
     (h c main_arg14).trans (after_ops_of _ main_arg14 (by decide) (by decide) (by decide)),
     (h c main_arg15).trans (after_ops_of _ main_arg15 (by decide) (by decide) (by decide)),
     (h c main_arg16).trans (after_ops_of _ main_arg16 (by decide) (by decide) (by decide)),
     (h c main_arg17).trans (after_ops_of _ main_arg17 (by decide) (by decide) (by decide)),
     (h c main_arg18).trans (after_ops_of _ main_arg18 (by decide) (by decide) (by decide)),
     (h c main_arg19).trans (after_ops_of _ main_arg19 (by decide) (by decide) (by decide)),
     (h c main_arg20).trans (after_ops_of _ main_arg20 (by decide) (by decide) (by decide)),
     (h c main_arg21).trans (after_ops_of _ main_arg21 (by decide) (by decide) (by decide)),
     (h c main_arg22).trans (after_ops_of _ main_arg22 (by decide) (by decide) (by decide)),
     (h c main_arg23).trans (after_ops_of _ main_arg23 (by decide) (by decide) (by decide))⟩)
    (run_after m ρ)

end Cert.ReferenceIdeal.RefRun

end
-- ==== Proof.Stages.lean ====
/-
  The kernel's three stages as functions of whole arrays, spelt with the body's own arithmetic terms.

  * `H`: the incidence matrix from xt, xn (2048 × 128 each) and the twenty weight blocks of the five perceptrons, in
    the order the first region's windows take them — four candidates  x · mlp(yᵀ),  the fifth perceptron on their
    concatenation, each column standardized and soft-maxed.
  * `accA`, `accS`, `w`: the second region's two accumulators after each of its 32 points, by recursion on the point
    — point n adds the terms of rows 64n … 64n+63 (`blk n`) to what point n − 1 left, point 0 starting from zero — and the
    edge weights computed from the two accumulators after the last point.
  * `rowBlock h n`: rows 64n … 64n+63 of H, the block the second region's point n reads.
  * `outT`, `outN`: the two results of the third region, x + elu((H·w) · (Hᵀ · (x · θ))).
-/
import proofs.«127104_j29506425324178_1_alg».proof.Proof.Gen.KernelIdeal.Skeleton
import Idealize.ShloMosaic.Lib.ValueIdx

noncomputable section

namespace Cert.KernelIdeal.Stage

open Idealize.ShloMosaic Cert.KernelIdeal Cert.KernelIdeal.Gen

variable {F : FTy → Type} [FloatOps F]

/-- The incidence matrix: the first region's one store, over whole arrays. -/
def H (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) : FVec F S2048x128 .f32 :=
  k0_pay1 (k0_pay10 (k0_pay3 x1) (k0_pay4 x0 x2 x3 x4 x5) (k0_pay7 (k0_pay3 x1) x8 (k0_pay5 x9) (k0_pay6 x1 x6 x7) (constant S128x128 .f32 0x00000000#32)) (k0_pay8 (k0_pay2 x0) (k0_pay3 x1) x10 x11 x12 x13) (k0_pay9 (k0_pay2 x0) x14 x15 x16 x17) (constant S2048x128 .f32 0x00000000#32) x18 x19 x20 x21) (k0_pay11 (k0_pay3 x1) (k0_pay4 x0 x2 x3 x4 x5) (k0_pay7 (k0_pay3 x1) x8 (k0_pay5 x9) (k0_pay6 x1 x6 x7) (constant S128x128 .f32 0x00000000#32)) (k0_pay8 (k0_pay2 x0) (k0_pay3 x1) x10 x11 x12 x13) (k0_pay9 (k0_pay2 x0) x14 x15 x16 x17) (constant S2048x128 .f32 0x00000000#32) x18 x19 x20 x21)

/-- Rows 64n … 64n+63 of a 2048 × 128 array as a 64 × 128 block (the row read modulo 2048, so that the definition is
    total; only n < 32 is used, where nothing wraps). -/
def rowBlock (h : Vec F S2048x128 .f32) (n : ℕ) : Vec F S64x128 .f32 :=
  fun y => h (ValueIdx.ix2 (⟨(64 * n + (y 0).val) % 2048, Nat.mod_lt _ (by norm_num)⟩ : Fin 2048) (⟨(y 1).val, (y 1).isLt⟩ : Fin 128))

/-- The first accumulator after point `n`: a[i] summed over the rows of blocks 0 … n. -/
def accA (blk : ℕ → Vec F S64x128 .f32) : ℕ → FVec F S1x128 .f32
  | 0 => k1_pay4 (blk 0) (k1_pay1 (F := F))
  | n + 1 => k1_pay4 (blk (n + 1)) (accA blk n)

/-- The second accumulator after point `n`: S[i,j] summed over the rows of blocks 0 … n. -/
def accS (blk : ℕ → Vec F S64x128 .f32) : ℕ → FVec F S128x128 .f32
  | 0 => k1_pay5 (blk 0) (k1_pay2 (F := F))
  | n + 1 => k1_pay5 (blk (n + 1)) (accS blk n)

/-- The edge weights: the second region's one store, at its last point, from the two finished accumulators. -/
def w (blk : ℕ → Vec F S64x128 .f32) : FVec F S1x128 .f32 :=
  k1_pay6 (accA blk 31) (accS blk 31)

/-- The third region's first result, from H, the edge weights, xt and θt. -/
def outT (h : Vec F S2048x128 .f32) (ew : Vec F S1x128 .f32) (xt : Vec F S2048x128 .f32) (θt : Vec F S128x128 .f32) : FVec F S2048x128 .f32 :=
  k2_pay4 h ew xt θt

/-- The third region's second result, from H, the edge weights, xn and θn. -/
def outN (h : Vec F S2048x128 .f32) (ew : Vec F S1x128 .f32) (xn : Vec F S2048x128 .f32) (θn : Vec F S128x128 .f32) : FVec F S2048x128 .f32 :=
  k2_pay1 (k2_pay5 xn) (k2_pay6 h ew xn θn)

end Cert.KernelIdeal.Stage

end
-- ==== Proof.KernelValue.lean ====
/-
  What the kernel's regions leave in their output arrays, as the stage functions of Proof/Stages.lean.
  In the first and the third region the grid is one point and every window's block is its whole array (block index 0 on
  both axes), so a block read through its window is the array itself, the one flushed block covers the output array, and
  the array ends at the body's store of the input arrays: H, resp. the two results.
-/
import proofs.«127104_j29506425324178_1_alg».proof.Proof.Run
import proofs.«127104_j29506425324178_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]

theorem hz0 : (![0, 0] : Fin 2 → Nat) = fun _ => 0 := funext fun a => by fin_cases a <;> rfl

section
variable (V : (c : Dev nD) → (b : Ref sig .tc) → Buf (Elt F) ((c : Thread nD τ).loc b))

/-! ## Region 2: every block is its whole array -/

theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
/-- Window 0's block, read through the window, is the array. -/
theorem read2_0 (t : Fin cfg2.N) (f : S2048x128.Idx → Elt F .f32) (y : S2048x128.Idx) :
    f (((cfg2.win 0).blk t).view.emb y) = f y := by
  obtain ⟨e0, e1⟩ := idx2_0 t
  congr 1
  funext a; apply Fin.ext
  match a with
  | ⟨0, _⟩ => show win2_0.index t (0 : Fin 2) * 2048 + 1 * (y 0).val = (y 0).val; omega
  | ⟨1, _⟩ => show win2_0.index t (1 : Fin 2) * 128 + 1 * (y 1).val = (y 1).val; omega
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
/-- Window 1's block, read through the window, is the array. -/
theorem read2_1 (t : Fin cfg2.N) (f : S1x128.Idx → Elt F .f32) (y : S1x128.Idx) :
    f (((cfg2.win 1).blk t).view.emb y) = f y := by
  obtain ⟨e0, e1⟩ := idx2_1 t
  congr 1
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
/-- Window 2's block, read through the window, is the array. -/
theorem read2_2 (t : Fin cfg2.N) (f : S2048x128.Idx → Elt F .f32) (y : S2048x128.Idx) :
    f (((cfg2.win 2).blk t).view.emb y) = f y := by
  obtain ⟨e0, e1⟩ := idx2_2 t
  congr 1
  funext a; apply Fin.ext
  match a with
  | ⟨0, _⟩ => show win2_2.index t (0 : Fin 2) * 2048 + 1 * (y 0).val = (y 0).val; omega
  | ⟨1, _⟩ => show win2_2.index t (1 : Fin 2) * 128 + 1 * (y 1).val = (y 1).val; omega
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
/-- Window 3's block, read through the window, is the array. -/
theorem read2_3 (t : Fin cfg2.N) (f : S2048x128.Idx → Elt F .f32) (y : S2048x128.Idx) :
    f (((cfg2.win 3).blk t).view.emb y) = f y := by
  obtain ⟨e0, e1⟩ := idx2_3 t
  congr 1
  funext a; apply Fin.ext
  match a with
  | ⟨0, _⟩ => show win2_3.index t (0 : Fin 2) * 2048 + 1 * (y 0).val = (y 0).val; omega
  | ⟨1, _⟩ => show win2_3.index t (1 : Fin 2) * 128 + 1 * (y 1).val = (y 1).val; omega
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
/-- Window 4's block, read through the window, is the array. -/
theorem read2_4 (t : Fin cfg2.N) (f : S128x128.Idx → Elt F .f32) (y : S128x128.Idx) :
    f (((cfg2.win 4).blk t).view.emb y) = f y := by
  obtain ⟨e0, e1⟩ := idx2_4 t
  congr 1
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
/-- Window 5's block, read through the window, is the array. -/
theorem read2_5 (t : Fin cfg2.N) (f : S128x128.Idx → Elt F .f32) (y : S128x128.Idx) :
    f (((cfg2.win 5).blk t).view.emb y) = f y := by
  obtain ⟨e0, e1⟩ := idx2_5 t
  congr 1
  funext a; apply Fin.ext
  match a with
  | ⟨0, _⟩ => show win2_5.index t (0 : Fin 2) * 128 + 1 * (y 0).val = (y 0).val; omega
  | ⟨1, _⟩ => show win2_5.index t (1 : Fin 2) * 128 + 1 * (y 1).val = (y 1).val; omega
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
/-- Window 6's block, read through the window, is the array. -/
theorem read2_6 (t : Fin cfg2.N) (f : S2048x128.Idx → Elt F .f32) (y : S2048x128.Idx) :
    f (((cfg2.win 6).blk t).view.emb y) = f y := by
  obtain ⟨e0, e1⟩ := idx2_6 t
  congr 1
  funext a; apply Fin.ext
  match a with
  | ⟨0, _⟩ => show win2_6.index t (0 : Fin 2) * 2048 + 1 * (y 0).val = (y 0).val; omega
  | ⟨1, _⟩ => show win2_6.index t (1 : Fin 2) * 128 + 1 * (y 1).val = (y 1).val; omega
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
/-- Window 7's block, read through the window, is the array. -/
theorem read2_7 (t : Fin cfg2.N) (f : S2048x128.Idx → Elt F .f32) (y : S2048x128.Idx) :
    f (((cfg2.win 7).blk t).view.emb y) = f y := by
  obtain ⟨e0, e1⟩ := idx2_7 t
  congr 1
  funext a; apply Fin.ext
  match a with
  | ⟨0, _⟩ => show win2_7.index t (0 : Fin 2) * 2048 + 1 * (y 0).val = (y 0).val; omega
  | ⟨1, _⟩ => show win2_7.index t (1 : Fin 2) * 128 + 1 * (y 1).val = (y 1).val; omega

/-! ## Region 0: every block is its whole array -/

theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Window 0's block, read through the window, is the array. -/
theorem read0_0 (t : Fin cfg0.N) (f : S2048x128.Idx → Elt F .f32) (y : S2048x128.Idx) :
    f (((cfg0.win 0).blk t).view.emb y) = f y := by
  obtain ⟨e0, e1⟩ := idx0_0 t
  congr 1
  funext a; apply Fin.ext
  match a with
  | ⟨0, _⟩ => show win0_0.index t (0 : Fin 2) * 2048 + 1 * (y 0).val = (y 0).val; omega
  | ⟨1, _⟩ => show win0_0.index t (1 : Fin 2) * 128 + 1 * (y 1).val = (y 1).val; omega
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 1's block, read through the window, is the array. -/
theorem read0_1 (t : Fin cfg0.N) (f : S2048x128.Idx → Elt F .f32) (y : S2048x128.Idx) :
    f (((cfg0.win 1).blk t).view.emb y) = f y := by
  obtain ⟨e0, e1⟩ := idx0_1 t
  congr 1
  funext a; apply Fin.ext
  match a with
  | ⟨0, _⟩ => show win0_1.index t (0 : Fin 2) * 2048 + 1 * (y 0).val = (y 0).val; omega
  | ⟨1, _⟩ => show win0_1.index t (1 : Fin 2) * 128 + 1 * (y 1).val = (y 1).val; omega
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 2's block, read through the window, is the array. -/
theorem read0_2 (t : Fin cfg0.N) (f : S2048x128.Idx → Elt F .f32) (y : S2048x128.Idx) :
    f (((cfg0.win 2).blk t).view.emb y) = f y := by
  obtain ⟨e0, e1⟩ := idx0_2 t
  congr 1
  funext a; apply Fin.ext
  match a with
  | ⟨0, _⟩ => show win0_2.index t (0 : Fin 2) * 2048 + 1 * (y 0).val = (y 0).val; omega
  | ⟨1, _⟩ => show win0_2.index t (1 : Fin 2) * 128 + 1 * (y 1).val = (y 1).val; omega
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 3's block, read through the window, is the array. -/
theorem read0_3 (t : Fin cfg0.N) (f : S1x128.Idx → Elt F .f32) (y : S1x128.Idx) :
    f (((cfg0.win 3).blk t).view.emb y) = f y := by
  obtain ⟨e0, e1⟩ := idx0_3 t
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 4's block, read through the window, is the array. -/
theorem read0_4 (t : Fin cfg0.N) (f : S128x128.Idx → Elt F .f32) (y : S128x128.Idx) :
    f (((cfg0.win 4).blk t).view.emb y) = f y := by
  obtain ⟨e0, e1⟩ := idx0_4 t
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 5's block, read through the window, is the array. -/
theorem read0_5 (t : Fin cfg0.N) (f : S1x128.Idx → Elt F .f32) (y : S1x128.Idx) :
    f (((cfg0.win 5).blk t).view.emb y) = f y := by
  obtain ⟨e0, e1⟩ := idx0_5 t
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 6's block, read through the window, is the array. -/
theorem read0_6 (t : Fin cfg0.N) (f : S2048x128.Idx → Elt F .f32) (y : S2048x128.Idx) :
    f (((cfg0.win 6).blk t).view.emb y) = f y := by
  obtain ⟨e0, e1⟩ := idx0_6 t
  congr 1
  funext a; apply Fin.ext
  match a with
  | ⟨0, _⟩ => show win0_6.index t (0 : Fin 2) * 2048 + 1 * (y 0).val = (y 0).val; omega
  | ⟨1, _⟩ => show win0_6.index t (1 : Fin 2) * 128 + 1 * (y 1).val = (y 1).val; omega
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 7's block, read through the window, is the array. -/
theorem read0_7 (t : Fin cfg0.N) (f : S1x128.Idx → Elt F .f32) (y : S1x128.Idx) :
    f (((cfg0.win 7).blk t).view.emb y) = f y := by
  obtain ⟨e0, e1⟩ := idx0_7 t
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 8's block, read through the window, is the array. -/
theorem read0_8 (t : Fin cfg0.N) (f : S128x128.Idx → Elt F .f32) (y : S128x128.Idx) :
    f (((cfg0.win 8).blk t).view.emb y) = f y := by
  obtain ⟨e0, e1⟩ := idx0_8 t
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 9's block, read through the window, is the array. -/
theorem read0_9 (t : Fin cfg0.N) (f : S1x128.Idx → Elt F .f32) (y : S1x128.Idx) :
    f (((cfg0.win 9).blk t).view.emb y) = f y := by
  obtain ⟨e0, e1⟩ := idx0_9 t
  congr 1
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 10's block, read through the window, is the array. -/
theorem read0_10 (t : Fin cfg0.N) (f : S2048x128.Idx → Elt F .f32) (y : S2048x128.Idx) :
    f (((cfg0.win 10).blk t).view.emb y) = f y := by
  obtain ⟨e0, e1⟩ := idx0_10 t
  congr 1
  funext a; apply Fin.ext
  match a with
  | ⟨0, _⟩ => show win0_10.index t (0 : Fin 2) * 2048 + 1 * (y 0).val = (y 0).val; omega
  | ⟨1, _⟩ => show win0_10.index t (1 : Fin 2) * 128 + 1 * (y 1).val = (y 1).val; omega
theorem idx0_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- Window 11's block, read through the window, is the array. -/
theorem read0_11 (t : Fin cfg0.N) (f : S1x128.Idx → Elt F .f32) (y : S1x128.Idx) :
    f (((cfg0.win 11).blk t).view.emb y) = f y := by
  obtain ⟨e0, e1⟩ := idx0_11 t
  congr 1
  funext a; apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega
theorem idx0_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
/-- Window 12's block, read through the window, is the array. -/
theorem read0_12 (t : Fin cfg0.N) (f : S128x128.Idx → Elt F .f32) (y : S128x128.Idx) :
    f (((cfg0.win 12).blk t).view.emb y) = f y := by
  obtain ⟨e0, e1⟩ := idx0_12 t
  congr 1
  funext a; apply Fin.ext
  match a with
  | ⟨0, _⟩ => show win0_12.index t (0 : Fin 2) * 128 + 1 * (y 0).val = (y 0).val; omega
  | ⟨1, _⟩ => show win0_12.index t (1 : Fin 2) * 128 + 1 * (y 1).val = (y 1).val; omega
theorem idx0_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
/-- Window 13's block, read through the window, is the array. -/
theorem read0_13 (t : Fin cfg0.N) (f : S1x128.Idx → Elt F .f32) (y : S1x128.Idx) :
    f (((cfg0.win 13).blk t).view.emb y) = f y := by
  obtain ⟨e0, e1⟩ := idx0_13 t
  congr 1
  funext a; apply Fin.ext
  match a with
  | ⟨0, _⟩ => show win0_13.index t (0 : Fin 2) * 1 + 1 * (y 0).val = (y 0).val; omega
  | ⟨1, _⟩ => show win0_13.index t (1 : Fin 2) * 128 + 1 * (y 1).val = (y 1).val; omega
theorem idx0_14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
/-- Window 14's block, read through the window, is the array. -/
theorem read0_14 (t : Fin cfg0.N) (f : S2048x128.Idx → Elt F .f32) (y : S2048x128.Idx) :
    f (((cfg0.win 14).blk t).view.emb y) = f y := by
  obtain ⟨e0, e1⟩ := idx0_14 t
  congr 1
  funext a; apply Fin.ext
  match a with
  | ⟨0, _⟩ => show win0_14.index t (0 : Fin 2) * 2048 + 1 * (y 0).val = (y 0).val; omega
  | ⟨1, _⟩ => show win0_14.index t (1 : Fin 2) * 128 + 1 * (y 1).val = (y 1).val; omega
theorem idx0_15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
/-- Window 15's block, read through the window, is the array. -/
theorem read0_15 (t : Fin cfg0.N) (f : S1x128.Idx → Elt F .f32) (y : S1x128.Idx) :
    f (((cfg0.win 15).blk t).view.emb y) = f y := by
  obtain ⟨e0, e1⟩ := idx0_15 t
  congr 1
  funext a; apply Fin.ext
  match a with
  | ⟨0, _⟩ => show win0_15.index t (0 : Fin 2) * 1 + 1 * (y 0).val = (y 0).val; omega
  | ⟨1, _⟩ => show win0_15.index t (1 : Fin 2) * 128 + 1 * (y 1).val = (y 1).val; omega
theorem idx0_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
/-- Window 16's block, read through the window, is the array. -/
theorem read0_16 (t : Fin cfg0.N) (f : S128x128.Idx → Elt F .f32) (y : S128x128.Idx) :
    f (((cfg0.win 16).blk t).view.emb y) = f y := by
  obtain ⟨e0, e1⟩ := idx0_16 t
  congr 1
  funext a; apply Fin.ext
  match a with
  | ⟨0, _⟩ => show win0_16.index t (0 : Fin 2) * 128 + 1 * (y 0).val = (y 0).val; omega
  | ⟨1, _⟩ => show win0_16.index t (1 : Fin 2) * 128 + 1 * (y 1).val = (y 1).val; omega
theorem idx0_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
/-- Window 17's block, read through the window, is the array. -/
theorem read0_17 (t : Fin cfg0.N) (f : S1x128.Idx → Elt F .f32) (y : S1x128.Idx) :
    f (((cfg0.win 17).blk t).view.emb y) = f y := by
  obtain ⟨e0, e1⟩ := idx0_17 t
  congr 1
  funext a; apply Fin.ext
  match a with
  | ⟨0, _⟩ => show win0_17.index t (0 : Fin 2) * 1 + 1 * (y 0).val = (y 0).val; omega
  | ⟨1, _⟩ => show win0_17.index t (1 : Fin 2) * 128 + 1 * (y 1).val = (y 1).val; omega
theorem idx0_18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
/-- Window 18's block, read through the window, is the array. -/
theorem read0_18 (t : Fin cfg0.N) (f : S512x128.Idx → Elt F .f32) (y : S512x128.Idx) :
    f (((cfg0.win 18).blk t).view.emb y) = f y := by
  obtain ⟨e0, e1⟩ := idx0_18 t
  congr 1
  funext a; apply Fin.ext
  match a with
  | ⟨0, _⟩ => show win0_18.index t (0 : Fin 2) * 512 + 1 * (y 0).val = (y 0).val; omega
  | ⟨1, _⟩ => show win0_18.index t (1 : Fin 2) * 128 + 1 * (y 1).val = (y 1).val; omega
theorem idx0_19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
/-- Window 19's block, read through the window, is the array. -/
theorem read0_19 (t : Fin cfg0.N) (f : S1x128.Idx → Elt F .f32) (y : S1x128.Idx) :
    f (((cfg0.win 19).blk t).view.emb y) = f y := by
  obtain ⟨e0, e1⟩ := idx0_19 t
  congr 1
  funext a; apply Fin.ext
  match a with
  | ⟨0, _⟩ => show win0_19.index t (0 : Fin 2) * 1 + 1 * (y 0).val = (y 0).val; omega
  | ⟨1, _⟩ => show win0_19.index t (1 : Fin 2) * 128 + 1 * (y 1).val = (y 1).val; omega
theorem idx0_20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)
/-- Window 20's block, read through the window, is the array. -/
theorem read0_20 (t : Fin cfg0.N) (f : S128x128.Idx → Elt F .f32) (y : S128x128.Idx) :
    f (((cfg0.win 20).blk t).view.emb y) = f y := by
  obtain ⟨e0, e1⟩ := idx0_20 t
  congr 1
  funext a; apply Fin.ext
  match a with
  | ⟨0, _⟩ => show win0_20.index t (0 : Fin 2) * 128 + 1 * (y 0).val = (y 0).val; omega
  | ⟨1, _⟩ => show win0_20.index t (1 : Fin 2) * 128 + 1 * (y 1).val = (y 1).val; omega
theorem idx0_21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)
/-- Window 21's block, read through the window, is the array. -/
theorem read0_21 (t : Fin cfg0.N) (f : S1x128.Idx → Elt F .f32) (y : S1x128.Idx) :
    f (((cfg0.win 21).blk t).view.emb y) = f y := by
  obtain ⟨e0, e1⟩ := idx0_21 t
  congr 1
  funext a; apply Fin.ext
  match a with
  | ⟨0, _⟩ => show win0_21.index t (0 : Fin 2) * 1 + 1 * (y 0).val = (y 0).val; omega
  | ⟨1, _⟩ => show win0_21.index t (1 : Fin 2) * 128 + 1 * (y 1).val = (y 1).val; omega
theorem idx0_22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)
/-- Window 22's block, read through the window, is the array. -/
theorem read0_22 (t : Fin cfg0.N) (f : S2048x128.Idx → Elt F .f32) (y : S2048x128.Idx) :
    f (((cfg0.win 22).blk t).view.emb y) = f y := by
  obtain ⟨e0, e1⟩ := idx0_22 t
  congr 1
  funext a; apply Fin.ext
  match a with
  | ⟨0, _⟩ => show win0_22.index t (0 : Fin 2) * 2048 + 1 * (y 0).val = (y 0).val; omega
  | ⟨1, _⟩ => show win0_22.index t (1 : Fin 2) * 128 + 1 * (y 1).val = (y 1).val; omega

/-! ## Region 2: the output arrays after the run -/

theorem iblk2_0_eq (c : Dev nD) (t : Fin cfg2.N) : iblk2 V c 0 t = V c (Pipeline.arrRef spec2 0) :=
  funext fun y => read2_0 t (V c (Pipeline.arrRef spec2 0)) y
theorem iblk2_1_eq (c : Dev nD) (t : Fin cfg2.N) : iblk2 V c 1 t = V c (Pipeline.arrRef spec2 1) :=
  funext fun y => read2_1 t (V c (Pipeline.arrRef spec2 1)) y
theorem iblk2_2_eq (c : Dev nD) (t : Fin cfg2.N) : iblk2 V c 2 t = V c (Pipeline.arrRef spec2 2) :=
  funext fun y => read2_2 t (V c (Pipeline.arrRef spec2 2)) y
theorem iblk2_3_eq (c : Dev nD) (t : Fin cfg2.N) : iblk2 V c 3 t = V c (Pipeline.arrRef spec2 3) :=
  funext fun y => read2_3 t (V c (Pipeline.arrRef spec2 3)) y
theorem iblk2_4_eq (c : Dev nD) (t : Fin cfg2.N) : iblk2 V c 4 t = V c (Pipeline.arrRef spec2 4) :=
  funext fun y => read2_4 t (V c (Pipeline.arrRef spec2 4)) y
theorem iblk2_5_eq (c : Dev nD) (t : Fin cfg2.N) : iblk2 V c 5 t = V c (Pipeline.arrRef spec2 5) :=
  funext fun y => read2_5 t (V c (Pipeline.arrRef spec2 5)) y
/-- The body's one store into output 6 is the stage function of the loaded blocks (every load is of a whole block). -/
theorem out2_6_eq (x0 : Vec F S2048x128 .f32) (x1 : Vec F S1x128 .f32) (x2 : Vec F S2048x128 .f32) (x4 : Vec F S128x128 .f32) : out2_6 x0 x1 x2 x4 = Stage.outT x0 x1 x2 x4 := by
  unfold out2_6 Stage.outT
  rw [View.canon_unit_zero hz0]
  simp only [View.ld_unit_zero (S := S2048x128) hz0, View.ld_unit_zero (S := S1x128) hz0, View.ld_unit_zero (S := S128x128) hz0, View.ld_unit_zero (S := S512x128) hz0]

/-- What the point writes back into output 6 is the stage function of the arrays as the region finds them, read through the block. -/
theorem flushed2_6 (c : Dev nD) (t : Fin cfg2.N) :
    (dat2 V c).flushed 6 t = ((cfg2.win 6).blk t).view.read (Elt F) (Stage.outT (V c (Pipeline.arrRef spec2 0)) (V c (Pipeline.arrRef spec2 1)) (V c (Pipeline.arrRef spec2 2)) (V c (Pipeline.arrRef spec2 4))) := by
  show (cfg2.win 6).cut (grid2.coords t) ((dat2 V c).after 6 t) = _
  rw [after2_6, out2_6_eq, iblk2_0_eq, iblk2_1_eq, iblk2_2_eq, iblk2_4_eq]
  funext j
  exact (read2_6 t (Stage.outT (V c (Pipeline.arrRef spec2 0)) (V c (Pipeline.arrRef spec2 1)) (V c (Pipeline.arrRef spec2 2)) (V c (Pipeline.arrRef spec2 4))) j).symm

/-- The one flushed block covers the output array. -/
theorem covered2_6 (i : S2048x128.Idx) : ∃ t : Fin cfg2.N, (cfg2.win 6).flush t = true ∧ i ∈ ((cfg2.win 6).blk t).view.set := by
  refine ⟨t2_0, flush2_6 _, ?_⟩
  show i ∈ ((View.whole main_v14_0).slice (win2_6.rect t2_0)).set
  rw [View.set_slice_whole, Rect.mem_set_unit]
  obtain ⟨e0, e1⟩ := idx2_6 t2_0
  intro a
  match a with
  | ⟨0, _⟩ => show win2_6.index t2_0 (0 : Fin 2) * 2048 ≤ (i 0).val ∧ (i 0).val < win2_6.index t2_0 (0 : Fin 2) * 2048 + 2048; have h0 : (i 0).val < 2048 := (i 0).isLt; omega
  | ⟨1, _⟩ => show win2_6.index t2_0 (1 : Fin 2) * 128 ≤ (i 1).val ∧ (i 1).val < win2_6.index t2_0 (1 : Fin 2) * 128 + 128; have h1 : (i 1).val < 128 := (i 1).isLt; omega

/-- THE ARRAY after the region: the stage function of the arrays the region was entered with. -/
theorem final2_6 (c : Dev nD) : (dat2 V c).arrAt 6 cfg2.N = Stage.outT (V c (Pipeline.arrRef spec2 0)) (V c (Pipeline.arrRef spec2 1)) (V c (Pipeline.arrRef spec2 2)) (V c (Pipeline.arrRef spec2 4)) :=
  (dat2 V c).arrAt_eq_of_cover 6 _ (fun t _ => flushed2_6 V c t) (covered2_6)

/-- The body's one store into output 7 is the stage function of the loaded blocks (every load is of a whole block). -/
theorem out2_7_eq (x0 : Vec F S2048x128 .f32) (x1 : Vec F S1x128 .f32) (x3 : Vec F S2048x128 .f32) (x5 : Vec F S128x128 .f32) : out2_7 x0 x1 x3 x5 = Stage.outN x0 x1 x3 x5 := by
  unfold out2_7 Stage.outN
  rw [View.canon_unit_zero hz0]
  simp only [View.ld_unit_zero (S := S2048x128) hz0, View.ld_unit_zero (S := S1x128) hz0, View.ld_unit_zero (S := S128x128) hz0, View.ld_unit_zero (S := S512x128) hz0]

/-- What the point writes back into output 7 is the stage function of the arrays as the region finds them, read through the block. -/
theorem flushed2_7 (c : Dev nD) (t : Fin cfg2.N) :
    (dat2 V c).flushed 7 t = ((cfg2.win 7).blk t).view.read (Elt F) (Stage.outN (V c (Pipeline.arrRef spec2 0)) (V c (Pipeline.arrRef spec2 1)) (V c (Pipeline.arrRef spec2 3)) (V c (Pipeline.arrRef spec2 5))) := by
  show (cfg2.win 7).cut (grid2.coords t) ((dat2 V c).after 7 t) = _
  rw [after2_7, out2_7_eq, iblk2_0_eq, iblk2_1_eq, iblk2_3_eq, iblk2_5_eq]
  funext j
  exact (read2_7 t (Stage.outN (V c (Pipeline.arrRef spec2 0)) (V c (Pipeline.arrRef spec2 1)) (V c (Pipeline.arrRef spec2 3)) (V c (Pipeline.arrRef spec2 5))) j).symm

/-- The one flushed block covers the output array. -/
theorem covered2_7 (i : S2048x128.Idx) : ∃ t : Fin cfg2.N, (cfg2.win 7).flush t = true ∧ i ∈ ((cfg2.win 7).blk t).view.set := by
  refine ⟨t2_0, flush2_7 _, ?_⟩
  show i ∈ ((View.whole main_v14_1).slice (win2_7.rect t2_0)).set
  rw [View.set_slice_whole, Rect.mem_set_unit]
  obtain ⟨e0, e1⟩ := idx2_7 t2_0
  intro a
  match a with
  | ⟨0, _⟩ => show win2_7.index t2_0 (0 : Fin 2) * 2048 ≤ (i 0).val ∧ (i 0).val < win2_7.index t2_0 (0 : Fin 2) * 2048 + 2048; have h0 : (i 0).val < 2048 := (i 0).isLt; omega
  | ⟨1, _⟩ => show win2_7.index t2_0 (1 : Fin 2) * 128 ≤ (i 1).val ∧ (i 1).val < win2_7.index t2_0 (1 : Fin 2) * 128 + 128; have h1 : (i 1).val < 128 := (i 1).isLt; omega

/-- THE ARRAY after the region: the stage function of the arrays the region was entered with. -/
theorem final2_7 (c : Dev nD) : (dat2 V c).arrAt 7 cfg2.N = Stage.outN (V c (Pipeline.arrRef spec2 0)) (V c (Pipeline.arrRef spec2 1)) (V c (Pipeline.arrRef spec2 3)) (V c (Pipeline.arrRef spec2 5)) :=
  (dat2 V c).arrAt_eq_of_cover 7 _ (fun t _ => flushed2_7 V c t) (covered2_7)

/-! ## Region 0: the output array after the run -/

theorem iblk0_0_eq (c : Dev nD) (t : Fin cfg0.N) : iblk0 V c 0 t = V c (Pipeline.arrRef spec0 0) :=
  funext fun y => read0_0 t (V c (Pipeline.arrRef spec0 0)) y
theorem iblk0_1_eq (c : Dev nD) (t : Fin cfg0.N) : iblk0 V c 1 t = V c (Pipeline.arrRef spec0 1) :=
  funext fun y => read0_1 t (V c (Pipeline.arrRef spec0 1)) y
theorem iblk0_2_eq (c : Dev nD) (t : Fin cfg0.N) : iblk0 V c 2 t = V c (Pipeline.arrRef spec0 2) :=
  funext fun y => read0_2 t (V c (Pipeline.arrRef spec0 2)) y
theorem iblk0_3_eq (c : Dev nD) (t : Fin cfg0.N) : iblk0 V c 3 t = V c (Pipeline.arrRef spec0 3) :=
  funext fun y => read0_3 t (V c (Pipeline.arrRef spec0 3)) y
theorem iblk0_4_eq (c : Dev nD) (t : Fin cfg0.N) : iblk0 V c 4 t = V c (Pipeline.arrRef spec0 4) :=
  funext fun y => read0_4 t (V c (Pipeline.arrRef spec0 4)) y
theorem iblk0_5_eq (c : Dev nD) (t : Fin cfg0.N) : iblk0 V c 5 t = V c (Pipeline.arrRef spec0 5) :=
  funext fun y => read0_5 t (V c (Pipeline.arrRef spec0 5)) y
theorem iblk0_6_eq (c : Dev nD) (t : Fin cfg0.N) : iblk0 V c 6 t = V c (Pipeline.arrRef spec0 6) :=
  funext fun y => read0_6 t (V c (Pipeline.arrRef spec0 6)) y
theorem iblk0_7_eq (c : Dev nD) (t : Fin cfg0.N) : iblk0 V c 7 t = V c (Pipeline.arrRef spec0 7) :=
  funext fun y => read0_7 t (V c (Pipeline.arrRef spec0 7)) y
theorem iblk0_8_eq (c : Dev nD) (t : Fin cfg0.N) : iblk0 V c 8 t = V c (Pipeline.arrRef spec0 8) :=
  funext fun y => read0_8 t (V c (Pipeline.arrRef spec0 8)) y
theorem iblk0_9_eq (c : Dev nD) (t : Fin cfg0.N) : iblk0 V c 9 t = V c (Pipeline.arrRef spec0 9) :=
  funext fun y => read0_9 t (V c (Pipeline.arrRef spec0 9)) y
theorem iblk0_10_eq (c : Dev nD) (t : Fin cfg0.N) : iblk0 V c 10 t = V c (Pipeline.arrRef spec0 10) :=
  funext fun y => read0_10 t (V c (Pipeline.arrRef spec0 10)) y
theorem iblk0_11_eq (c : Dev nD) (t : Fin cfg0.N) : iblk0 V c 11 t = V c (Pipeline.arrRef spec0 11) :=
  funext fun y => read0_11 t (V c (Pipeline.arrRef spec0 11)) y
theorem iblk0_12_eq (c : Dev nD) (t : Fin cfg0.N) : iblk0 V c 12 t = V c (Pipeline.arrRef spec0 12) :=
  funext fun y => read0_12 t (V c (Pipeline.arrRef spec0 12)) y
theorem iblk0_13_eq (c : Dev nD) (t : Fin cfg0.N) : iblk0 V c 13 t = V c (Pipeline.arrRef spec0 13) :=
  funext fun y => read0_13 t (V c (Pipeline.arrRef spec0 13)) y
theorem iblk0_14_eq (c : Dev nD) (t : Fin cfg0.N) : iblk0 V c 14 t = V c (Pipeline.arrRef spec0 14) :=
  funext fun y => read0_14 t (V c (Pipeline.arrRef spec0 14)) y
theorem iblk0_15_eq (c : Dev nD) (t : Fin cfg0.N) : iblk0 V c 15 t = V c (Pipeline.arrRef spec0 15) :=
  funext fun y => read0_15 t (V c (Pipeline.arrRef spec0 15)) y
theorem iblk0_16_eq (c : Dev nD) (t : Fin cfg0.N) : iblk0 V c 16 t = V c (Pipeline.arrRef spec0 16) :=
  funext fun y => read0_16 t (V c (Pipeline.arrRef spec0 16)) y
theorem iblk0_17_eq (c : Dev nD) (t : Fin cfg0.N) : iblk0 V c 17 t = V c (Pipeline.arrRef spec0 17) :=
  funext fun y => read0_17 t (V c (Pipeline.arrRef spec0 17)) y
theorem iblk0_18_eq (c : Dev nD) (t : Fin cfg0.N) : iblk0 V c 18 t = V c (Pipeline.arrRef spec0 18) :=
  funext fun y => read0_18 t (V c (Pipeline.arrRef spec0 18)) y
theorem iblk0_19_eq (c : Dev nD) (t : Fin cfg0.N) : iblk0 V c 19 t = V c (Pipeline.arrRef spec0 19) :=
  funext fun y => read0_19 t (V c (Pipeline.arrRef spec0 19)) y
theorem iblk0_20_eq (c : Dev nD) (t : Fin cfg0.N) : iblk0 V c 20 t = V c (Pipeline.arrRef spec0 20) :=
  funext fun y => read0_20 t (V c (Pipeline.arrRef spec0 20)) y
theorem iblk0_21_eq (c : Dev nD) (t : Fin cfg0.N) : iblk0 V c 21 t = V c (Pipeline.arrRef spec0 21) :=
  funext fun y => read0_21 t (V c (Pipeline.arrRef spec0 21)) y
/-- The body's one store into output 22 is the stage function of the loaded blocks (every load is of a whole block). -/
theorem out0_22_eq (x0 : Vec F S2048x128 .f32) (x1 : Vec F S2048x128 .f32) (x2 : Vec F S2048x128 .f32) (x3 : Vec F S1x128 .f32) (x4 : Vec F S128x128 .f32) (x5 : Vec F S1x128 .f32) (x6 : Vec F S2048x128 .f32) (x7 : Vec F S1x128 .f32) (x8 : Vec F S128x128 .f32) (x9 : Vec F S1x128 .f32) (x10 : Vec F S2048x128 .f32) (x11 : Vec F S1x128 .f32) (x12 : Vec F S128x128 .f32) (x13 : Vec F S1x128 .f32) (x14 : Vec F S2048x128 .f32) (x15 : Vec F S1x128 .f32) (x16 : Vec F S128x128 .f32) (x17 : Vec F S1x128 .f32) (x18 : Vec F S512x128 .f32) (x19 : Vec F S1x128 .f32) (x20 : Vec F S128x128 .f32) (x21 : Vec F S1x128 .f32) : out0_22 x0 x1 x2 x3 x4 x5 x6 x7 x8 x9 x10 x11 x12 x13 x14 x15 x16 x17 x18 x19 x20 x21 = Stage.H x0 x1 x2 x3 x4 x5 x6 x7 x8 x9 x10 x11 x12 x13 x14 x15 x16 x17 x18 x19 x20 x21 := by
  unfold out0_22 Stage.H
  rw [View.canon_unit_zero hz0]
  simp only [View.ld_unit_zero (S := S2048x128) hz0, View.ld_unit_zero (S := S1x128) hz0, View.ld_unit_zero (S := S128x128) hz0, View.ld_unit_zero (S := S512x128) hz0]

set_option maxHeartbeats 4000000 in
/-- What the point writes back into output 22 is the stage function of the arrays as the region finds them, read through the block. -/
theorem flushed0_22 (c : Dev nD) (t : Fin cfg0.N) :
    (dat0 V c).flushed 22 t = ((cfg0.win 22).blk t).view.read (Elt F) (Stage.H (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19)) (V c (Pipeline.arrRef spec0 20)) (V c (Pipeline.arrRef spec0 21))) := by
  show (cfg0.win 22).cut (grid0.coords t) ((dat0 V c).after 22 t) = _
  simp only [after0_22, out0_22_eq, iblk0_0_eq, iblk0_1_eq, iblk0_2_eq, iblk0_3_eq, iblk0_4_eq, iblk0_5_eq, iblk0_6_eq, iblk0_7_eq, iblk0_8_eq, iblk0_9_eq, iblk0_10_eq, iblk0_11_eq, iblk0_12_eq, iblk0_13_eq, iblk0_14_eq, iblk0_15_eq, iblk0_16_eq, iblk0_17_eq, iblk0_18_eq, iblk0_19_eq, iblk0_20_eq, iblk0_21_eq]
  funext j
  exact (read0_22 t (Stage.H (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19)) (V c (Pipeline.arrRef spec0 20)) (V c (Pipeline.arrRef spec0 21))) j).symm

/-- The one flushed block covers the output array. -/
theorem covered0_22 (i : S2048x128.Idx) : ∃ t : Fin cfg0.N, (cfg0.win 22).flush t = true ∧ i ∈ ((cfg0.win 22).blk t).view.set := by
  refine ⟨t0_0, flush0_22 _, ?_⟩
  show i ∈ ((View.whole main_v12).slice (win0_22.rect t0_0)).set
  rw [View.set_slice_whole, Rect.mem_set_unit]
  obtain ⟨e0, e1⟩ := idx0_22 t0_0
  intro a
  match a with
  | ⟨0, _⟩ => show win0_22.index t0_0 (0 : Fin 2) * 2048 ≤ (i 0).val ∧ (i 0).val < win0_22.index t0_0 (0 : Fin 2) * 2048 + 2048; have h0 : (i 0).val < 2048 := (i 0).isLt; omega
  | ⟨1, _⟩ => show win0_22.index t0_0 (1 : Fin 2) * 128 ≤ (i 1).val ∧ (i 1).val < win0_22.index t0_0 (1 : Fin 2) * 128 + 128; have h1 : (i 1).val < 128 := (i 1).isLt; omega

/-- THE ARRAY after the region: the stage function of the arrays the region was entered with. -/
theorem final0_22 (c : Dev nD) : (dat0 V c).arrAt 22 cfg0.N = Stage.H (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19)) (V c (Pipeline.arrRef spec0 20)) (V c (Pipeline.arrRef spec0 21)) :=
  (dat0 V c).arrAt_eq_of_cover 22 _ (fun t _ => flushed0_22 V c t) (covered0_22)

end

end Cert.KernelIdeal.Gen

end
-- ==== Proof.Pieces1.lean ====
/-
  What each control case of the middle region leaves, in the body's own arithmetic: the first accumulator ends at
  `k1_pay4` of the point's 64 rows and its previous contents (zeros at the first point, `k1_pay1`), the second at
  `k1_pay5` likewise (zeros: `k1_pay2`), and at the last point the output at `k1_pay6` of the two accumulators just
  updated. Every load and store in the body is of a whole buffer, so a load after a store reads the stored value.
-/
import proofs.«127104_j29506425324178_1_alg».proof.Proof.Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole-buffer rectangle. -/
theorem hz2 : (![0, 0] : Fin 2 → Nat) = fun _ => 0 := funext fun a => by fin_cases a <;> rfl

/-- At the first point the first accumulator is zeroed, then the point's rows are added in. -/
theorem sout1_A_0_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : sout1_A_0 c i arg1 harg1 arg2 harg2 arg3 harg3 arg4 harg4 hc0 hc1 x0 = k1_pay4 x0 (k1_pay1 (F := F)) := by
  unfold sout1_A_0
  rw [View.read_writes_eq_canon _ _ _ (scover1_A_0 c i arg1 harg1 arg2 harg2 arg3 harg3 arg4 harg4 hc0 hc1 x0)]
  unfold kernelRun1_A; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- At the first point the second accumulator is zeroed, then the point's rows are added in. -/
theorem sout1_A_1_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : cond1_0 i) (hc1 : ¬cond1_1 i)
    (x0 : Vec F S64x128 .f32) : sout1_A_1 c i arg1 harg1 arg2 harg2 arg3 harg3 arg4 harg4 hc0 hc1 x0 = k1_pay5 x0 (k1_pay2 (F := F)) := by
  unfold sout1_A_1
  rw [View.read_writes_eq_canon _ _ _ (scover1_A_1 c i arg1 harg1 arg2 harg2 arg3 harg3 arg4 harg4 hc0 hc1 x0)]
  unfold kernelRun1_A; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- At a middle point the rows are added into what the first accumulator held. -/
theorem sout1_B_0_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : sout1_B_0 c i arg1 harg1 arg2 harg2 arg3 harg3 arg4 harg4 hc0 hc1 x0 xs0 xs1 = k1_pay4 x0 xs0 := by
  unfold sout1_B_0
  rw [View.read_writes_eq_canon _ _ _ (scover1_B_0 c i arg1 harg1 arg2 harg2 arg3 harg3 arg4 harg4 hc0 hc1 x0 xs0 xs1)]
  unfold kernelRun1_B; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- At a middle point the rows are added into what the second accumulator held. -/
theorem sout1_B_1_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : ¬cond1_1 i)
    (x0 : Vec F S64x128 .f32) (xs0 : Vec F S1x128 .f32) (xs1 : Vec F S128x128 .f32) : sout1_B_1 c i arg1 harg1 arg2 harg2 arg3 harg3 arg4 harg4 hc0 hc1 x0 xs0 xs1 = k1_pay5 x0 xs1 := by
  unfold sout1_B_1
  rw [View.read_writes_eq_canon _ _ _ (scover1_B_1 c i arg1 harg1 arg2 harg2 arg3 harg3 arg4 harg4 hc0 hc1 x0 xs0 xs1)]
  unfold kernelRun1_B; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- At the last point likewise, for the first accumulator, -/
theorem sout1_C_0_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : sout1_C_0 c i arg1 harg1 arg2 harg2 arg3 harg3 arg4 harg4 hc0 hc1 x0 xs0 xs1 = k1_pay4 x0 xs0 := by
  unfold sout1_C_0
  rw [View.read_writes_eq_canon _ _ _ (scover1_C_0 c i arg1 harg1 arg2 harg2 arg3 harg3 arg4 harg4 hc0 hc1 x0 xs0 xs1)]
  unfold kernelRun1_C; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- and for the second; -/
theorem sout1_C_1_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : sout1_C_1 c i arg1 harg1 arg2 harg2 arg3 harg3 arg4 harg4 hc0 hc1 x0 xs0 xs1 = k1_pay5 x0 xs1 := by
  unfold sout1_C_1
  rw [View.read_writes_eq_canon _ _ _ (scover1_C_1 c i arg1 harg1 arg2 harg2 arg3 harg3 arg4 harg4 hc0 hc1 x0 xs0 xs1)]
  unfold kernelRun1_C; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

/-- and the output block is the edge weights computed from the two accumulators as just updated. -/
theorem out1_C_1_eq (c : Dev nD) (i : grid1.Coords) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (hc0 : ¬cond1_0 i) (hc1 : cond1_1 i)
    (x0 : Vec F S64x128 .f32) (xs0 : Vec F S1x128 .f32) (xs1 : Vec F S128x128 .f32) : out1_C_1 c i arg1 harg1 arg2 harg2 arg3 harg3 arg4 harg4 hc0 hc1 x0 xs0 xs1 = k1_pay6 (k1_pay4 x0 xs0) (k1_pay5 x0 xs1) := by
  unfold out1_C_1
  rw [View.read_writes_eq_canon _ _ _ (cover1_C_1 c i arg1 harg1 arg2 harg2 arg3 harg3 arg4 harg4 hc0 hc1 x0 xs0 xs1)]
  unfold kernelRun1_C; dsimp only
  sl_unfold_words
  rw [View.canon_cons_unit_zero hz2]
  simp only [View.readCov_unit_zero (S := S1x128) _ hz2, View.readCov_unit_zero (S := S128x128) _ hz2, View.readAt_eq_ld, harg1.read_unread, harg3.read_unread, harg4.read_unread,
    View.ld_unit_zero (S := S64x128) hz2, View.ld_unit_zero (S := S1x128) hz2, View.ld_unit_zero (S := S128x128) hz2]

end Cert.KernelIdeal.Gen

end
-- ==== Proof.KernelValue1.lean ====
/-
  What the middle region leaves in its output array, as the stage function of Proof/Stages.lean. The region's 32 points
  each read one block of 64 rows of H (point t rows 64t … 64t+63) and add its terms into two accumulators; the last
  point computes the edge weights from the finished accumulators and is the only one to write the output back. By
  recursion on the point the accumulators are `accA`, `accS` of H's row blocks, the last point's output is `w`, and
  since the output window's block is its whole 1 × 128 array, the array ends at `w`.
-/
import proofs.«127104_j29506425324178_1_alg».proof.Proof.Pieces1
import proofs.«127104_j29506425324178_1_alg».proof.Proof.Stages
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]

section
variable (V : (c : Dev nD) → (b : Ref sig .tc) → Buf (Elt F) ((c : Thread nD τ).loc b))

/-! ## The input window: point t reads rows 64t … 64t+63 -/

/-- Window 0's block index at point `t` is (t, 0). -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- An array read through window 0's block at point `t`: element (y₀, y₁) of the block is element (64t + y₀, y₁) of the
    array; below 2048 the reduction modulo 2048 changes nothing (t < 32, y₀ < 64). -/
theorem read1_0 (t : Fin cfg1.N) (f : S2048x128.Idx → Elt F .f32) (y : S64x128.Idx) :
    f (((cfg1.win 0).blk t).view.emb y)
      = f (ValueIdx.ix2 (⟨(64 * t.val + (y 0).val) % 2048, Nat.mod_lt _ (by norm_num)⟩ : Fin 2048) (⟨(y 1).val, (y 1).isLt⟩ : Fin 128)) := by
  obtain ⟨e0, e1⟩ := idx1_0 t
  have ht : t.val < 32 := N_1 ▸ t.isLt
  have hy : (y 0).val < 64 := (y 0).isLt
  congr 1
  funext a; apply Fin.ext
  match a with
  | ⟨0, _⟩ => show win1_0.index t (0 : Fin 2) * 64 + 1 * (y 0).val = (64 * t.val + (y 0).val) % 2048; omega
  | ⟨1, _⟩ => show win1_0.index t (1 : Fin 2) * 128 + 1 * (y 1).val = (y 1).val; omega

/-- The block the body loads at point `t` is rows 64t … 64t+63 of the array the region was entered with. -/
theorem iblk1_0_eq (c : Dev nD) (t : Fin cfg1.N) :
    iblk1 V c 0 t = Cert.KernelIdeal.Stage.rowBlock (V c (Pipeline.arrRef spec1 0)) t.val :=
  funext fun y => read1_0 t (V c (Pipeline.arrRef spec1 0)) y

/-! ## The two accumulators after each point -/

/-- The first point zeroes the accumulators and adds its rows in. -/
theorem outsAt1_zero (c : Dev nD) (hn : 0 < cfg1.N) :
    (outsAt1 V c 0 hn).2.1 = k1_pay4 (iblk1 V c 0 ⟨0, hn⟩) (k1_pay1 (F := F))
    ∧ (outsAt1 V c 0 hn).2.2 = k1_pay5 (iblk1 V c 0 ⟨0, hn⟩) (k1_pay2 (F := F)) := by
  have e : outsAt1 V c 0 hn = _ := outsAt1_A V c ⟨0, hn⟩ (Nat.zero_mod _) (by dsimp only; omega)
  rw [e]; dsimp only
  exact ⟨sout1_A_0_eq .., sout1_A_1_eq ..⟩

/-- Every later point adds its rows into what the point before left (the last point is no exception: it updates the
    accumulators before it computes the output from them). -/
theorem outsAt1_succ (c : Dev nD) (n : ℕ) (hn : n + 1 < cfg1.N) :
    (outsAt1 V c (n + 1) hn).2.1 = k1_pay4 (iblk1 V c 0 ⟨n + 1, hn⟩) (outsAt1 V c n (Nat.lt_of_succ_lt hn)).2.1
    ∧ (outsAt1 V c (n + 1) hn).2.2 = k1_pay5 (iblk1 V c 0 ⟨n + 1, hn⟩) (outsAt1 V c n (Nat.lt_of_succ_lt hn)).2.2 := by
  have hN : n + 1 < 32 := N_1 ▸ hn
  have h0 : ¬ (n + 1) % 32 = 0 := by omega
  by_cases h1 : (n + 1) % 32 = 31
  · have e : outsAt1 V c (n + 1) hn = _ := outsAt1_C V c ⟨n + 1, hn⟩ h0 h1
    rw [e]; dsimp only
    exact ⟨sout1_C_0_eq .., sout1_C_1_eq ..⟩
  · have e : outsAt1 V c (n + 1) hn = _ := outsAt1_B V c ⟨n + 1, hn⟩ h0 h1
    rw [e]; dsimp only
    exact ⟨sout1_B_0_eq .., sout1_B_1_eq ..⟩

/-- After point `n` the two accumulators hold the stage functions' sums over the rows of blocks 0 … n. -/
theorem outsAt1_acc (c : Dev nD) : ∀ (n : ℕ) (hn : n < cfg1.N),
    (outsAt1 V c n hn).2.1 = Stage.accA (Stage.rowBlock (V c (Pipeline.arrRef spec1 0))) n
    ∧ (outsAt1 V c n hn).2.2 = Stage.accS (Stage.rowBlock (V c (Pipeline.arrRef spec1 0))) n := by
  intro n
  induction n with
  | zero =>
    intro hn
    obtain ⟨eA, eS⟩ := outsAt1_zero V c hn
    rw [eA, eS, iblk1_0_eq]
    exact ⟨rfl, rfl⟩
  | succ n ih =>
    intro hn
    obtain ⟨eA, eS⟩ := outsAt1_succ V c n hn
    obtain ⟨ihA, ihS⟩ := ih (Nat.lt_of_succ_lt hn)
    rw [eA, eS, iblk1_0_eq, ihA, ihS]
    exact ⟨rfl, rfl⟩

/-! ## The output at the last point -/

/-- The accumulators' recursion, one step. -/
theorem accA_succ (blk : ℕ → Vec F S64x128 .f32) (n : ℕ) :
    Stage.accA blk (n + 1) = k1_pay4 (blk (n + 1)) (Stage.accA blk n) := rfl
theorem accS_succ (blk : ℕ → Vec F S64x128 .f32) (n : ℕ) :
    Stage.accS blk (n + 1) = k1_pay5 (blk (n + 1)) (Stage.accS blk n) := rfl

/-- The last point's output block: the edge weights of the accumulators as that point has just updated them. -/
theorem outsAt1_out (c : Dev nD) (n : ℕ) (hn : n + 1 < cfg1.N) (h1 : (n + 1) % 32 = 31) :
    (outsAt1 V c (n + 1) hn).1
      = k1_pay6 (k1_pay4 (iblk1 V c 0 ⟨n + 1, hn⟩) (outsAt1 V c n (Nat.lt_of_succ_lt hn)).2.1)
          (k1_pay5 (iblk1 V c 0 ⟨n + 1, hn⟩) (outsAt1 V c n (Nat.lt_of_succ_lt hn)).2.2) := by
  have hN : n + 1 < 32 := N_1 ▸ hn
  have h0 : ¬ (n + 1) % 32 = 0 := by omega
  have e : outsAt1 V c (n + 1) hn = _ := outsAt1_C V c ⟨n + 1, hn⟩ h0 h1
  rw [e]; dsimp only
  exact out1_C_1_eq ..

/-- At the last point the output block is the edge weights of the two finished accumulators. -/
theorem outsAt1_last (c : Dev nD) (h31 : 31 < cfg1.N) :
    (outsAt1 V c 31 h31).1 = Stage.w (Stage.rowBlock (V c (Pipeline.arrRef spec1 0))) := by
  obtain ⟨ihA, ihS⟩ := outsAt1_acc V c 30 (Nat.lt_of_succ_lt h31)
  have e := outsAt1_out V c 30 h31 (by norm_num)
  have e' : (outsAt1 V c 31 h31).1 = _ := e
  rw [e', iblk1_0_eq, ihA, ihS, ← accA_succ, ← accS_succ]
  rfl

/-! ## The output array after the region -/

/-- The output window's block index is (0, 0) at every point: the block is the whole 1 × 128 array. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The output array read through its window's block is the array. -/
theorem read1_1 (t : Fin cfg1.N) (f : S1x128.Idx → Elt F .f32) (y : S1x128.Idx) :
    f (((cfg1.win 1).blk t).view.emb y) = f y := by
  obtain ⟨e0, e1⟩ := idx1_1 t
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The one point that writes back is the last, t = 31, and what it writes back is the edge weights. -/
theorem flushed1_1 (c : Dev nD) (t : Fin cfg1.N) (hf : (cfg1.win 1).flush t = true) :
    (dat1 V c).flushed 1 t = ((cfg1.win 1).blk t).view.read (Elt F) (Stage.w (Stage.rowBlock (V c (Pipeline.arrRef spec1 0)))) := by
  have h31 : t.val % 32 = 31 := (flush1_1 t).mp hf
  have ht : t.val < 32 := N_1 ▸ t.isLt
  obtain ⟨n, hn⟩ := t
  obtain rfl : n = 31 := by dsimp only at h31 ht; omega
  show (cfg1.win 1).cut (grid1.coords ⟨31, hn⟩) ((dat1 V c).after 1 ⟨31, hn⟩) = _
  rw [after1_1, outsAt1_last]
  funext j
  exact (read1_1 ⟨31, hn⟩ (Stage.w (Stage.rowBlock (V c (Pipeline.arrRef spec1 0)))) j).symm

/-- That block covers the output array. -/
theorem covered1_1 (i : S1x128.Idx) : ∃ t : Fin cfg1.N, (cfg1.win 1).flush t = true ∧ i ∈ ((cfg1.win 1).blk t).view.set := by
  have h31 : 31 < cfg1.N := by rw [show cfg1.N = 32 from N_1]; norm_num
  refine ⟨⟨31, h31⟩, (flush1_1 _).mpr (by dsimp only), ?_⟩
  show i ∈ ((View.whole main_v13).slice (win1_1.rect ⟨31, h31⟩)).set
  rw [View.set_slice_whole, Rect.mem_set_unit]
  obtain ⟨e0, e1⟩ := idx1_1 ⟨31, h31⟩
  intro a
  match a with
  | ⟨0, _⟩ => show win1_1.index ⟨31, h31⟩ (0 : Fin 2) * 1 ≤ (i 0).val ∧ (i 0).val < win1_1.index ⟨31, h31⟩ (0 : Fin 2) * 1 + 1; have h0 : (i 0).val < 1 := (i 0).isLt; omega
  | ⟨1, _⟩ => show win1_1.index ⟨31, h31⟩ (1 : Fin 2) * 128 ≤ (i 1).val ∧ (i 1).val < win1_1.index ⟨31, h31⟩ (1 : Fin 2) * 128 + 128; have h1 : (i 1).val < 128 := (i 1).isLt; omega

/-- THE ARRAY after the region: the edge weights, as the stage function of H's row blocks. -/
theorem final1_1 (c : Dev nD) : (dat1 V c).arrAt 1 cfg1.N = Stage.w (Stage.rowBlock (V c (Pipeline.arrRef spec1 0))) :=
  (dat1 V c).arrAt_eq_of_cover 1 _ (fun t hf => flushed1_1 V c t hf) (covered1_1)

end

end Cert.KernelIdeal.Gen

end
-- ==== Proof.KStages.lean ====
/-
  The kernel's stages as functions of the 24 argument arrays as launched: the two inputs reshaped [64,32,128] → [2048,128]
  and the ten biases reshaped [128] → [1,128] (what the first host stretch does) feed `Stage.H`; the edge weights are
  `Stage.w` of H's 32 row blocks; the two results are `Stage.outT` / `Stage.outN` reshaped back to [64,32,128] (the last
  host stretch).
-/
import proofs.«127104_j29506425324178_1_alg».proof.Proof.Stages

noncomputable section

namespace Cert.KernelIdeal.Stage

open Idealize.ShloMosaic Cert.KernelIdeal Cert.KernelIdeal.Gen

variable {F : FTy → Type} [FloatOps F]

/-- The incidence matrix from the launch arrays. -/
def kH (a0 : Vec F S64x32x128 .f32) (a1 : Vec F S64x32x128 .f32) (a2 : Vec F S2048x128 .f32) (a3 : Vec F S128 .f32) (a4 : Vec F S128x128 .f32) (a5 : Vec F S128 .f32) (a6 : Vec F S2048x128 .f32) (a7 : Vec F S128 .f32) (a8 : Vec F S128x128 .f32) (a9 : Vec F S128 .f32) (a10 : Vec F S2048x128 .f32) (a11 : Vec F S128 .f32) (a12 : Vec F S128x128 .f32) (a13 : Vec F S128 .f32) (a14 : Vec F S2048x128 .f32) (a15 : Vec F S128 .f32) (a16 : Vec F S128x128 .f32) (a17 : Vec F S128 .f32) (a18 : Vec F S512x128 .f32) (a19 : Vec F S128 .f32) (a20 : Vec F S128x128 .f32) (a21 : Vec F S128 .f32) : FVec F S2048x128 .f32 :=
  H (shapeCast S2048x128 a0 shapeCasts_S64x32x128_S2048x128) (shapeCast S2048x128 a1 shapeCasts_S64x32x128_S2048x128) a2 (shapeCast S1x128 a3 shapeCasts_S128_S1x128) a4 (shapeCast S1x128 a5 shapeCasts_S128_S1x128) a6 (shapeCast S1x128 a7 shapeCasts_S128_S1x128) a8 (shapeCast S1x128 a9 shapeCasts_S128_S1x128) a10 (shapeCast S1x128 a11 shapeCasts_S128_S1x128) a12 (shapeCast S1x128 a13 shapeCasts_S128_S1x128) a14 (shapeCast S1x128 a15 shapeCasts_S128_S1x128) a16 (shapeCast S1x128 a17 shapeCasts_S128_S1x128) a18 (shapeCast S1x128 a19 shapeCasts_S128_S1x128) a20 (shapeCast S1x128 a21 shapeCasts_S128_S1x128)

/-- The edge weights from the launch arrays. -/
def kW (a0 : Vec F S64x32x128 .f32) (a1 : Vec F S64x32x128 .f32) (a2 : Vec F S2048x128 .f32) (a3 : Vec F S128 .f32) (a4 : Vec F S128x128 .f32) (a5 : Vec F S128 .f32) (a6 : Vec F S2048x128 .f32) (a7 : Vec F S128 .f32) (a8 : Vec F S128x128 .f32) (a9 : Vec F S128 .f32) (a10 : Vec F S2048x128 .f32) (a11 : Vec F S128 .f32) (a12 : Vec F S128x128 .f32) (a13 : Vec F S128 .f32) (a14 : Vec F S2048x128 .f32) (a15 : Vec F S128 .f32) (a16 : Vec F S128x128 .f32) (a17 : Vec F S128 .f32) (a18 : Vec F S512x128 .f32) (a19 : Vec F S128 .f32) (a20 : Vec F S128x128 .f32) (a21 : Vec F S128 .f32) : FVec F S1x128 .f32 :=
  w (rowBlock (kH a0 a1 a2 a3 a4 a5 a6 a7 a8 a9 a10 a11 a12 a13 a14 a15 a16 a17 a18 a19 a20 a21))

/-- The first result from the launch arrays. -/
def kOutT (a0 : Vec F S64x32x128 .f32) (a1 : Vec F S64x32x128 .f32) (a2 : Vec F S2048x128 .f32) (a3 : Vec F S128 .f32) (a4 : Vec F S128x128 .f32) (a5 : Vec F S128 .f32) (a6 : Vec F S2048x128 .f32) (a7 : Vec F S128 .f32) (a8 : Vec F S128x128 .f32) (a9 : Vec F S128 .f32) (a10 : Vec F S2048x128 .f32) (a11 : Vec F S128 .f32) (a12 : Vec F S128x128 .f32) (a13 : Vec F S128 .f32) (a14 : Vec F S2048x128 .f32) (a15 : Vec F S128 .f32) (a16 : Vec F S128x128 .f32) (a17 : Vec F S128 .f32) (a18 : Vec F S512x128 .f32) (a19 : Vec F S128 .f32) (a20 : Vec F S128x128 .f32) (a21 : Vec F S128 .f32) (a22 : Vec F S128x128 .f32) : FVec F S64x32x128 .f32 :=
  shapeCast S64x32x128 (outT (kH a0 a1 a2 a3 a4 a5 a6 a7 a8 a9 a10 a11 a12 a13 a14 a15 a16 a17 a18 a19 a20 a21) (kW a0 a1 a2 a3 a4 a5 a6 a7 a8 a9 a10 a11 a12 a13 a14 a15 a16 a17 a18 a19 a20 a21) (shapeCast S2048x128 a0 shapeCasts_S64x32x128_S2048x128) a22) shapeCasts_S2048x128_S64x32x128

/-- The second result from the launch arrays. -/
def kOutN (a0 : Vec F S64x32x128 .f32) (a1 : Vec F S64x32x128 .f32) (a2 : Vec F S2048x128 .f32) (a3 : Vec F S128 .f32) (a4 : Vec F S128x128 .f32) (a5 : Vec F S128 .f32) (a6 : Vec F S2048x128 .f32) (a7 : Vec F S128 .f32) (a8 : Vec F S128x128 .f32) (a9 : Vec F S128 .f32) (a10 : Vec F S2048x128 .f32) (a11 : Vec F S128 .f32) (a12 : Vec F S128x128 .f32) (a13 : Vec F S128 .f32) (a14 : Vec F S2048x128 .f32) (a15 : Vec F S128 .f32) (a16 : Vec F S128x128 .f32) (a17 : Vec F S128 .f32) (a18 : Vec F S512x128 .f32) (a19 : Vec F S128 .f32) (a20 : Vec F S128x128 .f32) (a21 : Vec F S128 .f32) (a23 : Vec F S128x128 .f32) : FVec F S64x32x128 .f32 :=
  shapeCast S64x32x128 (outN (kH a0 a1 a2 a3 a4 a5 a6 a7 a8 a9 a10 a11 a12 a13 a14 a15 a16 a17 a18 a19 a20 a21) (kW a0 a1 a2 a3 a4 a5 a6 a7 a8 a9 a10 a11 a12 a13 a14 a15 a16 a17 a18 a19 a20 a21) (shapeCast S2048x128 a1 shapeCasts_S64x32x128_S2048x128) a23) shapeCasts_S2048x128_S64x32x128

end Cert.KernelIdeal.Stage

end
-- ==== Proof.KernelResult.lean ====
/-
  The kernel's two result buffers after the run, as functions of the launch arrays. Walking back through the boundaries
  of Proof/Run.lean: a result is the reshape of the third region's output array, which is `Stage.outT` / `outN` of the
  arrays that region was entered with — H (the first region's output, untouched by the second, which only reads it),
  the edge weights (the second region's output), the reshaped input, and θ as launched; H in turn is `Stage.H` of the
  first region's 22 input arrays, which the first host stretch left at the reshaped inputs and biases and the weight
  matrices as launched.
-/
import proofs.«127104_j29506425324178_1_alg».proof.Proof.KernelValue
import proofs.«127104_j29506425324178_1_alg».proof.Proof.KernelValue1
import proofs.«127104_j29506425324178_1_alg».proof.Proof.KStages

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Stage

variable {F : FTy → Type} [FloatOps F]
variable (m : (ℓ : Loc nD τ sig) → Buf (Elt F) ℓ) (ρ : Dev nD → PrngReg)

/-! ## The first region's input arrays, from the launch memory -/

theorem U1_w0 (c : Dev nD) : U1 m ρ c (Pipeline.arrRef spec0 0) = shapeCast S2048x128 (m ((c : Thread nD τ).loc main_arg0)) shapeCasts_S64x32x128_S2048x128 := by
  show StableHlo.after hostOps0 (W0 m ρ c) (Proc.devRef .tc main_v0) = _
  after_results
  rfl
theorem U1_w1 (c : Dev nD) : U1 m ρ c (Pipeline.arrRef spec0 1) = shapeCast S2048x128 (m ((c : Thread nD τ).loc main_arg1)) shapeCasts_S64x32x128_S2048x128 := by
  show StableHlo.after hostOps0 (W0 m ρ c) (Proc.devRef .tc main_v1) = _
  after_results
  rfl
theorem U1_w2 (c : Dev nD) : U1 m ρ c (Pipeline.arrRef spec0 2) = m ((c : Thread nD τ).loc main_arg2) :=
  (StableHlo.after_of_writes_sub hostOps0 _ ops0_writes (by decide) : W1 m ρ c (Proc.devRef .tc main_arg2) = W0 m ρ c (Proc.devRef .tc main_arg2))
theorem U1_w3 (c : Dev nD) : U1 m ρ c (Pipeline.arrRef spec0 3) = shapeCast S1x128 (m ((c : Thread nD τ).loc main_arg3)) shapeCasts_S128_S1x128 := by
  show StableHlo.after hostOps0 (W0 m ρ c) (Proc.devRef .tc main_v2) = _
  after_results
  rfl
theorem U1_w4 (c : Dev nD) : U1 m ρ c (Pipeline.arrRef spec0 4) = m ((c : Thread nD τ).loc main_arg4) :=
  (StableHlo.after_of_writes_sub hostOps0 _ ops0_writes (by decide) : W1 m ρ c (Proc.devRef .tc main_arg4) = W0 m ρ c (Proc.devRef .tc main_arg4))
theorem U1_w5 (c : Dev nD) : U1 m ρ c (Pipeline.arrRef spec0 5) = shapeCast S1x128 (m ((c : Thread nD τ).loc main_arg5)) shapeCasts_S128_S1x128 := by
  show StableHlo.after hostOps0 (W0 m ρ c) (Proc.devRef .tc main_v3) = _
  after_results
  rfl
theorem U1_w6 (c : Dev nD) : U1 m ρ c (Pipeline.arrRef spec0 6) = m ((c : Thread nD τ).loc main_arg6) :=
  (StableHlo.after_of_writes_sub hostOps0 _ ops0_writes (by decide) : W1 m ρ c (Proc.devRef .tc main_arg6) = W0 m ρ c (Proc.devRef .tc main_arg6))
theorem U1_w7 (c : Dev nD) : U1 m ρ c (Pipeline.arrRef spec0 7) = shapeCast S1x128 (m ((c : Thread nD τ).loc main_arg7)) shapeCasts_S128_S1x128 := by
  show StableHlo.after hostOps0 (W0 m ρ c) (Proc.devRef .tc main_v4) = _
  after_results
  rfl
theorem U1_w8 (c : Dev nD) : U1 m ρ c (Pipeline.arrRef spec0 8) = m ((c : Thread nD τ).loc main_arg8) :=
  (StableHlo.after_of_writes_sub hostOps0 _ ops0_writes (by decide) : W1 m ρ c (Proc.devRef .tc main_arg8) = W0 m ρ c (Proc.devRef .tc main_arg8))
theorem U1_w9 (c : Dev nD) : U1 m ρ c (Pipeline.arrRef spec0 9) = shapeCast S1x128 (m ((c : Thread nD τ).loc main_arg9)) shapeCasts_S128_S1x128 := by
  show StableHlo.after hostOps0 (W0 m ρ c) (Proc.devRef .tc main_v5) = _
  after_results
  rfl
theorem U1_w10 (c : Dev nD) : U1 m ρ c (Pipeline.arrRef spec0 10) = m ((c : Thread nD τ).loc main_arg10) :=
  (StableHlo.after_of_writes_sub hostOps0 _ ops0_writes (by decide) : W1 m ρ c (Proc.devRef .tc main_arg10) = W0 m ρ c (Proc.devRef .tc main_arg10))
theorem U1_w11 (c : Dev nD) : U1 m ρ c (Pipeline.arrRef spec0 11) = shapeCast S1x128 (m ((c : Thread nD τ).loc main_arg11)) shapeCasts_S128_S1x128 := by
  show StableHlo.after hostOps0 (W0 m ρ c) (Proc.devRef .tc main_v6) = _
  after_results
  rfl
theorem U1_w12 (c : Dev nD) : U1 m ρ c (Pipeline.arrRef spec0 12) = m ((c : Thread nD τ).loc main_arg12) :=
  (StableHlo.after_of_writes_sub hostOps0 _ ops0_writes (by decide) : W1 m ρ c (Proc.devRef .tc main_arg12) = W0 m ρ c (Proc.devRef .tc main_arg12))
theorem U1_w13 (c : Dev nD) : U1 m ρ c (Pipeline.arrRef spec0 13) = shapeCast S1x128 (m ((c : Thread nD τ).loc main_arg13)) shapeCasts_S128_S1x128 := by
  show StableHlo.after hostOps0 (W0 m ρ c) (Proc.devRef .tc main_v7) = _
  after_results
  rfl
theorem U1_w14 (c : Dev nD) : U1 m ρ c (Pipeline.arrRef spec0 14) = m ((c : Thread nD τ).loc main_arg14) :=
  (StableHlo.after_of_writes_sub hostOps0 _ ops0_writes (by decide) : W1 m ρ c (Proc.devRef .tc main_arg14) = W0 m ρ c (Proc.devRef .tc main_arg14))
theorem U1_w15 (c : Dev nD) : U1 m ρ c (Pipeline.arrRef spec0 15) = shapeCast S1x128 (m ((c : Thread nD τ).loc main_arg15)) shapeCasts_S128_S1x128 := by
  show StableHlo.after hostOps0 (W0 m ρ c) (Proc.devRef .tc main_v8) = _
  after_results
  rfl
theorem U1_w16 (c : Dev nD) : U1 m ρ c (Pipeline.arrRef spec0 16) = m ((c : Thread nD τ).loc main_arg16) :=
  (StableHlo.after_of_writes_sub hostOps0 _ ops0_writes (by decide) : W1 m ρ c (Proc.devRef .tc main_arg16) = W0 m ρ c (Proc.devRef .tc main_arg16))
theorem U1_w17 (c : Dev nD) : U1 m ρ c (Pipeline.arrRef spec0 17) = shapeCast S1x128 (m ((c : Thread nD τ).loc main_arg17)) shapeCasts_S128_S1x128 := by
  show StableHlo.after hostOps0 (W0 m ρ c) (Proc.devRef .tc main_v9) = _
  after_results
  rfl
theorem U1_w18 (c : Dev nD) : U1 m ρ c (Pipeline.arrRef spec0 18) = m ((c : Thread nD τ).loc main_arg18) :=
  (StableHlo.after_of_writes_sub hostOps0 _ ops0_writes (by decide) : W1 m ρ c (Proc.devRef .tc main_arg18) = W0 m ρ c (Proc.devRef .tc main_arg18))
theorem U1_w19 (c : Dev nD) : U1 m ρ c (Pipeline.arrRef spec0 19) = shapeCast S1x128 (m ((c : Thread nD τ).loc main_arg19)) shapeCasts_S128_S1x128 := by
  show StableHlo.after hostOps0 (W0 m ρ c) (Proc.devRef .tc main_v10) = _
  after_results
  rfl
theorem U1_w20 (c : Dev nD) : U1 m ρ c (Pipeline.arrRef spec0 20) = m ((c : Thread nD τ).loc main_arg20) :=
  (StableHlo.after_of_writes_sub hostOps0 _ ops0_writes (by decide) : W1 m ρ c (Proc.devRef .tc main_arg20) = W0 m ρ c (Proc.devRef .tc main_arg20))
theorem U1_w21 (c : Dev nD) : U1 m ρ c (Pipeline.arrRef spec0 21) = shapeCast S1x128 (m ((c : Thread nD τ).loc main_arg21)) shapeCasts_S128_S1x128 := by
  show StableHlo.after hostOps0 (W0 m ρ c) (Proc.devRef .tc main_v11) = _
  after_results
  rfl

/-! ## H, the edge weights, and the third region's other inputs -/

/-- After the first region its output array holds H of the launch arrays. -/
theorem U2_H (c : Dev nD) : U2 m ρ c (Pipeline.arrRef spec0 22) = kH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show W2 m ρ c (Proc.devRef .tc (Pipeline.arrRef spec0 22)) = _
  rw [W2_arr, final0_22]
  simp only [U1_w0, U1_w1, U1_w2, U1_w3, U1_w4, U1_w5, U1_w6, U1_w7, U1_w8, U1_w9, U1_w10, U1_w11, U1_w12, U1_w13, U1_w14, U1_w15, U1_w16, U1_w17, U1_w18, U1_w19, U1_w20, U1_w21]
  rfl

/-- The second region reads H and leaves it. -/
theorem U3_H (c : Dev nD) : U3 m ρ c (Pipeline.arrRef spec2 0) = kH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  ((W3_arr m ρ c 0).trans (((dat1 (U2 m ρ) c).arrAt_in 0 rfl _).trans (A_eq1 (U2 m ρ) c 0))).trans (U2_H m ρ c)

/-- After the second region its output array holds the edge weights of H's row blocks. -/
theorem U3_w (c : Dev nD) : U3 m ρ c (Pipeline.arrRef spec2 1) = kW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show W3 m ρ c (Proc.devRef .tc (Pipeline.arrRef spec1 1)) = _
  rw [W3_arr, final1_1]
  show Stage.w (Stage.rowBlock (U2 m ρ c (Pipeline.arrRef spec0 22))) = _
  rw [U2_H]; rfl

/-- The reshaped inputs reach the third region as the first host stretch left them. -/
theorem U3_xt (c : Dev nD) : U3 m ρ c (Pipeline.arrRef spec2 2) = shapeCast S2048x128 (m ((c : Thread nD τ).loc main_arg0)) shapeCasts_S64x32x128_S2048x128 :=
  ((W3_of_ne m ρ c main_v0 (by decide)).trans ((W2_arr m ρ c 0).trans (((dat0 (U1 m ρ) c).arrAt_in 0 rfl _).trans (A_eq0 (U1 m ρ) c 0)))).trans (U1_w0 m ρ c)
theorem U3_xn (c : Dev nD) : U3 m ρ c (Pipeline.arrRef spec2 3) = shapeCast S2048x128 (m ((c : Thread nD τ).loc main_arg1)) shapeCasts_S64x32x128_S2048x128 :=
  ((W3_of_ne m ρ c main_v1 (by decide)).trans ((W2_arr m ρ c 1).trans (((dat0 (U1 m ρ) c).arrAt_in 1 rfl _).trans (A_eq0 (U1 m ρ) c 1)))).trans (U1_w1 m ρ c)
/-- θ reaches it as launched. -/
theorem U3_θt (c : Dev nD) : U3 m ρ c (Pipeline.arrRef spec2 4) = m ((c : Thread nD τ).loc main_arg22) :=
  (W3_of_ne m ρ c main_arg22 (by decide)).trans ((W2_of_ne m ρ c main_arg22 (by decide)).trans (StableHlo.after_of_writes_sub hostOps0 _ ops0_writes (by decide)))
theorem U3_θn (c : Dev nD) : U3 m ρ c (Pipeline.arrRef spec2 5) = m ((c : Thread nD τ).loc main_arg23) :=
  (W3_of_ne m ρ c main_arg23 (by decide)).trans ((W2_of_ne m ρ c main_arg23 (by decide)).trans (StableHlo.after_of_writes_sub hostOps0 _ ops0_writes (by decide)))

/-! ## The results -/

theorem W5_v15 (c : Dev nD) : W5 m ρ c (Proc.devRef .tc main_v15) = kOutT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have e : W5 m ρ c (Proc.devRef .tc main_v15) = shapeCast S64x32x128 (W4 m ρ c (Proc.devRef .tc main_v14_0)) shapeCasts_S2048x128_S64x32x128 := by
    show StableHlo.after hostOps3 (W4 m ρ c) (Proc.devRef .tc main_v15) = _
    after_results
    rfl
  rw [e, show W4 m ρ c (Proc.devRef .tc main_v14_0) = (dat2 (U3 m ρ) c).arrAt 6 cfg2.N from W4_arr m ρ c 6, final2_6,
    U3_H, U3_w, U3_xt, U3_θt]
  rfl

theorem W5_v16 (c : Dev nD) : W5 m ρ c (Proc.devRef .tc main_v16) = kOutN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg23)) := by
  have e : W5 m ρ c (Proc.devRef .tc main_v16) = shapeCast S64x32x128 (W4 m ρ c (Proc.devRef .tc main_v14_1)) shapeCasts_S2048x128_S64x32x128 := by
    show StableHlo.after hostOps3 (W4 m ρ c) (Proc.devRef .tc main_v16) = _
    after_results
    rfl
  rw [e, show W4 m ρ c (Proc.devRef .tc main_v14_1) = (dat2 (U3 m ρ) c).arrAt 7 cfg2.N from W4_arr m ρ c 7, final2_7,
    U3_H, U3_w, U3_xn, U3_θn]
  rfl

/-- THE RUN WITH ITS RESULTS: every weakly fair execution terminates with the two results at `kOutT`, `kOutN` of the launch
    arrays and the 24 arguments as launched. -/
theorem run_values : θ_run defs (onTc (τ := τ) (main (F := F))) ⟨m, fun _ => 0, ρ⟩ (fun r => ∀ c : Dev nD,
      r.2.mem ((c.tc : Thread nD τ).loc main_v15) = kOutT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v16) = kOutN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c _ (mem_uc3 main_v15 (by decide))).trans (W5_v15 m ρ c),
    (h c _ (mem_uc3 main_v16 (by decide))).trans (W5_v16 m ρ c),
    (h c _ (mem_uc3 main_arg0 (by decide))).trans (W5_main_arg0 m ρ c),
    (h c _ (mem_uc3 main_arg1 (by decide))).trans (W5_main_arg1 m ρ c),
    (h c _ (mem_uc3 main_arg2 (by decide))).trans (W5_main_arg2 m ρ c),
    (h c _ (mem_uc3 main_arg3 (by decide))).trans (W5_main_arg3 m ρ c),
    (h c _ (mem_uc3 main_arg4 (by decide))).trans (W5_main_arg4 m ρ c),
    (h c _ (mem_uc3 main_arg5 (by decide))).trans (W5_main_arg5 m ρ c),
    (h c _ (mem_uc3 main_arg6 (by decide))).trans (W5_main_arg6 m ρ c),
    (h c _ (mem_uc3 main_arg7 (by decide))).trans (W5_main_arg7 m ρ c),
    (h c _ (mem_uc3 main_arg8 (by decide))).trans (W5_main_arg8 m ρ c),
    (h c _ (mem_uc3 main_arg9 (by decide))).trans (W5_main_arg9 m ρ c),
    (h c _ (mem_uc3 main_arg10 (by decide))).trans (W5_main_arg10 m ρ c),
    (h c _ (mem_uc3 main_arg11 (by decide))).trans (W5_main_arg11 m ρ c),
    (h c _ (mem_uc3 main_arg12 (by decide))).trans (W5_main_arg12 m ρ c),
    (h c _ (mem_uc3 main_arg13 (by decide))).trans (W5_main_arg13 m ρ c),
    (h c _ (mem_uc3 main_arg14 (by decide))).trans (W5_main_arg14 m ρ c),
    (h c _ (mem_uc3 main_arg15 (by decide))).trans (W5_main_arg15 m ρ c),
    (h c _ (mem_uc3 main_arg16 (by decide))).trans (W5_main_arg16 m ρ c),
    (h c _ (mem_uc3 main_arg17 (by decide))).trans (W5_main_arg17 m ρ c),
    (h c _ (mem_uc3 main_arg18 (by decide))).trans (W5_main_arg18 m ρ c),
    (h c _ (mem_uc3 main_arg19 (by decide))).trans (W5_main_arg19 m ρ c),
    (h c _ (mem_uc3 main_arg20 (by decide))).trans (W5_main_arg20 m ρ c),
    (h c _ (mem_uc3 main_arg21 (by decide))).trans (W5_main_arg21 m ρ c),
    (h c _ (mem_uc3 main_arg22 (by decide))).trans (W5_main_arg22 m ρ c),
    (h c _ (mem_uc3 main_arg23 (by decide))).trans (W5_main_arg23 m ρ c)⟩) (run_all m ρ)

end Cert.KernelIdeal.Gen

end
-- ==== Proof.RefHDefs.lean ====
/-
  The reference's incidence matrix as one function of the argument arrays.

  The reference computes H in five steps, each a composition of whole-array host operations:
  * four candidate matrices  x · mlp(yᵀ)  (`cand`): y transposed to 128 × 2048, a first layer  relu(yᵀ · W₁ + b₁)  of
    128 × 128, a second layer  · W₂ + b₂, and x (2048 × 128) times that 128 × 128 matrix;
  * the fifth perceptron on their concatenation along the columns (`fuse`): relu(C · W₁ + b₁) · W₂ + b₂;
  * each column standardized (`standardize`): (X − mean) / (std + ε), the mean the column sum over 2048 (`colMean`),
    the deviation the square root of the unbiased variance (`colStd`: the sum of squared differences over
    2048 − 1 where that is positive, a NaN pattern elsewhere — the guard the variance function carries);
  * the softmax of each column (`colSoftmax`): exp(Z − max) / Σ exp(Z − max), the maximum taken against −∞ once more.
  `refH` composes them over the 22 arguments in @main's order, the two inputs reshaped to 2048 × 128 first.
-/
import proofs.«127104_j29506425324178_1_alg».proof.Proof.RefRun

noncomputable section

namespace Cert.ReferenceIdeal.RefH

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- One candidate: x · (relu(yᵀ · W₁ + b₁) · W₂ + b₂). -/
def cand (x y : (⟨S2048x128, .f32⟩ : BufTy).Contents (Elt F)) (W1 : (⟨S2048x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S2048x128, .f32⟩ : BufTy).Contents (Elt F) :=
  Host.dotGeneral dot_S2048x128_S128x128_S2048x128_1_0_0_1_n_n none x
    (addf
      (Host.dotGeneral dot_S128x128_S128x128_S128x128_1_0_0_1_n_n none
        (maximumf
          (addf
            (Host.dotGeneral dot_S128x2048_S2048x128_S128x128_1_0_0_1_n_n none (transpose S128x2048 [1, 0] y transposes_S2048x128_S128x2048_1_0) W1)
            (broadcastInDim S128x128 ![0, 1] bcast_S1x128_S128x128_0_1 (broadcastInDim S1x128 ![1] bcast_S128_S1x128_1 b1)))
          (broadcastInDim S128x128 ![] bcast_S_S128x128 (constant (F := F) S_ .f32 0x00000000#32)))
        W2)
      (broadcastInDim S128x128 ![0, 1] bcast_S1x128_S128x128_0_1 (broadcastInDim S1x128 ![1] bcast_S128_S1x128_1 b2)))

/-- The fifth perceptron on the four candidates side by side: relu([c₁ c₂ c₃ c₄] · W₁ + b₁) · W₂ + b₂. -/
def fuse (c1 c2 c3 c4 : (⟨S2048x128, .f32⟩ : BufTy).Contents (Elt F)) (W1 : (⟨S512x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S2048x128, .f32⟩ : BufTy).Contents (Elt F) :=
  addf
    (Host.dotGeneral dot_S2048x128_S128x128_S2048x128_1_0_0_1_n_n none
      (maximumf
        (addf
          (Host.dotGeneral dot_S2048x512_S512x128_S2048x128_1_0_0_1_n_n none
            (concatenate S2048x512 1 [⟨S2048x128, c1⟩, ⟨S2048x128, c2⟩, ⟨S2048x128, c3⟩, ⟨S2048x128, c4⟩] concatenates_S2048x128_S2048x128_S2048x128_S2048x128_S2048x512_d1)
            W1)
          (broadcastInDim S2048x128 ![0, 1] bcast_S1x128_S2048x128_0_1 (broadcastInDim S1x128 ![1] bcast_S128_S1x128_1 b1)))
        (broadcastInDim S2048x128 ![] bcast_S_S2048x128 (constant (F := F) S_ .f32 0x00000000#32)))
      W2)
    (broadcastInDim S2048x128 ![0, 1] bcast_S1x128_S2048x128_0_1 (broadcastInDim S1x128 ![1] bcast_S128_S1x128_1 b2))

/-- The mean of each column, as a row: the column's sum over 2048. -/
def colMean (X : (⟨S2048x128, .f32⟩ : BufTy).Contents (Elt F)) : (⟨S1x128, .f32⟩ : BufTy).Contents (Elt F) :=
  Host.divf (broadcastInDim S1x128 ![1] bcast_S128_S1x128_1 (Host.reduceAdd X (constant (F := F) S_ .f32 0x00000000#32) reducesTo_S2048x128_S128_d0 h_S_))
    (broadcastInDim S1x128 ![] bcast_S_S1x128 (constant (F := F) S_ .f32 0x45000000#32))

/-- The number the unbiased variance divides by: 2048 minus the integer constant 1, converted. -/
def ddofDen : (⟨S_, .f32⟩ : BufTy).Contents (Elt F) :=
  subf (constant (F := F) S_ .f32 0x45000000#32) (sitofp .f32 (constantI S_ 32 1#32))

/-- The unbiased standard deviation of each column, as a row: the square root of the sum of squared differences from
    the mean over 2048 − 1 — where that number is positive; a NaN pattern elsewhere. -/
def colStd (X : (⟨S2048x128, .f32⟩ : BufTy).Contents (Elt F)) : (⟨S1x128, .f32⟩ : BufTy).Contents (Elt F) :=
  Host.sqrt
    (select
      (broadcastInDim S1x128 ![] bcast_S_S1x128 (cmpf .ogt (ddofDen (F := F)) (constant (F := F) S_ .f32 0x00000000#32)))
      (Host.divf
        (broadcastInDim S1x128 ![1] bcast_S128_S1x128_1 (Host.reduceAdd (mulf (subf X (broadcastInDim S2048x128 ![0, 1] bcast_S1x128_S2048x128_0_1 (colMean X))) (subf X (broadcastInDim S2048x128 ![0, 1] bcast_S1x128_S2048x128_0_1 (colMean X)))) (constant (F := F) S_ .f32 0x00000000#32) reducesTo_S2048x128_S128_d0 h_S_))
        (broadcastInDim S1x128 ![] bcast_S_S1x128 (ddofDen (F := F))))
      (broadcastInDim S1x128 ![] bcast_S_S1x128 (id (constant (F := F) S_ .f32 0x7FC00000#32))))

/-- Each column standardized: (X − mean) / (std + ε). -/
def standardize (X : (⟨S2048x128, .f32⟩ : BufTy).Contents (Elt F)) : (⟨S2048x128, .f32⟩ : BufTy).Contents (Elt F) :=
  Host.divf (subf X (broadcastInDim S2048x128 ![0, 1] bcast_S1x128_S2048x128_0_1 (colMean X)))
    (broadcastInDim S2048x128 ![0, 1] bcast_S1x128_S2048x128_0_1 (addf (colStd X) (broadcastInDim S1x128 ![] bcast_S_S1x128 (constant (F := F) S_ .f32 0x358637BD#32))))

/-- The exponentials of a column softmax: exp(Z − max), the column maximum taken against −∞ once more. -/
def colExp (Z : (⟨S2048x128, .f32⟩ : BufTy).Contents (Elt F)) : (⟨S2048x128, .f32⟩ : BufTy).Contents (Elt F) :=
  Host.exp
    (subf Z
      (broadcastInDim S2048x128 ![0, 1] bcast_S1x128_S2048x128_0_1 (broadcastInDim S1x128 ![1] bcast_S128_S1x128_1 (maximumf (broadcastInDim S128 ![] bcast_S_S128 (constant (F := F) S_ .f32 0xFF800000#32)) (Host.reduce FloatOps.maximumf Z (constant (F := F) S_ .f32 0xFF800000#32) reducesTo_S2048x128_S128_d0 h_S_)))))

/-- The softmax of each column: the exponentials over their column sums. -/
def colSoftmax (Z : (⟨S2048x128, .f32⟩ : BufTy).Contents (Elt F)) : (⟨S2048x128, .f32⟩ : BufTy).Contents (Elt F) :=
  Host.divf (colExp Z) (broadcastInDim S2048x128 ![0, 1] bcast_S1x128_S2048x128_0_1 (broadcastInDim S1x128 ![1] bcast_S128_S1x128_1 (Host.reduceAdd (colExp Z) (constant (F := F) S_ .f32 0x00000000#32) reducesTo_S2048x128_S128_d0 h_S_)))

/-- The reference's incidence matrix, from @main's first 22 arguments in order. -/
def refH (a0 a1 : (⟨S64x32x128, .f32⟩ : BufTy).Contents (Elt F)) (a2 : (⟨S2048x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F))
    (a6 : (⟨S2048x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S2048x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F))
    (a14 : (⟨S2048x128, .f32⟩ : BufTy).Contents (Elt F)) (a15 : (⟨S128, .f32⟩ : BufTy).Contents (Elt F)) (a16 : (⟨S128x128, .f32⟩ : BufTy).Contents (Elt F)) (a17 : (⟨S128, .f32⟩ : BufTy).Contents (Elt F))
    (a18 : (⟨S512x128, .f32⟩ : BufTy).Contents (Elt F)) (a19 : (⟨S128, .f32⟩ : BufTy).Contents (Elt F)) (a20 : (⟨S128x128, .f32⟩ : BufTy).Contents (Elt F)) (a21 : (⟨S128, .f32⟩ : BufTy).Contents (Elt F)) :
    (⟨S2048x128, .f32⟩ : BufTy).Contents (Elt F) :=
  colSoftmax (standardize (fuse
    (cand (shapeCast S2048x128 a0 shapeCasts_S64x32x128_S2048x128) (shapeCast S2048x128 a0 shapeCasts_S64x32x128_S2048x128) a2 a3 a4 a5)
    (cand (shapeCast S2048x128 a1 shapeCasts_S64x32x128_S2048x128) (shapeCast S2048x128 a1 shapeCasts_S64x32x128_S2048x128) a6 a7 a8 a9)
    (cand (shapeCast S2048x128 a0 shapeCasts_S64x32x128_S2048x128) (shapeCast S2048x128 a1 shapeCasts_S64x32x128_S2048x128) a10 a11 a12 a13)
    (cand (shapeCast S2048x128 a1 shapeCasts_S64x32x128_S2048x128) (shapeCast S2048x128 a0 shapeCasts_S64x32x128_S2048x128) a14 a15 a16 a17)
    a18 a19 a20 a21))

end Cert.ReferenceIdeal.RefH

end
-- ==== Proof.RefHAfter.lean ====
/-
  The reference's run ends with the incidence matrix's buffer holding `refH` of the argument arrays.

  The line of host operations is read in stages. Its last stretch does not write the buffer. Of the middle stretch, the
  buffer's contents are the column softmax of the standardized second layer of the fifth perceptron, as a function of four
  buffers the first stretch leaves: the first layer's sum, a zero constant, and two arguments. The first stretch leaves
  the first layer's sum as the product of the four concatenated candidates with the weights plus the bias, each
  candidate a function of the arguments alone. Composed, the three readings are `refH`.
-/
import proofs.«127104_j29506425324178_1_alg».proof.Proof.RefHDefs

noncomputable section

namespace Cert.ReferenceIdeal.RefH

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefRun

variable {F : FTy → Type} [FloatOps F] [Cert.ReferenceIdeal.Facts]

set_option maxRecDepth 8192 in
set_option maxHeartbeats 1600000 in
/-- After the first stretch the first layer's buffer holds the four concatenated candidates times the weights, plus the
    bias laid along every row. -/
theorem after_ops0_v54 (V : Valuation τ sig (Elt F)) :
    after ops0 V (Proc.devRef .tc main_v54)
      = addf
          (Host.dotGeneral dot_S2048x512_S512x128_S2048x128_1_0_0_1_n_n none
            (concatenate S2048x512 1
              [⟨S2048x128, cand (shapeCast S2048x128 (V (Proc.devRef .tc main_arg0)) shapeCasts_S64x32x128_S2048x128) (shapeCast S2048x128 (V (Proc.devRef .tc main_arg0)) shapeCasts_S64x32x128_S2048x128) (V (Proc.devRef .tc main_arg2)) (V (Proc.devRef .tc main_arg3)) (V (Proc.devRef .tc main_arg4)) (V (Proc.devRef .tc main_arg5))⟩,
               ⟨S2048x128, cand (shapeCast S2048x128 (V (Proc.devRef .tc main_arg1)) shapeCasts_S64x32x128_S2048x128) (shapeCast S2048x128 (V (Proc.devRef .tc main_arg1)) shapeCasts_S64x32x128_S2048x128) (V (Proc.devRef .tc main_arg6)) (V (Proc.devRef .tc main_arg7)) (V (Proc.devRef .tc main_arg8)) (V (Proc.devRef .tc main_arg9))⟩,
               ⟨S2048x128, cand (shapeCast S2048x128 (V (Proc.devRef .tc main_arg0)) shapeCasts_S64x32x128_S2048x128) (shapeCast S2048x128 (V (Proc.devRef .tc main_arg1)) shapeCasts_S64x32x128_S2048x128) (V (Proc.devRef .tc main_arg10)) (V (Proc.devRef .tc main_arg11)) (V (Proc.devRef .tc main_arg12)) (V (Proc.devRef .tc main_arg13))⟩,
               ⟨S2048x128, cand (shapeCast S2048x128 (V (Proc.devRef .tc main_arg1)) shapeCasts_S64x32x128_S2048x128) (shapeCast S2048x128 (V (Proc.devRef .tc main_arg0)) shapeCasts_S64x32x128_S2048x128) (V (Proc.devRef .tc main_arg14)) (V (Proc.devRef .tc main_arg15)) (V (Proc.devRef .tc main_arg16)) (V (Proc.devRef .tc main_arg17))⟩]
              concatenates_S2048x128_S2048x128_S2048x128_S2048x128_S2048x512_d1)
            (V (Proc.devRef .tc main_arg18)))
          (broadcastInDim S2048x128 ![0, 1] bcast_S1x128_S2048x128_0_1 (broadcastInDim S1x128 ![1] bcast_S128_S1x128_1 (V (Proc.devRef .tc main_arg19)))) := by
  after_results_simp
  rfl

set_option maxRecDepth 8192 in
/-- After the first stretch the last constant's buffer holds zero. -/
theorem after_ops0_cst3 (V : Valuation τ sig (Elt F)) :
    after ops0 V (Proc.devRef .tc main_cst_3) = constant (F := F) S_ .f32 0x00000000#32 := by
  after_results_simp

set_option maxRecDepth 8192 in
set_option maxHeartbeats 1600000 in
/-- After the middle stretch the incidence matrix's buffer holds the column softmax of the standardized second layer,
    as a function of what four buffers held before the stretch. -/
theorem after_ops1_v82 (V : Valuation τ sig (Elt F)) :
    after ops1 V (Proc.devRef .tc main_v82)
      = colSoftmax (standardize
          (addf
            (Host.dotGeneral dot_S2048x128_S128x128_S2048x128_1_0_0_1_n_n none
              (maximumf (V (Proc.devRef .tc main_v54))
                (broadcastInDim S2048x128 ![] bcast_S_S2048x128 (V (Proc.devRef .tc main_cst_3))))
              (V (Proc.devRef .tc main_arg20)))
            (broadcastInDim S2048x128 ![0, 1] bcast_S1x128_S2048x128_0_1 (broadcastInDim S1x128 ![1] bcast_S128_S1x128_1 (V (Proc.devRef .tc main_arg21)))))) := by
  after_results_simp
  rfl

/-- After the whole line the incidence matrix's buffer holds `refH` of the arguments' contents before it. -/
theorem after_H (V : Valuation τ sig (Elt F)) :
    StableHlo.after ops V (Proc.devRef .tc main_v82)
      = refH (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops, after_of_writes_sub ops2 _ ops2_writes (r := main_v82) (by decide), after_ops1_v82,
    after_ops0_v54, after_ops0_cst3,
    after_of_writes_sub ops0 V ops0_writes (r := main_arg20) (by decide),
    after_of_writes_sub ops0 V ops0_writes (r := main_arg21) (by decide)]
  rfl

end Cert.ReferenceIdeal.RefH

end
-- ==== Proof.LibOpsA.lean ====
/-
  One value, two spellings: whole-array equalities between the operations a kernel's body prints and the ones a host
  program prints for the same mathematics, beyond the pairs the library already reads (a matrix product into a zero
  accumulator against the host's product, a sum over one axis against the host's sum from a zero initial value, a
  host broadcast of a constant against a splat).

  * LAYOUT, at any element type: a vector [n] cast to the one-row matrix [1, n] is the vector broadcast along axis 1;
    a one-row matrix [1, n] broadcast down m rows is its host broadcast along both axes.
  * A MAXIMUM OVER AXES, at any float instance: the kernel's fold from its accumulator's value is the host's fold from
    the constant of the same bits — the same left fold over the same indices in the same order.
  * AT THE EXTENDED REALS: the maximum with a constant −∞ is the identity; the three bit patterns 2048, 2047 and −∞;
    and the guarded quotient of an unbiased variance — "x / (2048 − 1) if 2048 − 1 > 0, else NaN", with the 1 an
    integer constant converted — is the plain quotient by the constant 2047, since 2047 is positive.
-/
import Idealize.ShloMosaic.Lib.KernelVsHost
import Idealize.ShloMosaic.Lib.IdealHost
import Idealize.ShloMosaic.Lib.ValueLayout

noncomputable section

namespace Idealize.ShloMosaic.OpsA

open Idealize.ShloMosaic Idealize.ShloMosaic.ValueIdx

/-! ## Layout -/

section Layout
variable {α : Type}

/-- A vector of n entries cast to the one-row matrix [1, n] is the vector broadcast along axis 1 of [1, n]. -/
theorem shapeCast_row_eq_broadcastInDim {n : ℕ} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply]
  refine (broadcastInDim_apply ![1] hd x (ix2 u c) (ix1 c) ?_).symm
  intro a
  match a with
  | ⟨0, _⟩ =>
    show c.val = if n = 1 then 0 else c.val
    split
    · have := c.isLt; omega
    · rfl

/-- A one-row matrix [1, n] broadcast down m rows: the kernel's broadcast is the host's broadcast along both axes. -/
theorem broadcastTo_oneRow_eq_broadcastInDim {m n : ℕ} (v : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ v hb = broadcastInDim ⟨2, ![m, n]⟩ ![0, 1] hd v := by
  funext i
  obtain ⟨r, c, rfl⟩ : ∃ (r : Fin m) (c : Fin n), i = ix2 r c := ⟨i 0, i 1, eq_ix2 i⟩
  rw [broadcastTo_1b_ab_apply, broadcastInDim_oneRow_apply]

end Layout

/-! ## A maximum over axes -/

section Maximum
variable {F : FTy → Type} [FloatOps F] {s t u : Shape} {φ : FTy} {axes : List (Fin s.rank)}

/-- A kernel's maximum over axes, folded from its accumulator's value, is the host's maximum over the same axes folded
    from the constant of the same bits: one left fold, over the same source indices in row-major order. -/
theorem multiReduction_maximumf_eq_hostReduce (src : FVec F s φ) (acc : BitVec φ.bits) (h : s.Reduces axes t)
    (hφ : FKind.Formats φ) (hacc : acc = FKind.maximumf.neutral φ hφ) (h' : s.ReducesTo axes t) (hu : 0 < u.numel) :
    multiReduction .maximumf axes t src acc h hφ hacc
      = Host.reduce FloatOps.maximumf src (constant u φ acc : FVec F u φ) h' hu := by
  funext j
  rw [multiReduction_maximumf_eq_reduceFold, reduceFold_eq_foldl, Host.reduce_eq_foldl,
    Shape.ReducesTo.drop_eq_drop h' h]
  rfl

end Maximum

/-! ## At the extended reals -/

section AtIdeal

/-- The f32 pattern of −∞ is the bottom of the extended reals. -/
theorem ofBits_negInf_f32 : Ideal.ofBits .f32 0xFF800000#32 = ⊥ := by simp [Ideal.ofBits, Ideal.ieee]

/-- The f32 pattern 0x45000000 is the real 2048. -/
theorem ofBits_2048_f32 : Ideal.ofBits .f32 0x45000000#32 = ((2048 : ℝ) : EReal) := by
  simp [Ideal.ofBits, Ideal.ieee, -EReal.coe_mul]; norm_num

/-- The f32 pattern 0x44FFE000 is the real 2047. -/
theorem ofBits_2047_f32 : Ideal.ofBits .f32 0x44FFE000#32 = ((2047 : ℝ) : EReal) := by
  simp [Ideal.ofBits, Ideal.ieee, -EReal.coe_mul]; norm_num

/-- The maximum with a constant −∞ is the identity. -/
theorem maximumf_negInf_left {t : Shape} (hb : (⟨0, ![]⟩ : Shape).BroadcastsInDim t ![]) (r : FVec Ideal t .f32) :
    maximumf (broadcastInDim t ![] hb (constant (F := Ideal) ⟨0, ![]⟩ .f32 0xFF800000#32)) r = r := by
  funext j
  show max (Ideal.ofBits .f32 0xFF800000#32) (r j) = r j
  rw [ofBits_negInf_f32]
  exact max_eq_right bot_le

/-- A kernel's sum over one axis is the host's sum over that axis from the constant zero. -/
theorem multiReduction_add_eq_hostReduceAdd_zero {s t u : Shape} {a : Fin s.rank} (src : FVec Ideal s .f32)
    (h : s.Reduces [a] t) (hφ : FKind.Formats .f32) (hacc : (0x00000000#32 : BitVec 32) = FKind.add.neutral .f32 hφ)
    (h' : s.ReducesTo [a] t) (hu : 0 < u.numel) :
    multiReduction .add [a] t src 0x00000000#32 h hφ hacc
      = Host.reduceAdd src (constant (F := Ideal) u .f32 0x00000000#32) h' hu :=
  multiReduction_add_eq_hostReduceAdd src _ h hφ hacc _ h' hu Ideal.ofBits_zero_f32

/-- The guarded quotient of an unbiased variance over 2048 rows. The host divides by 2048 − 1, the 1 an integer constant
    converted to a float, where that difference is positive, and answers a NaN pattern elsewhere; the difference is the
    real 2047, which is positive, so the guard always holds and the quotient is the plain one by the constant 2047. -/
theorem guarded_quotient_2047 {t : Shape} (hb : (⟨0, ![]⟩ : Shape).BroadcastsInDim t ![]) (x : FVec Ideal t .f32) :
    select
        (broadcastInDim t ![] hb
          (cmpf .ogt
            (subf (constant (F := Ideal) ⟨0, ![]⟩ .f32 0x45000000#32) (sitofp .f32 (constantI ⟨0, ![]⟩ 32 1#32)))
            (constant (F := Ideal) ⟨0, ![]⟩ .f32 0x00000000#32)))
        (Host.divf x
          (broadcastInDim t ![] hb
            (subf (constant (F := Ideal) ⟨0, ![]⟩ .f32 0x45000000#32) (sitofp .f32 (constantI ⟨0, ![]⟩ 32 1#32)))))
        (broadcastInDim t ![] hb (id (constant (F := Ideal) ⟨0, ![]⟩ .f32 0x7FC00000#32)))
      = divf x (broadcast t (Scalar.ofBits (F := Ideal) .f32 0x44FFE000#32)) := by
  funext i
  have hd : Ideal.ofBits .f32 0x45000000#32 - ((((1#32 : BitVec 32).toInt : ℤ) : ℝ) : EReal) = ((2047 : ℝ) : EReal) := by
    rw [ofBits_2048_f32, show (1#32 : BitVec 32).toInt = 1 from by decide, ← EReal.coe_sub]
    norm_num
  show Scalar.select
        (Ideal.cmp .ogt (Ideal.ofBits .f32 0x45000000#32 - ((((1#32 : BitVec 32).toInt : ℤ) : ℝ) : EReal))
          (Ideal.ofBits .f32 0x00000000#32))
        (Ideal.div (x i) (Ideal.ofBits .f32 0x45000000#32 - ((((1#32 : BitVec 32).toInt : ℤ) : ℝ) : EReal)))
        (Ideal.ofBits .f32 0x7FC00000#32)
      = Ideal.div (x i) (Ideal.ofBits .f32 0x44FFE000#32)
  rw [hd, ofBits_2047_f32, Ideal.ofBits_zero_f32]
  have hc : Ideal.cmp .ogt ((2047 : ℝ) : EReal) 0 = 1#1 := by
    unfold Ideal.cmp
    have : (0 : EReal) < ((2047 : ℝ) : EReal) := by exact_mod_cast (by norm_num : (0 : ℝ) < 2047)
    simp [this]
  rw [hc, select_one]

/-- At the extended reals the host's quotient is the kernel's. -/
theorem hostDivf_eq_divf {s : Shape} (a b : FVec Ideal s .f32) : Host.divf a b = divf a b := rfl

/-- At the extended reals the host's exponential is the kernel's. -/
theorem hostExp_eq_exp {s : Shape} (a : FVec Ideal s .f32) : Host.exp a = exp a := rfl

/-- At the extended reals the host's square root is the kernel's. -/
theorem hostSqrt_eq_sqrt {s : Shape} (a : FVec Ideal s .f32) : Host.sqrt a = sqrt a := rfl

end AtIdeal

end Idealize.ShloMosaic.OpsA

end
-- ==== Proof.RefHEq.lean ====
/-
  At the extended reals the reference's incidence matrix is the kernel's.

  The kernel's first region and the reference apply the same whole-array operators in the same order; they spell them
  differently. A matrix product accumulates into a zero splat in the kernel and has no accumulator on the host; a column
  sum or maximum is a reduction followed by a cast to a one-row matrix in the kernel, and a host reduction followed by a
  broadcast along axis 1 in the reference; a row laid over every row of a matrix is one broadcast in the kernel and a
  broadcast along both axes in the reference; a splat of a scalar is a host broadcast of a rank-0 constant; each bias
  vector reaches the kernel already cast to one row. Two steps differ in more than spelling, and both are identities at the
  extended reals: the reference's unbiased variance divides by 2048 − 1 under a guard that this number is positive,
  where the kernel divides by the constant 2047; and the reference's softmax takes the column maximum once more against
  −∞. Each candidate, and then the fifth perceptron with the standardization and the softmax after it, is rewritten
  operator by operator from the kernel's spelling to the reference's; no array is ever read at an index here.
-/
import proofs.«127104_j29506425324178_1_alg».proof.Proof.RefHDefs
import proofs.«127104_j29506425324178_1_alg».proof.Proof.Stages
import proofs.«127104_j29506425324178_1_alg».proof.Proof.LibOpsA

noncomputable section

namespace Cert.ReferenceIdeal.RefH

open Cert.ReferenceIdeal Idealize.ShloMosaic Idealize.ShloMosaic.OpsA
open Cert.ReferenceIdeal.Facts₀ Cert.ReferenceIdeal.Facts
open Cert.KernelIdeal.Gen (k0_pay1 k0_pay2 k0_pay3 k0_pay4 k0_pay5 k0_pay6 k0_pay7 k0_pay8 k0_pay9 k0_pay10 k0_pay11)

variable [Cert.ReferenceIdeal.Facts]

/-! ## The two programs' dimension records are the same records -/

theorem dotK1 : Cert.KernelIdeal.dot_S128x2048_S2048x128_S128x128_1_0_0_1_n_n = dot_S128x2048_S2048x128_S128x128_1_0_0_1_n_n := rfl
theorem dotK2 : Cert.KernelIdeal.dot_S128x128_S128x128_S128x128_1_0_0_1_n_n = dot_S128x128_S128x128_S128x128_1_0_0_1_n_n := rfl
theorem dotK3 : Cert.KernelIdeal.dot_S2048x128_S128x128_S2048x128_1_0_0_1_n_n = dot_S2048x128_S128x128_S2048x128_1_0_0_1_n_n := rfl
theorem dotK4 : Cert.KernelIdeal.dot_S2048x512_S512x128_S2048x128_1_0_0_1_n_n = dot_S2048x512_S512x128_S2048x128_1_0_0_1_n_n := rfl

/-! ## The kernel's pointwise operations are the host's, at the extended reals -/

theorem divf_eq_hostDivf {s : Shape} (a b : FVec Ideal s .f32) : divf a b = Host.divf a b := rfl
theorem exp_eq_hostExp {s : Shape} (a : FVec Ideal s .f32) : exp a = Host.exp a := rfl
theorem sqrt_eq_hostSqrt {s : Shape} (a : FVec Ideal s .f32) : sqrt a = Host.sqrt a := rfl

/-! ## The candidates -/

/-- The inner 128 × 128 matrix of a candidate, mlp(yᵀ): the kernel's spelling is the reference's. -/
theorem pay9_eq (y : FVec Ideal S2048x128 .f32) (W1 : FVec Ideal S2048x128 .f32) (b1 : FVec Ideal S128 .f32) (W2 : FVec Ideal S128x128 .f32) (b2 : FVec Ideal S128 .f32) :
    k0_pay9 (F := Ideal) y W1 (shapeCast S1x128 b1 Cert.KernelIdeal.Gen.shapeCasts_S128_S1x128) W2 (shapeCast S1x128 b2 Cert.KernelIdeal.Gen.shapeCasts_S128_S1x128)
      = addf
          (Host.dotGeneral dot_S128x128_S128x128_S128x128_1_0_0_1_n_n none
            (maximumf
              (addf
                (Host.dotGeneral dot_S128x2048_S2048x128_S128x128_1_0_0_1_n_n none (transpose S128x2048 [1, 0] y transposes_S2048x128_S128x2048_1_0) W1)
                (broadcastInDim S128x128 ![0, 1] bcast_S1x128_S128x128_0_1 (broadcastInDim S1x128 ![1] bcast_S128_S1x128_1 b1)))
              (broadcastInDim S128x128 ![] bcast_S_S128x128 (constant (F := Ideal) S_ .f32 0x00000000#32)))
            W2)
          (broadcastInDim S128x128 ![0, 1] bcast_S1x128_S128x128_0_1 (broadcastInDim S1x128 ![1] bcast_S128_S1x128_1 b2)) := by
  simp only [k0_pay9, shapeCast_self, matmul_zero_eq_dotGeneral, dotK1, dotK2,
    fun (v : FVec Ideal S1x128 .f32) hb => broadcastTo_oneRow_eq_broadcastInDim (m := 128) v hb bcast_S1x128_S128x128_0_1,
    fun (v : FVec Ideal S128 .f32) h => shapeCast_row_eq_broadcastInDim v h bcast_S128_S1x128_1,
    (broadcastInDim_constant (F := Ideal) (s := S_) (t := S128x128) (φ := .f32) ![] bcast_S_S128x128 0x00000000#32).symm]

/-- The first candidate, x · mlp(xᵀ) with one array as both x and y. -/
theorem pay4_eq (x : FVec Ideal S2048x128 .f32) (W1 : FVec Ideal S2048x128 .f32) (b1 : FVec Ideal S128 .f32) (W2 : FVec Ideal S128x128 .f32) (b2 : FVec Ideal S128 .f32) :
    k0_pay4 (F := Ideal) x W1 (shapeCast S1x128 b1 Cert.KernelIdeal.Gen.shapeCasts_S128_S1x128) W2 (shapeCast S1x128 b2 Cert.KernelIdeal.Gen.shapeCasts_S128_S1x128) = cand (F := Ideal) x x W1 b1 W2 b2 := by
  simp only [k0_pay4, k0_pay2, cand, shapeCast_self, matmul_zero_eq_dotGeneral, dotK1, dotK2, dotK3,
    fun (v : FVec Ideal S1x128 .f32) hb => broadcastTo_oneRow_eq_broadcastInDim (m := 128) v hb bcast_S1x128_S128x128_0_1,
    fun (v : FVec Ideal S128 .f32) h => shapeCast_row_eq_broadcastInDim v h bcast_S128_S1x128_1,
    (broadcastInDim_constant (F := Ideal) (s := S_) (t := S128x128) (φ := .f32) ![] bcast_S_S128x128 0x00000000#32).symm]

/-- The second candidate: its first layer and its second layer are separate payloads of the kernel. -/
theorem pay7_eq (x : FVec Ideal S2048x128 .f32) (W1 : FVec Ideal S2048x128 .f32) (b1 : FVec Ideal S128 .f32) (W2 : FVec Ideal S128x128 .f32) (b2 : FVec Ideal S128 .f32) :
    k0_pay7 (F := Ideal) x W2 (k0_pay5 (shapeCast S1x128 b2 Cert.KernelIdeal.Gen.shapeCasts_S128_S1x128)) (k0_pay6 x W1 (shapeCast S1x128 b1 Cert.KernelIdeal.Gen.shapeCasts_S128_S1x128)) (constant S128x128 .f32 0x00000000#32)
      = cand (F := Ideal) x x W1 b1 W2 b2 := by
  simp only [k0_pay7, k0_pay6, k0_pay5, k0_pay3, cand, shapeCast_self, matmul_zero_eq_dotGeneral, dotK1, dotK2, dotK3,
    fun (v : FVec Ideal S1x128 .f32) hb => broadcastTo_oneRow_eq_broadcastInDim (m := 128) v hb bcast_S1x128_S128x128_0_1,
    fun (v : FVec Ideal S128 .f32) h => shapeCast_row_eq_broadcastInDim v h bcast_S128_S1x128_1,
    (broadcastInDim_constant (F := Ideal) (s := S_) (t := S128x128) (φ := .f32) ![] bcast_S_S128x128 0x00000000#32).symm]

/-- The third candidate, x · mlp(yᵀ). -/
theorem pay8_eq (x y : FVec Ideal S2048x128 .f32) (W1 : FVec Ideal S2048x128 .f32) (b1 : FVec Ideal S128 .f32) (W2 : FVec Ideal S128x128 .f32) (b2 : FVec Ideal S128 .f32) :
    k0_pay8 (F := Ideal) x y W1 (shapeCast S1x128 b1 Cert.KernelIdeal.Gen.shapeCasts_S128_S1x128) W2 (shapeCast S1x128 b2 Cert.KernelIdeal.Gen.shapeCasts_S128_S1x128) = cand (F := Ideal) x y W1 b1 W2 b2 := by
  simp only [k0_pay8, cand, shapeCast_self, matmul_zero_eq_dotGeneral, dotK1, dotK2, dotK3,
    fun (v : FVec Ideal S1x128 .f32) hb => broadcastTo_oneRow_eq_broadcastInDim (m := 128) v hb bcast_S1x128_S128x128_0_1,
    fun (v : FVec Ideal S128 .f32) h => shapeCast_row_eq_broadcastInDim v h bcast_S128_S1x128_1,
    (broadcastInDim_constant (F := Ideal) (s := S_) (t := S128x128) (φ := .f32) ![] bcast_S_S128x128 0x00000000#32).symm]

/-- The fourth candidate: the kernel multiplies x by the inner matrix in the next payload. -/
theorem pay9_cand_eq (x y : FVec Ideal S2048x128 .f32) (W1 : FVec Ideal S2048x128 .f32) (b1 : FVec Ideal S128 .f32) (W2 : FVec Ideal S128x128 .f32) (b2 : FVec Ideal S128 .f32) :
    Host.dotGeneral dot_S2048x128_S128x128_S2048x128_1_0_0_1_n_n none x (k0_pay9 (F := Ideal) y W1 (shapeCast S1x128 b1 Cert.KernelIdeal.Gen.shapeCasts_S128_S1x128) W2 (shapeCast S1x128 b2 Cert.KernelIdeal.Gen.shapeCasts_S128_S1x128))
      = cand (F := Ideal) x y W1 b1 W2 b2 := by
  rw [pay9_eq]; rfl

/-- The identity casts the kernel applies to its two inputs. -/
theorem pay2_eq (x : FVec Ideal S2048x128 .f32) : k0_pay2 (F := Ideal) x = x := shapeCast_self x _
theorem pay3_eq (x : FVec Ideal S2048x128 .f32) : k0_pay3 (F := Ideal) x = x := shapeCast_self x _

/-! ## The fifth perceptron, the standardization, the softmax -/

/-- The unbiased deviation with its guard discharged: the square root of the sum of squared differences over 2047. -/
theorem colStd_eq (X : FVec Ideal S2048x128 .f32) :
    colStd (F := Ideal) X
      = Host.sqrt
          (Host.divf
            (broadcastInDim S1x128 ![1] bcast_S128_S1x128_1 (Host.reduceAdd (mulf (subf X (broadcastInDim S2048x128 ![0, 1] bcast_S1x128_S2048x128_0_1 (colMean (F := Ideal) X))) (subf X (broadcastInDim S2048x128 ![0, 1] bcast_S1x128_S2048x128_0_1 (colMean (F := Ideal) X)))) (constant (F := Ideal) S_ .f32 0x00000000#32) reducesTo_S2048x128_S128_d0 h_S_))
            (broadcast S1x128 (Scalar.ofBits (F := Ideal) .f32 0x44FFE000#32))) := by
  unfold colStd ddofDen
  rw [guarded_quotient_2047]
  rfl

/-- The softmax's exponentials with the second maximum against −∞ dropped. -/
theorem colExp_eq (Z : FVec Ideal S2048x128 .f32) :
    colExp (F := Ideal) Z
      = Host.exp
          (subf Z
            (broadcastInDim S2048x128 ![0, 1] bcast_S1x128_S2048x128_0_1 (broadcastInDim S1x128 ![1] bcast_S128_S1x128_1 (Host.reduce FloatOps.maximumf Z (constant (F := Ideal) S_ .f32 0xFF800000#32) reducesTo_S2048x128_S128_d0 h_S_)))) := by
  unfold colExp
  rw [maximumf_negInf_left]

set_option backward.isDefEq.respectTransparency.types false in
/-- From the four candidates on: the kernel's store is the reference's column softmax of the standardized fifth
    perceptron. The kernel's fourth candidate is still the product it forms first. -/
theorem tail_eq (v3 v19 v35 v51 : FVec Ideal S2048x128 .f32) (v66 : FVec Ideal S128x128 .f32) (W1 : FVec Ideal S512x128 .f32) (b1 : FVec Ideal S128 .f32)
    (W2 : FVec Ideal S128x128 .f32) (b2 : FVec Ideal S128 .f32) :
    k0_pay1 (F := Ideal)
        (k0_pay10 v3 v19 v35 v51 v66 (constant S2048x128 .f32 0x00000000#32) W1 (shapeCast S1x128 b1 Cert.KernelIdeal.Gen.shapeCasts_S128_S1x128) W2 (shapeCast S1x128 b2 Cert.KernelIdeal.Gen.shapeCasts_S128_S1x128))
        (k0_pay11 v3 v19 v35 v51 v66 (constant S2048x128 .f32 0x00000000#32) W1 (shapeCast S1x128 b1 Cert.KernelIdeal.Gen.shapeCasts_S128_S1x128) W2 (shapeCast S1x128 b2 Cert.KernelIdeal.Gen.shapeCasts_S128_S1x128))
      = colSoftmax (standardize (fuse v19 v35 v51
          (matmul Cert.KernelIdeal.dot_S2048x128_S128x128_S2048x128_1_0_0_1_n_n none v3 v66 (constant S2048x128 .f32 0x00000000#32)) W1 b1 W2 b2)) := by
  simp only [k0_pay1, k0_pay10, k0_pay11, colSoftmax, colExp_eq, standardize, colStd_eq, colMean, fuse,
    shapeCast_self, matmul_zero_eq_dotGeneral, dotK3, dotK4,
    fun (v : FVec Ideal S1x128 .f32) hb => broadcastTo_oneRow_eq_broadcastInDim (m := 2048) v hb bcast_S1x128_S2048x128_0_1,
    fun (v : FVec Ideal S128 .f32) h => shapeCast_row_eq_broadcastInDim v h bcast_S128_S1x128_1,
    (broadcastInDim_constant (F := Ideal) (s := S_) (t := S2048x128) (φ := .f32) ![] bcast_S_S2048x128 0x00000000#32).symm,
    (broadcastInDim_constant (F := Ideal) (s := S_) (t := S1x128) (φ := .f32) ![] bcast_S_S1x128 0x45000000#32).symm,
    (broadcastInDim_constant (F := Ideal) (s := S_) (t := S1x128) (φ := .f32) ![] bcast_S_S1x128 0x358637BD#32).symm,
    fun (src : FVec Ideal S2048x128 .f32) h hφ hacc =>
      multiReduction_add_eq_hostReduceAdd_zero (t := S128) (u := S_) (a := 0) src h hφ hacc reducesTo_S2048x128_S128_d0 h_S_,
    fun (src : FVec Ideal S2048x128 .f32) h hφ hacc =>
      multiReduction_maximumf_eq_hostReduce (F := Ideal) (t := S128) (u := S_) (axes := [0]) src 0xFF800000#32 h hφ hacc
        reducesTo_S2048x128_S128_d0 h_S_,
    divf_eq_hostDivf, exp_eq_hostExp, sqrt_eq_hostSqrt]

/-! ## The incidence matrix -/

/-- At the extended reals the reference's incidence matrix is the kernel's first stage applied to the arrays the
    kernel's host stretch hands its first region: the two inputs reshaped to 2048 × 128, each bias cast to one row. -/
theorem refH_eq (a0 a1 : (⟨S64x32x128, .f32⟩ : BufTy).Contents (Elt Ideal)) (a2 : (⟨S2048x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal))
    (a6 : (⟨S2048x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal))
    (a10 : (⟨S2048x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal))
    (a14 : (⟨S2048x128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal))
    (a18 : (⟨S512x128, .f32⟩ : BufTy).Contents (Elt Ideal)) (a19 : (⟨S128, .f32⟩ : BufTy).Contents (Elt Ideal)) (a20 : (⟨S128x128, .f32⟩ : BufTy).Contents (Elt Ideal)) (a21 : (⟨S128, .f32⟩ : BufTy).Contents (Elt Ideal)) :
    refH a0 a1 a2 a3 a4 a5 a6 a7 a8 a9 a10 a11 a12 a13 a14 a15 a16 a17 a18 a19 a20 a21
      = Cert.KernelIdeal.Stage.H (F := Ideal) (shapeCast S2048x128 a0 Cert.KernelIdeal.Gen.shapeCasts_S64x32x128_S2048x128) (shapeCast S2048x128 a1 Cert.KernelIdeal.Gen.shapeCasts_S64x32x128_S2048x128)
          a2 (shapeCast S1x128 a3 Cert.KernelIdeal.Gen.shapeCasts_S128_S1x128) a4 (shapeCast S1x128 a5 Cert.KernelIdeal.Gen.shapeCasts_S128_S1x128) a6 (shapeCast S1x128 a7 Cert.KernelIdeal.Gen.shapeCasts_S128_S1x128) a8 (shapeCast S1x128 a9 Cert.KernelIdeal.Gen.shapeCasts_S128_S1x128)
          a10 (shapeCast S1x128 a11 Cert.KernelIdeal.Gen.shapeCasts_S128_S1x128) a12 (shapeCast S1x128 a13 Cert.KernelIdeal.Gen.shapeCasts_S128_S1x128) a14 (shapeCast S1x128 a15 Cert.KernelIdeal.Gen.shapeCasts_S128_S1x128) a16 (shapeCast S1x128 a17 Cert.KernelIdeal.Gen.shapeCasts_S128_S1x128)
          a18 (shapeCast S1x128 a19 Cert.KernelIdeal.Gen.shapeCasts_S128_S1x128) a20 (shapeCast S1x128 a21 Cert.KernelIdeal.Gen.shapeCasts_S128_S1x128) := by
  unfold refH Cert.KernelIdeal.Stage.H
  rw [tail_eq]
  simp only [pay2_eq, pay3_eq, matmul_zero_eq_dotGeneral, dotK3]
  rw [pay4_eq, pay7_eq, pay8_eq, pay9_cand_eq]

end Cert.ReferenceIdeal.RefH

end
-- ==== Proof.RefH.lean ====
/-
  The incidence matrix H on the reference's side, gathered.

  * `refH` (RefHDefs): the reference's incidence matrix as one function of @main's first 22 argument arrays — four
    candidates  x · mlp(yᵀ),  the fifth perceptron on their concatenation, each column standardized and soft-maxed.
  * `after_H` (RefHAfter): after the reference's whole line of host operations, the incidence matrix's buffer holds
    `refH` of what the argument buffers held before it.
  * `refH_eq` (RefHEq): at the extended reals `refH` is the kernel's first stage applied to the arrays its host stretch
    prepares — the two inputs reshaped to 2048 × 128, each bias vector cast to one row.
-/
import proofs.«127104_j29506425324178_1_alg».proof.Proof.RefRun
import proofs.«127104_j29506425324178_1_alg».proof.Proof.Stages
import proofs.«127104_j29506425324178_1_alg».proof.Proof.RefHAfter
import proofs.«127104_j29506425324178_1_alg».proof.Proof.RefHEq
-- ==== Proof.RefWDef.lean ====
/-
  The reference's edge weights as a function of the incidence matrix.

  Between the buffer that holds the incidence matrix H (2048 × 128) and the buffer that holds the edge weights w (128)
  the reference runs 73 array operations, and H is their only input: the pairwise Kullback–Leibler sums
  kl[i,j] = ∑ₙ H[n,i] · (log H[n,i] − log ((H[n,i] + H[n,j]) · ½))  (`refKL`), and from them the symmetrized
  divergence (kl + klᵀ) · ½, its column means, their standardization by the unbiased standard deviation, and the
  soft-max of the result (`refTail`). `refW` is the composition, and `after_W` says that after the whole line has
  run the weights' buffer holds `refW` of what the matrix's buffer holds.

  The line is cut at the operation that writes H: what comes before it is never opened; the operations after it are
  listed once more here (`opsA`, `opsB`, `opsC`: the same operations in the same order, so the cut is an equality of
  lists by computation), and only `opsA` and `opsB` are read.
-/
import proofs.«127104_j29506425324178_1_alg».proof.Proof.RefRun

noncomputable section

namespace Cert.ReferenceIdeal.RefW

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefRun

variable {F : FTy → Type} [FloatOps F] [Cert.ReferenceIdeal.Facts]

/-! ## The function -/

/-- The pairwise Kullback–Leibler sums: kl[i,j] = ∑ₙ H[n,i] · (log H[n,i] − log ((H[n,i] + H[n,j]) · ½)). -/
def refKL (h : (⟨S2048x128, .f32⟩ : BufTy).Contents (Elt F)) : (⟨S128x128, .f32⟩ : BufTy).Contents (Elt F) :=
  have v83 : (⟨S2048x128, .f32⟩ : BufTy).Contents (Elt F) := Host.log h
  have v84 : (⟨S2048x128x1, .f32⟩ : BufTy).Contents (Elt F) := broadcastInDim S2048x128x1 ![0, 1] bcast_S2048x128_S2048x128x1_0_1 h
  have v85 : (⟨S2048x1x128, .f32⟩ : BufTy).Contents (Elt F) := broadcastInDim S2048x1x128 ![0, 2] bcast_S2048x128_S2048x1x128_0_2 h
  have v86 : (⟨S2048x128x128, .f32⟩ : BufTy).Contents (Elt F) := broadcastInDim S2048x128x128 ![0, 1, 2] bcast_S2048x128x1_S2048x128x128_0_1_2 v84
  have v87 : (⟨S2048x128x128, .f32⟩ : BufTy).Contents (Elt F) := broadcastInDim S2048x128x128 ![0, 1, 2] bcast_S2048x1x128_S2048x128x128_0_1_2 v85
  have v88 : (⟨S2048x128x128, .f32⟩ : BufTy).Contents (Elt F) := addf v86 v87
  have cst_10 : (⟨S_, .f32⟩ : BufTy).Contents (Elt F) := constant S_ .f32 0x3F000000#32
  have v89 : (⟨S2048x128x128, .f32⟩ : BufTy).Contents (Elt F) := broadcastInDim S2048x128x128 ![] bcast_S_S2048x128x128 cst_10
  have v90 : (⟨S2048x128x128, .f32⟩ : BufTy).Contents (Elt F) := mulf v88 v89
  have v91 : (⟨S2048x128x1, .f32⟩ : BufTy).Contents (Elt F) := broadcastInDim S2048x128x1 ![0, 1] bcast_S2048x128_S2048x128x1_0_1 h
  have v92 : (⟨S2048x128x1, .f32⟩ : BufTy).Contents (Elt F) := broadcastInDim S2048x128x1 ![0, 1] bcast_S2048x128_S2048x128x1_0_1 v83
  have v93 : (⟨S2048x128x128, .f32⟩ : BufTy).Contents (Elt F) := Host.log v90
  have v94 : (⟨S2048x128x128, .f32⟩ : BufTy).Contents (Elt F) := broadcastInDim S2048x128x128 ![0, 1, 2] bcast_S2048x128x1_S2048x128x128_0_1_2 v92
  have v95 : (⟨S2048x128x128, .f32⟩ : BufTy).Contents (Elt F) := subf v94 v93
  have v96 : (⟨S2048x128x128, .f32⟩ : BufTy).Contents (Elt F) := broadcastInDim S2048x128x128 ![0, 1, 2] bcast_S2048x128x1_S2048x128x128_0_1_2 v91
  have v97 : (⟨S2048x128x128, .f32⟩ : BufTy).Contents (Elt F) := mulf v96 v95
  have cst_11 : (⟨S_, .f32⟩ : BufTy).Contents (Elt F) := constant S_ .f32 0x00000000#32
  Host.reduceAdd v97 cst_11 reducesTo_S2048x128x128_S128x128_d0 h_S_

/-- The column means of the symmetrized divergence: jm[j] = (∑ᵢ (kl[i,j] + kl[j,i]) · ½) / 128. -/
def refJm (kl : (⟨S128x128, .f32⟩ : BufTy).Contents (Elt F)) : (⟨S128, .f32⟩ : BufTy).Contents (Elt F) :=
  have v99 : (⟨S128x128, .f32⟩ : BufTy).Contents (Elt F) := transpose S128x128 [1, 0] kl transposes_S128x128_S128x128_1_0
  have v100 : (⟨S128x128, .f32⟩ : BufTy).Contents (Elt F) := addf kl v99
  have cst_12 : (⟨S_, .f32⟩ : BufTy).Contents (Elt F) := constant S_ .f32 0x3F000000#32
  have v101 : (⟨S128x128, .f32⟩ : BufTy).Contents (Elt F) := broadcastInDim S128x128 ![] bcast_S_S128x128 cst_12
  have v102 : (⟨S128x128, .f32⟩ : BufTy).Contents (Elt F) := mulf v100 v101
  have cst_13 : (⟨S_, .f32⟩ : BufTy).Contents (Elt F) := constant S_ .f32 0x00000000#32
  have v103 : (⟨S128, .f32⟩ : BufTy).Contents (Elt F) := Host.reduceAdd v102 cst_13 reducesTo_S128x128_S128_d0 h_S_
  have cst_14 : (⟨S_, .f32⟩ : BufTy).Contents (Elt F) := constant S_ .f32 0x43000000#32
  have v104 : (⟨S128, .f32⟩ : BufTy).Contents (Elt F) := broadcastInDim S128 ![] bcast_S_S128 cst_14
  Host.divf v103 v104

/-- The unbiased standard deviation of the 128 means, as the reference's nested calls compute it: the mean, the sum of
    squared deviations, its quotient by 128 − 1 where 128 − 1 is positive (not-a-number otherwise), the square root. -/
def refStd (jm : (⟨S128, .f32⟩ : BufTy).Contents (Elt F)) : (⟨S_, .f32⟩ : BufTy).Contents (Elt F) :=
  have c_17 : (⟨S_, .i32⟩ : BufTy).Contents (Elt F) := constantI S_ 32 1#32
  have c0 : (⟨S_, .f32⟩ : BufTy).Contents (Elt F) := constant S_ .f32 0x00000000#32
  have u0 : (⟨S_, .f32⟩ : BufTy).Contents (Elt F) := Host.reduceAdd jm c0 reducesTo_S128_S_d0 h_S_
  have u1 : (⟨S1, .f32⟩ : BufTy).Contents (Elt F) := broadcastInDim S1 ![] bcast_S_S1 u0
  have c1 : (⟨S_, .f32⟩ : BufTy).Contents (Elt F) := constant S_ .f32 0x43000000#32
  have u2 : (⟨S1, .f32⟩ : BufTy).Contents (Elt F) := broadcastInDim S1 ![] bcast_S_S1 c1
  have u3 : (⟨S1, .f32⟩ : BufTy).Contents (Elt F) := Host.divf u1 u2
  have u4 : (⟨S128, .f32⟩ : BufTy).Contents (Elt F) := broadcastInDim S128 ![0] bcast_S1_S128_0 u3
  have u5 : (⟨S128, .f32⟩ : BufTy).Contents (Elt F) := subf jm u4
  have u6 : (⟨S128, .f32⟩ : BufTy).Contents (Elt F) := mulf u5 u5
  have u7 : (⟨S_, .f32⟩ : BufTy).Contents (Elt F) := sitofp .f32 c_17
  have c2 : (⟨S_, .f32⟩ : BufTy).Contents (Elt F) := constant S_ .f32 0x43000000#32
  have u8 : (⟨S_, .f32⟩ : BufTy).Contents (Elt F) := subf c2 u7
  have c3 : (⟨S_, .f32⟩ : BufTy).Contents (Elt F) := constant S_ .f32 0x00000000#32
  have u9 : (⟨S_, .f32⟩ : BufTy).Contents (Elt F) := Host.reduceAdd u6 c3 reducesTo_S128_S_d0 h_S_
  have u10 : (⟨S_, .f32⟩ : BufTy).Contents (Elt F) := Host.divf u9 u8
  have c4 : (⟨S_, .f32⟩ : BufTy).Contents (Elt F) := constant S_ .f32 0x00000000#32
  have u11 : (⟨S_, .i1⟩ : BufTy).Contents (Elt F) := cmpf .ogt u8 c4
  have c5 : (⟨S_, .f32⟩ : BufTy).Contents (Elt F) := constant S_ .f32 0x7FC00000#32
  have w0 : (⟨S_, .f32⟩ : BufTy).Contents (Elt F) := id c5
  have w1 : (⟨S_, .f32⟩ : BufTy).Contents (Elt F) := select u11 u10 w0
  Host.sqrt w1

/-- The means standardized and soft-maxed: z = (jm − mean jm) / (std jm + ε), w = exp (z − max z) / ∑ exp (z − max z). -/
def refSoft (jm : (⟨S128, .f32⟩ : BufTy).Contents (Elt F)) : (⟨S128, .f32⟩ : BufTy).Contents (Elt F) :=
  have cst_15 : (⟨S_, .f32⟩ : BufTy).Contents (Elt F) := constant S_ .f32 0x00000000#32
  have v106 : (⟨S_, .f32⟩ : BufTy).Contents (Elt F) := Host.reduceAdd jm cst_15 reducesTo_S128_S_d0 h_S_
  have cst_16 : (⟨S_, .f32⟩ : BufTy).Contents (Elt F) := constant S_ .f32 0x43000000#32
  have v107 : (⟨S_, .f32⟩ : BufTy).Contents (Elt F) := Host.divf v106 cst_16
  have v108 : (⟨S128, .f32⟩ : BufTy).Contents (Elt F) := broadcastInDim S128 ![] bcast_S_S128 v107
  have v109 : (⟨S128, .f32⟩ : BufTy).Contents (Elt F) := subf jm v108
  have v110 : (⟨S_, .f32⟩ : BufTy).Contents (Elt F) := refStd jm
  have cst_18 : (⟨S_, .f32⟩ : BufTy).Contents (Elt F) := constant S_ .f32 0x358637BD#32
  have v111 : (⟨S_, .f32⟩ : BufTy).Contents (Elt F) := addf v110 cst_18
  have v112 : (⟨S128, .f32⟩ : BufTy).Contents (Elt F) := broadcastInDim S128 ![] bcast_S_S128 v111
  have v113 : (⟨S128, .f32⟩ : BufTy).Contents (Elt F) := Host.divf v109 v112
  have cst_19 : (⟨S_, .f32⟩ : BufTy).Contents (Elt F) := constant S_ .f32 0xFF800000#32
  have v114 : (⟨S_, .f32⟩ : BufTy).Contents (Elt F) := Host.reduce FloatOps.maximumf v113 cst_19 reducesTo_S128_S_d0 h_S_
  have cst_20 : (⟨S_, .f32⟩ : BufTy).Contents (Elt F) := constant S_ .f32 0xFF800000#32
  have v115 : (⟨S_, .f32⟩ : BufTy).Contents (Elt F) := maximumf cst_20 v114
  have v116 : (⟨S1, .f32⟩ : BufTy).Contents (Elt F) := broadcastInDim S1 ![] bcast_S_S1 v115
  have v117 : (⟨S128, .f32⟩ : BufTy).Contents (Elt F) := broadcastInDim S128 ![0] bcast_S1_S128_0 v116
  have v118 : (⟨S128, .f32⟩ : BufTy).Contents (Elt F) := subf v113 v117
  have v119 : (⟨S128, .f32⟩ : BufTy).Contents (Elt F) := Host.exp v118
  have cst_21 : (⟨S_, .f32⟩ : BufTy).Contents (Elt F) := constant S_ .f32 0x00000000#32
  have v120 : (⟨S_, .f32⟩ : BufTy).Contents (Elt F) := Host.reduceAdd v119 cst_21 reducesTo_S128_S_d0 h_S_
  have v121 : (⟨S1, .f32⟩ : BufTy).Contents (Elt F) := broadcastInDim S1 ![] bcast_S_S1 v120
  have v122 : (⟨S128, .f32⟩ : BufTy).Contents (Elt F) := broadcastInDim S128 ![0] bcast_S1_S128_0 v121
  Host.divf v119 v122

/-- The reference's edge weights from the incidence matrix. -/
def refW (h : (⟨S2048x128, .f32⟩ : BufTy).Contents (Elt F)) : (⟨S128, .f32⟩ : BufTy).Contents (Elt F) :=
  refSoft (refJm (refKL h))

/-! ## The line cut at the incidence matrix -/

/-- Statements of the second stretch after the one that writes the incidence matrix: the Kullback–Leibler sums, symmetrized, and their column sums. -/
abbrev opsA : List (HloOp τ sig (Elt F)) :=
  [ StableHlo.unary main_v82 main_v83 (Host.log : (⟨S2048x128, .f32⟩ : BufTy).Contents (Elt F) → (⟨S2048x128, .f32⟩ : BufTy).Contents (Elt F)),
    StableHlo.unary main_v82 main_v84 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v82 main_v85 (broadcastInDim S2048x1x128 ![0, 2] bcast_S2048x128_S2048x1x128_0_2 : (⟨S2048x128, .f32⟩ : BufTy).Contents (Elt F) → (⟨S2048x1x128, .f32⟩ : BufTy).Contents (Elt F)),
    StableHlo.unary main_v84 main_v86 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.unary main_v85 main_v87 (broadcastInDim S2048x128x128 ![0, 1, 2] bcast_S2048x1x128_S2048x128x128_0_1_2 : (⟨S2048x1x128, .f32⟩ : BufTy).Contents (Elt F) → (⟨S2048x128x128, .f32⟩ : BufTy).Contents (Elt F)),
    StableHlo.binary main_v86 main_v87 main_v88 (addf : (⟨S2048x128x128, .f32⟩ : BufTy).Contents (Elt F) → (⟨S2048x128x128, .f32⟩ : BufTy).Contents (Elt F) → (⟨S2048x128x128, .f32⟩ : BufTy).Contents (Elt F)),
    StableHlo.nullary main_cst_10 (constant S_ .f32 0x3F000000#32),
    StableHlo.unary main_cst_10 main_v89 (broadcastInDim S2048x128x128 ![] bcast_S_S2048x128x128 : (⟨S_, .f32⟩ : BufTy).Contents (Elt F) → (⟨S2048x128x128, .f32⟩ : BufTy).Contents (Elt F)),
    StableHlo.binary main_v88 main_v89 main_v90 (mulf : (⟨S2048x128x128, .f32⟩ : BufTy).Contents (Elt F) → (⟨S2048x128x128, .f32⟩ : BufTy).Contents (Elt F) → (⟨S2048x128x128, .f32⟩ : BufTy).Contents (Elt F)),
    StableHlo.unary main_v82 main_v91 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v83 main_v92 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v90 main_v93 (Host.log : (⟨S2048x128x128, .f32⟩ : BufTy).Contents (Elt F) → (⟨S2048x128x128, .f32⟩ : BufTy).Contents (Elt F)),
    StableHlo.unary main_v92 main_v94 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.binary main_v94 main_v93 main_v95 (subf : (⟨S2048x128x128, .f32⟩ : BufTy).Contents (Elt F) → (⟨S2048x128x128, .f32⟩ : BufTy).Contents (Elt F) → (⟨S2048x128x128, .f32⟩ : BufTy).Contents (Elt F)),
    StableHlo.unary main_v91 main_v96 (broadcastInDim S2048x128x128 ![0, 1, 2] bcast_S2048x128x1_S2048x128x128_0_1_2 : (⟨S2048x128x1, .f32⟩ : BufTy).Contents (Elt F) → (⟨S2048x128x128, .f32⟩ : BufTy).Contents (Elt F)),
    StableHlo.binary main_v96 main_v95 main_v97 (mulf : (⟨S2048x128x128, .f32⟩ : BufTy).Contents (Elt F) → (⟨S2048x128x128, .f32⟩ : BufTy).Contents (Elt F) → (⟨S2048x128x128, .f32⟩ : BufTy).Contents (Elt F)),
    StableHlo.nullary main_cst_11 (constant S_ .f32 0x00000000#32),
    StableHlo.binary main_v97 main_cst_11 main_v98 ((fun x v => Host.reduceAdd x v reducesTo_S2048x128x128_S128x128_d0 h_S_) : (⟨S2048x128x128, .f32⟩ : BufTy).Contents (Elt F) → (⟨S_, .f32⟩ : BufTy).Contents (Elt F) → (⟨S128x128, .f32⟩ : BufTy).Contents (Elt F)),
    StableHlo.unary main_v98 main_v99 ((transpose S128x128 [1, 0] · transposes_S128x128_S128x128_1_0) : (⟨S128x128, .f32⟩ : BufTy).Contents (Elt F) → (⟨S128x128, .f32⟩ : BufTy).Contents (Elt F)),
    StableHlo.binary main_v98 main_v99 main_v100 (addf : (⟨S128x128, .f32⟩ : BufTy).Contents (Elt F) → (⟨S128x128, .f32⟩ : BufTy).Contents (Elt F) → (⟨S128x128, .f32⟩ : BufTy).Contents (Elt F)),
    StableHlo.nullary main_cst_12 (constant S_ .f32 0x3F000000#32),
    StableHlo.unary main_cst_12 main_v101 (broadcastInDim S128x128 ![] bcast_S_S128x128 : (⟨S_, .f32⟩ : BufTy).Contents (Elt F) → (⟨S128x128, .f32⟩ : BufTy).Contents (Elt F)),
    StableHlo.binary main_v100 main_v101 main_v102 (mulf : (⟨S128x128, .f32⟩ : BufTy).Contents (Elt F) → (⟨S128x128, .f32⟩ : BufTy).Contents (Elt F) → (⟨S128x128, .f32⟩ : BufTy).Contents (Elt F)),
    StableHlo.nullary main_cst_13 (constant S_ .f32 0x00000000#32),
    StableHlo.binary main_v102 main_cst_13 main_v103 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)) ]

/-- The head of the third stretch, up to the statement that writes the edge weights. -/
abbrev opsB : List (HloOp τ sig (Elt F)) :=
  [ StableHlo.nullary main_cst_14 (constant S_ .f32 0x43000000#32),
    StableHlo.unary main_cst_14 main_v104 (broadcastInDim S128 ![] bcast_S_S128 : (⟨S_, .f32⟩ : BufTy).Contents (Elt F) → (⟨S128, .f32⟩ : BufTy).Contents (Elt F)),
    StableHlo.binary main_v103 main_v104 main_v105 (Host.divf : (⟨S128, .f32⟩ : BufTy).Contents (Elt F) → (⟨S128, .f32⟩ : BufTy).Contents (Elt F) → (⟨S128, .f32⟩ : BufTy).Contents (Elt F)),
    StableHlo.nullary main_cst_15 (constant S_ .f32 0x00000000#32),
    StableHlo.binary main_v105 main_cst_15 main_v106 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_16 (constant S_ .f32 0x43000000#32),
    StableHlo.binary main_v106 main_cst_16 main_v107 (Host.divf : (⟨S_, .f32⟩ : BufTy).Contents (Elt F) → (⟨S_, .f32⟩ : BufTy).Contents (Elt F) → (⟨S_, .f32⟩ : BufTy).Contents (Elt F)),
    StableHlo.unary main_v107 main_v108 (broadcastInDim S128 ![] bcast_S_S128 : (⟨S_, .f32⟩ : BufTy).Contents (Elt F) → (⟨S128, .f32⟩ : BufTy).Contents (Elt F)),
    StableHlo.binary main_v105 main_v108 main_v109 (subf : (⟨S128, .f32⟩ : BufTy).Contents (Elt F) → (⟨S128, .f32⟩ : BufTy).Contents (Elt F) → (⟨S128, .f32⟩ : BufTy).Contents (Elt F)),
    StableHlo.nullary main_c_17 (constantI S_ 32 1#32),
    StableHlo.TRef.nullary main_call1.call0.cst (constant S_ .f32 0x00000000#32),
    StableHlo.TRef.binary (.of main_v105 : StableHlo.TRef sig ⟨S128, .f32⟩) main_call1.call0.cst main_call1.call0.v0 (fun x v => Host.reduceAdd x v reducesTo_S128_S_d0 h_S_),
    StableHlo.TRef.unary main_call1.call0.v0 main_call1.call0.v1 (broadcastInDim S1 ![] bcast_S_S1),
    StableHlo.TRef.nullary main_call1.call0.cst_0 (constant S_ .f32 0x43000000#32),
    StableHlo.TRef.unary main_call1.call0.cst_0 main_call1.call0.v2 (broadcastInDim S1 ![] bcast_S_S1),
    StableHlo.TRef.binary main_call1.call0.v1 main_call1.call0.v2 main_call1.call0.v3 Host.divf,
    StableHlo.TRef.unary main_call1.call0.v3 main_call1.call0.v4 (broadcastInDim S128 ![0] bcast_S1_S128_0),
    StableHlo.TRef.binary (.of main_v105 : StableHlo.TRef sig ⟨S128, .f32⟩) main_call1.call0.v4 main_call1.call0.v5 subf,
    StableHlo.TRef.binary main_call1.call0.v5 main_call1.call0.v5 main_call1.call0.v6 mulf,
    StableHlo.TRef.unary (.of main_c_17 : StableHlo.TRef sig ⟨S_, .i32⟩) main_call1.call0.v7 (sitofp .f32),
    StableHlo.TRef.nullary main_call1.call0.cst_1 (constant S_ .f32 0x43000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S128_S_d0 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt,
    StableHlo.nullary main_cst_18 (constant S_ .f32 0x358637BD#32),
    StableHlo.binary main_v110 main_cst_18 main_v111 (addf : (⟨S_, .f32⟩ : BufTy).Contents (Elt F) → (⟨S_, .f32⟩ : BufTy).Contents (Elt F) → (⟨S_, .f32⟩ : BufTy).Contents (Elt F)),
    StableHlo.unary main_v111 main_v112 (broadcastInDim S128 ![] bcast_S_S128 : (⟨S_, .f32⟩ : BufTy).Contents (Elt F) → (⟨S128, .f32⟩ : BufTy).Contents (Elt F)),
    StableHlo.binary main_v109 main_v112 main_v113 (Host.divf : (⟨S128, .f32⟩ : BufTy).Contents (Elt F) → (⟨S128, .f32⟩ : BufTy).Contents (Elt F) → (⟨S128, .f32⟩ : BufTy).Contents (Elt F)),
    StableHlo.nullary main_cst_19 (constant S_ .f32 0xFF800000#32),
    StableHlo.binary main_v113 main_cst_19 main_v114 ((fun x v => Host.reduce FloatOps.maximumf x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_20 (constant S_ .f32 0xFF800000#32),
    StableHlo.binary main_cst_20 main_v114 main_v115 (maximumf : (⟨S_, .f32⟩ : BufTy).Contents (Elt F) → (⟨S_, .f32⟩ : BufTy).Contents (Elt F) → (⟨S_, .f32⟩ : BufTy).Contents (Elt F)),
    StableHlo.unary main_v115 main_v116 (broadcastInDim S1 ![] bcast_S_S1 : (⟨S_, .f32⟩ : BufTy).Contents (Elt F) → (⟨S1, .f32⟩ : BufTy).Contents (Elt F)),
    StableHlo.unary main_v116 main_v117 (broadcastInDim S128 ![0] bcast_S1_S128_0 : (⟨S1, .f32⟩ : BufTy).Contents (Elt F) → (⟨S128, .f32⟩ : BufTy).Contents (Elt F)),
    StableHlo.binary main_v113 main_v117 main_v118 (subf : (⟨S128, .f32⟩ : BufTy).Contents (Elt F) → (⟨S128, .f32⟩ : BufTy).Contents (Elt F) → (⟨S128, .f32⟩ : BufTy).Contents (Elt F)),
    StableHlo.unary main_v118 main_v119 (Host.exp : (⟨S128, .f32⟩ : BufTy).Contents (Elt F) → (⟨S128, .f32⟩ : BufTy).Contents (Elt F)),
    StableHlo.nullary main_cst_21 (constant S_ .f32 0x00000000#32),
    StableHlo.binary main_v119 main_cst_21 main_v120 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.unary main_v120 main_v121 (broadcastInDim S1 ![] bcast_S_S1 : (⟨S_, .f32⟩ : BufTy).Contents (Elt F) → (⟨S1, .f32⟩ : BufTy).Contents (Elt F)),
    StableHlo.unary main_v121 main_v122 (broadcastInDim S128 ![0] bcast_S1_S128_0 : (⟨S1, .f32⟩ : BufTy).Contents (Elt F) → (⟨S128, .f32⟩ : BufTy).Contents (Elt F)),
    StableHlo.binary main_v119 main_v122 main_v123 (Host.divf : (⟨S128, .f32⟩ : BufTy).Contents (Elt F) → (⟨S128, .f32⟩ : BufTy).Contents (Elt F) → (⟨S128, .f32⟩ : BufTy).Contents (Elt F)) ]

/-- The rest of the third stretch: the two results from the matrix and the weights. -/
abbrev opsC : List (HloOp τ sig (Elt F)) :=
  [ StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S2048x128 ![0, 1] bcast_S1x128_S2048x128_0_1 : (⟨S1x128, .f32⟩ : BufTy).Contents (Elt F) → (⟨S2048x128, .f32⟩ : BufTy).Contents (Elt F)),
    StableHlo.binary main_v82 main_v125 main_v126 (mulf : (⟨S2048x128, .f32⟩ : BufTy).Contents (Elt F) → (⟨S2048x128, .f32⟩ : BufTy).Contents (Elt F) → (⟨S2048x128, .f32⟩ : BufTy).Contents (Elt F)),
    StableHlo.unary main_v82 main_v127 ((transpose S128x2048 [1, 0] · transposes_S2048x128_S128x2048_1_0) : (⟨S2048x128, .f32⟩ : BufTy).Contents (Elt F) → (⟨S128x2048, .f32⟩ : BufTy).Contents (Elt F)),
    StableHlo.binary main_v0 main_arg22 main_v128 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v127 main_v128 main_v129 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v129 main_v130 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call2.cst (constant S_ .f32 0x00000000#32),
    StableHlo.TRef.unary main_call2.cst main_call2.v0 (broadcastInDim S2048x128 ![] bcast_S_S2048x128),
    StableHlo.TRef.binary (.of main_v130 : StableHlo.TRef sig ⟨S2048x128, .f32⟩) main_call2.v0 main_call2.v1 (cmpf .ogt),
    StableHlo.TRef.nullary main_call2.cst_0 (constant S_ .f32 0x00000000#32),
    StableHlo.TRef.unary main_call2.cst_0 main_call2.v2 (broadcastInDim S2048x128 ![] bcast_S_S2048x128),
    StableHlo.TRef.binary (.of main_v130 : StableHlo.TRef sig ⟨S2048x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S2048x128 ![] bcast_S_S2048x128),
    StableHlo.TRef.ternary main_call2.v3 main_call2.call0.v1 (.of main_v130 : StableHlo.TRef sig ⟨S2048x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S2048x128 ![] bcast_S_S2048x128),
    StableHlo.TRef.binary main_call2.v6 main_call2.v5 main_call2.v7 mulf,
    StableHlo.TRef.ternary main_call2.v1 (.of main_v130 : StableHlo.TRef sig ⟨S2048x128, .f32⟩) main_call2.v7 main_call2.call1.v0 select,
    StableHlo.binary main_v0 main_v131 main_v132 (addf : (⟨S2048x128, .f32⟩ : BufTy).Contents (Elt F) → (⟨S2048x128, .f32⟩ : BufTy).Contents (Elt F) → (⟨S2048x128, .f32⟩ : BufTy).Contents (Elt F)),
    StableHlo.unary main_v82 main_v133 ((transpose S128x2048 [1, 0] · transposes_S2048x128_S128x2048_1_0) : (⟨S2048x128, .f32⟩ : BufTy).Contents (Elt F) → (⟨S128x2048, .f32⟩ : BufTy).Contents (Elt F)),
    StableHlo.binary main_v1 main_arg23 main_v134 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v133 main_v134 main_v135 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v135 main_v136 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call3.cst (constant S_ .f32 0x00000000#32),
    StableHlo.TRef.unary main_call3.cst main_call3.v0 (broadcastInDim S2048x128 ![] bcast_S_S2048x128),
    StableHlo.TRef.binary (.of main_v136 : StableHlo.TRef sig ⟨S2048x128, .f32⟩) main_call3.v0 main_call3.v1 (cmpf .ogt),
    StableHlo.TRef.nullary main_call3.cst_0 (constant S_ .f32 0x00000000#32),
    StableHlo.TRef.unary main_call3.cst_0 main_call3.v2 (broadcastInDim S2048x128 ![] bcast_S_S2048x128),
    StableHlo.TRef.binary (.of main_v136 : StableHlo.TRef sig ⟨S2048x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S2048x128 ![] bcast_S_S2048x128),
    StableHlo.TRef.ternary main_call3.v3 main_call3.call0.v1 (.of main_v136 : StableHlo.TRef sig ⟨S2048x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S2048x128 ![] bcast_S_S2048x128),
    StableHlo.TRef.binary main_call3.v6 main_call3.v5 main_call3.v7 mulf,
    StableHlo.TRef.ternary main_call3.v1 (.of main_v136 : StableHlo.TRef sig ⟨S2048x128, .f32⟩) main_call3.v7 main_call3.call1.v0 select,
    StableHlo.binary main_v1 main_v137 main_v138 (addf : (⟨S2048x128, .f32⟩ : BufTy).Contents (Elt F) → (⟨S2048x128, .f32⟩ : BufTy).Contents (Elt F) → (⟨S2048x128, .f32⟩ : BufTy).Contents (Elt F)),
    StableHlo.reshape main_v132 main_v139 rfl shapeCasts_S2048x128_S64x32x128,
    StableHlo.reshape main_v138 main_v140 rfl shapeCasts_S2048x128_S64x32x128 ]

set_option maxRecDepth 16384 in
theorem ops1_cut : (ops1 : List (HloOp τ sig (Elt F))) = ops1.take 58 ++ opsA := rfl
set_option maxRecDepth 16384 in
theorem ops2_cut : (ops2 : List (HloOp τ sig (Elt F))) = opsB ++ opsC := rfl

/-- The whole line as four runs: up to the incidence matrix, `opsA`, `opsB`, `opsC`. -/
theorem after_cut (V : Valuation τ sig (Elt F)) :
    after ops V = after opsC (after opsB (after opsA (after (ops1.take 58) (after ops0 V)))) := by
  rw [after_ops]
  conv_lhs => rw [ops2_cut, ops1_cut]
  rw [after_app, after_app]

set_option maxRecDepth 16384 in
/-- The last run writes neither the matrix nor the weights. -/
theorem after_opsC (V : Valuation τ sig (Elt F)) :
    after opsC V (Proc.devRef .tc main_v123) = V (Proc.devRef .tc main_v123)
    ∧ after opsC V (Proc.devRef .tc main_v82) = V (Proc.devRef .tc main_v82) := by
  constructor <;> after_results_simp

set_option maxRecDepth 16384 in
/-- The two middle runs leave the matrix as it was. -/
theorem after_opsAB_H (V : Valuation τ sig (Elt F)) :
    after opsB (after opsA V) (Proc.devRef .tc main_v82) = V (Proc.devRef .tc main_v82) := by
  after_results_simp

set_option maxRecDepth 16384 in
set_option maxHeartbeats 1000000 in
/-- … and put `refW` of it in the weights' buffer. -/
theorem after_opsAB_W (V : Valuation τ sig (Elt F)) :
    after opsB (after opsA V) (Proc.devRef .tc main_v123) = refW (V (Proc.devRef .tc main_v82)) := by
  after_results_simp
  rfl

/-- After the whole line the weights' buffer holds `refW` of what the matrix's buffer holds. -/
theorem after_W (V : Valuation τ sig (Elt F)) :
    StableHlo.after ops V (Proc.devRef .tc main_v123) = refW (StableHlo.after ops V (Proc.devRef .tc main_v82)) := by
  rw [after_cut, (after_opsC _).1, (after_opsC _).2, after_opsAB_W, after_opsAB_H]

end Cert.ReferenceIdeal.RefW

end
-- ==== Proof.LibOpsB.lean ====
/-
  Array operations read at an index written by its coordinates: the layouts and single-axis reductions of a pairwise
  (row, column, column) computation and of a keep-dimensions soft-max over one row.

  Each lemma reads ONE operation; none depends on a program. The layouts hold for any element type; the reductions are read
  at the ideal instance, where a float is an extended real and a sum over one axis is a `Finset` sum over that axis's
  coordinates. A kernel's `vector.multi_reduction` is stated with the accumulator's bit pattern and its two side proofs
  as a printed program spells them, so that the lemma matches the printed term as it stands.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Idealize.ShloMosaic.OpsB

open Idealize.ShloMosaic Idealize.ShloMosaic.ValueIdx

/-! ## Layouts -/

section Layout
variable {α : Type}

/-- A matrix [a, b] cast to [a, b, 1] reads, at (r, i, u), the matrix at (r, i). -/
theorem shapeCast_ab_ab1_apply {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_two, Shape.rowMajor_val_three]
    show r.val * b + i.val = (r.val * b + i.val) * 1 + u.val
    rw [hu, Nat.mul_one, Nat.add_zero])

/-- A matrix [a, b] cast to [a, 1, b] reads, at (r, u, j), the matrix at (r, j). -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_two, Shape.rowMajor_val_three]
    show r.val * b + j.val = (r.val * 1 + u.val) * b + j.val
    rw [hu, Nat.mul_one, Nat.add_zero])

/-- An array [a, b, 1] broadcast over c lanes to [a, b, c] reads, at (r, i, j), the array at (r, i, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (i : Fin b) (j : Fin c) :
    broadcastTo ⟨3, ![a, b, c]⟩ x h (ix3 r i j) = x (ix3 r i (0 : Fin 1)) := by
  refine broadcastTo_apply x h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- An array [a, 1, c] broadcast over b rows to [a, b, c] reads, at (r, i, j), the array at (r, 0, j). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (i : Fin b) (j : Fin c) :
    broadcastTo ⟨3, ![a, b, c]⟩ x h (ix3 r i j) = x (ix3 r (0 : Fin 1) j) := by
  refine broadcastTo_apply x h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The host's broadcast of a matrix [a, b] into [a, b, 1] along axes 0, 1 reads, at (r, i, u), the matrix at (r, i). -/
theorem broadcastInDim_ab_ab1_apply {a b : ℕ} (h : (⟨2, ![a, b]⟩ : Shape).BroadcastsInDim ⟨3, ![a, b, 1]⟩ ![0, 1])
    (x : (⟨2, ![a, b]⟩ : Shape).Idx → α) (r : Fin a) (i : Fin b) (u : Fin 1) :
    broadcastInDim ⟨3, ![a, b, 1]⟩ ![0, 1] h x (ix3 r i u) = x (ix2 r i) := by
  refine broadcastInDim_apply ![0, 1] h x (ix3 r i u) (ix2 r i) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl

/-- The host's broadcast of a matrix [a, b] into [a, 1, b] along axes 0, 2 reads, at (r, u, j), the matrix at (r, j). -/
theorem broadcastInDim_ab_a1b_apply {a b : ℕ} (h : (⟨2, ![a, b]⟩ : Shape).BroadcastsInDim ⟨3, ![a, 1, b]⟩ ![0, 2])
    (x : (⟨2, ![a, b]⟩ : Shape).Idx → α) (r : Fin a) (u : Fin 1) (j : Fin b) :
    broadcastInDim ⟨3, ![a, 1, b]⟩ ![0, 2] h x (ix3 r u j) = x (ix2 r j) := by
  refine broadcastInDim_apply ![0, 2] h x (ix3 r u j) (ix2 r j) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl

/-- The host's broadcast of [a, b, 1] to [a, b, c] along the three axes reads, at (r, i, j), the array at (r, i, 0). -/
theorem broadcastInDim_ab1_abc_apply {a b c : ℕ} (h : (⟨3, ![a, b, 1]⟩ : Shape).BroadcastsInDim ⟨3, ![a, b, c]⟩ ![0, 1, 2])
    (x : (⟨3, ![a, b, 1]⟩ : Shape).Idx → α) (r : Fin a) (i : Fin b) (j : Fin c) :
    broadcastInDim ⟨3, ![a, b, c]⟩ ![0, 1, 2] h x (ix3 r i j) = x (ix3 r i (0 : Fin 1)) := by
  refine broadcastInDim_apply ![0, 1, 2] h x (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- The host's broadcast of [a, 1, c] to [a, b, c] along the three axes reads, at (r, i, j), the array at (r, 0, j). -/
theorem broadcastInDim_a1c_abc_apply {a b c : ℕ} (h : (⟨3, ![a, 1, c]⟩ : Shape).BroadcastsInDim ⟨3, ![a, b, c]⟩ ![0, 1, 2])
    (x : (⟨3, ![a, 1, c]⟩ : Shape).Idx → α) (r : Fin a) (i : Fin b) (j : Fin c) :
    broadcastInDim ⟨3, ![a, b, c]⟩ ![0, 1, 2] h x (ix3 r i j) = x (ix3 r (0 : Fin 1) j) := by
  refine broadcastInDim_apply ![0, 1, 2] h x (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The host's broadcast of a one-entry vector [1] to [b] along axis 0 reads that entry everywhere. -/
theorem broadcastInDim_1_b_apply {b : ℕ} (h : (⟨1, ![1]⟩ : Shape).BroadcastsInDim ⟨1, ![b]⟩ ![0])
    (x : (⟨1, ![1]⟩ : Shape).Idx → α) (j : Fin b) :
    broadcastInDim ⟨1, ![b]⟩ ![0] h x (ix1 j) = x (ix1 (0 : Fin 1)) := by
  refine broadcastInDim_apply ![0] h x (ix1 j) (ix1 (0 : Fin 1)) fun ax => ?_
  match ax with
  | ⟨0, _⟩ => rfl

/-- A scalar broadcast to a one-entry vector reads the scalar. -/
theorem broadcastInDim_scalar_ix1 {b : ℕ} (h : (⟨0, ![]⟩ : Shape).BroadcastsInDim ⟨1, ![b]⟩ ![])
    (x : (⟨0, ![]⟩ : Shape).Idx → α) (j : Fin b) : broadcastInDim ⟨1, ![b]⟩ ![] h x (ix1 j) = x ix0 :=
  broadcastInDim_scalar_apply h x _

end Layout

/-! ## Sums and maxima over one axis, at the ideal instance -/

section Reduce

/-- A kernel's sum over the rows of a matrix [a, b]: at lane i, the sum over the rows r of the matrix at (r, i). -/
theorem multiReduction_add0_ab_apply {a b : ℕ} (src : FVec Ideal ⟨2, ![a, b]⟩ .f32)
    (h : (⟨2, ![a, b]⟩ : Shape).Reduces [0] ⟨1, ![b]⟩) (hacc : (0x00000000#32 : BitVec 32) = 0x00000000#32) (i : Fin b) :
    multiReduction .add [0] ⟨1, ![b]⟩ src 0x00000000#32 h (.inl rfl) hacc (ix1 i) = ∑ r : Fin a, src (ix2 r i) := by
  refine (Ideal.multiReduction_add_single src 0x00000000#32 h (.inl rfl) hacc (ix1 i)).trans ?_
  refine Finset.sum_congr rfl fun r _ => congrArg src ?_
  funext c; apply Fin.ext
  match c with
  | ⟨0, _⟩ => rfl
  | ⟨1, _⟩ => rfl

/-- A kernel's sum over the leading axis of [a, b, c]: at (i, j), the sum over r of the array at (r, i, j). -/
theorem multiReduction_add0_abc_apply {a b c : ℕ} (src : FVec Ideal ⟨3, ![a, b, c]⟩ .f32)
    (h : (⟨3, ![a, b, c]⟩ : Shape).Reduces [0] ⟨2, ![b, c]⟩) (hacc : (0x00000000#32 : BitVec 32) = 0x00000000#32)
    (i : Fin b) (j : Fin c) :
    multiReduction .add [0] ⟨2, ![b, c]⟩ src 0x00000000#32 h (.inl rfl) hacc (ix2 i j) = ∑ r : Fin a, src (ix3 r i j) := by
  refine (Ideal.multiReduction_add_single src 0x00000000#32 h (.inl rfl) hacc (ix2 i j)).trans ?_
  refine Finset.sum_congr rfl fun r _ => congrArg src ?_
  funext d; apply Fin.ext
  match d with
  | ⟨0, _⟩ => rfl
  | ⟨1, _⟩ => rfl
  | ⟨2, _⟩ => rfl

/-- A kernel's sum over the lanes of a one-row matrix [1, b], keeping the row: the sum over the lanes. -/
theorem multiReduction_add1_1b_apply {b : ℕ} (src : FVec Ideal ⟨2, ![1, b]⟩ .f32)
    (h : (⟨2, ![1, b]⟩ : Shape).Reduces [1] ⟨1, ![1]⟩) (hacc : (0x00000000#32 : BitVec 32) = 0x00000000#32) (u : Fin 1) :
    multiReduction .add [1] ⟨1, ![1]⟩ src 0x00000000#32 h (.inl rfl) hacc (ix1 u) = ∑ j : Fin b, src (ix2 (0 : Fin 1) j) := by
  refine (Ideal.multiReduction_add_single src 0x00000000#32 h (.inl rfl) hacc (ix1 u)).trans ?_
  refine Finset.sum_congr rfl fun r _ => congrArg src ?_
  funext d; apply Fin.ext
  match d with
  | ⟨0, _⟩ => show (u : Fin 1).val = 0; omega
  | ⟨1, _⟩ => rfl

/-- A kernel's maximum over the lanes of a one-row matrix [1, b]: the fold of `max` from the accumulator's value. -/
theorem multiReduction_max1_1b_apply {b : ℕ} (src : FVec Ideal ⟨2, ![1, b]⟩ .f32)
    (h : (⟨2, ![1, b]⟩ : Shape).Reduces [1] ⟨1, ![1]⟩) (hacc : (0xFF800000#32 : BitVec 32) = 0xFF800000#32) (u : Fin 1) :
    multiReduction .maximumf [1] ⟨1, ![1]⟩ src 0xFF800000#32 h (.inl rfl) hacc (ix1 u)
      = (Finset.univ : Finset (Fin b)).fold max (Ideal.ofBits .f32 0xFF800000#32) fun j => src (ix2 (0 : Fin 1) j) := by
  refine (Ideal.multiReduction_maximumf_single src 0xFF800000#32 h (.inl rfl) hacc (ix1 u)).trans ?_
  refine congrArg (Finset.fold max (Ideal.ofBits .f32 0xFF800000#32) · (Finset.univ : Finset (Fin b))) ?_
  funext r
  refine congrArg src ?_
  funext d; apply Fin.ext
  match d with
  | ⟨0, _⟩ => show (u : Fin 1).val = 0; omega
  | ⟨1, _⟩ => rfl

end Reduce

/-! ## The host's sums and maxima over one axis, at the ideal instance -/

section HostReduce

/-- The host's sum over the rows of a matrix [a, b] from the scalar `init`: at lane i, the initial value plus the sum over
    the rows. The `Reduces` witness names the inserted coordinate; at literal extents `decide` gives it. -/
theorem hostReduceAdd0_ab_apply {a b : ℕ} (h : (⟨2, ![a, b]⟩ : Shape).Reduces [0] ⟨1, ![b]⟩)
    (x : FVec Ideal ⟨2, ![a, b]⟩ .f32) (init : FVec Ideal ⟨0, ![]⟩ .f32)
    (h' : (⟨2, ![a, b]⟩ : Shape).ReducesTo [0] ⟨1, ![b]⟩) (hu : 0 < (⟨0, ![]⟩ : Shape).numel) (i : Fin b) :
    Host.reduceAdd x init h' hu (ix1 i) = init ix0 + ∑ r : Fin a, x (ix2 r i) := by
  show Ideal.hostReduceAdd h' x (init (Shape.Idx.first hu)) (ix1 i) = _
  rw [Ideal.hostReduceAdd_single h' h, eq_ix0 (Shape.Idx.first hu)]
  refine congrArg (init ix0 + ·) (Finset.sum_congr rfl fun r _ => congrArg x ?_)
  funext c; apply Fin.ext
  match c with
  | ⟨0, _⟩ => rfl
  | ⟨1, _⟩ => rfl

/-- The host's sum over the leading axis of [a, b, c]: at (i, j), the initial value plus the sum over r. -/
theorem hostReduceAdd0_abc_apply {a b c : ℕ} (h : (⟨3, ![a, b, c]⟩ : Shape).Reduces [0] ⟨2, ![b, c]⟩)
    (x : FVec Ideal ⟨3, ![a, b, c]⟩ .f32) (init : FVec Ideal ⟨0, ![]⟩ .f32)
    (h' : (⟨3, ![a, b, c]⟩ : Shape).ReducesTo [0] ⟨2, ![b, c]⟩) (hu : 0 < (⟨0, ![]⟩ : Shape).numel) (i : Fin b) (j : Fin c) :
    Host.reduceAdd x init h' hu (ix2 i j) = init ix0 + ∑ r : Fin a, x (ix3 r i j) := by
  show Ideal.hostReduceAdd h' x (init (Shape.Idx.first hu)) (ix2 i j) = _
  rw [Ideal.hostReduceAdd_single h' h, eq_ix0 (Shape.Idx.first hu)]
  refine congrArg (init ix0 + ·) (Finset.sum_congr rfl fun r _ => congrArg x ?_)
  funext d; apply Fin.ext
  match d with
  | ⟨0, _⟩ => rfl
  | ⟨1, _⟩ => rfl
  | ⟨2, _⟩ => rfl

/-- The indices of a vector [n] are its coordinates. -/
def idxEquiv1 {n : ℕ} : (⟨1, ![n]⟩ : Shape).Idx ≃ Fin n where
  toFun j := j 0
  invFun a := ix1 a
  left_inv j := (eq_ix1 j).symm
  right_inv _ := rfl

/-- A sum over the indices of a vector is the sum over its coordinates. -/
theorem sum_idx1 {M : Type*} [AddCommMonoid M] {n : ℕ} (f : (⟨1, ![n]⟩ : Shape).Idx → M) :
    ∑ j, f j = ∑ a : Fin n, f (ix1 a) :=
  Fintype.sum_equiv idxEquiv1 _ _ fun j => by rw [eq_ix1 j]; rfl

/-- The host's sum of a vector [b] to a scalar: the initial value plus the sum of the entries. -/
theorem hostReduceAdd0_b_apply {b : ℕ} (x : FVec Ideal ⟨1, ![b]⟩ .f32) (init : FVec Ideal ⟨0, ![]⟩ .f32)
    (h' : (⟨1, ![b]⟩ : Shape).ReducesTo [0] ⟨0, ![]⟩) (hu : 0 < (⟨0, ![]⟩ : Shape).numel) (j : (⟨0, ![]⟩ : Shape).Idx) :
    Host.reduceAdd x init h' hu j = init ix0 + ∑ k : Fin b, x (ix1 k) := by
  show Ideal.hostReduceAdd h' x (init (Shape.Idx.first hu)) j = _
  rw [Ideal.hostReduceAdd_total h' (fun b => b.elim0), eq_ix0 (Shape.Idx.first hu), sum_idx1]

/-- The host's maximum of a vector [b] to a scalar: the fold of `max` from the initial value over the entries. -/
theorem hostReduceMax0_b_apply {b : ℕ} (x : FVec Ideal ⟨1, ![b]⟩ .f32) (init : FVec Ideal ⟨0, ![]⟩ .f32)
    (h' : (⟨1, ![b]⟩ : Shape).ReducesTo [0] ⟨0, ![]⟩) (hu : 0 < (⟨0, ![]⟩ : Shape).numel) (j : (⟨0, ![]⟩ : Shape).Idx) :
    Host.reduce (FloatOps.maximumf (F := Ideal) (φ := .f32)) x init h' hu j
      = (Finset.univ : Finset (Fin b)).fold max (init ix0) fun k => x (ix1 k) := by
  rw [Host.reduce_eq_fold, eq_ix0 (Shape.Idx.first hu),
    Finset.filter_true_of_mem fun i _ => funext fun a => a.elim0]
  have himg : (Finset.univ : Finset (⟨1, ![b]⟩ : Shape).Idx) = (Finset.univ : Finset (Fin b)).image ix1 := by
    ext j; simp only [Finset.mem_univ, Finset.mem_image, true_and, true_iff]; exact ⟨j 0, (eq_ix1 j).symm⟩
  rw [himg, Finset.fold_image fun k _ k' _ e => by have := congrFun e 0; exact this]
  rfl

end HostReduce

end Idealize.ShloMosaic.OpsB

end
-- ==== Proof.KerAcc.lean ====
/-
  The second region's two accumulators, read at an index over the extended reals.

  One grid point adds to the row accumulator, at lane i, the sum over its 64 rows of x·log x for x the block's entry
  (r, i), and to the square accumulator, at (i, j), the sum over its rows of x·log(½·(x + y)) for y the entry (r, j).
  Both start from zero. Addition of extended reals is associative and commutative, so after the point n the
  accumulators hold the sums over the blocks 0 … n, and since the 32 blocks of 64 rows tile the 2048 rows of the matrix,
  after the last point they hold the sums over all of its rows.
-/
import proofs.«127104_j29506425324178_1_alg».proof.Proof.Stages
import proofs.«127104_j29506425324178_1_alg».proof.Proof.LibOpsB

noncomputable section

namespace Cert.KernelIdeal.KerAcc

open Idealize.ShloMosaic Idealize.ShloMosaic.ValueIdx Idealize.ShloMosaic.OpsB
open Cert.KernelIdeal Cert.KernelIdeal.Gen Cert.KernelIdeal.Stage

/-- One half, as the bit pattern both programs carry. -/
abbrev cHalf : EReal := Ideal.ofBits .f32 0x3F000000#32

theorem log_apply {s : Shape} {φ : FTy} (a : FVec Ideal s φ) (i : s.Idx) : log a i = Ideal.log (a i) := rfl

/-- The row accumulator starts from zero. -/
theorem k1_pay1_apply (j : S1x128.Idx) : k1_pay1 (F := Ideal) j = 0 := by
  unfold k1_pay1
  simp only [shapeCast_self]
  exact Ideal.ofBits_zero_f32

/-- The square accumulator starts from zero. -/
theorem k1_pay2_apply (j : S128x128.Idx) : k1_pay2 (F := Ideal) j = 0 := by
  unfold k1_pay2
  simp only [shapeCast_self]
  exact Ideal.ofBits_zero_f32

/-- One point's addition to the row accumulator. -/
theorem k1_pay4_apply (v3 : Vec Ideal S64x128 .f32) (v6 : Vec Ideal S1x128 .f32) (i : Fin 128) :
    k1_pay4 v3 v6 (ix2 (0 : Fin 1) i)
      = v6 (ix2 (0 : Fin 1) i) + ∑ r : Fin 64, v3 (ix2 r i) * Ideal.log (v3 (ix2 r i)) := by
  unfold k1_pay4 k1_pay3
  simp only [shapeCast_self, addf_apply, shapeCast_a_1a_apply, multiReduction_add0_ab_apply _, mulf_apply, log_apply]

/-- One point's addition to the square accumulator. -/
theorem k1_pay5_apply (v3 : Vec Ideal S64x128 .f32) (v22 : Vec Ideal S128x128 .f32) (i j : Fin 128) :
    k1_pay5 v3 v22 (ix2 i j)
      = v22 (ix2 i j) + ∑ r : Fin 64, v3 (ix2 r i) * Ideal.log (cHalf * (v3 (ix2 r i) + v3 (ix2 r j))) := by
  unfold k1_pay5 k1_pay3
  simp only [shapeCast_self, addf_apply, multiReduction_add0_abc_apply _, mulf_apply, log_apply, broadcast_apply,
    broadcastTo_ab1_abc_apply, broadcastTo_a1c_abc_apply, shapeCast_ab_ab1_apply, shapeCast_ab_a1b_apply]
  rfl

/-! ## Blocks of 64 glued -/

/-- Sums over consecutive blocks of `m` terms are one sum. -/
theorem sum_blocks {M : Type*} [AddCommMonoid M] (m : ℕ) (f : ℕ → M) (B : ℕ) :
    ∑ n ∈ Finset.range B, ∑ r : Fin m, f (m * n + r.val) = ∑ k ∈ Finset.range (m * B), f k := by
  induction B with
  | zero => simp
  | succ B ih =>
    rw [Finset.sum_range_succ, ih, Nat.mul_succ, Finset.sum_range_add, Fin.sum_univ_eq_sum_range (fun r => f (m * B + r)) m]

/-- … and over the 32 blocks of 64 rows, the sum over the 2048 rows. -/
theorem sum_rows {M : Type*} [AddCommMonoid M] (g : Fin 2048 → M) :
    ∑ n ∈ Finset.range 32, ∑ r : Fin 64, g ⟨(64 * n + r.val) % 2048, Nat.mod_lt _ (by norm_num)⟩ = ∑ k : Fin 2048, g k := by
  rw [sum_blocks 64 (fun k => g ⟨k % 2048, Nat.mod_lt _ (by norm_num)⟩) 32,
    ← Fin.sum_univ_eq_sum_range (fun k => g ⟨k % 2048, Nat.mod_lt _ (by norm_num)⟩) 2048]
  exact Finset.sum_congr rfl fun k _ => congrArg g (Fin.ext (Nat.mod_eq_of_lt k.isLt))

/-! ## The accumulators -/

/-- The row accumulator after point n: the sum over blocks 0 … n. -/
theorem accA_apply (blk : ℕ → Vec Ideal S64x128 .f32) (n : ℕ) (i : Fin 128) :
    accA blk n (ix2 (0 : Fin 1) i)
      = ∑ m ∈ Finset.range (n + 1), ∑ r : Fin 64, blk m (ix2 r i) * Ideal.log (blk m (ix2 r i)) := by
  induction n with
  | zero =>
    rw [show accA blk 0 = k1_pay4 (blk 0) (k1_pay1 (F := Ideal)) from rfl, k1_pay4_apply, k1_pay1_apply, zero_add,
      Finset.sum_range_one]
  | succ n ih =>
    rw [show accA blk (n + 1) = k1_pay4 (blk (n + 1)) (accA blk n) from rfl, k1_pay4_apply, ih,
      Finset.sum_range_succ _ (n + 1)]

/-- The square accumulator after point n: the sum over blocks 0 … n. -/
theorem accS_apply (blk : ℕ → Vec Ideal S64x128 .f32) (n : ℕ) (i j : Fin 128) :
    accS blk n (ix2 i j)
      = ∑ m ∈ Finset.range (n + 1), ∑ r : Fin 64,
          blk m (ix2 r i) * Ideal.log (cHalf * (blk m (ix2 r i) + blk m (ix2 r j))) := by
  induction n with
  | zero =>
    rw [show accS blk 0 = k1_pay5 (blk 0) (k1_pay2 (F := Ideal)) from rfl, k1_pay5_apply, k1_pay2_apply, zero_add,
      Finset.sum_range_one]
  | succ n ih =>
    rw [show accS blk (n + 1) = k1_pay5 (blk (n + 1)) (accS blk n) from rfl, k1_pay5_apply, ih,
      Finset.sum_range_succ _ (n + 1)]

/-- After the last point the row accumulator holds, at lane i, the sum over all rows of h·log h. -/
theorem accA_rows (h : Vec Ideal S2048x128 .f32) (i : Fin 128) :
    accA (rowBlock h) 31 (ix2 (0 : Fin 1) i) = ∑ k : Fin 2048, h (ix2 k i) * Ideal.log (h (ix2 k i)) := by
  rw [accA_apply]
  exact sum_rows fun k => h (ix2 k i) * Ideal.log (h (ix2 k i))

/-- After the last point the square accumulator holds, at (i, j), the sum over all rows of h[·,i]·log(½·(h[·,i] + h[·,j])). -/
theorem accS_rows (h : Vec Ideal S2048x128 .f32) (i j : Fin 128) :
    accS (rowBlock h) 31 (ix2 i j)
      = ∑ k : Fin 2048, h (ix2 k i) * Ideal.log (cHalf * (h (ix2 k i) + h (ix2 k j))) := by
  rw [accS_apply]
  exact sum_rows fun k => h (ix2 k i) * Ideal.log (cHalf * (h (ix2 k i) + h (ix2 k j)))

end Cert.KernelIdeal.KerAcc

end
-- ==== Proof.RefKL.lean ====
/-
  The reference's pairwise Kullback–Leibler sums, read at an index over the extended reals, and split.

  At (i, j) the reference holds  ∑ₖ h[k,i] · (log h[k,i] − log ((h[k,i] + h[k,j]) · ½))  over the 2048 rows k. When every
  entry of h is a positive real number, each logarithm is a real number and the sum of products with a difference is
  the difference of the two sums of products: the row sum  ∑ₖ h[k,i] · log h[k,i]  minus the pairwise sum
  ∑ₖ h[k,i] · log (½ · (h[k,i] + h[k,j])).
-/
import proofs.«127104_j29506425324178_1_alg».proof.Proof.RefWDef
import proofs.«127104_j29506425324178_1_alg».proof.Proof.LibOpsB
import proofs.«127104_j29506425324178_1_alg».proof.Proof.LibKLSplit
import proofs.«127104_j29506425324178_1_alg».proof.Proof.KerAcc

noncomputable section

namespace Cert.ReferenceIdeal.RefW

open Idealize.ShloMosaic Idealize.ShloMosaic.ValueIdx Idealize.ShloMosaic.OpsB
open Cert.ReferenceIdeal Cert.ReferenceIdeal.Facts₀ Cert.ReferenceIdeal.Facts
open Cert.KernelIdeal.KerAcc (cHalf)

theorem hostLog_apply {s : Shape} {φ : FTy} (a : FVec Ideal s φ) (i : s.Idx) : Host.log a i = Ideal.log (a i) := rfl

/-- The bit pattern 0x3F000000 is one half. -/
theorem cHalf_eq : cHalf = (((1 : ℝ) / 2 : ℝ) : EReal) := by
  simp [cHalf, Ideal.ofBits, Ideal.ieee, -EReal.coe_mul]; norm_num

/-- The Kullback–Leibler sums at (i, j). -/
theorem refKL_apply (h : Vec Ideal S2048x128 .f32) (i j : Fin 128) :
    refKL (F := Ideal) h (ix2 i j)
      = 0 + ∑ k : Fin 2048, h (ix2 k i) * (Ideal.log (h (ix2 k i)) - Ideal.log ((h (ix2 k i) + h (ix2 k j)) * cHalf)) := by
  unfold refKL
  simp only [hostReduceAdd0_abc_apply (a := 2048) (b := 128) (c := 128) (by decide), mulf_apply, subf_apply, addf_apply,
    hostLog_apply, broadcastInDim_ab1_abc_apply _, broadcastInDim_a1c_abc_apply _, broadcastInDim_ab_ab1_apply _,
    broadcastInDim_ab_a1b_apply _, broadcastInDim_scalar_apply _, constant_apply, Ideal.ofBits_zero_f32]

/-- For positive real entries the sums split: the row sum minus the pairwise sum. -/
theorem refKL_split (h : Vec Ideal S2048x128 .f32) (hpos : ∀ i, ∃ r : ℝ, 0 < r ∧ h i = (r : EReal)) (i j : Fin 128) :
    refKL (F := Ideal) h (ix2 i j)
      = (∑ k : Fin 2048, h (ix2 k i) * Ideal.log (h (ix2 k i)))
        - ∑ k : Fin 2048, h (ix2 k i) * Ideal.log (cHalf * (h (ix2 k i) + h (ix2 k j))) := by
  rw [refKL_apply, zero_add]
  choose P hP using fun k : Fin 2048 => hpos (ix2 k i)
  choose Q hQ using fun k : Fin 2048 => hpos (ix2 k j)
  have hM : ∀ k, cHalf * (h (ix2 k i) + h (ix2 k j)) = (((P k + Q k) * (1 / 2) : ℝ) : EReal) := fun k => by
    rw [(hP k).2, (hQ k).2, cHalf_eq, ← EReal.coe_add, ← EReal.coe_mul, mul_comm]
  have hM' : ∀ k, (h (ix2 k i) + h (ix2 k j)) * cHalf = (((P k + Q k) * (1 / 2) : ℝ) : EReal) := fun k => by
    rw [mul_comm, hM k]
  simp only [hM, hM']
  simp only [fun k => (hP k).2]
  exact Cert.KLSplit.kl_split Finset.univ P (fun k => (P k + Q k) * (1 / 2)) (fun k _ => (hP k).1)
    (fun k _ => by have := (hP k).1; have := (hQ k).1; positivity)

end Cert.ReferenceIdeal.RefW

end
-- ==== Proof.WScalar.lean ====
/-
  The edge weights as a function on the extended reals: from a 128 × 128 table of divergences, the column means of its
  symmetrization, their standardization by the unbiased standard deviation, and the soft-max of the result — written
  with finite sums over the 128 coordinates and the ideal instance's division, square root and exponential, and with
  the constants as the bit patterns both programs carry.
-/
import Idealize.ShloMosaic.PureOps.Ideal
import Idealize.ShloMosaic.PureOps.Ideal.Laws
import Idealize.ShloMosaic.Lib.IdealHost

noncomputable section

namespace Cert.WScalar

open Idealize.ShloMosaic

/-- One half. -/
abbrev cHalf : EReal := Ideal.ofBits .f32 0x3F000000#32
/-- 128. -/
abbrev c128 : EReal := Ideal.ofBits .f32 0x43000000#32
/-- 127. -/
abbrev c127 : EReal := Ideal.ofBits .f32 0x42FE0000#32
/-- The ε added to the standard deviation. -/
abbrev cEps : EReal := Ideal.ofBits .f32 0x358637BD#32
/-- −∞, where a maximum starts. -/
abbrev cNegInf : EReal := Ideal.ofBits .f32 0xFF800000#32

/-- The column means of the symmetrized table: jm[j] = (∑ᵢ (kl[i,j] + kl[j,i]) · ½) / 128. -/
def jmOf (kl : Fin 128 → Fin 128 → EReal) (j : Fin 128) : EReal :=
  Ideal.div (∑ i : Fin 128, (kl i j + kl j i) * cHalf) c128

/-- The mean of 128 values. -/
def meanOf (jm : Fin 128 → EReal) : EReal := Ideal.div (∑ j : Fin 128, jm j) c128

/-- Their unbiased standard deviation. -/
def sdOf (jm : Fin 128 → EReal) : EReal :=
  Ideal.sqrt (Ideal.div (∑ j : Fin 128, (jm j - meanOf jm) * (jm j - meanOf jm)) c127)

/-- The standardized values. -/
def zOf (jm : Fin 128 → EReal) (j : Fin 128) : EReal := Ideal.div (jm j - meanOf jm) (sdOf jm + cEps)

/-- Their maximum. -/
def mxOf (jm : Fin 128 → EReal) : EReal := (Finset.univ : Finset (Fin 128)).fold max cNegInf (zOf jm)

/-- The exponentials of the standardized values less their maximum. -/
def eOf (jm : Fin 128 → EReal) (j : Fin 128) : EReal := Ideal.exp (zOf jm j - mxOf jm)

/-- The soft-max. -/
def softOf (jm : Fin 128 → EReal) (j : Fin 128) : EReal := Ideal.div (eOf jm j) (∑ j : Fin 128, eOf jm j)

/-! ## The constants' values -/

theorem cHalf_eq : cHalf = (((1 : ℝ) / 2 : ℝ) : EReal) := by
  simp [cHalf, Ideal.ofBits, Ideal.ieee, -EReal.coe_mul]; norm_num

theorem c128_eq : c128 = ((128 : ℝ) : EReal) := by
  simp [c128, Ideal.ofBits, Ideal.ieee, -EReal.coe_mul]; norm_num

theorem c127_eq : c127 = ((127 : ℝ) : EReal) := by
  simp [c127, Ideal.ofBits, Ideal.ieee, -EReal.coe_mul]; norm_num

/-- 128 less the integer one converted is 127. -/
theorem c128_sub_one : c128 - FloatOps.sitofp (F := Ideal) .f32 (1#32 : BitVec 32) = c127 := by
  rw [c128_eq, c127_eq]
  show ((128 : ℝ) : EReal) - ((((1#32 : BitVec 32).toInt : ℤ) : ℝ) : EReal) = ((127 : ℝ) : EReal)
  rw [← EReal.coe_sub]
  norm_num

/-- 127 is positive: the comparison the reference guards its quotient with is true. -/
theorem c127_gt_zero : FloatOps.cmpf (F := Ideal) (φ := .f32) .ogt c127 (Ideal.ofBits .f32 0x00000000#32) = 1#1 := by
  show Ideal.cmp .ogt c127 (Ideal.ofBits .f32 0x00000000#32) = 1#1
  rw [Ideal.ofBits_zero_f32, c127_eq]
  have h : (0 : EReal) < ((127 : ℝ) : EReal) := by exact_mod_cast (by norm_num : (0 : ℝ) < 127)
  simp [Ideal.cmp, h]

/-- A maximum taken from `b` is at least `b`, so taking the maximum with `b` once more changes nothing. -/
theorem max_fold_max {ι : Type*} (s : Finset ι) (b : EReal) (f : ι → EReal) :
    max b (s.fold max b f) = s.fold max b f :=
  max_eq_right ((Finset.le_fold_max b).2 (Or.inl le_rfl))

end Cert.WScalar

end
-- ==== Proof.RefTail.lean ====
/-
  The reference's chain from the Kullback–Leibler table to the edge weights, read at an index over the extended reals:
  the column means of the symmetrized table (`refJm`), their unbiased standard deviation through the nested calls
  (`refStd`: the guard 128 − 1 > 0 is true, so the guarded quotient is the quotient by 127), and the standardized
  soft-max (`refSoft`) are the scalar functions `jmOf`, `sdOf`, `softOf`.
-/
import proofs.«127104_j29506425324178_1_alg».proof.Proof.RefWDef
import proofs.«127104_j29506425324178_1_alg».proof.Proof.LibOpsB
import proofs.«127104_j29506425324178_1_alg».proof.Proof.WScalar

noncomputable section

namespace Cert.ReferenceIdeal.RefW

open Idealize.ShloMosaic Idealize.ShloMosaic.ValueIdx Idealize.ShloMosaic.OpsB
open Cert.ReferenceIdeal Cert.ReferenceIdeal.Facts₀ Cert.ReferenceIdeal.Facts Cert.WScalar

theorem hostExp_apply {s : Shape} {φ : FTy} (a : FVec Ideal s φ) (i : s.Idx) : Host.exp a i = Ideal.exp (a i) := rfl
theorem hostSqrt_apply {s : Shape} {φ : FTy} (a : FVec Ideal s φ) (i : s.Idx) : Host.sqrt a i = Ideal.sqrt (a i) := rfl

/-- 127 is positive, with the zero already read as the number. -/
theorem c127_gt_zero' : FloatOps.cmpf (F := Ideal) (φ := .f32) .ogt c127 (0 : EReal) = 1#1 := by
  have := c127_gt_zero
  rwa [Ideal.ofBits_zero_f32] at this

/-- The column means at lane j. -/
theorem refJm_apply (kl : Vec Ideal S128x128 .f32) (j : Fin 128) :
    refJm (F := Ideal) kl (ix1 j) = jmOf (fun i j => kl (ix2 i j)) j := by
  unfold refJm
  simp only [hostDivf_apply, hostReduceAdd0_ab_apply (a := 128) (b := 128) (by decide), mulf_apply, addf_apply,
    transpose_ix2_apply _, broadcastInDim_scalar_apply _, constant_apply, Ideal.ofBits_zero_f32, zero_add]
  rfl

/-- The unbiased standard deviation. -/
theorem refStd_apply (jm : Vec Ideal S128 .f32) : refStd (F := Ideal) jm ix0 = sdOf (fun j => jm (ix1 j)) := by
  unfold refStd
  simp only [hostSqrt_apply, select_apply, cmpf_apply, sitofp_apply, constantI_apply, hostDivf_apply,
    hostReduceAdd0_b_apply _, mulf_apply, subf_apply, broadcastInDim_1_b_apply _, broadcastInDim_scalar_apply _, constant_apply,
    Ideal.ofBits_zero_f32, zero_add, c128_sub_one, c127_gt_zero, c127_gt_zero', select_one]
  rfl

/-- The standardized soft-max at lane j. -/
theorem refSoft_apply (jm : Vec Ideal S128 .f32) (j : Fin 128) :
    refSoft (F := Ideal) jm (ix1 j) = softOf (fun j => jm (ix1 j)) j := by
  unfold refSoft
  simp only [hostDivf_apply, hostExp_apply, subf_apply, addf_apply, maximumf_apply, broadcastInDim_1_b_apply _,
    broadcastInDim_scalar_apply _, hostReduceAdd0_b_apply _, hostReduceMax0_b_apply _, constant_apply, Ideal.ofBits_zero_f32,
    zero_add, refStd_apply, max_fold_max]
  rfl

end Cert.ReferenceIdeal.RefW

end
-- ==== Proof.LibKeepdims.lean ====
/-
  Layout operations of a row-reduced block, read at an index by coordinates.

  A kernel that reduces an [a, b] block along its rows and uses the result against the block again (a row maximum
  subtracted, a row sum divided by) passes it through three re-layings: the reduced vector [a] is cast to a column
  [a, 1], and the column is broadcast back over the b lanes to [a, b]. A pipelined block of a rank-4 array with two
  leading unit axes is cast to the matrix [a, b] it holds, and a matrix result is cast back. Each lemma reads one of
  these at an index written by its coordinates; none depends on a program.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A block [1, 1, a, b] cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Idealize.ShloMosaic.Keepdims

end
-- ==== Proof.KerTail.lean ====
/-
  The second region's last store, read at an index over the extended reals: from the finished row accumulator a and
  square accumulator S, the table kl[i,j] = a[i] − S[i,j], then the column means of its symmetrization, their
  standardization by the unbiased standard deviation and the soft-max, each with its reduced axis kept as a unit axis.
  At lane j the result is the scalar function `softOf (jmOf kl) j`.
-/
import proofs.«127104_j29506425324178_1_alg».proof.Proof.Stages
import proofs.«127104_j29506425324178_1_alg».proof.Proof.LibOpsB
import proofs.«127104_j29506425324178_1_alg».proof.Proof.LibKeepdims
import proofs.«127104_j29506425324178_1_alg».proof.Proof.WScalar

noncomputable section

namespace Cert.KernelIdeal.KerTail

open Idealize.ShloMosaic Idealize.ShloMosaic.ValueIdx Idealize.ShloMosaic.OpsB Idealize.ShloMosaic.Keepdims
open Cert.KernelIdeal Cert.KernelIdeal.Gen Cert.WScalar

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

set_option maxHeartbeats 1000000 in
/-- The edge weights at lane j, from the two accumulators. -/
theorem k1_pay6_apply (a : Vec Ideal S1x128 .f32) (S : Vec Ideal S128x128 .f32) (j : Fin 128) :
    k1_pay6 a S (ix2 (0 : Fin 1) j) = softOf (jmOf fun i j => a (ix2 (0 : Fin 1) i) - S (ix2 i j)) j := by
  unfold k1_pay6
  simp only [divf_apply, exp_apply, sqrt_apply, subf_apply, addf_apply, mulf_apply, broadcast_apply,
    broadcastTo_a1_ab_apply, shapeCast_a_1a_apply, transpose_ix2_apply _,
    multiReduction_add0_ab_apply _, multiReduction_add1_1b_apply _, multiReduction_max1_1b_apply _]
  rfl

end Cert.KernelIdeal.KerTail

end
-- ==== Proof.RefW.lean ====
/-
  The reference's edge weights are the kernel's.

  For an incidence matrix h with positive real entries, the weights the reference computes from h, laid as one row,
  are the second region's result on the 32 blocks of 64 rows of h. Both are the standardized soft-max of the column
  means of a symmetrized 128 × 128 table; the reference's table is  ∑ₖ h[k,i] · (log h[k,i] − log (½ (h[k,i] + h[k,j]))),
  the kernel's is the difference of the two accumulated sums  ∑ₖ h[k,i] · log h[k,i]  and
  ∑ₖ h[k,i] · log (½ (h[k,i] + h[k,j])); for positive real entries every term is a real number and the two agree.
-/
import proofs.«127104_j29506425324178_1_alg».proof.Proof.RefKL
import proofs.«127104_j29506425324178_1_alg».proof.Proof.RefTail
import proofs.«127104_j29506425324178_1_alg».proof.Proof.KerTail

noncomputable section

namespace Cert.ReferenceIdeal.RefW

open Idealize.ShloMosaic Idealize.ShloMosaic.ValueIdx
open Cert.WScalar Cert.KernelIdeal.KerAcc Cert.KernelIdeal.KerTail

/-- The reference's weights from a positive real incidence matrix, as a row, are the kernel's second stage on its blocks. -/
theorem refW_eq (h : Vec Ideal Cert.KernelIdeal.S2048x128 .f32) (hpos : ∀ i, ∃ r : ℝ, 0 < r ∧ h i = (r : EReal)) :
    shapeCast Cert.KernelIdeal.S1x128 (refW (F := Ideal) h) Cert.KernelIdeal.Gen.shapeCasts_S128_S1x128
      = Cert.KernelIdeal.Stage.w (F := Ideal) (Cert.KernelIdeal.Stage.rowBlock h) := by
  funext y
  obtain ⟨u, j, rfl⟩ : ∃ (u : Fin 1) (j : Fin 128), y = ix2 u j := ⟨y 0, y 1, eq_ix2 y⟩
  obtain rfl : u = 0 := Subsingleton.elim _ _
  rw [shapeCast_a_1a_apply]
  show refSoft (F := Ideal) (refJm (refKL h)) (ix1 j)
    = Cert.KernelIdeal.Gen.k1_pay6 (Cert.KernelIdeal.Stage.accA (Cert.KernelIdeal.Stage.rowBlock h) 31)
        (Cert.KernelIdeal.Stage.accS (Cert.KernelIdeal.Stage.rowBlock h) 31) (ix2 (0 : Fin 1) j)
  rw [refSoft_apply, k1_pay6_apply]
  refine congrArg (fun f => softOf f j) (funext fun j' => ?_)
  rw [refJm_apply]
  refine congrArg (fun kl => jmOf kl j') (funext fun i => funext fun k => ?_)
  rw [refKL_split h hpos, accA_rows, accS_rows]

end Cert.ReferenceIdeal.RefW

end
-- ==== Proof.LibAfterAppend.lean ====
/-
  Host operations run one after the other, read in stages.

  `StableHlo.after ops V` is the contents of the buffers after the list `ops` of host operations has run from the contents
  `V`: each operation's result folded in, in order. Over a list cut in two it composes: the contents after `l₁ ++ l₂` are
  the contents after `l₂`, run from the contents after `l₁`. A long straight-line host program can therefore be read stage by
  stage — cut at the buffers a later stage reads (for a literal list, `ops = ops.take n ++ ops.drop n` holds by `rfl`), each
  stage read on its own from ANY contents before it, and the readings composed — instead of as one composed term of the whole
  program, which for a program of a hundred operations with reductions over large arrays is too large to compare in one step.
-/
import Idealize.ShloMosaic.Lib.StableHlo.Run

namespace Idealize.ShloMosaic.StableHlo

variable {τ : Topo} {sig : RefSig} {Val : EltTy → Type}

/-- The contents after two lists of host operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations cut at position `n`: the contents after the whole list are those after its tail, run from the
    contents after its first `n` operations. -/
theorem after_take_drop (n : Nat) (l : List (HloOp τ sig Val)) (V : Valuation τ sig Val) :
    after l V = after (l.drop n) (after (l.take n) V) := by
  rw [← after_append, List.take_append_drop]

end Idealize.ShloMosaic.StableHlo
-- ==== Proof.RefOutRun.lean ====
/-
  The last stage of the reference: the residual hypergraph convolution.

  From the incidence matrix H (2048 × 128), the edge weights w (128), an input x (2048 × 128) and a square weight
  block θ (128 × 128) the reference computes  x + elu((H · diag w) · (Hᵀ · (x · θ)))  and reshapes it to 64 × 32 × 128;
  it does so twice, once per input. The exponential-linear unit is spelt  where(v > 0, v, 1 · expm1(where(v > 0, 0, v))).
  This module names that composition (`refRes`, `refOutT`, `refOutN`) and reads it off the reference's run: the last
  45 operations of the line compute both results from H, w and the two reshaped inputs, which no later operation
  rewrites.
-/
import proofs.«127104_j29506425324178_1_alg».proof.Proof.RefRun
import proofs.«127104_j29506425324178_1_alg».proof.Proof.LibAfterAppend

noncomputable section

namespace Cert.ReferenceIdeal.RefOut

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F] [Cert.ReferenceIdeal.Facts]

/-! ## The composition -/

/-- H · diag(w): column j of H scaled by w j (the weights laid out as a row and repeated over the rows). -/
def refHw (h : (⟨S2048x128, .f32⟩ : BufTy).Contents (Elt F)) (ew : (⟨S128, .f32⟩ : BufTy).Contents (Elt F)) : (⟨S2048x128, .f32⟩ : BufTy).Contents (Elt F) :=
  mulf h (broadcastInDim S2048x128 ![0, 1] bcast_S1x128_S2048x128_0_1 (broadcastInDim S1x128 ![1] bcast_S128_S1x128_1 ew))

/-- (H · diag w) · (Hᵀ · (x · θ)): three matrix products, associated from the right. -/
def refConv (h : (⟨S2048x128, .f32⟩ : BufTy).Contents (Elt F)) (ew : (⟨S128, .f32⟩ : BufTy).Contents (Elt F)) (x : (⟨S2048x128, .f32⟩ : BufTy).Contents (Elt F))
    (θ : (⟨S128x128, .f32⟩ : BufTy).Contents (Elt F)) : (⟨S2048x128, .f32⟩ : BufTy).Contents (Elt F) :=
  Host.dotGeneral dot_S2048x128_S128x128_S2048x128_1_0_0_1_n_n none (refHw h ew)
    (Host.dotGeneral dot_S128x2048_S2048x128_S128x128_1_0_0_1_n_n none
      (transpose S128x2048 [1, 0] h transposes_S2048x128_S128x2048_1_0)
      (Host.dotGeneral dot_S2048x128_S128x128_S2048x128_1_0_0_1_n_n none x θ))

/-- The exponential-linear unit as the reference spells it: v where v > 0, else 1 · expm1 of (0 where v > 0, else v). -/
def refElu (v : (⟨S2048x128, .f32⟩ : BufTy).Contents (Elt F)) : (⟨S2048x128, .f32⟩ : BufTy).Contents (Elt F) :=
  select (cmpf .ogt v (broadcastInDim S2048x128 ![] bcast_S_S2048x128 (constant S_ .f32 0x00000000#32))) v
    (mulf (broadcastInDim S2048x128 ![] bcast_S_S2048x128 (constant S_ .f32 0x3F800000#32))
      (Host.expm1
        (select (cmpf .ogt v (broadcastInDim S2048x128 ![] bcast_S_S2048x128 (constant S_ .f32 0x00000000#32)))
          (broadcastInDim S2048x128 ![] bcast_S_S2048x128 (id (constant S_ .f32 0x00000000#32))) v)))

/-- The residual: x + elu of the convolution. -/
def refRes (h : (⟨S2048x128, .f32⟩ : BufTy).Contents (Elt F)) (ew : (⟨S128, .f32⟩ : BufTy).Contents (Elt F)) (x : (⟨S2048x128, .f32⟩ : BufTy).Contents (Elt F))
    (θ : (⟨S128x128, .f32⟩ : BufTy).Contents (Elt F)) : (⟨S2048x128, .f32⟩ : BufTy).Contents (Elt F) :=
  addf x (refElu (refConv h ew x θ))

/-- The reference's first result from H, the edge weights, the first input as launched (64 × 32 × 128) and its
    weight block: the input reshaped to 2048 × 128, the residual, reshaped back. -/
def refOutT (h : (⟨S2048x128, .f32⟩ : BufTy).Contents (Elt F)) (ew : (⟨S128, .f32⟩ : BufTy).Contents (Elt F))
    (a0 : (⟨S64x32x128, .f32⟩ : BufTy).Contents (Elt F)) (a22 : (⟨S128x128, .f32⟩ : BufTy).Contents (Elt F)) :
    (⟨S64x32x128, .f32⟩ : BufTy).Contents (Elt F) :=
  shapeCast S64x32x128 (refRes h ew (shapeCast S2048x128 a0 shapeCasts_S64x32x128_S2048x128) a22) shapeCasts_S2048x128_S64x32x128

/-- The reference's second result: the same composition at the second input and its weight block. -/
def refOutN (h : (⟨S2048x128, .f32⟩ : BufTy).Contents (Elt F)) (ew : (⟨S128, .f32⟩ : BufTy).Contents (Elt F))
    (a1 : (⟨S64x32x128, .f32⟩ : BufTy).Contents (Elt F)) (a23 : (⟨S128x128, .f32⟩ : BufTy).Contents (Elt F)) :
    (⟨S64x32x128, .f32⟩ : BufTy).Contents (Elt F) :=
  shapeCast S64x32x128 (refRes h ew (shapeCast S2048x128 a1 shapeCasts_S64x32x128_S2048x128) a23) shapeCasts_S2048x128_S64x32x128

/-! ## The last stretch of the line -/

/-- Operations 49–93 of the third stretch: from the edge weights on. -/
abbrev opsOut : List (HloOp τ sig (Elt F)) :=
  [ StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S2048x128 ![0, 1] bcast_S1x128_S2048x128_0_1 : (⟨S1x128, .f32⟩ : BufTy).Contents (Elt F) → (⟨S2048x128, .f32⟩ : BufTy).Contents (Elt F)),
    StableHlo.binary main_v82 main_v125 main_v126 (mulf : (⟨S2048x128, .f32⟩ : BufTy).Contents (Elt F) → (⟨S2048x128, .f32⟩ : BufTy).Contents (Elt F) → (⟨S2048x128, .f32⟩ : BufTy).Contents (Elt F)),
    StableHlo.unary main_v82 main_v127 ((transpose S128x2048 [1, 0] · transposes_S2048x128_S128x2048_1_0) : (⟨S2048x128, .f32⟩ : BufTy).Contents (Elt F) → (⟨S128x2048, .f32⟩ : BufTy).Contents (Elt F)),
    StableHlo.binary main_v0 main_arg22 main_v128 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v127 main_v128 main_v129 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v129 main_v130 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call2.cst (constant S_ .f32 0x00000000#32),
    StableHlo.TRef.unary main_call2.cst main_call2.v0 (broadcastInDim S2048x128 ![] bcast_S_S2048x128),
    StableHlo.TRef.binary (.of main_v130 : StableHlo.TRef sig ⟨S2048x128, .f32⟩) main_call2.v0 main_call2.v1 (cmpf .ogt),
    StableHlo.TRef.nullary main_call2.cst_0 (constant S_ .f32 0x00000000#32),
    StableHlo.TRef.unary main_call2.cst_0 main_call2.v2 (broadcastInDim S2048x128 ![] bcast_S_S2048x128),
    StableHlo.TRef.binary (.of main_v130 : StableHlo.TRef sig ⟨S2048x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S2048x128 ![] bcast_S_S2048x128),
    StableHlo.TRef.ternary main_call2.v3 main_call2.call0.v1 (.of main_v130 : StableHlo.TRef sig ⟨S2048x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S2048x128 ![] bcast_S_S2048x128),
    StableHlo.TRef.binary main_call2.v6 main_call2.v5 main_call2.v7 mulf,
    StableHlo.TRef.ternary main_call2.v1 (.of main_v130 : StableHlo.TRef sig ⟨S2048x128, .f32⟩) main_call2.v7 main_call2.call1.v0 select,
    StableHlo.binary main_v0 main_v131 main_v132 (addf : (⟨S2048x128, .f32⟩ : BufTy).Contents (Elt F) → (⟨S2048x128, .f32⟩ : BufTy).Contents (Elt F) → (⟨S2048x128, .f32⟩ : BufTy).Contents (Elt F)),
    StableHlo.unary main_v82 main_v133 ((transpose S128x2048 [1, 0] · transposes_S2048x128_S128x2048_1_0) : (⟨S2048x128, .f32⟩ : BufTy).Contents (Elt F) → (⟨S128x2048, .f32⟩ : BufTy).Contents (Elt F)),
    StableHlo.binary main_v1 main_arg23 main_v134 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.binary main_v133 main_v134 main_v135 ((fun l r => Host.dotGeneral dot_S128x2048_S2048x128_S128x128_1_0_0_1_n_n none l r) : (⟨S128x2048, .f32⟩ : BufTy).Contents (Elt F) → (⟨S2048x128, .f32⟩ : BufTy).Contents (Elt F) → (⟨S128x128, .f32⟩ : BufTy).Contents (Elt F)),
    StableHlo.binary main_v126 main_v135 main_v136 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.TRef.nullary main_call3.cst (constant S_ .f32 0x00000000#32),
    StableHlo.TRef.unary main_call3.cst main_call3.v0 (broadcastInDim S2048x128 ![] bcast_S_S2048x128),
    StableHlo.TRef.binary (.of main_v136 : StableHlo.TRef sig ⟨S2048x128, .f32⟩) main_call3.v0 main_call3.v1 (cmpf .ogt),
    StableHlo.TRef.nullary main_call3.cst_0 (constant S_ .f32 0x00000000#32),
    StableHlo.TRef.unary main_call3.cst_0 main_call3.v2 (broadcastInDim S2048x128 ![] bcast_S_S2048x128),
    StableHlo.TRef.binary (.of main_v136 : StableHlo.TRef sig ⟨S2048x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S2048x128 ![] bcast_S_S2048x128),
    StableHlo.TRef.ternary main_call3.v3 main_call3.call0.v1 (.of main_v136 : StableHlo.TRef sig ⟨S2048x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S2048x128 ![] bcast_S_S2048x128),
    StableHlo.TRef.binary main_call3.v6 main_call3.v5 main_call3.v7 mulf,
    StableHlo.TRef.ternary main_call3.v1 (.of main_v136 : StableHlo.TRef sig ⟨S2048x128, .f32⟩) main_call3.v7 main_call3.call1.v0 select,
    StableHlo.binary main_v1 main_v137 main_v138 (addf : (⟨S2048x128, .f32⟩ : BufTy).Contents (Elt F) → (⟨S2048x128, .f32⟩ : BufTy).Contents (Elt F) → (⟨S2048x128, .f32⟩ : BufTy).Contents (Elt F)),
    StableHlo.reshape main_v132 main_v139 rfl shapeCasts_S2048x128_S64x32x128,
    StableHlo.reshape main_v138 main_v140 rfl shapeCasts_S2048x128_S64x32x128 ]

/-- The third stretch is its first 48 operations followed by these. -/
theorem ops2_drop : (ops2 : List (HloOp τ sig (Elt F))).drop 48 = opsOut := rfl

/-- The buffers the last stretch writes. -/
abbrev WOut : List (Ref sig .tc) := [main_v124, main_v125, main_v126, main_v127, main_v128, main_v129, main_v130, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v131, main_v132, main_v133, main_v134, main_v135, main_v136, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v137, main_v138, main_v139, main_v140]

set_option maxRecDepth 8192 in
theorem opsOut_writes : (opsOut : List (HloOp τ sig (Elt F))).Forall fun op => op.writes ⊆ (WOut.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]; exact List.mem_map_of_mem (by decide))

/-- The whole line read as: everything before the last stretch, then the last stretch. -/
theorem after_cut (V : Valuation τ sig (Elt F)) :
    after ops V = after opsOut (after (ops2.take 48) (after ops1 (after ops0 V))) := by
  rw [after_ops, after_take_drop 48 ops2, ops2_drop]

/-- A buffer the last stretch does not write holds, before it, what it holds after the whole line. -/
theorem before_out (V : Valuation τ sig (Elt F)) (r : Ref sig .tc) (hr : r ∉ WOut) :
    after (ops2.take 48) (after ops1 (after ops0 V)) (Proc.devRef .tc r) = after ops V (Proc.devRef .tc r) := by
  rw [after_cut V, after_of_writes_sub opsOut _ opsOut_writes hr]

/-- The last stretch from any contents: the first result. -/
theorem stretch_139 (V : Valuation τ sig (Elt F)) :
    after opsOut V (Proc.devRef .tc main_v139)
      = shapeCast S64x32x128 (refRes (V (Proc.devRef .tc main_v82)) (V (Proc.devRef .tc main_v123)) (V (Proc.devRef .tc main_v0)) (V (Proc.devRef .tc main_arg22))) shapeCasts_S2048x128_S64x32x128 := by
  after_results_simp
  rfl

/-- The last stretch from any contents: the second result. -/
theorem stretch_140 (V : Valuation τ sig (Elt F)) :
    after opsOut V (Proc.devRef .tc main_v140)
      = shapeCast S64x32x128 (refRes (V (Proc.devRef .tc main_v82)) (V (Proc.devRef .tc main_v123)) (V (Proc.devRef .tc main_v1)) (V (Proc.devRef .tc main_arg23))) shapeCasts_S2048x128_S64x32x128 := by
  after_results_simp
  rfl

/-- The two reshaped inputs are written by the line's first two operations and by none after. -/
theorem after_v0 (V : Valuation τ sig (Elt F)) :
    after ops V (Proc.devRef .tc main_v0) = shapeCast S2048x128 (V (Proc.devRef .tc main_arg0)) shapeCasts_S64x32x128_S2048x128 := by
  rw [after_ops, after_of_writes_sub ops2 _ ops2_writes (by decide), after_of_writes_sub ops1 _ ops1_writes (by decide)]
  after_results_simp
  rfl

theorem after_v1 (V : Valuation τ sig (Elt F)) :
    after ops V (Proc.devRef .tc main_v1) = shapeCast S2048x128 (V (Proc.devRef .tc main_arg1)) shapeCasts_S64x32x128_S2048x128 := by
  rw [after_ops, after_of_writes_sub ops2 _ ops2_writes (by decide), after_of_writes_sub ops1 _ ops1_writes (by decide)]
  after_results_simp
  rfl

/-! ## The two results after the line -/

/-- After the line the first result is the composition at H (main_v82), the weights (main_v123), the first input and
    its weight block as launched. -/
theorem after_139 (V : Valuation τ sig (Elt F)) :
    after ops V (Proc.devRef .tc main_v139)
      = refOutT (after ops V (Proc.devRef .tc main_v82)) (after ops V (Proc.devRef .tc main_v123))
          (V (Proc.devRef .tc main_arg0)) (V (Proc.devRef .tc main_arg22)) := by
  have h := stretch_139 (after (ops2.take 48) (after ops1 (after ops0 V)))
  rw [← after_cut V, before_out V main_v82 (by decide), before_out V main_v123 (by decide),
    before_out V main_v0 (by decide), before_out V main_arg22 (by decide), after_v0 V,
    after_ops_of V main_arg22 (by decide) (by decide) (by decide)] at h
  exact h

/-- After the line the second result is the composition at H, the weights, the second input and its weight block. -/
theorem after_140 (V : Valuation τ sig (Elt F)) :
    after ops V (Proc.devRef .tc main_v140)
      = refOutN (after ops V (Proc.devRef .tc main_v82)) (after ops V (Proc.devRef .tc main_v123))
          (V (Proc.devRef .tc main_arg1)) (V (Proc.devRef .tc main_arg23)) := by
  have h := stretch_140 (after (ops2.take 48) (after ops1 (after ops0 V)))
  rw [← after_cut V, before_out V main_v82 (by decide), before_out V main_v123 (by decide),
    before_out V main_v1 (by decide), before_out V main_arg23 (by decide), after_v1 V,
    after_ops_of V main_arg23 (by decide) (by decide) (by decide)] at h
  exact h

end Cert.ReferenceIdeal.RefOut

end
-- ==== Proof.LibOpsC.lean ====
/-
  A kernel's spelling and the host's spelling of two values, at the extended reals.

  * A vector of n entries laid along each of m rows. A kernel casts the vector to its one-row matrix and broadcasts the
    row down the rows; a host program may broadcast in two steps, the vector to the one-row matrix along axis 1 and the
    one-row matrix to m rows. Both read, at (r, t), the vector at t (`broadcastTo_row_eq_broadcastInDim_twice`).
  * The exponential-linear unit  elu v = v  where  v > 0,  e^v − 1  elsewhere. A kernel selects between v and
    exp v − 1 on the comparison; jax's `elu` is  where(v > 0, v, 1 · expm1(where(v > 0, 0, v))),  its constants broadcast
    scalars. Where the comparison holds both select v; where it does not, the inner `where` is v itself, expm1 is
    exp − 1 exactly and the factor 1 is the unit, so both are e^v − 1 (`elu_select_eq`). The argument is by cases on the
    comparison's bit at each element and uses nothing about v: it holds at the infinities too.
-/
import Idealize.ShloMosaic.Lib.KernelVsHost
import Idealize.ShloMosaic.Lib.IdealHost
import Idealize.ShloMosaic.Lib.ValueLayout

noncomputable section

namespace Idealize.ShloMosaic.OpsC

open Idealize.ShloMosaic Idealize.ShloMosaic.ValueIdx

/-- A vector of `n` entries laid along each of `m` rows: the kernel's broadcast of its one-row cast is the host's
    broadcast of it to one row along axis 1, broadcast again down the rows. -/
theorem broadcastTo_row_eq_broadcastInDim_twice {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply]
  refine (broadcastInDim_apply ![1] hd x (ix2 (0 : Fin 1) t) (ix1 t) fun a => ?_).symm
  match a with
  | ⟨0, _⟩ =>
    show t.val = if n = 1 then 0 else t.val
    split
    · have := t.isLt; omega
    · rfl

/-- The exponential-linear unit, the kernel's select against the host's two nested selects around `expm1`. -/
theorem elu_select_eq {s : Shape} (h : (⟨0, ![]⟩ : Shape).BroadcastsInDim s ![]) (v : FVec Ideal s .f32) :
    select (cmpf .ogt v (broadcast s (Scalar.ofBits .f32 0x00000000#32))) v
        (subf (exp v) (broadcast s (Scalar.ofBits .f32 0x3F800000#32)))
      = select (cmpf .ogt v (broadcastInDim s ![] h (constant ⟨0, ![]⟩ .f32 0x00000000#32))) v
          (mulf (broadcastInDim s ![] h (constant ⟨0, ![]⟩ .f32 0x3F800000#32))
            (Host.expm1
              (select (cmpf .ogt v (broadcastInDim s ![] h (constant ⟨0, ![]⟩ .f32 0x00000000#32)))
                (broadcastInDim s ![] h (id (constant ⟨0, ![]⟩ .f32 0x00000000#32))) v))) := by
  simp only [id_eq, broadcastInDim_constant]
  funext i
  rw [select_apply, select_apply]
  by_cases hc : cmpf .ogt v (broadcast s (Scalar.ofBits .f32 0x00000000#32)) i = 1#1
  · rw [hc, select_one, select_one]
  · have hz := eq_zero_of_ne_one hc
    rw [hz, select_zero, select_zero]
    show Ideal.exp (v i) - Ideal.ofBits .f32 0x3F800000#32
      = Ideal.ofBits .f32 0x3F800000#32
          * (Ideal.exp (Scalar.select (cmpf .ogt v (broadcast s (Scalar.ofBits .f32 0x00000000#32)) i)
              (Scalar.ofBits (F := Ideal) .f32 0x00000000#32) (v i)) - 1)
    rw [hz, select_zero, Ideal.ofBits_one_f32, one_mul]

end Idealize.ShloMosaic.OpsC

end
-- ==== Proof.RefOut.lean ====
/-
  The last stage, reference against kernel, at the extended reals.

  Both programs compute  x + elu((H · diag w) · (Hᵀ · (x · θ)))  with the same three matrix products in the same
  order. They differ in spelling only: the kernel multiplies into a zero accumulator where the host's product has
  none; the kernel lays the weights along the rows by broadcasting their one-row cast, the reference by two broadcasts;
  the kernel's constants are splats where the reference broadcasts scalars; the kernel casts each operand to its own
  shape (the identity); and the exponential-linear unit is one select in the kernel and two nested ones around `expm1`
  in the reference, equal element by element by cases on the comparison. Each difference is one equation between
  whole-array operators; rewriting the kernel's term by them gives the reference's term.
-/
import proofs.«127104_j29506425324178_1_alg».proof.Proof.RefOutRun
import proofs.«127104_j29506425324178_1_alg».proof.Proof.Stages
import proofs.«127104_j29506425324178_1_alg».proof.Proof.LibOpsC

noncomputable section

namespace Cert.ReferenceIdeal.RefOut

open Cert.ReferenceIdeal Idealize.ShloMosaic
open Cert.ReferenceIdeal.Facts₀ Cert.ReferenceIdeal.Facts

variable [Cert.ReferenceIdeal.Facts]

/-- The two programs' records of the dimension numbers of a 2048 × 128 by 128 × 128 product are one record. -/
theorem dotA_eq :
    Cert.KernelIdeal.dot_S2048x128_S128x128_S2048x128_1_0_0_1_n_n = dot_S2048x128_S128x128_S2048x128_1_0_0_1_n_n := rfl

/-- Likewise of a 128 × 2048 by 2048 × 128 product. -/
theorem dotB_eq :
    Cert.KernelIdeal.dot_S128x2048_S2048x128_S128x128_1_0_0_1_n_n = dot_S128x2048_S2048x128_S128x128_1_0_0_1_n_n := rfl

/-- The residual as the kernel's third region computes it for its first input is the reference's. -/
theorem refRes_eq_outT (h : (⟨S2048x128, .f32⟩ : BufTy).Contents (Elt Ideal)) (ew : (⟨S128, .f32⟩ : BufTy).Contents (Elt Ideal)) (x : (⟨S2048x128, .f32⟩ : BufTy).Contents (Elt Ideal)) (θ : (⟨S128x128, .f32⟩ : BufTy).Contents (Elt Ideal)) :
    refRes (F := Ideal) h ew x θ
      = Cert.KernelIdeal.Stage.outT (F := Ideal) h (shapeCast S1x128 ew Cert.KernelIdeal.Gen.shapeCasts_S128_S1x128) x θ := by
  unfold Cert.KernelIdeal.Stage.outT Cert.KernelIdeal.Gen.k2_pay4 Cert.KernelIdeal.Gen.k2_pay3 Cert.KernelIdeal.Gen.k2_pay2
  simp only [shapeCast_self, matmul_zero_eq_dotGeneral, dotA_eq, dotB_eq,
    OpsC.broadcastTo_row_eq_broadcastInDim_twice _ _ _ bcast_S128_S1x128_1 bcast_S1x128_S2048x128_0_1,
    OpsC.elu_select_eq bcast_S_S2048x128]
  unfold refRes refElu refConv refHw
  rfl

/-- The residual as the kernel's third region computes it for its second input is the reference's. -/
theorem refRes_eq_outN (h : (⟨S2048x128, .f32⟩ : BufTy).Contents (Elt Ideal)) (ew : (⟨S128, .f32⟩ : BufTy).Contents (Elt Ideal)) (x : (⟨S2048x128, .f32⟩ : BufTy).Contents (Elt Ideal)) (θ : (⟨S128x128, .f32⟩ : BufTy).Contents (Elt Ideal)) :
    refRes (F := Ideal) h ew x θ
      = Cert.KernelIdeal.Stage.outN (F := Ideal) h (shapeCast S1x128 ew Cert.KernelIdeal.Gen.shapeCasts_S128_S1x128) x θ := by
  unfold Cert.KernelIdeal.Stage.outN Cert.KernelIdeal.Gen.k2_pay1 Cert.KernelIdeal.Gen.k2_pay6 Cert.KernelIdeal.Gen.k2_pay5
    Cert.KernelIdeal.Gen.k2_pay3 Cert.KernelIdeal.Gen.k2_pay2
  simp only [shapeCast_self, matmul_zero_eq_dotGeneral, dotA_eq, dotB_eq,
    OpsC.broadcastTo_row_eq_broadcastInDim_twice _ _ _ bcast_S128_S1x128_1 bcast_S1x128_S2048x128_0_1,
    OpsC.elu_select_eq bcast_S_S2048x128]
  unfold refRes refElu refConv refHw
  rfl

/-- The reference's first result is the kernel's third-region result for the first input, reshaped as the kernel's
    host operations reshape it: the weights cast to a row, the input cast to 2048 × 128, the result cast back. -/
theorem refOutT_eq (h : (⟨S2048x128, .f32⟩ : BufTy).Contents (Elt Ideal)) (ew : (⟨S128, .f32⟩ : BufTy).Contents (Elt Ideal)) (a0 : (⟨S64x32x128, .f32⟩ : BufTy).Contents (Elt Ideal)) (a22 : (⟨S128x128, .f32⟩ : BufTy).Contents (Elt Ideal)) :
    refOutT (F := Ideal) h ew a0 a22
      = shapeCast S64x32x128
          (Cert.KernelIdeal.Stage.outT (F := Ideal) h (shapeCast S1x128 ew Cert.KernelIdeal.Gen.shapeCasts_S128_S1x128)
            (shapeCast S2048x128 a0 Cert.KernelIdeal.Gen.shapeCasts_S64x32x128_S2048x128) a22)
          Cert.KernelIdeal.Gen.shapeCasts_S2048x128_S64x32x128 := by
  unfold refOutT
  rw [refRes_eq_outT]

/-- The reference's second result is the kernel's third-region result for the second input, reshaped likewise. -/
theorem refOutN_eq (h : (⟨S2048x128, .f32⟩ : BufTy).Contents (Elt Ideal)) (ew : (⟨S128, .f32⟩ : BufTy).Contents (Elt Ideal)) (a1 : (⟨S64x32x128, .f32⟩ : BufTy).Contents (Elt Ideal)) (a23 : (⟨S128x128, .f32⟩ : BufTy).Contents (Elt Ideal)) :
    refOutN (F := Ideal) h ew a1 a23
      = shapeCast S64x32x128
          (Cert.KernelIdeal.Stage.outN (F := Ideal) h (shapeCast S1x128 ew Cert.KernelIdeal.Gen.shapeCasts_S128_S1x128)
            (shapeCast S2048x128 a1 Cert.KernelIdeal.Gen.shapeCasts_S64x32x128_S2048x128) a23)
          Cert.KernelIdeal.Gen.shapeCasts_S2048x128_S64x32x128 := by
  unfold refOutN
  rw [refRes_eq_outN]

end Cert.ReferenceIdeal.RefOut

end
-- ==== Proof.LibRealValued.lean ====
/-
  Arrays over the extended reals all of whose entries are real numbers, and the operators that keep them so.

  At the ideal float values an array entry is an extended real: a real number or one of the two infinities. The
  arithmetic laws a proof wants (distributivity, cancellation of a common factor, a quotient times its divisor) hold
  for real numbers and fail at the infinities, so a proof first shows that every entry in sight is a real number.
  This file gives the three predicates

    * IsReal v   : every entry of v is (the coercion of) a real number,
    * IsNonneg v : every entry is a real number r with 0 ≤ r,
    * IsPos v    : every entry is a real number r with 0 < r,

  and their closure under the operators a kernel body is made of: the elementwise sum, difference, product, maximum,
  quotient (by a divisor that is nowhere zero), exponential (real to positive) and square root (nonnegative to
  nonnegative); the re-indexings (transpose, shape cast, the two broadcasts, concatenation), every entry of whose
  result is an entry of an operand; a splat constant of a finite bit pattern; a matrix product into the zero
  accumulator (a finite sum of products); and the sum and the maximum along one axis (the maximum from −∞ over an axis
  of at least one coordinate). Nothing here depends on a program.
-/
import Idealize.ShloMosaic.PureOps.Ideal.Laws
import Idealize.ShloMosaic.Lib.ValueIdx

noncomputable section

open scoped BigOperators
open Idealize.ShloMosaic

namespace Cert.RealValued

/-! ## The predicates -/

/-- Every entry is a real number. -/
def IsReal {ι : Type} (v : ι → EReal) : Prop := ∀ i, ∃ r : ℝ, v i = (r : EReal)
/-- Every entry is a nonnegative real number. -/
def IsNonneg {ι : Type} (v : ι → EReal) : Prop := ∀ i, ∃ r : ℝ, 0 ≤ r ∧ v i = (r : EReal)
/-- Every entry is a positive real number. -/
def IsPos {ι : Type} (v : ι → EReal) : Prop := ∀ i, ∃ r : ℝ, 0 < r ∧ v i = (r : EReal)

section Basic
variable {ι : Type} {v : ι → EReal}

/-- Positive entries are nonnegative. -/
theorem isNonneg_of_isPos (h : IsPos v) : IsNonneg v := fun i => let ⟨r, hr, e⟩ := h i; ⟨r, hr.le, e⟩
/-- Nonnegative real entries are real. -/
theorem isReal_of_isNonneg (h : IsNonneg v) : IsReal v := fun i => let ⟨r, _, e⟩ := h i; ⟨r, e⟩
/-- Positive real entries are real. -/
theorem isReal_of_isPos (h : IsPos v) : IsReal v := fun i => let ⟨r, _, e⟩ := h i; ⟨r, e⟩
/-- A positive entry is not zero. -/
theorem ne_zero_of_isPos (h : IsPos v) (i : ι) : v i ≠ 0 := by
  obtain ⟨r, hr, e⟩ := h i
  rw [e]; exact EReal.coe_ne_zero.mpr hr.ne'

end Basic

/-! ## Scalars: the operations on two real numbers -/

/-- The maximum of two real numbers, taken among the extended reals, is their maximum. -/
theorem max_coe (a b : ℝ) : max (a : EReal) (b : EReal) = ((max a b : ℝ) : EReal) :=
  (EReal.coe_strictMono.monotone.map_max).symm

/-- The ideal quotient of two real numbers, the divisor not zero, is their quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The ideal square root of a nonnegative real number is its square root. -/
theorem sqrt_coe_of_nonneg {a : ℝ} (ha : 0 ≤ a) : Ideal.sqrt (a : EReal) = ((Real.sqrt a : ℝ) : EReal) := by
  rw [Ideal.sqrt_coe, if_neg (not_lt.mpr ha)]

/-! ## Finite sums of real numbers -/

/-- A finite sum of extended reals each of which is a real number is the (coercion of the) sum of those real numbers. -/
theorem sum_eq_coe_sum_toReal {κ : Type*} (s : Finset κ) (f : κ → EReal) (h : ∀ k ∈ s, ∃ r : ℝ, f k = (r : EReal)) :
    ∑ k ∈ s, f k = ((∑ k ∈ s, (f k).toReal : ℝ) : EReal) := by
  classical
  induction s using Finset.induction_on with
  | empty => simp
  | insert a s ha ih =>
    obtain ⟨r, hr⟩ := h a (Finset.mem_insert_self a s)
    rw [Finset.sum_insert ha, Finset.sum_insert ha, EReal.coe_add, ← ih fun k hk => h k (Finset.mem_insert_of_mem hk), hr,
      EReal.toReal_coe]

/-- A finite sum of real numbers is a real number. -/
theorem exists_real_sum {κ : Type*} (s : Finset κ) (f : κ → EReal) (h : ∀ k ∈ s, ∃ r : ℝ, f k = (r : EReal)) :
    ∃ r : ℝ, ∑ k ∈ s, f k = (r : EReal) :=
  ⟨_, sum_eq_coe_sum_toReal s f h⟩

/-- A finite sum of nonnegative real numbers is a nonnegative real number. -/
theorem exists_nonneg_sum {κ : Type*} (s : Finset κ) (f : κ → EReal) (h : ∀ k ∈ s, ∃ r : ℝ, 0 ≤ r ∧ f k = (r : EReal)) :
    ∃ r : ℝ, 0 ≤ r ∧ ∑ k ∈ s, f k = (r : EReal) :=
  ⟨_, Finset.sum_nonneg fun k hk => by obtain ⟨r, hr, e⟩ := h k hk; rw [e, EReal.toReal_coe]; exact hr,
    sum_eq_coe_sum_toReal s f fun k hk => let ⟨r, _, e⟩ := h k hk; ⟨r, e⟩⟩

/-- A sum of positive real numbers over a set that is not empty is a positive real number. -/
theorem exists_pos_sum {κ : Type*} (s : Finset κ) (hs : s.Nonempty) (f : κ → EReal)
    (h : ∀ k ∈ s, ∃ r : ℝ, 0 < r ∧ f k = (r : EReal)) : ∃ r : ℝ, 0 < r ∧ ∑ k ∈ s, f k = (r : EReal) :=
  ⟨_, Finset.sum_pos (fun k hk => by obtain ⟨r, hr, e⟩ := h k hk; rw [e, EReal.toReal_coe]; exact hr) hs,
    sum_eq_coe_sum_toReal s f fun k hk => let ⟨r, _, e⟩ := h k hk; ⟨r, e⟩⟩

/-- The maximum, from −∞, of real numbers over a set that is not empty is a real number. -/
theorem exists_real_fold_max {κ : Type*} (s : Finset κ) (hs : s.Nonempty) (f : κ → EReal)
    (h : ∀ k ∈ s, ∃ r : ℝ, f k = (r : EReal)) : ∃ r : ℝ, s.fold max (⊥ : EReal) f = (r : EReal) := by
  obtain ⟨k₀, hk₀⟩ := hs
  obtain ⟨r₀, hr₀⟩ := h k₀ hk₀
  have hbot : s.fold max (⊥ : EReal) f ≠ ⊥ := by
    have : (r₀ : EReal) ≤ s.fold max (⊥ : EReal) f := (Finset.le_fold_max _).mpr (Or.inr ⟨k₀, hk₀, hr₀.ge⟩)
    exact fun e => absurd (e ▸ this) (not_le.mpr (EReal.bot_lt_coe r₀))
  have htop : s.fold max (⊥ : EReal) f ≠ ⊤ :=
    ((Finset.fold_max_lt _).mpr ⟨bot_lt_top, fun k hk => by obtain ⟨r, hr⟩ := h k hk; rw [hr]; exact EReal.coe_lt_top r⟩).ne
  exact ⟨_, (EReal.coe_toReal htop hbot).symm⟩

/-! ## Elementwise operators at the ideal values -/

section Elementwise
variable {s : Shape} {φ : FTy} {a b : FVec Ideal s φ}

/-- The sum of two real arrays is real. -/
theorem isReal_addf (ha : IsReal a) (hb : IsReal b) : IsReal (addf a b) := fun i => by
  obtain ⟨x, hx⟩ := ha i; obtain ⟨y, hy⟩ := hb i
  exact ⟨x + y, by rw [ValueIdx.addf_apply, hx, hy, EReal.coe_add]⟩

/-- The sum of two nonnegative arrays is nonnegative. -/
theorem isNonneg_addf (ha : IsNonneg a) (hb : IsNonneg b) : IsNonneg (addf a b) := fun i => by
  obtain ⟨x, hx0, hx⟩ := ha i; obtain ⟨y, hy0, hy⟩ := hb i
  exact ⟨x + y, add_nonneg hx0 hy0, by rw [ValueIdx.addf_apply, hx, hy, EReal.coe_add]⟩

/-- A nonnegative array plus a positive one is positive (a square root plus a positive ε). -/
theorem isPos_addf_of_isNonneg_of_isPos (ha : IsNonneg a) (hb : IsPos b) : IsPos (addf a b) := fun i => by
  obtain ⟨x, hx0, hx⟩ := ha i; obtain ⟨y, hy0, hy⟩ := hb i
  exact ⟨x + y, add_pos_of_nonneg_of_pos hx0 hy0, by rw [ValueIdx.addf_apply, hx, hy, EReal.coe_add]⟩

/-- The difference of two real arrays is real. -/
theorem isReal_subf (ha : IsReal a) (hb : IsReal b) : IsReal (subf a b) := fun i => by
  obtain ⟨x, hx⟩ := ha i; obtain ⟨y, hy⟩ := hb i
  exact ⟨x - y, by rw [ValueIdx.subf_apply, hx, hy, EReal.coe_sub]⟩

/-- The product of two real arrays is real. -/
theorem isReal_mulf (ha : IsReal a) (hb : IsReal b) : IsReal (mulf a b) := fun i => by
  obtain ⟨x, hx⟩ := ha i; obtain ⟨y, hy⟩ := hb i
  exact ⟨x * y, by rw [ValueIdx.mulf_apply, hx, hy, EReal.coe_mul]⟩

/-- The square of a real array is nonnegative. -/
theorem isNonneg_mulf_self (ha : IsReal a) : IsNonneg (mulf a a) := fun i => by
  obtain ⟨x, hx⟩ := ha i
  exact ⟨x * x, mul_self_nonneg x, by rw [ValueIdx.mulf_apply, hx, EReal.coe_mul]⟩

/-- The maximum of two real arrays is real. -/
theorem isReal_maximumf (ha : IsReal a) (hb : IsReal b) : IsReal (maximumf a b) := fun i => by
  obtain ⟨x, hx⟩ := ha i; obtain ⟨y, hy⟩ := hb i
  exact ⟨max x y, by rw [ValueIdx.maximumf_apply, hx, hy, max_coe]⟩

/-- The quotient of two real arrays, the divisor nowhere zero, is real. -/
theorem isReal_divf (ha : IsReal a) (hb : IsReal b) (h0 : ∀ i, b i ≠ 0) : IsReal (divf a b) := fun i => by
  obtain ⟨x, hx⟩ := ha i; obtain ⟨y, hy⟩ := hb i
  have hy0 : y ≠ 0 := fun e => h0 i (by rw [hy, e, EReal.coe_zero])
  exact ⟨x / y, by rw [ValueIdx.divf_apply, hx, hy, div_coe_coe x hy0]⟩

/-- The quotient of a real array by a positive one is real. -/
theorem isReal_divf_of_isPos (ha : IsReal a) (hb : IsPos b) : IsReal (divf a b) :=
  isReal_divf ha (isReal_of_isPos hb) (ne_zero_of_isPos hb)

/-- The quotient of a nonnegative array by a positive one is nonnegative. -/
theorem isNonneg_divf_of_isPos (ha : IsNonneg a) (hb : IsPos b) : IsNonneg (divf a b) := fun i => by
  obtain ⟨x, hx0, hx⟩ := ha i; obtain ⟨y, hy0, hy⟩ := hb i
  exact ⟨x / y, div_nonneg hx0 hy0.le, by rw [ValueIdx.divf_apply, hx, hy, div_coe_coe x hy0.ne']⟩

/-- The quotient of two positive arrays is positive. -/
theorem isPos_divf (ha : IsPos a) (hb : IsPos b) : IsPos (divf a b) := fun i => by
  obtain ⟨x, hx0, hx⟩ := ha i; obtain ⟨y, hy0, hy⟩ := hb i
  exact ⟨x / y, div_pos hx0 hy0, by rw [ValueIdx.divf_apply, hx, hy, div_coe_coe x hy0.ne']⟩

/-- The exponential of a real array is positive. -/
theorem isPos_exp (ha : IsReal a) : IsPos (exp a) := fun i => by
  obtain ⟨x, hx⟩ := ha i
  refine ⟨Real.exp x, Real.exp_pos x, ?_⟩
  show Ideal.exp (a i) = _
  rw [hx, Ideal.exp_coe]

/-- The square root of a nonnegative array is nonnegative. -/
theorem isNonneg_sqrt (ha : IsNonneg a) : IsNonneg (sqrt a) := fun i => by
  obtain ⟨x, hx0, hx⟩ := ha i
  refine ⟨Real.sqrt x, Real.sqrt_nonneg x, ?_⟩
  show Ideal.sqrt (a i) = _
  rw [hx, sqrt_coe_of_nonneg hx0]

end Elementwise

/-! ## Re-indexings: every entry of the result is an entry of an operand -/

section Layout
variable {s t : Shape}

/-- A transpose of a real array is real. -/
theorem isReal_transpose {x : s.Idx → EReal} (hx : IsReal x) (perm : List (Fin s.rank)) (h : s.Transposes perm t) :
    IsReal (transpose t perm x h) := fun _ => hx _

/-- A shape cast of a real array is real. -/
theorem isReal_shapeCast {x : s.Idx → EReal} (hx : IsReal x) (h : s.ShapeCasts t) : IsReal (shapeCast t x h) := fun _ => hx _
/-- A shape cast of a nonnegative array is nonnegative. -/
theorem isNonneg_shapeCast {x : s.Idx → EReal} (hx : IsNonneg x) (h : s.ShapeCasts t) : IsNonneg (shapeCast t x h) := fun _ => hx _
/-- A shape cast of a positive array is positive. -/
theorem isPos_shapeCast {x : s.Idx → EReal} (hx : IsPos x) (h : s.ShapeCasts t) : IsPos (shapeCast t x h) := fun _ => hx _

/-- A real array broadcast to a larger shape is real. -/
theorem isReal_broadcastTo {x : s.Idx → EReal} (hx : IsReal x) (h : s.Broadcasts t) : IsReal (broadcastTo t x h) := fun _ => hx _
/-- A nonnegative array broadcast to a larger shape is nonnegative. -/
theorem isNonneg_broadcastTo {x : s.Idx → EReal} (hx : IsNonneg x) (h : s.Broadcasts t) : IsNonneg (broadcastTo t x h) := fun _ => hx _
/-- A positive array broadcast to a larger shape is positive. -/
theorem isPos_broadcastTo {x : s.Idx → EReal} (hx : IsPos x) (h : s.Broadcasts t) : IsPos (broadcastTo t x h) := fun _ => hx _

/-- The splat of a real number is real. -/
theorem isReal_broadcast (t : Shape) {x : EReal} (hx : ∃ r : ℝ, x = (r : EReal)) : IsReal (broadcast t x) := fun _ => hx
/-- The splat of a positive real number is positive. -/
theorem isPos_broadcast (t : Shape) {x : EReal} (hx : ∃ r : ℝ, 0 < r ∧ x = (r : EReal)) : IsPos (broadcast t x) := fun _ => hx

/-- A splat constant whose bit pattern denotes a real number is real. -/
theorem isReal_constant (t : Shape) {φ : FTy} {w : BitVec φ.bits} (hw : ∃ r : ℝ, Ideal.ofBits φ w = (r : EReal)) :
    IsReal (constant (F := Ideal) t φ w) := fun _ => hw

/-- A concatenation of real arrays is real: every entry of it is an entry of one of the pieces. -/
theorem isReal_concatenate (a : Fin t.rank) (xs : List ((s : Shape) × (s.Idx → EReal)))
    (h : Shape.Concatenates (xs.map (·.1)) t a) (hx : ∀ p ∈ xs, IsReal p.2) : IsReal (concatenate t a xs h) := by
  intro j
  unfold concatenate
  exact hx _ (List.getElem_mem _) _

end Layout

/-! ## Bit patterns that denote real numbers -/

/-- An f32 bit pattern whose exponent field is not all ones denotes a real number (neither an infinity nor a NaN). -/
theorem ofBits_f32_real (w : BitVec 32) (h : (w.extractLsb' 23 8).toNat ≠ 255) : ∃ r : ℝ, Ideal.ofBits .f32 w = (r : EReal) := by
  show ∃ r : ℝ, Ideal.ieee 8 23 w = r
  unfold Ideal.ieee
  dsimp only
  split_ifs with h1 <;> first | exact ⟨_, rfl⟩ | exact absurd h1 h

/-- An f32 bit pattern with the sign bit clear and an exponent field neither zero nor all ones (a positive normal number)
    denotes a positive real number. -/
theorem ofBits_f32_pos (w : BitVec 32) (hs : (w.extractLsb' 31 1 == 1#1) = false) (he : (w.extractLsb' 23 8).toNat ≠ 255)
    (hn : (w.extractLsb' 23 8).toNat ≠ 0) : ∃ r : ℝ, 0 < r ∧ Ideal.ofBits .f32 w = (r : EReal) := by
  show ∃ r : ℝ, 0 < r ∧ Ideal.ieee 8 23 w = r
  unfold Ideal.ieee
  dsimp only
  rw [if_neg (show ¬ (w.extractLsb' 23 8).toNat = 2 ^ 8 - 1 from he), if_neg hn]
  refine ⟨_, ?_, rfl⟩
  rw [show ((8 : ℕ) + 23) = 31 from rfl, hs]
  simp only [Bool.false_eq_true, if_false]
  positivity

/-- The f32 pattern of −∞ is the bottom of the extended reals. -/
theorem ofBits_f32_neg_inf : Ideal.ofBits .f32 0xFF800000#32 = ⊥ := by simp [Ideal.ofBits, Ideal.ieee]

/-! ## A matrix product into the zero accumulator -/

/-- A matrix product of two real arrays into the zero accumulator is real: each entry is a finite sum of products of
    real numbers. -/
theorem isReal_matmul_zero {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (matmul d prec lhs rhs (constant so .f32 0x00000000#32)) := fun j => by
  show ∃ r : ℝ, FloatOps.matmul d prec lhs rhs (constant so .f32 0x00000000#32) j = r
  rw [Ideal.matmul_constant_zero_apply]
  refine exists_real_sum _ _ fun k _ => ?_
  obtain ⟨x, hx⟩ := hl (d.lhsIdx j k); obtain ⟨y, hy⟩ := hr (d.rhsIdx j k)
  exact ⟨x * y, by rw [hx, hy, EReal.coe_mul]⟩

/-! ## The sum and the maximum along one axis -/

section Reduce
variable {s t : Shape} {φ : FTy} {a : Fin s.rank} {src : FVec Ideal s φ}

/-- The sum of a real array along one axis is real. -/
theorem isReal_multiReduction_add (hsrc : IsReal src) (acc : BitVec φ.bits) (h : s.Reduces [a] t) (hφ : FKind.Formats φ)
    (hacc : acc = FKind.add.neutral φ hφ) : IsReal (multiReduction .add [a] t src acc h hφ hacc) := fun j => by
  rw [Ideal.multiReduction_add_single]
  exact exists_real_sum _ _ fun k _ => hsrc _

/-- The sum of a nonnegative array along one axis is nonnegative. -/
theorem isNonneg_multiReduction_add (hsrc : IsNonneg src) (acc : BitVec φ.bits) (h : s.Reduces [a] t) (hφ : FKind.Formats φ)
    (hacc : acc = FKind.add.neutral φ hφ) : IsNonneg (multiReduction .add [a] t src acc h hφ hacc) := fun j => by
  rw [Ideal.multiReduction_add_single]
  exact exists_nonneg_sum _ _ fun k _ => hsrc _

/-- The sum of a positive array along one axis of at least one coordinate is positive. -/
theorem isPos_multiReduction_add (hsrc : IsPos src) (acc : BitVec φ.bits) (h : s.Reduces [a] t) (hφ : FKind.Formats φ)
    (hacc : acc = FKind.add.neutral φ hφ) (hpos : 0 < s.size a) : IsPos (multiReduction .add [a] t src acc h hφ hacc) := fun j => by
  rw [Ideal.multiReduction_add_single]
  haveI : Nonempty (Fin (s.size a)) := ⟨⟨0, hpos⟩⟩
  exact exists_pos_sum _ Finset.univ_nonempty _ fun k _ => hsrc _

/-- The maximum of a real array along one axis of at least one coordinate, taken from −∞, is real. -/
theorem isReal_multiReduction_maximumf (hsrc : IsReal src) (acc : BitVec φ.bits) (h : s.Reduces [a] t) (hφ : FKind.Formats φ)
    (hacc : acc = FKind.maximumf.neutral φ hφ) (hbot : Ideal.ofBits φ acc = ⊥) (hpos : 0 < s.size a) :
    IsReal (multiReduction .maximumf [a] t src acc h hφ hacc) := fun j => by
  rw [Ideal.multiReduction_maximumf_single]
  show ∃ r : ℝ, Finset.fold max (Ideal.ofBits φ acc) (src ∘ h.lift j) Finset.univ = r
  rw [hbot]
  haveI : Nonempty (Fin (s.size a)) := ⟨⟨0, hpos⟩⟩
  exact exists_real_fold_max _ Finset.univ_nonempty _ fun k _ => hsrc _

end Reduce

end Cert.RealValued

end
-- ==== Proof.HPos.lean ====
/-
  Positivity of the incidence matrix.

  The first region's one store, H, is a column softmax: each column of a real matrix Z is shifted by its maximum,
  exponentiated, and divided by the sum of the exponentials down the column. When every input entry is a real number,
  every entry of H is a positive real number:

    * the four candidate products and the fused perceptron are built from matrix products into a zero accumulator
      (finite sums of products), transposes, broadcasts, sums, maxima with zero and a concatenation, all of which map
      real arrays to real arrays;
    * the standardization divides the centred matrix by  √(Σ (x − mean)² / 2047) + ε  with ε a positive real: the mean is
      real, the squares are nonnegative, their sum over the column and its quotient by 2047 are nonnegative, the square
      root of a nonnegative real is a nonnegative real, and adding ε makes the divisor positive, so the quotient is real;
    * a column maximum over 2048 real entries is real, so the shifted matrix is real; its exponential is positive; a sum of
      2048 positive reals is positive; and a quotient of positive reals is positive.
-/
import proofs.«127104_j29506425324178_1_alg».proof.Proof.Stages
import proofs.«127104_j29506425324178_1_alg».proof.Proof.LibRealValued

noncomputable section

namespace Cert.KernelIdeal.HPos

open Idealize.ShloMosaic Cert.KernelIdeal Cert.KernelIdeal.Gen Cert.RealValued

/-- The scalar zero of the body is the real number the zero pattern denotes. -/
theorem zeroS : ∃ r : ℝ, Scalar.ofBits (F := Ideal) .f32 0x00000000#32 = (r : EReal) := ofBits_f32_real _ (by decide)

/-! ## The inputs through their identity casts -/

theorem isReal_k0_pay2 {v0 : Vec Ideal S2048x128 .f32} (h0 : IsReal v0) : IsReal (k0_pay2 (F := Ideal) v0) :=
  isReal_shapeCast h0 _

theorem isReal_k0_pay3 {v2 : Vec Ideal S2048x128 .f32} (h2 : IsReal v2) : IsReal (k0_pay3 (F := Ideal) v2) :=
  isReal_shapeCast h2 _

theorem isReal_k0_pay5 {v25 : Vec Ideal S1x128 .f32} (h25 : IsReal v25) : IsReal (k0_pay5 (F := Ideal) v25) :=
  isReal_shapeCast h25 _

/-! ## The four candidates: x · mlp(yᵀ) -/

/-- The first candidate: xt times the two-layer perceptron of xtᵀ. -/
theorem isReal_k0_pay4 {v0 v5 : Vec Ideal S2048x128 .f32} {v6 v9 : Vec Ideal S1x128 .f32} {v8 : Vec Ideal S128x128 .f32}
    (h0 : IsReal v0) (h5 : IsReal v5) (h6 : IsReal v6) (h8 : IsReal v8) (h9 : IsReal v9) :
    IsReal (k0_pay4 (F := Ideal) v0 v5 v6 v8 v9) :=
  isReal_matmul_zero _ _ (isReal_k0_pay2 h0)
    (isReal_addf
      (isReal_matmul_zero _ _
        (isReal_maximumf
          (isReal_addf (isReal_matmul_zero _ _ (isReal_transpose (isReal_k0_pay2 h0) _ _) h5)
            (isReal_broadcastTo (isReal_shapeCast h6 _) _))
          (isReal_broadcast _ zeroS))
        h8)
      (isReal_broadcastTo (isReal_shapeCast h9 _) _))

/-- The hidden layer of the second candidate's perceptron. -/
theorem isReal_k0_pay6 {v2 v21 : Vec Ideal S2048x128 .f32} {v22 : Vec Ideal S1x128 .f32}
    (h2 : IsReal v2) (h21 : IsReal v21) (h22 : IsReal v22) : IsReal (k0_pay6 (F := Ideal) v2 v21 v22) :=
  isReal_maximumf
    (isReal_addf (isReal_matmul_zero _ _ (isReal_transpose (isReal_k0_pay3 h2) _ _) h21)
      (isReal_broadcastTo (isReal_shapeCast h22 _) _))
    (isReal_broadcast _ zeroS)

/-- The second candidate, from its hidden layer, into the zero accumulator. -/
theorem isReal_k0_pay7 {v3 : FVec Ideal S2048x128 .f32} {v24 : Vec Ideal S128x128 .f32} {v26 : FVec Ideal S1x128 .f32}
    {v31 : FVec Ideal S128x128 .f32} (h3 : IsReal v3) (h24 : IsReal v24) (h26 : IsReal v26) (h31 : IsReal v31) :
    IsReal (k0_pay7 (F := Ideal) v3 v24 v26 v31 (constant S128x128 .f32 0x00000000#32)) :=
  isReal_matmul_zero _ _ h3 (isReal_addf (isReal_matmul_zero _ _ h31 h24) (isReal_broadcastTo h26 _))

/-- The third candidate: xt times the perceptron of xnᵀ. -/
theorem isReal_k0_pay8 {v1 v3 : FVec Ideal S2048x128 .f32} {v37 : Vec Ideal S2048x128 .f32} {v38 v41 : Vec Ideal S1x128 .f32}
    {v40 : Vec Ideal S128x128 .f32} (h1 : IsReal v1) (h3 : IsReal v3) (h37 : IsReal v37) (h38 : IsReal v38) (h40 : IsReal v40)
    (h41 : IsReal v41) : IsReal (k0_pay8 (F := Ideal) v1 v3 v37 v38 v40 v41) :=
  isReal_matmul_zero _ _ h1
    (isReal_addf
      (isReal_matmul_zero _ _
        (isReal_maximumf
          (isReal_addf (isReal_matmul_zero _ _ (isReal_transpose h3 _ _) h37)
            (isReal_broadcastTo (isReal_shapeCast h38 _) _))
          (isReal_broadcast _ zeroS))
        h40)
      (isReal_broadcastTo (isReal_shapeCast h41 _) _))

/-- The fourth candidate's perceptron (the product with xn follows in the last part). -/
theorem isReal_k0_pay9 {v1 : FVec Ideal S2048x128 .f32} {v53 : Vec Ideal S2048x128 .f32} {v54 v57 : Vec Ideal S1x128 .f32}
    {v56 : Vec Ideal S128x128 .f32} (h1 : IsReal v1) (h53 : IsReal v53) (h54 : IsReal v54) (h56 : IsReal v56)
    (h57 : IsReal v57) : IsReal (k0_pay9 (F := Ideal) v1 v53 v54 v56 v57) :=
  isReal_addf
    (isReal_matmul_zero _ _
      (isReal_maximumf
        (isReal_addf (isReal_matmul_zero _ _ (isReal_transpose h1 _ _) h53)
          (isReal_broadcastTo (isReal_shapeCast h54 _) _))
        (isReal_broadcast _ zeroS))
      h56)
    (isReal_broadcastTo (isReal_shapeCast h57 _) _)

/-! ## The tail of the first region over an opaque matrix: standardize the columns, then soft-max them -/

section Tail

/-- The column means as a row: the column sums divided by 2048. -/
def colMean (v : FVec Ideal S2048x128 .f32) : FVec Ideal S1x128 .f32 :=
  divf (shapeCast S1x128 (multiReduction .add [0] S128 v 0x00000000#32 reduces_S2048x128_S128 (.inl rfl) rfl) shapeCasts_S128_S1x128)
    (broadcast S1x128 (Scalar.ofBits .f32 0x45000000#32))

/-- The matrix less its column means. -/
def centred (v : FVec Ideal S2048x128 .f32) : FVec Ideal S2048x128 .f32 :=
  subf v (broadcastTo S2048x128 (colMean v) broadcasts_S1x128_S2048x128)

/-- The column deviations plus ε, as a row: √(Σ (x − mean)² / 2047) + ε. -/
def colDev (v : FVec Ideal S2048x128 .f32) : FVec Ideal S1x128 .f32 :=
  addf
    (sqrt (divf
      (shapeCast S1x128 (multiReduction .add [0] S128 (mulf (centred v) (centred v)) 0x00000000#32 reduces_S2048x128_S128 (.inl rfl) rfl)
        shapeCasts_S128_S1x128)
      (broadcast S1x128 (Scalar.ofBits .f32 0x44FFE000#32))))
    (broadcast S1x128 (Scalar.ofBits .f32 0x358637BD#32))

/-- The standardized matrix: centred, each column divided by its deviation plus ε. -/
def standardized (v : FVec Ideal S2048x128 .f32) : FVec Ideal S2048x128 .f32 :=
  divf (centred v) (broadcastTo S2048x128 (colDev v) broadcasts_S1x128_S2048x128)

/-- A matrix less its column maxima. -/
def shifted (z : FVec Ideal S2048x128 .f32) : FVec Ideal S2048x128 .f32 :=
  subf z (broadcastTo S2048x128
    (shapeCast S1x128 (multiReduction .maximumf [0] S128 z 0xFF800000#32 reduces_S2048x128_S128 (.inl rfl) rfl) shapeCasts_S128_S1x128)
    broadcasts_S1x128_S2048x128)

/-- The column sums broadcast back over the rows. -/
def colSums (e : FVec Ideal S2048x128 .f32) : FVec Ideal S2048x128 .f32 :=
  broadcastTo S2048x128
    (shapeCast S1x128 (multiReduction .add [0] S128 e 0x00000000#32 reduces_S2048x128_S128 (.inl rfl) rfl) shapeCasts_S128_S1x128)
    broadcasts_S1x128_S2048x128

variable {v : FVec Ideal S2048x128 .f32}

/-- The column means of a real matrix are real: a sum of 2048 reals divided by the real number 2048. -/
theorem isReal_colMean (hv : IsReal v) : IsReal (colMean v) :=
  isReal_divf_of_isPos (isReal_shapeCast (isReal_multiReduction_add hv _ _ _ _) _)
    (isPos_broadcast _ (ofBits_f32_pos _ (by decide) (by decide) (by decide)))

/-- A real matrix less its column means is real. -/
theorem isReal_centred (hv : IsReal v) : IsReal (centred v) :=
  isReal_subf hv (isReal_broadcastTo (isReal_colMean hv) _)

/-- The column deviations plus ε are positive: the squares are nonnegative, so are their column sums, the quotients by
    2047 and the square roots; ε is positive. -/
theorem isPos_colDev (hv : IsReal v) : IsPos (colDev v) :=
  isPos_addf_of_isNonneg_of_isPos
    (isNonneg_sqrt
      (isNonneg_divf_of_isPos
        (isNonneg_shapeCast (isNonneg_multiReduction_add (isNonneg_mulf_self (isReal_centred hv)) _ _ _ _) _)
        (isPos_broadcast _ (ofBits_f32_pos _ (by decide) (by decide) (by decide)))))
    (isPos_broadcast _ (ofBits_f32_pos _ (by decide) (by decide) (by decide)))

/-- The standardized matrix is real: a real matrix divided by a positive one. -/
theorem isReal_standardized (hv : IsReal v) : IsReal (standardized v) :=
  isReal_divf_of_isPos (isReal_centred hv) (isPos_broadcastTo (isPos_colDev hv) _)

/-- A real matrix less its column maxima is real: the maximum of 2048 reals, taken from −∞, is real. -/
theorem isReal_shifted (hv : IsReal v) : IsReal (shifted v) :=
  isReal_subf hv
    (isReal_broadcastTo
      (isReal_shapeCast (isReal_multiReduction_maximumf hv _ _ _ _ ofBits_f32_neg_inf (by decide)) _) _)

/-- The column sums of a positive matrix are positive. -/
theorem isPos_colSums (hv : IsPos v) : IsPos (colSums v) :=
  isPos_broadcastTo (isPos_shapeCast (isPos_multiReduction_add hv _ _ _ _ (by decide)) _) _

end Tail

/-! ## The exponentials, their column sums, and H -/

section Final
variable {v3 v19 v35 v51 : FVec Ideal S2048x128 .f32} {v66 : FVec Ideal S128x128 .f32} {v69 : Vec Ideal S512x128 .f32}
  {v70 v73 : Vec Ideal S1x128 .f32} {v72 : Vec Ideal S128x128 .f32}

/-- The exponentials of the shifted standardized matrix are positive. The matrix that is standardized is the fused
    perceptron of the four candidates side by side (the fourth being xn times its perceptron's output), a real matrix. -/
theorem isPos_k0_pay10 (h3 : IsReal v3) (h19 : IsReal v19) (h35 : IsReal v35) (h51 : IsReal v51) (h66 : IsReal v66)
    (h69 : IsReal v69) (h70 : IsReal v70) (h72 : IsReal v72) (h73 : IsReal v73) :
    IsPos (k0_pay10 (F := Ideal) v3 v19 v35 v51 v66 (constant S2048x128 .f32 0x00000000#32) v69 v70 v72 v73) :=
  isPos_exp
    (isReal_shifted
      (isReal_standardized
        (isReal_addf
          (isReal_matmul_zero _ _
            (isReal_maximumf
              (isReal_addf
                (isReal_matmul_zero _ _
                  (isReal_concatenate _ _ _ (by
                    intro p hp
                    simp only [List.mem_cons, List.mem_singleton, List.not_mem_nil, or_false] at hp
                    rcases hp with rfl | rfl | rfl | rfl
                    · exact h19
                    · exact h35
                    · exact h51
                    · exact isReal_matmul_zero _ _ h3 h66))
                  h69)
                (isReal_broadcastTo (isReal_shapeCast h70 _) _))
              (isReal_broadcast _ zeroS))
            h72)
          (isReal_broadcastTo (isReal_shapeCast h73 _) _))))

/-- The column sums of the exponentials, broadcast back, are positive. -/
theorem isPos_k0_pay11 (h3 : IsReal v3) (h19 : IsReal v19) (h35 : IsReal v35) (h51 : IsReal v51) (h66 : IsReal v66)
    (h69 : IsReal v69) (h70 : IsReal v70) (h72 : IsReal v72) (h73 : IsReal v73) :
    IsPos (k0_pay11 (F := Ideal) v3 v19 v35 v51 v66 (constant S2048x128 .f32 0x00000000#32) v69 v70 v72 v73) :=
  isPos_colSums (isPos_k0_pay10 h3 h19 h35 h51 h66 h69 h70 h72 h73)

end Final

/-- **Every entry of the incidence matrix is a positive real number**, when every entry of the twenty-two inputs is a
    real number: a quotient of a positive exponential by a positive column sum. -/
theorem H_pos (x0 : Vec Ideal S2048x128 .f32) (x1 : Vec Ideal S2048x128 .f32) (x2 : Vec Ideal S2048x128 .f32)
    (x3 : Vec Ideal S1x128 .f32) (x4 : Vec Ideal S128x128 .f32) (x5 : Vec Ideal S1x128 .f32) (x6 : Vec Ideal S2048x128 .f32)
    (x7 : Vec Ideal S1x128 .f32) (x8 : Vec Ideal S128x128 .f32) (x9 : Vec Ideal S1x128 .f32) (x10 : Vec Ideal S2048x128 .f32)
    (x11 : Vec Ideal S1x128 .f32) (x12 : Vec Ideal S128x128 .f32) (x13 : Vec Ideal S1x128 .f32) (x14 : Vec Ideal S2048x128 .f32)
    (x15 : Vec Ideal S1x128 .f32) (x16 : Vec Ideal S128x128 .f32) (x17 : Vec Ideal S1x128 .f32) (x18 : Vec Ideal S512x128 .f32)
    (x19 : Vec Ideal S1x128 .f32) (x20 : Vec Ideal S128x128 .f32) (x21 : Vec Ideal S1x128 .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal)) (h11 : ∀ i, ∃ r : ℝ, x11 i = (r : EReal))
    (h12 : ∀ i, ∃ r : ℝ, x12 i = (r : EReal)) (h13 : ∀ i, ∃ r : ℝ, x13 i = (r : EReal)) (h14 : ∀ i, ∃ r : ℝ, x14 i = (r : EReal))
    (h15 : ∀ i, ∃ r : ℝ, x15 i = (r : EReal)) (h16 : ∀ i, ∃ r : ℝ, x16 i = (r : EReal)) (h17 : ∀ i, ∃ r : ℝ, x17 i = (r : EReal))
    (h18 : ∀ i, ∃ r : ℝ, x18 i = (r : EReal)) (h19 : ∀ i, ∃ r : ℝ, x19 i = (r : EReal)) (h20 : ∀ i, ∃ r : ℝ, x20 i = (r : EReal))
    (h21 : ∀ i, ∃ r : ℝ, x21 i = (r : EReal)) :
    ∀ i, ∃ r : ℝ, 0 < r ∧
      Cert.KernelIdeal.Stage.H (F := Ideal) x0 x1 x2 x3 x4 x5 x6 x7 x8 x9 x10 x11 x12 x13 x14 x15 x16 x17 x18 x19 x20 x21 i = (r : EReal) := by
  have r2 : IsReal (k0_pay2 (F := Ideal) x0) := isReal_k0_pay2 h0
  have r3 : IsReal (k0_pay3 (F := Ideal) x1) := isReal_k0_pay3 h1
  have r19 : IsReal (k0_pay4 (F := Ideal) x0 x2 x3 x4 x5) := isReal_k0_pay4 h0 h2 h3 h4 h5
  have r35 : IsReal (k0_pay7 (F := Ideal) (k0_pay3 x1) x8 (k0_pay5 x9) (k0_pay6 x1 x6 x7) (constant S128x128 .f32 0x00000000#32)) :=
    isReal_k0_pay7 r3 h8 (isReal_k0_pay5 h9) (isReal_k0_pay6 h1 h6 h7)
  have r51 : IsReal (k0_pay8 (F := Ideal) (k0_pay2 x0) (k0_pay3 x1) x10 x11 x12 x13) := isReal_k0_pay8 r2 r3 h10 h11 h12 h13
  have r66 : IsReal (k0_pay9 (F := Ideal) (k0_pay2 x0) x14 x15 x16 x17) := isReal_k0_pay9 r2 h14 h15 h16 h17
  exact isPos_divf (isPos_k0_pay10 r3 r19 r35 r51 r66 h18 h19 h20 h21) (isPos_k0_pay11 r3 r19 r35 r51 r66 h18 h19 h20 h21)

end Cert.KernelIdeal.HPos

end
-- ==== Proof.Finite.lean ====
/-
  The precondition read back. `finite_inputs` compares the absolute value of every entry of each of the 24 argument
  arrays with +∞ (strictly below), takes the conjunction over each array, and the conjunction of the 24 results. At
  the extended reals |x| = max x (−x), so |x| < ⊤ excludes both ⊤ and ⊥: the entry is a real number. Hence, if the
  one-bit result is 1, every entry of every array is (the coercion of) a real.
-/
import proofs.«127104_j29506425324178_1_alg».proof.Defs
import Idealize.ShloMosaic.Lib.ReduceAll
import Idealize.ShloMosaic.Lib.IdealHost

noncomputable section

namespace Cert.Finite

open Idealize.ShloMosaic Idealize.ShloMosaic.ValueIdx Idealize.SL.Sem

/-- A rank-0 array has one index. -/
instance : Subsingleton (⟨0, ![]⟩ : Shape).Idx := ⟨fun a b => funext fun d => d.elim0⟩

/-- The word 0x7F800000 read as an extended real is +∞. -/
theorem ofBits_inf : Ideal.ofBits .f32 0x7F800000#32 = (⊤ : EReal) := by
  simp [Ideal.ofBits, Ideal.ieee]

/-- An extended real whose absolute value max x (−x) is strictly below +∞ is a real: ⊤ has absolute value ⊤, and so
    has ⊥ (−⊥ = ⊤). -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One array's test: if the conjunction over all entries of |a i| < +∞ is 1, every entry is a real. -/
theorem finite_of_all {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (h : Host.reduce IntOp.andi (cmpf .olt (Host.absf a) (broadcastInDim s ![] hb (constant ⟨0, ![]⟩ .f32 0x7F800000#32)))
      (constantI ⟨0, ![]⟩ 1 1#1) hr hu ix0 = 1#1) (i : s.Idx) : ∃ r : ℝ, a i = (r : EReal) :=
  real_of_abs_lt (a i) (Host.reduce_andi_all _ _ hr hu ix0 h i)

open Cert.Pre_finite_inputs in
/-- The whole precondition: its result is the conjunction, left-nested, of the 24 arrays' tests; each conjunct is
    `finite_of_all` at its array. -/
theorem finite_of_fn [Cert.Pre_finite_inputs.Facts] (a0 : FVec Ideal S64x32x128 .f32) (a1 : FVec Ideal S64x32x128 .f32) (a2 : FVec Ideal S2048x128 .f32) (a3 : FVec Ideal S128 .f32) (a4 : FVec Ideal S128x128 .f32) (a5 : FVec Ideal S128 .f32) (a6 : FVec Ideal S2048x128 .f32) (a7 : FVec Ideal S128 .f32) (a8 : FVec Ideal S128x128 .f32) (a9 : FVec Ideal S128 .f32) (a10 : FVec Ideal S2048x128 .f32) (a11 : FVec Ideal S128 .f32) (a12 : FVec Ideal S128x128 .f32) (a13 : FVec Ideal S128 .f32) (a14 : FVec Ideal S2048x128 .f32) (a15 : FVec Ideal S128 .f32) (a16 : FVec Ideal S128x128 .f32) (a17 : FVec Ideal S128 .f32) (a18 : FVec Ideal S512x128 .f32) (a19 : FVec Ideal S128 .f32) (a20 : FVec Ideal S128x128 .f32) (a21 : FVec Ideal S128 .f32) (a22 : FVec Ideal S128x128 .f32) (a23 : FVec Ideal S128x128 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal))
      ∧ (∀ i, ∃ r : ℝ, a21 i = (r : EReal))
      ∧ (∀ i, ∃ r : ℝ, a22 i = (r : EReal))
      ∧ (∀ i, ∃ r : ℝ, a23 i = (r : EReal)) := by
  have h := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6] at h
  simp only [andi, IntOp.andi_eq_one] at h
  obtain ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := h
  exact ⟨finite_of_all a0 _ _ _ h0, finite_of_all a1 _ _ _ h1, finite_of_all a2 _ _ _ h2, finite_of_all a3 _ _ _ h3, finite_of_all a4 _ _ _ h4, finite_of_all a5 _ _ _ h5, finite_of_all a6 _ _ _ h6, finite_of_all a7 _ _ _ h7, finite_of_all a8 _ _ _ h8, finite_of_all a9 _ _ _ h9, finite_of_all a10 _ _ _ h10, finite_of_all a11 _ _ _ h11, finite_of_all a12 _ _ _ h12, finite_of_all a13 _ _ _ h13, finite_of_all a14 _ _ _ h14, finite_of_all a15 _ _ _ h15, finite_of_all a16 _ _ _ h16, finite_of_all a17 _ _ _ h17, finite_of_all a18 _ _ _ h18, finite_of_all a19 _ _ _ h19, finite_of_all a20 _ _ _ h20, finite_of_all a21 _ _ _ h21, finite_of_all a22 _ _ _ h22, finite_of_all a23 _ _ _ h23⟩

/-- On every device the precondition of the idealized kernel makes each of its 24 argument arrays an array of reals. -/
theorem finite_of_pre_kernel [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal))
      ∧ (∀ i, ∃ r : ℝ, m ((c.tc : Thread Cert.KernelIdeal.nD Cert.KernelIdeal.τ).loc Cert.KernelIdeal.main_arg18) i = (r : EReal))
      ∧ (∀ i, ∃ r : ℝ, m ((c.tc : Thread Cert.KernelIdeal.nD Cert.KernelIdeal.τ).loc Cert.KernelIdeal.main_arg19) i = (r : EReal))
      ∧ (∀ i, ∃ r : ℝ, m ((c.tc : Thread Cert.KernelIdeal.nD Cert.KernelIdeal.τ).loc Cert.KernelIdeal.main_arg20) i = (r : EReal))
      ∧ (∀ i, ∃ r : ℝ, m ((c.tc : Thread Cert.KernelIdeal.nD Cert.KernelIdeal.τ).loc Cert.KernelIdeal.main_arg21) i = (r : EReal))
      ∧ (∀ i, ∃ r : ℝ, m ((c.tc : Thread Cert.KernelIdeal.nD Cert.KernelIdeal.τ).loc Cert.KernelIdeal.main_arg22) i = (r : EReal))
      ∧ (∀ i, ∃ r : ℝ, m ((c.tc : Thread Cert.KernelIdeal.nD Cert.KernelIdeal.τ).loc Cert.KernelIdeal.main_arg23) i = (r : EReal)) :=
  finite_of_fn _ _ _ _ _ _ _ _ _ _ _ _ _ _ _ _ _ _ _ _ _ _ _ _ (h c)

/-- On every device the precondition of the idealized reference makes each of its 24 argument arrays an array of reals. -/
theorem finite_of_pre_reference [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg1) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal))
      ∧ (∀ i, ∃ r : ℝ, m ((c.tc : Thread Cert.ReferenceIdeal.nD Cert.ReferenceIdeal.τ).loc Cert.ReferenceIdeal.main_arg4) i = (r : EReal))
      ∧ (∀ i, ∃ r : ℝ, m ((c.tc : Thread Cert.ReferenceIdeal.nD Cert.ReferenceIdeal.τ).loc Cert.ReferenceIdeal.main_arg5) i = (r : EReal))
      ∧ (∀ i, ∃ r : ℝ, m ((c.tc : Thread Cert.ReferenceIdeal.nD Cert.ReferenceIdeal.τ).loc Cert.ReferenceIdeal.main_arg6) i = (r : EReal))
      ∧ (∀ i, ∃ r : ℝ, m ((c.tc : Thread Cert.ReferenceIdeal.nD Cert.ReferenceIdeal.τ).loc Cert.ReferenceIdeal.main_arg7) i = (r : EReal))
      ∧ (∀ i, ∃ r : ℝ, m ((c.tc : Thread Cert.ReferenceIdeal.nD Cert.ReferenceIdeal.τ).loc Cert.ReferenceIdeal.main_arg8) i = (r : EReal))
      ∧ (∀ i, ∃ r : ℝ, m ((c.tc : Thread Cert.ReferenceIdeal.nD Cert.ReferenceIdeal.τ).loc Cert.ReferenceIdeal.main_arg9) i = (r : EReal))
      ∧ (∀ i, ∃ r : ℝ, m ((c.tc : Thread Cert.ReferenceIdeal.nD Cert.ReferenceIdeal.τ).loc Cert.ReferenceIdeal.main_arg10) i = (r : EReal))
      ∧ (∀ i, ∃ r : ℝ, m ((c.tc : Thread Cert.ReferenceIdeal.nD Cert.ReferenceIdeal.τ).loc Cert.ReferenceIdeal.main_arg11) i = (r : EReal))
      ∧ (∀ i, ∃ r : ℝ, m ((c.tc : Thread Cert.ReferenceIdeal.nD Cert.ReferenceIdeal.τ).loc Cert.ReferenceIdeal.main_arg12) i = (r : EReal))
      ∧ (∀ i, ∃ r : ℝ, m ((c.tc : Thread Cert.ReferenceIdeal.nD Cert.ReferenceIdeal.τ).loc Cert.ReferenceIdeal.main_arg13) i = (r : EReal))
      ∧ (∀ i, ∃ r : ℝ, m ((c.tc : Thread Cert.ReferenceIdeal.nD Cert.ReferenceIdeal.τ).loc Cert.ReferenceIdeal.main_arg14) i = (r : EReal))
      ∧ (∀ i, ∃ r : ℝ, m ((c.tc : Thread Cert.ReferenceIdeal.nD Cert.ReferenceIdeal.τ).loc Cert.ReferenceIdeal.main_arg15) i = (r : EReal))
      ∧ (∀ i, ∃ r : ℝ, m ((c.tc : Thread Cert.ReferenceIdeal.nD Cert.ReferenceIdeal.τ).loc Cert.ReferenceIdeal.main_arg16) i = (r : EReal))
      ∧ (∀ i, ∃ r : ℝ, m ((c.tc : Thread Cert.ReferenceIdeal.nD Cert.ReferenceIdeal.τ).loc Cert.ReferenceIdeal.main_arg17) i = (r : EReal))
      ∧ (∀ i, ∃ r : ℝ, m ((c.tc : Thread Cert.ReferenceIdeal.nD Cert.ReferenceIdeal.τ).loc Cert.ReferenceIdeal.main_arg18) i = (r : EReal))
      ∧ (∀ i, ∃ r : ℝ, m ((c.tc : Thread Cert.ReferenceIdeal.nD Cert.ReferenceIdeal.τ).loc Cert.ReferenceIdeal.main_arg19) i = (r : EReal))
      ∧ (∀ i, ∃ r : ℝ, m ((c.tc : Thread Cert.ReferenceIdeal.nD Cert.ReferenceIdeal.τ).loc Cert.ReferenceIdeal.main_arg20) i = (r : EReal))
      ∧ (∀ i, ∃ r : ℝ, m ((c.tc : Thread Cert.ReferenceIdeal.nD Cert.ReferenceIdeal.τ).loc Cert.ReferenceIdeal.main_arg21) i = (r : EReal))
      ∧ (∀ i, ∃ r : ℝ, m ((c.tc : Thread Cert.ReferenceIdeal.nD Cert.ReferenceIdeal.τ).loc Cert.ReferenceIdeal.main_arg22) i = (r : EReal))
      ∧ (∀ i, ∃ r : ℝ, m ((c.tc : Thread Cert.ReferenceIdeal.nD Cert.ReferenceIdeal.τ).loc Cert.ReferenceIdeal.main_arg23) i = (r : EReal)) :=
  finite_of_fn _ _ _ _ _ _ _ _ _ _ _ _ _ _ _ _ _ _ _ _ _ _ _ _ (h c)

end Cert.Finite

end
-- ==== Proof.HPosRaw.lean ====
/-
  Positivity of the incidence matrix as a function of the arrays as launched: the two inputs arrive as [64,32,128] and are
  reshaped to [2048,128], the ten biases arrive as [128] and are reshaped to [1,128]; a reshape only re-indexes, so every
  entry of a reshaped real array is real, and the positivity of H over the reshaped arrays applies.
-/
import proofs.«127104_j29506425324178_1_alg».proof.Proof.HPos
import proofs.«127104_j29506425324178_1_alg».proof.Proof.KStages
import proofs.«127104_j29506425324178_1_alg».proof.Proof.Finite

noncomputable section

namespace Cert.KernelIdeal.HPosRaw

open Idealize.ShloMosaic Cert.KernelIdeal Cert.KernelIdeal.Gen Cert.RealValued

/-- **Every entry of the incidence matrix computed from the launch arrays is a positive real number**, when every entry
    of the twenty-two arrays it reads is a real number. -/
theorem kH_pos (a0 : Vec Ideal S64x32x128 .f32) (a1 : Vec Ideal S64x32x128 .f32) (a2 : Vec Ideal S2048x128 .f32) (a3 : Vec Ideal S128 .f32) (a4 : Vec Ideal S128x128 .f32) (a5 : Vec Ideal S128 .f32) (a6 : Vec Ideal S2048x128 .f32) (a7 : Vec Ideal S128 .f32) (a8 : Vec Ideal S128x128 .f32) (a9 : Vec Ideal S128 .f32) (a10 : Vec Ideal S2048x128 .f32) (a11 : Vec Ideal S128 .f32) (a12 : Vec Ideal S128x128 .f32) (a13 : Vec Ideal S128 .f32) (a14 : Vec Ideal S2048x128 .f32) (a15 : Vec Ideal S128 .f32) (a16 : Vec Ideal S128x128 .f32) (a17 : Vec Ideal S128 .f32) (a18 : Vec Ideal S512x128 .f32) (a19 : Vec Ideal S128 .f32) (a20 : Vec Ideal S128x128 .f32) (a21 : Vec Ideal S128 .f32)
    (h0 : ∀ i, ∃ r : ℝ, a0 i = (r : EReal))
    (h1 : ∀ i, ∃ r : ℝ, a1 i = (r : EReal))
    (h2 : ∀ i, ∃ r : ℝ, a2 i = (r : EReal))
    (h3 : ∀ i, ∃ r : ℝ, a3 i = (r : EReal))
    (h4 : ∀ i, ∃ r : ℝ, a4 i = (r : EReal))
    (h5 : ∀ i, ∃ r : ℝ, a5 i = (r : EReal))
    (h6 : ∀ i, ∃ r : ℝ, a6 i = (r : EReal))
    (h7 : ∀ i, ∃ r : ℝ, a7 i = (r : EReal))
    (h8 : ∀ i, ∃ r : ℝ, a8 i = (r : EReal))
    (h9 : ∀ i, ∃ r : ℝ, a9 i = (r : EReal))
    (h10 : ∀ i, ∃ r : ℝ, a10 i = (r : EReal))
    (h11 : ∀ i, ∃ r : ℝ, a11 i = (r : EReal))
    (h12 : ∀ i, ∃ r : ℝ, a12 i = (r : EReal))
    (h13 : ∀ i, ∃ r : ℝ, a13 i = (r : EReal))
    (h14 : ∀ i, ∃ r : ℝ, a14 i = (r : EReal))
    (h15 : ∀ i, ∃ r : ℝ, a15 i = (r : EReal))
    (h16 : ∀ i, ∃ r : ℝ, a16 i = (r : EReal))
    (h17 : ∀ i, ∃ r : ℝ, a17 i = (r : EReal))
    (h18 : ∀ i, ∃ r : ℝ, a18 i = (r : EReal))
    (h19 : ∀ i, ∃ r : ℝ, a19 i = (r : EReal))
    (h20 : ∀ i, ∃ r : ℝ, a20 i = (r : EReal))
    (h21 : ∀ i, ∃ r : ℝ, a21 i = (r : EReal)) :
    ∀ i, ∃ r : ℝ, 0 < r ∧
      Cert.KernelIdeal.Stage.kH (F := Ideal) a0 a1 a2 a3 a4 a5 a6 a7 a8 a9 a10 a11 a12 a13 a14 a15 a16 a17 a18 a19 a20 a21 i = (r : EReal) :=
  Cert.KernelIdeal.HPos.H_pos _ _ _ _ _ _ _ _ _ _ _ _ _ _ _ _ _ _ _ _ _ _
    (isReal_shapeCast h0 _) (isReal_shapeCast h1 _) h2 (isReal_shapeCast h3 _) h4 (isReal_shapeCast h5 _) h6 (isReal_shapeCast h7 _) h8 (isReal_shapeCast h9 _) h10 (isReal_shapeCast h11 _) h12 (isReal_shapeCast h13 _) h14 (isReal_shapeCast h15 _) h16 (isReal_shapeCast h17 _) h18 (isReal_shapeCast h19 _) h20 (isReal_shapeCast h21 _)

end Cert.KernelIdeal.HPosRaw

end
-- ==== Proof.Bridge.lean ====
/-
  The two idealized programs end with equal results. On the kernel's side the run of Proof/KernelResult.lean names the
  results: `kOutT`, `kOutN` of the launch arrays (Proof/KStages.lean). On the reference's side the run of
  Proof/RefRun.lean leaves every buffer at the fold of its 236 operations over the launch memory; cut at H (main_v82)
  and at the edge weights (main_v123) that fold is, stage by stage, the kernel's stage function of the same arrays:
  * H: the same operators on both sides (Proof/RefHEq.lean over Proof/RefHDefs.lean);
  * the edge weights: the Jensen–Shannon sum re-associated, Σ H·(log H − log M) = Σ H·log H − Σ H·log M, which holds because
    H is positive real (Proof/RefW.lean over Proof/LibKLSplit.lean) — H is positive real because the inputs are finite
    (Proof/Finite.lean decodes the precondition, Proof/HPos.lean carries reality through the perceptrons, the
    standardization and the softmax);
  * the residual convolution: the same operators, the two spellings of elu one function (Proof/RefOut.lean).
  The memories agree on the arguments, so both sides are the same functions of the same arrays.
-/
import proofs.«127104_j29506425324178_1_alg».proof.Defs
import proofs.«127104_j29506425324178_1_alg».proof.Proof.Gen.Pre_finite_inputs
import proofs.«127104_j29506425324178_1_alg».proof.Proof.KernelResult
import proofs.«127104_j29506425324178_1_alg».proof.Proof.RefRun
import proofs.«127104_j29506425324178_1_alg».proof.Proof.RefH
import proofs.«127104_j29506425324178_1_alg».proof.Proof.RefW
import proofs.«127104_j29506425324178_1_alg».proof.Proof.RefOut
import proofs.«127104_j29506425324178_1_alg».proof.Proof.HPosRaw
import proofs.«127104_j29506425324178_1_alg».proof.Proof.Finite

set_option maxRecDepth 16384

noncomputable section

namespace Cert.Proof

open Idealize.ShloMosaic Idealize.SL.Sem
open Cert.ReferenceIdeal Cert.ReferenceIdeal.RefRun

set_option maxHeartbeats 4000000 in
theorem algebraic :
    @Cert.algebraic_KernelIdeal_ReferenceIdeal Cert.KernelIdeal.Gen.facts Cert.ReferenceIdeal.Gen.facts
      Cert.Pre_finite_inputs.Gen.facts := by
  intro m ρ m' ρ' hpre hagree
  refine ⟨_, _, Cert.KernelIdeal.Gen.run_values (F := Ideal) m ρ, ?_⟩
  refine (θ_run Cert.ReferenceIdeal.defs _ _).mono (fun r h c => ?_) (Cert.ReferenceIdeal.RefRun.run_after (F := Ideal) m' ρ')
  obtain ⟨e0, e1, e2, e3, e4, e5, e6, e7, e8, e9, e10, e11, e12, e13, e14, e15, e16, e17, e18, e19, e20, e21, e22, e23⟩ := hagree c
  obtain ⟨f0, f1, f2, f3, f4, f5, f6, f7, f8, f9, f10, f11, f12, f13, f14, f15, f16, f17, f18, f19, f20, f21, f22, f23⟩ := Cert.Finite.finite_of_pre_kernel m hpre c
  -- H on the reference's side is the kernel's H of the same arrays
  have hH : StableHlo.after ops (StableHlo.launchContents m' c) (Proc.devRef .tc main_v82)
      = Cert.KernelIdeal.Stage.kH (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) := by
    rw [Cert.ReferenceIdeal.RefH.after_H, Cert.ReferenceIdeal.RefH.refH_eq]
    show Cert.KernelIdeal.Stage.kH (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = _
    rw [e0, e1, e2, e3, e4, e5, e6, e7, e8, e9, e10, e11, e12, e13, e14, e15, e16, e17, e18, e19, e20, e21]
  -- the edge weights likewise, H being positive real
  have hW : shapeCast Cert.KernelIdeal.S1x128 (StableHlo.after ops (StableHlo.launchContents m' c) (Proc.devRef .tc main_v123)) Cert.KernelIdeal.Gen.shapeCasts_S128_S1x128
      = Cert.KernelIdeal.Stage.kW (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) := by
    rw [Cert.ReferenceIdeal.RefW.after_W, hH]
    exact Cert.ReferenceIdeal.RefW.refW_eq _ (Cert.KernelIdeal.HPosRaw.kH_pos _ _ _ _ _ _ _ _ _ _ _ _ _ _ _ _ _ _ _ _ _ _ f0 f1 f2 f3 f4 f5 f6 f7 f8 f9 f10 f11 f12 f13 f14 f15 f16 f17 f18 f19 f20 f21)
  refine ⟨?_, ?_, (h c main_arg0).trans (after_ops_of _ main_arg0 (by decide) (by decide) (by decide)),
    (h c main_arg1).trans (after_ops_of _ main_arg1 (by decide) (by decide) (by decide)),
    (h c main_arg2).trans (after_ops_of _ main_arg2 (by decide) (by decide) (by decide)),
    (h c main_arg3).trans (after_ops_of _ main_arg3 (by decide) (by decide) (by decide)),
    (h c main_arg4).trans (after_ops_of _ main_arg4 (by decide) (by decide) (by decide)),
    (h c main_arg5).trans (after_ops_of _ main_arg5 (by decide) (by decide) (by decide)),
    (h c main_arg6).trans (after_ops_of _ main_arg6 (by decide) (by decide) (by decide)),
    (h c main_arg7).trans (after_ops_of _ main_arg7 (by decide) (by decide) (by decide)),
    (h c main_arg8).trans (after_ops_of _ main_arg8 (by decide) (by decide) (by decide)),
    (h c main_arg9).trans (after_ops_of _ main_arg9 (by decide) (by decide) (by decide)),
    (h c main_arg10).trans (after_ops_of _ main_arg10 (by decide) (by decide) (by decide)),
    (h c main_arg11).trans (after_ops_of _ main_arg11 (by decide) (by decide) (by decide)),
    (h c main_arg12).trans (after_ops_of _ main_arg12 (by decide) (by decide) (by decide)),
    (h c main_arg13).trans (after_ops_of _ main_arg13 (by decide) (by decide) (by decide)),
    (h c main_arg14).trans (after_ops_of _ main_arg14 (by decide) (by decide) (by decide)),
    (h c main_arg15).trans (after_ops_of _ main_arg15 (by decide) (by decide) (by decide)),
    (h c main_arg16).trans (after_ops_of _ main_arg16 (by decide) (by decide) (by decide)),
    (h c main_arg17).trans (after_ops_of _ main_arg17 (by decide) (by decide) (by decide)),
    (h c main_arg18).trans (after_ops_of _ main_arg18 (by decide) (by decide) (by decide)),
    (h c main_arg19).trans (after_ops_of _ main_arg19 (by decide) (by decide) (by decide)),
    (h c main_arg20).trans (after_ops_of _ main_arg20 (by decide) (by decide) (by decide)),
    (h c main_arg21).trans (after_ops_of _ main_arg21 (by decide) (by decide) (by decide)),
    (h c main_arg22).trans (after_ops_of _ main_arg22 (by decide) (by decide) (by decide)),
    (h c main_arg23).trans (after_ops_of _ main_arg23 (by decide) (by decide) (by decide))⟩
  · rw [h c main_v139, Cert.ReferenceIdeal.RefOut.after_139, Cert.ReferenceIdeal.RefOut.refOutT_eq, hH, hW]
    show shapeCast _ (Cert.KernelIdeal.Stage.outT _ _ (shapeCast _ (m' ((c.tc : Thread Cert.ReferenceIdeal.nD Cert.ReferenceIdeal.τ).loc Cert.ReferenceIdeal.main_arg0)) _) (m' ((c.tc : Thread Cert.ReferenceIdeal.nD Cert.ReferenceIdeal.τ).loc Cert.ReferenceIdeal.main_arg22))) _ = _
    rw [e0, e22]
    rfl
  · rw [h c main_v140, Cert.ReferenceIdeal.RefOut.after_140, Cert.ReferenceIdeal.RefOut.refOutN_eq, hH, hW]
    show shapeCast _ (Cert.KernelIdeal.Stage.outN _ _ (shapeCast _ (m' ((c.tc : Thread Cert.ReferenceIdeal.nD Cert.ReferenceIdeal.τ).loc Cert.ReferenceIdeal.main_arg1)) _) (m' ((c.tc : Thread Cert.ReferenceIdeal.nD Cert.ReferenceIdeal.τ).loc Cert.ReferenceIdeal.main_arg23))) _ = _
    rw [e1, e23]
    rfl

end Cert.Proof

end
-- ==== Proof.lean ====
/-
  The kernel and its reference compute, from two node-feature arrays xt, xn : [2048, 128] (the inputs reshaped) and
  their weights, the same two arrays, and at the extended reals the two computations are one function of finite inputs.

  Both sides, stage by stage:
  * four incidence candidates  x · mlp(yᵀ)  with  mlp(z) = max(z·W₁ + b₁, 0)·W₂ + b₂,  concatenated along the columns and
    passed through a fifth mlp:  H₀ : [2048, 128];
  * each column standardized,  (H₀ − mean) / (sqrt(Σ(H₀ − mean)² / 2047) + ε),  then a softmax down each column:
    H = exp(Hn − max Hn) / Σ exp(Hn − max Hn).  For finite inputs every entry of H is a POSITIVE REAL: Hn is real
    (the divisor is a square root plus ε > 0), an exponential of a real is a positive real, and so is their sum;
  * the pairwise Jensen–Shannon term.  The reference sums  H[n,i] · (log H[n,i] − log M[n,i,j])  over n, with
    M[n,i,j] = (H[n,i] + H[n,j]) / 2.  The kernel sums the two products separately, 64 rows at a time into two
    accumulators over 32 grid points:  a[i] = Σₙ H[n,i]·log H[n,i]  and  S[i,j] = Σₙ H[n,i]·log M[n,i,j],  and takes
    a[i] − S[i,j].  This is the one place the two sides differ: it is the law  Σ a·(b − c) = Σ a·b − Σ a·c, which over
    the extended reals holds when every entry is real (Proof/LibKLSplit.lean, `Cert.KLSplit.kl_split`) and is why the
    precondition (finite inputs) is needed — the entries of H and M are positive reals by the previous stage;
  * jsd = (kl + klᵀ)/2, its column means standardized (divisor 127) and soft-maxed into the edge weights w;
  * x + elu((H·w) · (Hᵀ · (x·θ)))  for x = xt, xn, where the kernel's  exp(v) − 1  and the reference's  expm1(v)  (scaled
    by the literal 1) are one function at the extended reals.
  The literals 2048, 128, 1/2, 1, ε and −∞ are the same binary words on both sides. The two unbiased divisors are the
  same VALUES spelt differently: the kernel holds the words 2047.0 and 127.0, the reference subtracts an integer 1,
  converted, from 2048.0 and from 128.0 (and guards the quotient by a test 2047 > 0, resp. 127 > 0, that is true). A
  matrix product into a zero accumulator against a contraction, a lane sum against a host sum, and the grouping of a
  finite sum are no difference.

  `preserves` holds outright: the idealization rewrote nothing. The three frames are the runs of Proof/Run.lean (the
  kernel, at either instance: five items, every boundary's contents named) and Proof/RefRun.lean (the reference as a
  list of 236 host operations, none of which writes an argument). The equality of the results is Proof/Bridge.lean.
-/
import proofs.«127104_j29506425324178_1_alg».proof.Defs
import proofs.«127104_j29506425324178_1_alg».proof.Proof.Gen.Kernel
import proofs.«127104_j29506425324178_1_alg».proof.Proof.Gen.Kernel.Skeleton
import proofs.«127104_j29506425324178_1_alg».proof.Proof.Gen.Kernel.Launch
import proofs.«127104_j29506425324178_1_alg».proof.Proof.Gen.Kernel.Points
import proofs.«127104_j29506425324178_1_alg».proof.Proof.Gen.KernelIdeal
import proofs.«127104_j29506425324178_1_alg».proof.Proof.Gen.KernelIdeal.Skeleton
import proofs.«127104_j29506425324178_1_alg».proof.Proof.Gen.KernelIdeal.Launch
import proofs.«127104_j29506425324178_1_alg».proof.Proof.Gen.KernelIdeal.Points
import proofs.«127104_j29506425324178_1_alg».proof.Proof.Gen.ReferenceIdeal
import proofs.«127104_j29506425324178_1_alg».proof.Proof.Gen.Pre_finite_inputs
import proofs.«127104_j29506425324178_1_alg».proof.Proof.LibKLSplit
import proofs.«127104_j29506425324178_1_alg».proof.Proof.Run
import proofs.«127104_j29506425324178_1_alg».proof.Proof.Bits.Run
import proofs.«127104_j29506425324178_1_alg».proof.Proof.RefRun
import proofs.«127104_j29506425324178_1_alg».proof.Proof.Bridge
import Idealize.ShloMosaic.Adequacy
import Idealize.ShloMosaic.Init

noncomputable section

namespace Cert.Proof

open Idealize.ShloMosaic Idealize.SL.Sem Cert.Kernel

/-- The idealization applied no rewrite to the kernel: the conjunct is `True`. -/
theorem preserves : Cert.preserves_Kernel_KernelIdeal := trivial

/-- The kernel as printed runs to the end from any memory with finite inputs and leaves its 24 arguments as launched:
    three kernel regions between two stretches of reshapes, the middle one carrying two accumulators over its 32 points. -/
theorem frame_Kernel :
    @Cert.frame_Kernel Cert.Kernel.Gen.facts Cert.Pre_finite_inputs.Gen.facts :=
  fun m ρ _ => Cert.Kernel.Gen.frame_all (F := Bits) m ρ

/-- The same for the idealized kernel, at the extended reals. -/
theorem frame_KernelIdeal :
    @Cert.frame_KernelIdeal Cert.KernelIdeal.Gen.facts Cert.Pre_finite_inputs.Gen.facts :=
  fun m ρ _ => Cert.KernelIdeal.Gen.frame_all (F := Ideal) m ρ

/-- The reference, a host program of plain array operations and four outlined calls, runs to the end and writes none
    of its arguments. -/
theorem frame_ReferenceIdeal :
    @Cert.frame_ReferenceIdeal Cert.ReferenceIdeal.Gen.facts Cert.Pre_finite_inputs.Gen.facts :=
  fun m ρ _ => Cert.ReferenceIdeal.RefRun.frame (F := Ideal) m ρ

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
